-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v283)) (v1 : (c : Dev Cert.KernelIdeal.nD) → Buf (Elt Ideal) ((c.tc : Thread Cert.KernelIdeal.nD Cert.KernelIdeal.τ).loc Cert.KernelIdeal.main_v284)) (v2 : (c : Dev Cert.KernelIdeal.nD) → Buf (Elt Ideal) ((c.tc : Thread Cert.KernelIdeal.nD Cert.KernelIdeal.τ).loc Cert.KernelIdeal.main_v274)) (v3 : (c : Dev Cert.KernelIdeal.nD) → Buf (Elt Ideal) ((c.tc : Thread Cert.KernelIdeal.nD Cert.KernelIdeal.τ).loc Cert.KernelIdeal.main_v278)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v283) = v0 c
          ∧ r.2.mem ((c.tc : Thread Cert.KernelIdeal.nD Cert.KernelIdeal.τ).loc Cert.KernelIdeal.main_v284) = v1 c
          ∧ r.2.mem ((c.tc : Thread Cert.KernelIdeal.nD Cert.KernelIdeal.τ).loc Cert.KernelIdeal.main_v274) = v2 c
          ∧ r.2.mem ((c.tc : Thread Cert.KernelIdeal.nD Cert.KernelIdeal.τ).loc Cert.KernelIdeal.main_v278) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_v274) = v2 c
          ∧ r.2.mem ((c.tc : Thread Cert.ReferenceIdeal.nD Cert.ReferenceIdeal.τ).loc Cert.ReferenceIdeal.main_v278) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7 : Shape := ⟨2, ![8192, 7]⟩
abbrev S8192x5 : Shape := ⟨2, ![8192, 5]⟩
abbrev S2x262144 : Shape := ⟨2, ![2, 262144]⟩
abbrev S8192 : Shape := ⟨1, ![8192]⟩
abbrev S7x5 : Shape := ⟨2, ![7, 5]⟩
abbrev S5 : Shape := ⟨1, ![5]⟩
abbrev S4x5x5 : Shape := ⟨3, ![4, 5, 5]⟩
abbrev S4x5 : Shape := ⟨2, ![4, 5]⟩
abbrev S4x10x5 : Shape := ⟨3, ![4, 10, 5]⟩
abbrev S5x5 : Shape := ⟨2, ![5, 5]⟩
abbrev S_ : Shape := ⟨0, ![]⟩

class Facts : Prop where
  bcast_S_S8192x7 : S_.BroadcastsInDim S8192x7 (![] : Fin 0 → Fin S8192x7.rank)
  reducesTo_S8192x7_S_d0_1 : S8192x7.ReducesTo [0, 1] S_
  h_S_ : 0 < S_.numel
  bcast_S_S8192x5 : S_.BroadcastsInDim S8192x5 (![] : Fin 0 → Fin S8192x5.rank)
  reducesTo_S8192x5_S_d0_1 : S8192x5.ReducesTo [0, 1] S_
  bcast_S_S7x5 : S_.BroadcastsInDim S7x5 (![] : Fin 0 → Fin S7x5.rank)
  reducesTo_S7x5_S_d0_1 : S7x5.ReducesTo [0, 1] S_
  bcast_S_S5 : S_.BroadcastsInDim S5 (![] : Fin 0 → Fin S5.rank)
  reducesTo_S5_S_d0 : S5.ReducesTo [0] S_
  bcast_S_S4x5x5 : S_.BroadcastsInDim S4x5x5 (![] : Fin 0 → Fin S4x5x5.rank)
  reducesTo_S4x5x5_S_d0_1_2 : S4x5x5.ReducesTo [0, 1, 2] S_
  bcast_S_S4x5 : S_.BroadcastsInDim S4x5 (![] : Fin 0 → Fin S4x5.rank)
  reducesTo_S4x5_S_d0_1 : S4x5.ReducesTo [0, 1] S_
  bcast_S_S4x10x5 : S_.BroadcastsInDim S4x10x5 (![] : Fin 0 → Fin S4x10x5.rank)
  reducesTo_S4x10x5_S_d0_1_2 : S4x10x5.ReducesTo [0, 1, 2] S_
  bcast_S_S5x5 : S_.BroadcastsInDim S5x5 (![] : Fin 0 → Fin S5x5.rank)
  reducesTo_S5x5_S_d0_1 : S5x5.ReducesTo [0, 1] S_

variable [Facts]

def fn_part4 {F : FTy → Type} [FloatOps F] (main_arg16 : FVec F S5 .f32) (main_arg17 : FVec F S5x5 .f32) (main_arg18 : FVec F S5 .f32) (main_v63 : IVec S_ 1) (main_v67 : IVec S_ 1) : IVec S_ 1 :=
  let main_v68 : IVec S_ 1 := andi main_v63 main_v67
  let main_v69 : FVec F S5 .f32 := Host.absf main_arg16
  let main_cst_26 : FVec F S_ .f32 := constant S_ .f32 0x7F800000#32
  let main_v70 : FVec F S5 .f32 := broadcastInDim S5 ![] bcast_S_S5 main_cst_26
  let main_v71 : IVec S5 1 := cmpf .olt main_v69 main_v70
  let main_c_27 : IVec S_ 1 := constantI S_ 1 1#1
  let main_v72 : IVec S_ 1 := (fun x v => Host.reduce IntOp.andi x v reducesTo_S5_S_d0 h_S_) main_v71 main_c_27
  let main_v73 : IVec S_ 1 := andi main_v68 main_v72
  let main_v74 : FVec F S5x5 .f32 := Host.absf main_arg17
  let main_cst_28 : FVec F S_ .f32 := constant S_ .f32 0x7F800000#32
  let main_v75 : FVec F S5x5 .f32 := broadcastInDim S5x5 ![] bcast_S_S5x5 main_cst_28
  let main_v76 : IVec S5x5 1 := cmpf .olt main_v74 main_v75
  let main_c_29 : IVec S_ 1 := constantI S_ 1 1#1
  let main_v77 : IVec S_ 1 := (fun x v => Host.reduce IntOp.andi x v reducesTo_S5x5_S_d0_1 h_S_) main_v76 main_c_29
  let main_v78 : IVec S_ 1 := andi main_v73 main_v77
  let main_v79 : FVec F S5 .f32 := Host.absf main_arg18
  let main_cst_30 : FVec F S_ .f32 := constant S_ .f32 0x7F800000#32
  let main_v80 : FVec F S5 .f32 := broadcastInDim S5 ![] bcast_S_S5 main_cst_30
  let main_v81 : IVec S5 1 := cmpf .olt main_v79 main_v80
  let main_c_31 : IVec S_ 1 := constantI S_ 1 1#1
  let main_v82 : IVec S_ 1 := (fun x v => Host.reduce IntOp.andi x v reducesTo_S5_S_d0 h_S_) main_v81 main_c_31
  let main_v83 : IVec S_ 1 := andi main_v78 main_v82
  main_v83

def fn_part3 {F : FTy → Type} [FloatOps F] (main_arg13 : FVec F S4x10x5 .f32) (main_arg14 : FVec F S4x5 .f32) (main_arg15 : FVec F S5x5 .f32) (main_arg16 : FVec F S5 .f32) (main_arg17 : FVec F S5x5 .f32) (main_arg18 : FVec F S5 .f32) (main_v48 : IVec S_ 1) (main_v49 : FVec F S4x5 .f32) (main_v50 : FVec F S4x5 .f32) : IVec S_ 1 :=
  let main_v51 : IVec S4x5 1 := cmpf .olt main_v49 main_v50
  let main_c_19 : IVec S_ 1 := constantI S_ 1 1#1
  let main_v52 : IVec S_ 1 := (fun x v => Host.reduce IntOp.andi x v reducesTo_S4x5_S_d0_1 h_S_) main_v51 main_c_19
  let main_v53 : IVec S_ 1 := andi main_v48 main_v52
  let main_v54 : FVec F S4x10x5 .f32 := Host.absf main_arg13
  let main_cst_20 : FVec F S_ .f32 := constant S_ .f32 0x7F800000#32
  let main_v55 : FVec F S4x10x5 .f32 := broadcastInDim S4x10x5 ![] bcast_S_S4x10x5 main_cst_20
  let main_v56 : IVec S4x10x5 1 := cmpf .olt main_v54 main_v55
  let main_c_21 : IVec S_ 1 := constantI S_ 1 1#1
  let main_v57 : IVec S_ 1 := (fun x v => Host.reduce IntOp.andi x v reducesTo_S4x10x5_S_d0_1_2 h_S_) main_v56 main_c_21
  let main_v58 : IVec S_ 1 := andi main_v53 main_v57
  let main_v59 : FVec F S4x5 .f32 := Host.absf main_arg14
  let main_cst_22 : FVec F S_ .f32 := constant S_ .f32 0x7F800000#32
  let main_v60 : FVec F S4x5 .f32 := broadcastInDim S4x5 ![] bcast_S_S4x5 main_cst_22
  let main_v61 : IVec S4x5 1 := cmpf .olt main_v59 main_v60
  let main_c_23 : IVec S_ 1 := constantI S_ 1 1#1
  let main_v62 : IVec S_ 1 := (fun x v => Host.reduce IntOp.andi x v reducesTo_S4x5_S_d0_1 h_S_) main_v61 main_c_23
  let main_v63 : IVec S_ 1 := andi main_v58 main_v62
  let main_v64 : FVec F S5x5 .f32 := Host.absf main_arg15
  let main_cst_24 : FVec F S_ .f32 := constant S_ .f32 0x7F800000#32
  let main_v65 : FVec F S5x5 .f32 := broadcastInDim S5x5 ![] bcast_S_S5x5 main_cst_24
  let main_v66 : IVec S5x5 1 := cmpf .olt main_v64 main_v65
  let main_c_25 : IVec S_ 1 := constantI S_ 1 1#1
  let main_v67 : IVec S_ 1 := (fun x v => Host.reduce IntOp.andi x v reducesTo_S5x5_S_d0_1 h_S_) main_v66 main_c_25
  fn_part4 (F := F) main_arg16 main_arg17 main_arg18 main_v63 main_v67

def fn_part2 {F : FTy → Type} [FloatOps F] (main_arg9 : FVec F S4x10x5 .f32) (main_arg10 : FVec F S4x5 .f32) (main_arg11 : FVec F S4x10x5 .f32) (main_arg12 : FVec F S4x5 .f32) (main_arg13 : FVec F S4x10x5 .f32) (main_arg14 : FVec F S4x5 .f32) (main_arg15 : FVec F S5x5 .f32) (main_arg16 : FVec F S5 .f32) (main_arg17 : FVec F S5x5 .f32) (main_arg18 : FVec F S5 .f32) (main_v33 : IVec S_ 1) : IVec S_ 1 :=
  let main_v34 : FVec F S4x10x5 .f32 := Host.absf main_arg9
  let main_cst_12 : FVec F S_ .f32 := constant S_ .f32 0x7F800000#32
  let main_v35 : FVec F S4x10x5 .f32 := broadcastInDim S4x10x5 ![] bcast_S_S4x10x5 main_cst_12
  let main_v36 : IVec S4x10x5 1 := cmpf .olt main_v34 main_v35
  let main_c_13 : IVec S_ 1 := constantI S_ 1 1#1
  let main_v37 : IVec S_ 1 := (fun x v => Host.reduce IntOp.andi x v reducesTo_S4x10x5_S_d0_1_2 h_S_) main_v36 main_c_13
  let main_v38 : IVec S_ 1 := andi main_v33 main_v37
  let main_v39 : FVec F S4x5 .f32 := Host.absf main_arg10
  let main_cst_14 : FVec F S_ .f32 := constant S_ .f32 0x7F800000#32
  let main_v40 : FVec F S4x5 .f32 := broadcastInDim S4x5 ![] bcast_S_S4x5 main_cst_14
  let main_v41 : IVec S4x5 1 := cmpf .olt main_v39 main_v40
  let main_c_15 : IVec S_ 1 := constantI S_ 1 1#1
  let main_v42 : IVec S_ 1 := (fun x v => Host.reduce IntOp.andi x v reducesTo_S4x5_S_d0_1 h_S_) main_v41 main_c_15
  let main_v43 : IVec S_ 1 := andi main_v38 main_v42
  let main_v44 : FVec F S4x10x5 .f32 := Host.absf main_arg11
  let main_cst_16 : FVec F S_ .f32 := constant S_ .f32 0x7F800000#32
  let main_v45 : FVec F S4x10x5 .f32 := broadcastInDim S4x10x5 ![] bcast_S_S4x10x5 main_cst_16
  let main_v46 : IVec S4x10x5 1 := cmpf .olt main_v44 main_v45
  let main_c_17 : IVec S_ 1 := constantI S_ 1 1#1
  let main_v47 : IVec S_ 1 := (fun x v => Host.reduce IntOp.andi x v reducesTo_S4x10x5_S_d0_1_2 h_S_) main_v46 main_c_17
  let main_v48 : IVec S_ 1 := andi main_v43 main_v47
  let main_v49 : FVec F S4x5 .f32 := Host.absf main_arg12
  let main_cst_18 : FVec F S_ .f32 := constant S_ .f32 0x7F800000#32
  let main_v50 : FVec F S4x5 .f32 := broadcastInDim S4x5 ![] bcast_S_S4x5 main_cst_18
  fn_part3 (F := F) main_arg13 main_arg14 main_arg15 main_arg16 main_arg17 main_arg18 main_v48 main_v49 main_v50

def fn_part1 {F : FTy → Type} [FloatOps F] (main_arg6 : FVec F S5 .f32) (main_arg7 : FVec F S4x5x5 .f32) (main_arg8 : FVec F S4x5 .f32) (main_arg9 : FVec F S4x10x5 .f32) (main_arg10 : FVec F S4x5 .f32) (main_arg11 : FVec F S4x10x5 .f32) (main_arg12 : FVec F S4x5 .f32) (main_arg13 : FVec F S4x10x5 .f32) (main_arg14 : FVec F S4x5 .f32) (main_arg15 : FVec F S5x5 .f32) (main_arg16 : FVec F S5 .f32) (main_arg17 : FVec F S5x5 .f32) (main_arg18 : FVec F S5 .f32) (main_v13 : IVec S_ 1) (main_v16 : IVec S7x5 1) : IVec S_ 1 :=
  let main_c_5 : IVec S_ 1 := constantI S_ 1 1#1
  let main_v17 : IVec S_ 1 := (fun x v => Host.reduce IntOp.andi x v reducesTo_S7x5_S_d0_1 h_S_) main_v16 main_c_5
  let main_v18 : IVec S_ 1 := andi main_v13 main_v17
  let main_v19 : FVec F S5 .f32 := Host.absf main_arg6
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S4x5x5 .f32 := Host.absf main_arg7
  let main_cst_8 : FVec F S_ .f32 := constant S_ .f32 0x7F800000#32
  let main_v25 : FVec F S4x5x5 .f32 := broadcastInDim S4x5x5 ![] bcast_S_S4x5x5 main_cst_8
  let main_v26 : IVec S4x5x5 1 := cmpf .olt main_v24 main_v25
  let main_c_9 : IVec S_ 1 := constantI S_ 1 1#1
  let main_v27 : IVec S_ 1 := (fun x v => Host.reduce IntOp.andi x v reducesTo_S4x5x5_S_d0_1_2 h_S_) main_v26 main_c_9
  let main_v28 : IVec S_ 1 := andi main_v23 main_v27
  let main_v29 : FVec F S4x5 .f32 := Host.absf main_arg8
  let main_cst_10 : FVec F S_ .f32 := constant S_ .f32 0x7F800000#32
  let main_v30 : FVec F S4x5 .f32 := broadcastInDim S4x5 ![] bcast_S_S4x5 main_cst_10
  let main_v31 : IVec S4x5 1 := cmpf .olt main_v29 main_v30
  let main_c_11 : IVec S_ 1 := constantI S_ 1 1#1
  let main_v32 : IVec S_ 1 := (fun x v => Host.reduce IntOp.andi x v reducesTo_S4x5_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S8192x7 .f32) (main_arg1 : FVec F S8192x7 .f32) (main_arg2 : FVec F S8192x5 .f32) (main_arg3 : IVec S2x262144 32) (main_arg4 : IVec S8192 32) (main_arg5 : FVec F S7x5 .f32) (main_arg6 : FVec F S5 .f32) (main_arg7 : FVec F S4x5x5 .f32) (main_arg8 : FVec F S4x5 .f32) (main_arg9 : FVec F S4x10x5 .f32) (main_arg10 : FVec F S4x5 .f32) (main_arg11 : FVec F S4x10x5 .f32) (main_arg12 : FVec F S4x5 .f32) (main_arg13 : FVec F S4x10x5 .f32) (main_arg14 : FVec F S4x5 .f32) (main_arg15 : FVec F S5x5 .f32) (main_arg16 : FVec F S5 .f32) (main_arg17 : FVec F S5x5 .f32) (main_arg18 : FVec F S5 .f32) : IVec S_ 1 :=
  let main_v0 : FVec F S8192x7 .f32 := Host.absf main_arg0
  let main_cst : FVec F S_ .f32 := constant S_ .f32 0x7F800000#32
  let main_v1 : FVec F S8192x7 .f32 := broadcastInDim S8192x7 ![] bcast_S_S8192x7 main_cst
  let main_v2 : IVec S8192x7 1 := cmpf .olt main_v0 main_v1
  let main_c : IVec S_ 1 := constantI S_ 1 1#1
  let main_v3 : IVec S_ 1 := (fun x v => Host.reduce IntOp.andi x v reducesTo_S8192x7_S_d0_1 h_S_) main_v2 main_c
  let main_v4 : FVec F S8192x7 .f32 := Host.absf main_arg1
  let main_cst_0 : FVec F S_ .f32 := constant S_ .f32 0x7F800000#32
  let main_v5 : FVec F S8192x7 .f32 := broadcastInDim S8192x7 ![] bcast_S_S8192x7 main_cst_0
  let main_v6 : IVec S8192x7 1 := cmpf .olt main_v4 main_v5
  let main_c_1 : IVec S_ 1 := constantI S_ 1 1#1
  let main_v7 : IVec S_ 1 := (fun x v => Host.reduce IntOp.andi x v reducesTo_S8192x7_S_d0_1 h_S_) main_v6 main_c_1
  let main_v8 : IVec S_ 1 := andi main_v3 main_v7
  let main_v9 : FVec F S8192x5 .f32 := Host.absf main_arg2
  let main_cst_2 : FVec F S_ .f32 := constant S_ .f32 0x7F800000#32
  let main_v10 : FVec F S8192x5 .f32 := broadcastInDim S8192x5 ![] bcast_S_S8192x5 main_cst_2
  let main_v11 : IVec S8192x5 1 := cmpf .olt main_v9 main_v10
  let main_c_3 : IVec S_ 1 := constantI S_ 1 1#1
  let main_v12 : IVec S_ 1 := (fun x v => Host.reduce IntOp.andi x v reducesTo_S8192x5_S_d0_1 h_S_) main_v11 main_c_3
  let main_v13 : IVec S_ 1 := andi main_v8 main_v12
  let main_v14 : FVec F S7x5 .f32 := Host.absf main_arg5
  let main_cst_4 : FVec F S_ .f32 := constant S_ .f32 0x7F800000#32
  let main_v15 : FVec F S7x5 .f32 := broadcastInDim S7x5 ![] bcast_S_S7x5 main_cst_4
  let main_v16 : IVec S7x5 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S8192x7 : Shape := ⟨2, ![8192, 7]⟩
abbrev S8192x5 : Shape := ⟨2, ![8192, 5]⟩
abbrev S2x262144 : Shape := ⟨2, ![2, 262144]⟩
abbrev S8192 : Shape := ⟨1, ![8192]⟩
abbrev S7x5 : Shape := ⟨2, ![7, 5]⟩
abbrev S5 : Shape := ⟨1, ![5]⟩
abbrev S4x5x5 : Shape := ⟨3, ![4, 5, 5]⟩
abbrev S4x5 : Shape := ⟨2, ![4, 5]⟩
abbrev S4x10x5 : Shape := ⟨3, ![4, 10, 5]⟩
abbrev S5x5 : Shape := ⟨2, ![5, 5]⟩
abbrev S1x262144 : Shape := ⟨2, ![1, 262144]⟩
abbrev S262144 : Shape := ⟨1, ![262144]⟩
abbrev S_ : Shape := ⟨0, ![]⟩
abbrev S1x5 : Shape := ⟨2, ![1, 5]⟩
abbrev S1x5x5 : Shape := ⟨3, ![1, 5, 5]⟩
abbrev S262144x1 : Shape := ⟨2, ![262144, 1]⟩
abbrev S262144x5 : Shape := ⟨2, ![262144, 5]⟩
abbrev S8192x10 : Shape := ⟨2, ![8192, 10]⟩
abbrev S1x10x5 : Shape := ⟨3, ![1, 10, 5]⟩
abbrev S10x5 : Shape := ⟨2, ![10, 5]⟩
abbrev S8192x8192 : Shape := ⟨2, ![8192, 8192]⟩
abbrev S2048x5 : Shape := ⟨2, ![2048, 5]⟩
abbrev S2048x2048 : Shape := ⟨2, ![2048, 2048]⟩
abbrev S5x2048 : Shape := ⟨2, ![5, 2048]⟩

abbrev nBuf : Space → Nat
  | .hbm => 349
  | .vmem => 6
  | .smem => 0
  | _ => 0

abbrev hbmTy0_0 (i : Nat) : BufTy := match i % 128 with
  | 0 => ⟨S8192x7, .f32⟩
  | 1 => ⟨S8192x7, .f32⟩
  | 2 => ⟨S8192x5, .f32⟩
  | 3 => ⟨S2x262144, .i32⟩
  | 4 => ⟨S8192, .i32⟩
  | 5 => ⟨S7x5, .f32⟩
  | 6 => ⟨S5, .f32⟩
  | 7 => ⟨S4x5x5, .f32⟩
  | 8 => ⟨S4x5, .f32⟩
  | 9 => ⟨S4x10x5, .f32⟩
  | 10 => ⟨S4x5, .f32⟩
  | 11 => ⟨S4x10x5, .f32⟩
  | 12 => ⟨S4x5, .f32⟩
  | 13 => ⟨S4x10x5, .f32⟩
  | 14 => ⟨S4x5, .f32⟩
  | 15 => ⟨S5x5, .f32⟩
  | 16 => ⟨S5, .f32⟩
  | 17 => ⟨S5x5, .f32⟩
  | 18 => ⟨S5, .f32⟩
  | 19 => ⟨S1x262144, .i32⟩
  | 20 => ⟨S262144, .i32⟩
  | 21 => ⟨S1x262144, .i32⟩
  | 22 => ⟨S262144, .i32⟩
  | 23 => ⟨S_, .f32⟩
  | 24 => ⟨S8192x7, .f32⟩
  | 25 => ⟨S8192x7, .i1⟩
  | 26 => ⟨S8192x7, .f32⟩
  | 27 => ⟨S8192x7, .f32⟩
  | 28 => ⟨S_, .f32⟩
  | 29 => ⟨S8192x7, .f32⟩
  | 30 => ⟨S8192x7, .f32⟩
  | 31 => ⟨S8192x5, .f32⟩
  | 32 => ⟨S1x5, .f32⟩
  | 33 => ⟨S8192x5, .f32⟩
  | 34 => ⟨S8192x5, .f32⟩
  | 35 => ⟨S_, .f32⟩
  | 36 => ⟨S8192x5, .f32⟩
  | 37 => ⟨S8192x5, .f32⟩
  | 38 => ⟨S1x5x5, .f32⟩
  | 39 => ⟨S5x5, .f32⟩
  | 40 => ⟨S8192x5, .f32⟩
  | 41 => ⟨S1x5, .f32⟩
  | 42 => ⟨S5, .f32⟩
  | 43 => ⟨S1x5, .f32⟩
  | 44 => ⟨S8192x5, .f32⟩
  | 45 => ⟨S8192x5, .f32⟩
  | 46 => ⟨S_, .f32⟩
  | 47 => ⟨S8192x5, .f32⟩
  | 48 => ⟨S8192x5, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x5, .f32⟩
  | 58 => ⟨S_, .f32⟩
  | 59 => ⟨S8192x5, .f32⟩
  | 60 => ⟨S262144x1, .i32⟩
  | 61 => ⟨S8192x5, .f32⟩
  | 62 => ⟨S8192x10, .f32⟩
  | 63 => ⟨S1x10x5, .f32⟩
  | 64 => ⟨S10x5, .f32⟩
  | 65 => ⟨S8192x5, .f32⟩
  | 66 => ⟨S1x5, .f32⟩
  | 67 => ⟨S5, .f32⟩
  | 68 => ⟨S1x5, .f32⟩
  | 69 => ⟨S8192x5, .f32⟩
  | 70 => ⟨S8192x5, .f32⟩
  | 71 => ⟨S8192x5, .f32⟩
  | 72 => ⟨S8192x5, .f32⟩
  | 73 => ⟨S_, .f32⟩
  | 74 => ⟨S8192x5, .f32⟩
  | 75 => ⟨S8192x5, .f32⟩
  | 76 => ⟨S_, .f32⟩
  | 77 => ⟨S8192x5, .f32⟩
  | 78 => ⟨S8192x5, .f32⟩
  | 79 => ⟨S1x10x5, .f32⟩
  | 80 => ⟨S10x5, .f32⟩
  | 81 => ⟨S8192x5, .f32⟩
  | 82 => ⟨S1x5, .f32⟩
  | 83 => ⟨S5, .f32⟩
  | 84 => ⟨S1x5, .f32⟩
  | 85 => ⟨S8192x5, .f32⟩
  | 86 => ⟨S8192x5, .f32⟩
  | 87 => ⟨S8192x5, .f32⟩
  | 88 => ⟨S8192x5, .f32⟩
  | 89 => ⟨S_, .f32⟩
  | 90 => ⟨S8192x5, .f32⟩
  | 91 => ⟨S8192x5, .f32⟩
  | 92 => ⟨S_, .f32⟩
  | 93 => ⟨S8192x5, .f32⟩
  | 94 => ⟨S8192x5, .f32⟩
  | 95 => ⟨S8192x5, .f32⟩
  | 96 => ⟨S8192x10, .f32⟩
  | 97 => ⟨S1x10x5, .f32⟩
  | 98 => ⟨S10x5, .f32⟩
  | 99 => ⟨S8192x5, .f32⟩
  | 100 => ⟨S1x5, .f32⟩
  | 101 => ⟨S5, .f32⟩
  | 102 => ⟨S1x5, .f32⟩
  | 103 => ⟨S8192x5, .f32⟩
  | 104 => ⟨S8192x5, .f32⟩
  | 105 => ⟨S8192x5, .f32⟩
  | 106 => ⟨S_, .f32⟩
  | 107 => ⟨S8192x5, .f32⟩
  | 108 => ⟨S8192x5, .f32⟩
  | 109 => ⟨S8192x5, .f32⟩
  | 110 => ⟨S8192x5, .f32⟩
  | 111 => ⟨S8192x5, .f32⟩
  | 112 => ⟨S1x5x5, .f32⟩
  | 113 => ⟨S5x5, .f32⟩
  | 114 => ⟨S8192x5, .f32⟩
  | 115 => ⟨S1x5, .f32⟩
  | 116 => ⟨S5, .f32⟩
  | 117 => ⟨S1x5, .f32⟩
  | 118 => ⟨S8192x5, .f32⟩
  | 119 => ⟨S8192x5, .f32⟩
  | 120 => ⟨S_, .f32⟩
  | 121 => ⟨S8192x5, .f32⟩
  | 122 => ⟨S8192x5, .f32⟩
  | 123 => ⟨S_, .i32⟩
  | 124 => ⟨S262144, .i32⟩
  | 125 => ⟨S262144, .i1⟩
  | 126 => ⟨S_, .i32⟩
  | 127 => ⟨S262144, .i32⟩
  | _ => ⟨S8192x7, .f32⟩

abbrev hbmTy0_1 (i : Nat) : BufTy := match i % 128 with
  | 0 => ⟨S262144, .i32⟩
  | 1 => ⟨S262144, .i32⟩
  | 2 => ⟨S262144x1, .i32⟩
  | 3 => ⟨S262144x5, .f32⟩
  | 4 => ⟨S_, .f32⟩
  | 5 => ⟨S8192x5, .f32⟩
  | 6 => ⟨S262144x1, .i32⟩
  | 7 => ⟨S8192x5, .f32⟩
  | 8 => ⟨S8192x10, .f32⟩
  | 9 => ⟨S1x10x5, .f32⟩
  | 10 => ⟨S10x5, .f32⟩
  | 11 => ⟨S8192x5, .f32⟩
  | 12 => ⟨S1x5, .f32⟩
  | 13 => ⟨S5, .f32⟩
  | 14 => ⟨S1x5, .f32⟩
  | 15 => ⟨S8192x5, .f32⟩
  | 16 => ⟨S8192x5, .f32⟩
  | 17 => ⟨S8192x5, .f32⟩
  | 18 => ⟨S8192x5, .f32⟩
  | 19 => ⟨S_, .f32⟩
  | 20 => ⟨S8192x5, .f32⟩
  | 21 => ⟨S8192x5, .f32⟩
  | 22 => ⟨S_, .f32⟩
  | 23 => ⟨S8192x5, .f32⟩
  | 24 => ⟨S8192x5, .f32⟩
  | 25 => ⟨S1x10x5, .f32⟩
  | 26 => ⟨S10x5, .f32⟩
  | 27 => ⟨S8192x5, .f32⟩
  | 28 => ⟨S1x5, .f32⟩
  | 29 => ⟨S5, .f32⟩
  | 30 => ⟨S1x5, .f32⟩
  | 31 => ⟨S8192x5, .f32⟩
  | 32 => ⟨S8192x5, .f32⟩
  | 33 => ⟨S8192x5, .f32⟩
  | 34 => ⟨S8192x5, .f32⟩
  | 35 => ⟨S_, .f32⟩
  | 36 => ⟨S8192x5, .f32⟩
  | 37 => ⟨S8192x5, .f32⟩
  | 38 => ⟨S_, .f32⟩
  | 39 => ⟨S8192x5, .f32⟩
  | 40 => ⟨S8192x5, .f32⟩
  | 41 => ⟨S8192x5, .f32⟩
  | 42 => ⟨S8192x10, .f32⟩
  | 43 => ⟨S1x10x5, .f32⟩
  | 44 => ⟨S10x5, .f32⟩
  | 45 => ⟨S8192x5, .f32⟩
  | 46 => ⟨S1x5, .f32⟩
  | 47 => ⟨S5, .f32⟩
  | 48 => ⟨S1x5, .f32⟩
  | 49 => ⟨S8192x5, .f32⟩
  | 50 => ⟨S8192x5, .f32⟩
  | 51 => ⟨S8192x5, .f32⟩
  | 52 => ⟨S_, .f32⟩
  | 53 => ⟨S8192x5, .f32⟩
  | 54 => ⟨S8192x5, .f32⟩
  | 55 => ⟨S8192x5, .f32⟩
  | 56 => ⟨S8192x5, .f32⟩
  | 57 => ⟨S8192x5, .f32⟩
  | 58 => ⟨S1x5x5, .f32⟩
  | 59 => ⟨S5x5, .f32⟩
  | 60 => ⟨S8192x5, .f32⟩
  | 61 => ⟨S1x5, .f32⟩
  | 62 => ⟨S5, .f32⟩
  | 63 => ⟨S1x5, .f32⟩
  | 64 => ⟨S8192x5, .f32⟩
  | 65 => ⟨S8192x5, .f32⟩
  | 66 => ⟨S_, .f32⟩
  | 67 => ⟨S8192x5, .f32⟩
  | 68 => ⟨S8192x5, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x5, .f32⟩
  | 78 => ⟨S_, .f32⟩
  | 79 => ⟨S8192x5, .f32⟩
  | 80 => ⟨S262144x1, .i32⟩
  | 81 => ⟨S8192x5, .f32⟩
  | 82 => ⟨S8192x10, .f32⟩
  | 83 => ⟨S1x10x5, .f32⟩
  | 84 => ⟨S10x5, .f32⟩
  | 85 => ⟨S8192x5, .f32⟩
  | 86 => ⟨S1x5, .f32⟩
  | 87 => ⟨S5, .f32⟩
  | 88 => ⟨S1x5, .f32⟩
  | 89 => ⟨S8192x5, .f32⟩
  | 90 => ⟨S8192x5, .f32⟩
  | 91 => ⟨S8192x5, .f32⟩
  | 92 => ⟨S8192x5, .f32⟩
  | 93 => ⟨S_, .f32⟩
  | 94 => ⟨S8192x5, .f32⟩
  | 95 => ⟨S8192x5, .f32⟩
  | 96 => ⟨S_, .f32⟩
  | 97 => ⟨S8192x5, .f32⟩
  | 98 => ⟨S8192x5, .f32⟩
  | 99 => ⟨S1x10x5, .f32⟩
  | 100 => ⟨S10x5, .f32⟩
  | 101 => ⟨S8192x5, .f32⟩
  | 102 => ⟨S1x5, .f32⟩
  | 103 => ⟨S5, .f32⟩
  | 104 => ⟨S1x5, .f32⟩
  | 105 => ⟨S8192x5, .f32⟩
  | 106 => ⟨S8192x5, .f32⟩
  | 107 => ⟨S8192x5, .f32⟩
  | 108 => ⟨S8192x5, .f32⟩
  | 109 => ⟨S_, .f32⟩
  | 110 => ⟨S8192x5, .f32⟩
  | 111 => ⟨S8192x5, .f32⟩
  | 112 => ⟨S_, .f32⟩
  | 113 => ⟨S8192x5, .f32⟩
  | 114 => ⟨S8192x5, .f32⟩
  | 115 => ⟨S8192x5, .f32⟩
  | 116 => ⟨S8192x10, .f32⟩
  | 117 => ⟨S1x10x5, .f32⟩
  | 118 => ⟨S10x5, .f32⟩
  | 119 => ⟨S8192x5, .f32⟩
  | 120 => ⟨S1x5, .f32⟩
  | 121 => ⟨S5, .f32⟩
  | 122 => ⟨S1x5, .f32⟩
  | 123 => ⟨S8192x5, .f32⟩
  | 124 => ⟨S8192x5, .f32⟩
  | 125 => ⟨S8192x5, .f32⟩
  | 126 => ⟨S_, .f32⟩
  | 127 => ⟨S8192x5, .f32⟩
  | _ => ⟨S8192x7, .f32⟩

abbrev hbmTy0_2 (i : Nat) : BufTy := match i % 128 with
  | 0 => ⟨S8192x5, .f32⟩
  | 1 => ⟨S8192x5, .f32⟩
  | 2 => ⟨S8192x5, .f32⟩
  | 3 => ⟨S8192x5, .f32⟩
  | 4 => ⟨S1x5x5, .f32⟩
  | 5 => ⟨S5x5, .f32⟩
  | 6 => ⟨S8192x5, .f32⟩
  | 7 => ⟨S1x5, .f32⟩
  | 8 => ⟨S5, .f32⟩
  | 9 => ⟨S1x5, .f32⟩
  | 10 => ⟨S8192x5, .f32⟩
  | 11 => ⟨S8192x5, .f32⟩
  | 12 => ⟨S_, .f32⟩
  | 13 => ⟨S8192x5, .f32⟩
  | 14 => ⟨S8192x5, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x5, .f32⟩
  | 24 => ⟨S_, .f32⟩
  | 25 => ⟨S8192x5, .f32⟩
  | 26 => ⟨S262144x1, .i32⟩
  | 27 => ⟨S8192x5, .f32⟩
  | 28 => ⟨S8192x10, .f32⟩
  | 29 => ⟨S1x10x5, .f32⟩
  | 30 => ⟨S10x5, .f32⟩
  | 31 => ⟨S8192x5, .f32⟩
  | 32 => ⟨S1x5, .f32⟩
  | 33 => ⟨S5, .f32⟩
  | 34 => ⟨S1x5, .f32⟩
  | 35 => ⟨S8192x5, .f32⟩
  | 36 => ⟨S8192x5, .f32⟩
  | 37 => ⟨S8192x5, .f32⟩
  | 38 => ⟨S8192x5, .f32⟩
  | 39 => ⟨S_, .f32⟩
  | 40 => ⟨S8192x5, .f32⟩
  | 41 => ⟨S8192x5, .f32⟩
  | 42 => ⟨S_, .f32⟩
  | 43 => ⟨S8192x5, .f32⟩
  | 44 => ⟨S8192x5, .f32⟩
  | 45 => ⟨S1x10x5, .f32⟩
  | 46 => ⟨S10x5, .f32⟩
  | 47 => ⟨S8192x5, .f32⟩
  | 48 => ⟨S1x5, .f32⟩
  | 49 => ⟨S5, .f32⟩
  | 50 => ⟨S1x5, .f32⟩
  | 51 => ⟨S8192x5, .f32⟩
  | 52 => ⟨S8192x5, .f32⟩
  | 53 => ⟨S8192x5, .f32⟩
  | 54 => ⟨S8192x5, .f32⟩
  | 55 => ⟨S_, .f32⟩
  | 56 => ⟨S8192x5, .f32⟩
  | 57 => ⟨S8192x5, .f32⟩
  | 58 => ⟨S_, .f32⟩
  | 59 => ⟨S8192x5, .f32⟩
  | 60 => ⟨S8192x5, .f32⟩
  | 61 => ⟨S8192x5, .f32⟩
  | 62 => ⟨S8192x10, .f32⟩
  | 63 => ⟨S1x10x5, .f32⟩
  | 64 => ⟨S10x5, .f32⟩
  | 65 => ⟨S8192x5, .f32⟩
  | 66 => ⟨S1x5, .f32⟩
  | 67 => ⟨S5, .f32⟩
  | 68 => ⟨S1x5, .f32⟩
  | 69 => ⟨S8192x5, .f32⟩
  | 70 => ⟨S8192x5, .f32⟩
  | 71 => ⟨S8192x5, .f32⟩
  | 72 => ⟨S_, .f32⟩
  | 73 => ⟨S8192x5, .f32⟩
  | 74 => ⟨S8192x5, .f32⟩
  | 75 => ⟨S8192x5, .f32⟩
  | 76 => ⟨S8192x5, .f32⟩
  | 77 => ⟨S8192x5, .f32⟩
  | 78 => ⟨S8192x5, .f32⟩
  | 79 => ⟨S1x5, .f32⟩
  | 80 => ⟨S8192x5, .f32⟩
  | 81 => ⟨S8192x5, .f32⟩
  | 82 => ⟨S8192x5, .f32⟩
  | 83 => ⟨S1x5, .f32⟩
  | 84 => ⟨S8192x5, .f32⟩
  | 85 => ⟨S8192x5, .f32⟩
  | 86 => ⟨S_, .f32⟩
  | 87 => ⟨S8192x5, .f32⟩
  | 88 => ⟨S8192x5, .f32⟩
  | 89 => ⟨S8192x5, .f32⟩
  | 90 => ⟨S8192x5, .f32⟩
  | 91 => ⟨S8192x5, .f32⟩
  | 92 => ⟨S8192x8192, .f32⟩
  | _ => ⟨S8192x7, .f32⟩

abbrev hbmTy (i : Nat) : BufTy := match i / 128 with
  | 0 => hbmTy0_0 i
  | 1 => hbmTy0_1 i
  | 2 => hbmTy0_2 i
  | _ => ⟨S8192x7, .f32⟩

abbrev bufTy : (tb : Table) → Fin (tcTables nBuf tb) → BufTy
  | .hbm, ⟨i, _⟩ => hbmTy i
  | .local _ .vmem, ⟨0, _⟩ => ⟨S2048x5, .f32⟩
  | .local _ .vmem, ⟨1, _⟩ => ⟨S2048x5, .f32⟩
  | .local _ .vmem, ⟨2, _⟩ => ⟨S2048x5, .f32⟩
  | .local _ .vmem, ⟨3, _⟩ => ⟨S2048x5, .f32⟩
  | .local _ .vmem, ⟨4, _⟩ => ⟨S2048x2048, .f32⟩
  | .local _ .vmem, ⟨5, _⟩ => ⟨S2048x2048, .f32⟩
  | _, _ => ⟨S8192x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_v87 : Ref sig .tc := ⟨.hbm, 122, rfl⟩
abbrev main_c_8 : Ref sig .tc := ⟨.hbm, 123, rfl⟩
abbrev main_v88 : Ref sig .tc := ⟨.hbm, 124, rfl⟩
abbrev main_v89 : Ref sig .tc := ⟨.hbm, 125, rfl⟩
abbrev main_c_9 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_10 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_11 : Ref sig .tc := ⟨.hbm, 147, rfl⟩
abbrev main_v109 : Ref sig .tc := ⟨.hbm, 148, rfl⟩
abbrev main_v110 : Ref sig .tc := ⟨.hbm, 149, rfl⟩
abbrev main_cst_12 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_13 : Ref sig .tc := ⟨.hbm, 163, rfl⟩
abbrev main_v123 : Ref sig .tc := ⟨.hbm, 164, rfl⟩
abbrev main_v124 : Ref sig .tc := ⟨.hbm, 165, rfl⟩
abbrev main_cst_14 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_15 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_call3_cst : Ref sig .tc := ⟨.hbm, 194, rfl⟩
abbrev main_call3_v0 : Ref sig .tc := ⟨.hbm, 195, rfl⟩
abbrev main_v151 : Ref sig .tc := ⟨.hbm, 196, rfl⟩
abbrev main_c_16 : Ref sig .tc := ⟨.hbm, 197, rfl⟩
abbrev main_v152 : Ref sig .tc := ⟨.hbm, 198, rfl⟩
abbrev main_v153 : Ref sig .tc := ⟨.hbm, 199, rfl⟩
abbrev main_c_17 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_18 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_19 : Ref sig .tc := ⟨.hbm, 221, rfl⟩
abbrev main_v173 : Ref sig .tc := ⟨.hbm, 222, rfl⟩
abbrev main_v174 : Ref sig .tc := ⟨.hbm, 223, rfl⟩
abbrev main_cst_20 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_21 : Ref sig .tc := ⟨.hbm, 237, rfl⟩
abbrev main_v187 : Ref sig .tc := ⟨.hbm, 238, rfl⟩
abbrev main_v188 : Ref sig .tc := ⟨.hbm, 239, rfl⟩
abbrev main_cst_22 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_23 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_call4_cst : Ref sig .tc := ⟨.hbm, 268, rfl⟩
abbrev main_call4_v0 : Ref sig .tc := ⟨.hbm, 269, rfl⟩
abbrev main_v215 : Ref sig .tc := ⟨.hbm, 270, rfl⟩
abbrev main_c_24 : Ref sig .tc := ⟨.hbm, 271, rfl⟩
abbrev main_v216 : Ref sig .tc := ⟨.hbm, 272, rfl⟩
abbrev main_v217 : Ref sig .tc := ⟨.hbm, 273, rfl⟩
abbrev main_c_25 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_cst_26 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_cst_27 : Ref sig .tc := ⟨.hbm, 295, rfl⟩
abbrev main_v237 : Ref sig .tc := ⟨.hbm, 296, rfl⟩
abbrev main_v238 : Ref sig .tc := ⟨.hbm, 297, rfl⟩
abbrev main_cst_28 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_29 : Ref sig .tc := ⟨.hbm, 311, rfl⟩
abbrev main_v251 : Ref sig .tc := ⟨.hbm, 312, rfl⟩
abbrev main_v252 : Ref sig .tc := ⟨.hbm, 313, rfl⟩
abbrev main_cst_30 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_cst_31 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_cst_32 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x7 : S_.BroadcastsInDim S8192x7 (![] : Fin 0 → Fin S8192x7.rank)
  bcast_S5_S1x5_1 : S5.BroadcastsInDim S1x5 (![1] : Fin 1 → Fin S1x5.rank)
  bcast_S1x5_S8192x5_0_1 : S1x5.BroadcastsInDim S8192x5 (![0, 1] : Fin 2 → Fin S8192x5.rank)
  bcast_S_S8192x5 : S_.BroadcastsInDim S8192x5 (![] : Fin 0 → Fin S8192x5.rank)
  slices_S4x5x5_S1x5x5_0_0_0 : S4x5x5.Slices ![0, 0, 0] S1x5x5
  shapeCasts_S1x5x5_S5x5 : S1x5x5.ShapeCasts S5x5
  slices_S4x5_S1x5_0_0 : S4x5.Slices ![0, 0] S1x5
  shapeCasts_S1x5_S5 : S1x5.ShapeCasts S5
  bcast_S_S262144 : S_.BroadcastsInDim S262144 (![] : Fin 0 → Fin S262144.rank)
  bcast_S262144_S262144x1_0 : S262144.BroadcastsInDim S262144x1 (![0] : Fin 1 → Fin S262144x1.rank)
  concatenates_S8192x5_S8192x5_S8192x10_d1 : Shape.Concatenates [S8192x5, S8192x5] S8192x10 1
  slices_S4x10x5_S1x10x5_0_0_0 : S4x10x5.Slices ![0, 0, 0] S1x10x5
  shapeCasts_S1x10x5_S10x5 : S1x10x5.ShapeCasts S10x5
  slices_S4x5x5_S1x5x5_1_0_0 : S4x5x5.Slices ![1, 0, 0] S1x5x5
  slices_S4x5_S1x5_1_0 : S4x5.Slices ![1, 0] S1x5
  slices_S4x10x5_S1x10x5_1_0_0 : S4x10x5.Slices ![1, 0, 0] S1x10x5
  slices_S4x5x5_S1x5x5_2_0_0 : S4x5x5.Slices ![2, 0, 0] S1x5x5
  slices_S4x5_S1x5_2_0 : S4x5.Slices ![2, 0] S1x5
  slices_S4x10x5_S1x10x5_2_0_0 : S4x10x5.Slices ![2, 0, 0] S1x10x5
  slices_S4x5x5_S1x5x5_3_0_0 : S4x5x5.Slices ![3, 0, 0] S1x5x5
  slices_S4x5_S1x5_3_0 : S4x5.Slices ![3, 0] S1x5
  slices_S4x10x5_S1x10x5_3_0_0 : S4x10x5.Slices ![3, 0, 0] S1x10x5
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  transposes_S2048x5_p1_0_S5x2048 : S2048x5.Transposes [1, 0] S5x2048
  inb_S2048x2048_S2048x2048_0_0 : ∀ a, (![0, 0] : Fin 2 → Nat) a + S2048x2048.size a ≤ S2048x2048.size a
  h_S2048x2048 : 0 < S2048x2048.numel
  dot_S8192x7_S7x5_S8192x5_1_0_0_1_n_n_wf : DotDims.WF S8192x7 S7x5 S8192x5 [1] [0] [0] [1] [] []
  dot_S8192x5_S5x5_S8192x5_1_0_0_1_n_n_wf : DotDims.WF S8192x5 S5x5 S8192x5 [1] [0] [0] [1] [] []
  gather_S8192x5_S262144x1_S262144x5_1_0_n_n_0_1_15_wf : GatherDims.WF S8192x5 S262144x1 S262144x5 [1] [0] [] [0] [] 1 ![1, 5]
  scatter_S8192x5_S262144x1_S262144x5_1_0_0_1_wf : ScatterDims.WF S8192x5 S262144x1 S262144x5 [1] [0] [0] 1
  dot_S8192x10_S10x5_S8192x5_1_0_0_1_n_n_wf : DotDims.WF S8192x10 S10x5 S8192x5 [1] [0] [0] [1] [] []
  dot_S2048x5_S5x2048_S2048x2048_1_0_0_1_n_n_wf : DotDims.WF S2048x5 S5x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S8192x5.size a
  hwx0_0 : ∀ i : grid0.Coords, EltTy.bits .f32 = 32 ∨ (Rect.block (s := S8192x5) S2048x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S8192x5.size a
  hwx0_1 : ∀ i : grid0.Coords, EltTy.bits .f32 = 32 ∨ (Rect.block (s := S8192x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S8192x7_S7x5_S8192x5_1_0_0_1_n_n : DotDims S8192x7 S7x5 S8192x5 where
  lhsContracting := [1]
  rhsContracting := [0]
  lhsNonContracting := [0]
  rhsNonContracting := [1]
  lhsBatch := []
  rhsBatch := []
  wf := dot_S8192x7_S7x5_S8192x5_1_0_0_1_n_n_wf
def dot_S8192x5_S5x5_S8192x5_1_0_0_1_n_n : DotDims S8192x5 S5x5 S8192x5 where
  lhsContracting := [1]
  rhsContracting := [0]
  lhsNonContracting := [0]
  rhsNonContracting := [1]
  lhsBatch := []
  rhsBatch := []
  wf := dot_S8192x5_S5x5_S8192x5_1_0_0_1_n_n_wf
def gather_S8192x5_S262144x1_S262144x5_1_0_n_n_0_1_15 : GatherDims S8192x5 S262144x1 S262144x5 where
  offsetDims := [1]
  collapsedSliceDims := [0]
  operandBatchingDims := []
  startIndicesBatchingDims := []
  startIndexMap := [0]
  indexVectorDim := 1
  sliceSizes := ![1, 5]
  wf := gather_S8192x5_S262144x1_S262144x5_1_0_n_n_0_1_15_wf
def scatter_S8192x5_S262144x1_S262144x5_1_0_0_1 : ScatterDims S8192x5 S262144x1 S262144x5 where
  updateWindowDims := [1]
  insertedWindowDims := [0]
  scatterDimsToOperandDims := [0]
  indexVectorDim := 1
  wf := scatter_S8192x5_S262144x1_S262144x5_1_0_0_1_wf
def dot_S8192x10_S10x5_S8192x5_1_0_0_1_n_n : DotDims S8192x10 S10x5 S8192x5 where
  lhsContracting := [1]
  rhsContracting := [0]
  lhsNonContracting := [0]
  rhsNonContracting := [1]
  lhsBatch := []
  rhsBatch := []
  wf := dot_S8192x10_S10x5_S8192x5_1_0_0_1_n_n_wf
def dot_S2048x5_S5x2048_S2048x2048_1_0_0_1_n_n : DotDims S2048x5 S5x2048 S2048x2048 where
  lhsContracting := [1]
  rhsContracting := [0]
  lhsNonContracting := [0]
  rhsNonContracting := [1]
  lhsBatch := []
  rhsBatch := []
  wf := dot_S2048x5_S5x2048_S2048x2048_1_0_0_1_n_n_wf

abbrev win0_0 : Pipeline.Window sig grid0 :=
  Pipeline.Window.ofSpec (Memref.whole main_v283) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v283) S2048x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v284) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x7 : Shape := ⟨2, ![8192, 7]⟩
abbrev S8192x5 : Shape := ⟨2, ![8192, 5]⟩
abbrev S2x262144 : Shape := ⟨2, ![2, 262144]⟩
abbrev S8192 : Shape := ⟨1, ![8192]⟩
abbrev S7x5 : Shape := ⟨2, ![7, 5]⟩
abbrev S5 : Shape := ⟨1, ![5]⟩
abbrev S4x5x5 : Shape := ⟨3, ![4, 5, 5]⟩
abbrev S4x5 : Shape := ⟨2, ![4, 5]⟩
abbrev S4x10x5 : Shape := ⟨3, ![4, 10, 5]⟩
abbrev S5x5 : Shape := ⟨2, ![5, 5]⟩
abbrev S1x262144 : Shape := ⟨2, ![1, 262144]⟩
abbrev S262144 : Shape := ⟨1, ![262144]⟩
abbrev S_ : Shape := ⟨0, ![]⟩
abbrev S1x5 : Shape := ⟨2, ![1, 5]⟩
abbrev S1x5x5 : Shape := ⟨3, ![1, 5, 5]⟩
abbrev S262144x1 : Shape := ⟨2, ![262144, 1]⟩
abbrev S262144x5 : Shape := ⟨2, ![262144, 5]⟩
abbrev S8192x10 : Shape := ⟨2, ![8192, 10]⟩
abbrev S1x10x5 : Shape := ⟨3, ![1, 10, 5]⟩
abbrev S10x5 : Shape := ⟨2, ![10, 5]⟩
abbrev S5x8192 : Shape := ⟨2, ![5, 8192]⟩
abbrev S8192x8192 : Shape := ⟨2, ![8192, 8192]⟩

abbrev nBuf : Space → Nat
  | .hbm => 358
  | .vmem => 0
  | .smem => 0
  | _ => 0

abbrev hbmTy0_0 (i : Nat) : BufTy := match i % 128 with
  | 0 => ⟨S8192x7, .f32⟩
  | 1 => ⟨S8192x7, .f32⟩
  | 2 => ⟨S8192x5, .f32⟩
  | 3 => ⟨S2x262144, .i32⟩
  | 4 => ⟨S8192, .i32⟩
  | 5 => ⟨S7x5, .f32⟩
  | 6 => ⟨S5, .f32⟩
  | 7 => ⟨S4x5x5, .f32⟩
  | 8 => ⟨S4x5, .f32⟩
  | 9 => ⟨S4x10x5, .f32⟩
  | 10 => ⟨S4x5, .f32⟩
  | 11 => ⟨S4x10x5, .f32⟩
  | 12 => ⟨S4x5, .f32⟩
  | 13 => ⟨S4x10x5, .f32⟩
  | 14 => ⟨S4x5, .f32⟩
  | 15 => ⟨S5x5, .f32⟩
  | 16 => ⟨S5, .f32⟩
  | 17 => ⟨S5x5, .f32⟩
  | 18 => ⟨S5, .f32⟩
  | 19 => ⟨S1x262144, .i32⟩
  | 20 => ⟨S262144, .i32⟩
  | 21 => ⟨S1x262144, .i32⟩
  | 22 => ⟨S262144, .i32⟩
  | 23 => ⟨S_, .f32⟩
  | 24 => ⟨S8192x7, .f32⟩
  | 25 => ⟨S8192x7, .i1⟩
  | 26 => ⟨S8192x7, .f32⟩
  | 27 => ⟨S8192x7, .f32⟩
  | 28 => ⟨S_, .f32⟩
  | 29 => ⟨S8192x7, .f32⟩
  | 30 => ⟨S8192x7, .f32⟩
  | 31 => ⟨S8192x5, .f32⟩
  | 32 => ⟨S1x5, .f32⟩
  | 33 => ⟨S8192x5, .f32⟩
  | 34 => ⟨S8192x5, .f32⟩
  | 35 => ⟨S_, .f32⟩
  | 36 => ⟨S8192x5, .f32⟩
  | 37 => ⟨S8192x5, .f32⟩
  | 38 => ⟨S1x5x5, .f32⟩
  | 39 => ⟨S5x5, .f32⟩
  | 40 => ⟨S8192x5, .f32⟩
  | 41 => ⟨S1x5, .f32⟩
  | 42 => ⟨S5, .f32⟩
  | 43 => ⟨S1x5, .f32⟩
  | 44 => ⟨S8192x5, .f32⟩
  | 45 => ⟨S8192x5, .f32⟩
  | 46 => ⟨S_, .f32⟩
  | 47 => ⟨S8192x5, .f32⟩
  | 48 => ⟨S8192x5, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x5, .f32⟩
  | 58 => ⟨S_, .f32⟩
  | 59 => ⟨S8192x5, .f32⟩
  | 60 => ⟨S262144x1, .i32⟩
  | 61 => ⟨S8192x5, .f32⟩
  | 62 => ⟨S8192x10, .f32⟩
  | 63 => ⟨S1x10x5, .f32⟩
  | 64 => ⟨S10x5, .f32⟩
  | 65 => ⟨S8192x5, .f32⟩
  | 66 => ⟨S1x5, .f32⟩
  | 67 => ⟨S5, .f32⟩
  | 68 => ⟨S1x5, .f32⟩
  | 69 => ⟨S8192x5, .f32⟩
  | 70 => ⟨S8192x5, .f32⟩
  | 71 => ⟨S8192x5, .f32⟩
  | 72 => ⟨S8192x5, .f32⟩
  | 73 => ⟨S_, .f32⟩
  | 74 => ⟨S8192x5, .f32⟩
  | 75 => ⟨S8192x5, .f32⟩
  | 76 => ⟨S_, .f32⟩
  | 77 => ⟨S8192x5, .f32⟩
  | 78 => ⟨S8192x5, .f32⟩
  | 79 => ⟨S1x10x5, .f32⟩
  | 80 => ⟨S10x5, .f32⟩
  | 81 => ⟨S8192x5, .f32⟩
  | 82 => ⟨S1x5, .f32⟩
  | 83 => ⟨S5, .f32⟩
  | 84 => ⟨S1x5, .f32⟩
  | 85 => ⟨S8192x5, .f32⟩
  | 86 => ⟨S8192x5, .f32⟩
  | 87 => ⟨S8192x5, .f32⟩
  | 88 => ⟨S8192x5, .f32⟩
  | 89 => ⟨S_, .f32⟩
  | 90 => ⟨S8192x5, .f32⟩
  | 91 => ⟨S8192x5, .f32⟩
  | 92 => ⟨S_, .f32⟩
  | 93 => ⟨S8192x5, .f32⟩
  | 94 => ⟨S8192x5, .f32⟩
  | 95 => ⟨S8192x5, .f32⟩
  | 96 => ⟨S8192x10, .f32⟩
  | 97 => ⟨S1x10x5, .f32⟩
  | 98 => ⟨S10x5, .f32⟩
  | 99 => ⟨S8192x5, .f32⟩
  | 100 => ⟨S1x5, .f32⟩
  | 101 => ⟨S5, .f32⟩
  | 102 => ⟨S1x5, .f32⟩
  | 103 => ⟨S8192x5, .f32⟩
  | 104 => ⟨S8192x5, .f32⟩
  | 105 => ⟨S8192x5, .f32⟩
  | 106 => ⟨S_, .f32⟩
  | 107 => ⟨S8192x5, .f32⟩
  | 108 => ⟨S8192x5, .f32⟩
  | 109 => ⟨S8192x5, .f32⟩
  | 110 => ⟨S8192x5, .f32⟩
  | 111 => ⟨S8192x5, .f32⟩
  | 112 => ⟨S1x5x5, .f32⟩
  | 113 => ⟨S5x5, .f32⟩
  | 114 => ⟨S8192x5, .f32⟩
  | 115 => ⟨S1x5, .f32⟩
  | 116 => ⟨S5, .f32⟩
  | 117 => ⟨S1x5, .f32⟩
  | 118 => ⟨S8192x5, .f32⟩
  | 119 => ⟨S8192x5, .f32⟩
  | 120 => ⟨S_, .f32⟩
  | 121 => ⟨S8192x5, .f32⟩
  | 122 => ⟨S8192x5, .f32⟩
  | 123 => ⟨S_, .i32⟩
  | 124 => ⟨S262144, .i32⟩
  | 125 => ⟨S262144, .i1⟩
  | 126 => ⟨S_, .i32⟩
  | 127 => ⟨S262144, .i32⟩
  | _ => ⟨S8192x7, .f32⟩

abbrev hbmTy0_1 (i : Nat) : BufTy := match i % 128 with
  | 0 => ⟨S262144, .i32⟩
  | 1 => ⟨S262144, .i32⟩
  | 2 => ⟨S262144x1, .i32⟩
  | 3 => ⟨S262144x5, .f32⟩
  | 4 => ⟨S_, .f32⟩
  | 5 => ⟨S8192x5, .f32⟩
  | 6 => ⟨S262144x1, .i32⟩
  | 7 => ⟨S8192x5, .f32⟩
  | 8 => ⟨S8192x10, .f32⟩
  | 9 => ⟨S1x10x5, .f32⟩
  | 10 => ⟨S10x5, .f32⟩
  | 11 => ⟨S8192x5, .f32⟩
  | 12 => ⟨S1x5, .f32⟩
  | 13 => ⟨S5, .f32⟩
  | 14 => ⟨S1x5, .f32⟩
  | 15 => ⟨S8192x5, .f32⟩
  | 16 => ⟨S8192x5, .f32⟩
  | 17 => ⟨S8192x5, .f32⟩
  | 18 => ⟨S8192x5, .f32⟩
  | 19 => ⟨S_, .f32⟩
  | 20 => ⟨S8192x5, .f32⟩
  | 21 => ⟨S8192x5, .f32⟩
  | 22 => ⟨S_, .f32⟩
  | 23 => ⟨S8192x5, .f32⟩
  | 24 => ⟨S8192x5, .f32⟩
  | 25 => ⟨S1x10x5, .f32⟩
  | 26 => ⟨S10x5, .f32⟩
  | 27 => ⟨S8192x5, .f32⟩
  | 28 => ⟨S1x5, .f32⟩
  | 29 => ⟨S5, .f32⟩
  | 30 => ⟨S1x5, .f32⟩
  | 31 => ⟨S8192x5, .f32⟩
  | 32 => ⟨S8192x5, .f32⟩
  | 33 => ⟨S8192x5, .f32⟩
  | 34 => ⟨S8192x5, .f32⟩
  | 35 => ⟨S_, .f32⟩
  | 36 => ⟨S8192x5, .f32⟩
  | 37 => ⟨S8192x5, .f32⟩
  | 38 => ⟨S_, .f32⟩
  | 39 => ⟨S8192x5, .f32⟩
  | 40 => ⟨S8192x5, .f32⟩
  | 41 => ⟨S8192x5, .f32⟩
  | 42 => ⟨S8192x10, .f32⟩
  | 43 => ⟨S1x10x5, .f32⟩
  | 44 => ⟨S10x5, .f32⟩
  | 45 => ⟨S8192x5, .f32⟩
  | 46 => ⟨S1x5, .f32⟩
  | 47 => ⟨S5, .f32⟩
  | 48 => ⟨S1x5, .f32⟩
  | 49 => ⟨S8192x5, .f32⟩
  | 50 => ⟨S8192x5, .f32⟩
  | 51 => ⟨S8192x5, .f32⟩
  | 52 => ⟨S_, .f32⟩
  | 53 => ⟨S8192x5, .f32⟩
  | 54 => ⟨S8192x5, .f32⟩
  | 55 => ⟨S8192x5, .f32⟩
  | 56 => ⟨S8192x5, .f32⟩
  | 57 => ⟨S8192x5, .f32⟩
  | 58 => ⟨S1x5x5, .f32⟩
  | 59 => ⟨S5x5, .f32⟩
  | 60 => ⟨S8192x5, .f32⟩
  | 61 => ⟨S1x5, .f32⟩
  | 62 => ⟨S5, .f32⟩
  | 63 => ⟨S1x5, .f32⟩
  | 64 => ⟨S8192x5, .f32⟩
  | 65 => ⟨S8192x5, .f32⟩
  | 66 => ⟨S_, .f32⟩
  | 67 => ⟨S8192x5, .f32⟩
  | 68 => ⟨S8192x5, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x5, .f32⟩
  | 78 => ⟨S_, .f32⟩
  | 79 => ⟨S8192x5, .f32⟩
  | 80 => ⟨S262144x1, .i32⟩
  | 81 => ⟨S8192x5, .f32⟩
  | 82 => ⟨S8192x10, .f32⟩
  | 83 => ⟨S1x10x5, .f32⟩
  | 84 => ⟨S10x5, .f32⟩
  | 85 => ⟨S8192x5, .f32⟩
  | 86 => ⟨S1x5, .f32⟩
  | 87 => ⟨S5, .f32⟩
  | 88 => ⟨S1x5, .f32⟩
  | 89 => ⟨S8192x5, .f32⟩
  | 90 => ⟨S8192x5, .f32⟩
  | 91 => ⟨S8192x5, .f32⟩
  | 92 => ⟨S8192x5, .f32⟩
  | 93 => ⟨S_, .f32⟩
  | 94 => ⟨S8192x5, .f32⟩
  | 95 => ⟨S8192x5, .f32⟩
  | 96 => ⟨S_, .f32⟩
  | 97 => ⟨S8192x5, .f32⟩
  | 98 => ⟨S8192x5, .f32⟩
  | 99 => ⟨S1x10x5, .f32⟩
  | 100 => ⟨S10x5, .f32⟩
  | 101 => ⟨S8192x5, .f32⟩
  | 102 => ⟨S1x5, .f32⟩
  | 103 => ⟨S5, .f32⟩
  | 104 => ⟨S1x5, .f32⟩
  | 105 => ⟨S8192x5, .f32⟩
  | 106 => ⟨S8192x5, .f32⟩
  | 107 => ⟨S8192x5, .f32⟩
  | 108 => ⟨S8192x5, .f32⟩
  | 109 => ⟨S_, .f32⟩
  | 110 => ⟨S8192x5, .f32⟩
  | 111 => ⟨S8192x5, .f32⟩
  | 112 => ⟨S_, .f32⟩
  | 113 => ⟨S8192x5, .f32⟩
  | 114 => ⟨S8192x5, .f32⟩
  | 115 => ⟨S8192x5, .f32⟩
  | 116 => ⟨S8192x10, .f32⟩
  | 117 => ⟨S1x10x5, .f32⟩
  | 118 => ⟨S10x5, .f32⟩
  | 119 => ⟨S8192x5, .f32⟩
  | 120 => ⟨S1x5, .f32⟩
  | 121 => ⟨S5, .f32⟩
  | 122 => ⟨S1x5, .f32⟩
  | 123 => ⟨S8192x5, .f32⟩
  | 124 => ⟨S8192x5, .f32⟩
  | 125 => ⟨S8192x5, .f32⟩
  | 126 => ⟨S_, .f32⟩
  | 127 => ⟨S8192x5, .f32⟩
  | _ => ⟨S8192x7, .f32⟩

abbrev hbmTy0_2 (i : Nat) : BufTy := match i % 128 with
  | 0 => ⟨S8192x5, .f32⟩
  | 1 => ⟨S8192x5, .f32⟩
  | 2 => ⟨S8192x5, .f32⟩
  | 3 => ⟨S8192x5, .f32⟩
  | 4 => ⟨S1x5x5, .f32⟩
  | 5 => ⟨S5x5, .f32⟩
  | 6 => ⟨S8192x5, .f32⟩
  | 7 => ⟨S1x5, .f32⟩
  | 8 => ⟨S5, .f32⟩
  | 9 => ⟨S1x5, .f32⟩
  | 10 => ⟨S8192x5, .f32⟩
  | 11 => ⟨S8192x5, .f32⟩
  | 12 => ⟨S_, .f32⟩
  | 13 => ⟨S8192x5, .f32⟩
  | 14 => ⟨S8192x5, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x5, .f32⟩
  | 24 => ⟨S_, .f32⟩
  | 25 => ⟨S8192x5, .f32⟩
  | 26 => ⟨S262144x1, .i32⟩
  | 27 => ⟨S8192x5, .f32⟩
  | 28 => ⟨S8192x10, .f32⟩
  | 29 => ⟨S1x10x5, .f32⟩
  | 30 => ⟨S10x5, .f32⟩
  | 31 => ⟨S8192x5, .f32⟩
  | 32 => ⟨S1x5, .f32⟩
  | 33 => ⟨S5, .f32⟩
  | 34 => ⟨S1x5, .f32⟩
  | 35 => ⟨S8192x5, .f32⟩
  | 36 => ⟨S8192x5, .f32⟩
  | 37 => ⟨S8192x5, .f32⟩
  | 38 => ⟨S8192x5, .f32⟩
  | 39 => ⟨S_, .f32⟩
  | 40 => ⟨S8192x5, .f32⟩
  | 41 => ⟨S8192x5, .f32⟩
  | 42 => ⟨S_, .f32⟩
  | 43 => ⟨S8192x5, .f32⟩
  | 44 => ⟨S8192x5, .f32⟩
  | 45 => ⟨S1x10x5, .f32⟩
  | 46 => ⟨S10x5, .f32⟩
  | 47 => ⟨S8192x5, .f32⟩
  | 48 => ⟨S1x5, .f32⟩
  | 49 => ⟨S5, .f32⟩
  | 50 => ⟨S1x5, .f32⟩
  | 51 => ⟨S8192x5, .f32⟩
  | 52 => ⟨S8192x5, .f32⟩
  | 53 => ⟨S8192x5, .f32⟩
  | 54 => ⟨S8192x5, .f32⟩
  | 55 => ⟨S_, .f32⟩
  | 56 => ⟨S8192x5, .f32⟩
  | 57 => ⟨S8192x5, .f32⟩
  | 58 => ⟨S_, .f32⟩
  | 59 => ⟨S8192x5, .f32⟩
  | 60 => ⟨S8192x5, .f32⟩
  | 61 => ⟨S8192x5, .f32⟩
  | 62 => ⟨S8192x10, .f32⟩
  | 63 => ⟨S1x10x5, .f32⟩
  | 64 => ⟨S10x5, .f32⟩
  | 65 => ⟨S8192x5, .f32⟩
  | 66 => ⟨S1x5, .f32⟩
  | 67 => ⟨S5, .f32⟩
  | 68 => ⟨S1x5, .f32⟩
  | 69 => ⟨S8192x5, .f32⟩
  | 70 => ⟨S8192x5, .f32⟩
  | 71 => ⟨S8192x5, .f32⟩
  | 72 => ⟨S_, .f32⟩
  | 73 => ⟨S8192x5, .f32⟩
  | 74 => ⟨S8192x5, .f32⟩
  | 75 => ⟨S8192x5, .f32⟩
  | 76 => ⟨S8192x5, .f32⟩
  | 77 => ⟨S8192x5, .f32⟩
  | 78 => ⟨S8192x5, .f32⟩
  | 79 => ⟨S1x5, .f32⟩
  | 80 => ⟨S8192x5, .f32⟩
  | 81 => ⟨S8192x5, .f32⟩
  | 82 => ⟨S8192x5, .f32⟩
  | 83 => ⟨S1x5, .f32⟩
  | 84 => ⟨S8192x5, .f32⟩
  | 85 => ⟨S8192x5, .f32⟩
  | 86 => ⟨S_, .f32⟩
  | 87 => ⟨S8192x5, .f32⟩
  | 88 => ⟨S8192x5, .f32⟩
  | 89 => ⟨S8192x5, .f32⟩
  | 90 => ⟨S8192x5, .f32⟩
  | 91 => ⟨S8192x5, .f32⟩
  | 92 => ⟨S5x8192, .f32⟩
  | 93 => ⟨S8192x8192, .f32⟩
  | 94 => ⟨S8192x8192, .f32⟩
  | 95 => ⟨S8192x8192, .f32⟩
  | 96 => ⟨S_, .f32⟩
  | 97 => ⟨S8192x8192, .f32⟩
  | 98 => ⟨S8192x8192, .f32⟩
  | 99 => ⟨S_, .f32⟩
  | 100 => ⟨S8192x8192, .f32⟩
  | 101 => ⟨S8192x8192, .f32⟩
  | _ => ⟨S8192x7, .f32⟩

abbrev hbmTy (i : Nat) : BufTy := match i / 128 with
  | 0 => hbmTy0_0 i
  | 1 => hbmTy0_1 i
  | 2 => hbmTy0_2 i
  | _ => ⟨S8192x7, .f32⟩

abbrev bufTy : (tb : Table) → Fin (tcTables nBuf tb) → BufTy
  | .hbm, ⟨i, _⟩ => hbmTy i
  | _, _ => ⟨S8192x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call0_cst : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_cst : Ref sig .tc := ⟨.hbm, 46, rfl⟩
abbrev main_call1_v0 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_c_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call2_cst : Ref sig .tc := ⟨.hbm, 120, rfl⟩
abbrev main_call2_v0 : Ref sig .tc := ⟨.hbm, 121, rfl⟩
abbrev main_v87 : Ref sig .tc := ⟨.hbm, 122, rfl⟩
abbrev main_c_8 : Ref sig .tc := ⟨.hbm, 123, rfl⟩
abbrev main_v88 : Ref sig .tc := ⟨.hbm, 124, rfl⟩
abbrev main_v89 : Ref sig .tc := ⟨.hbm, 125, rfl⟩
abbrev main_c_9 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_10 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_11 : Ref sig .tc := ⟨.hbm, 147, rfl⟩
abbrev main_v109 : Ref sig .tc := ⟨.hbm, 148, rfl⟩
abbrev main_v110 : Ref sig .tc := ⟨.hbm, 149, rfl⟩
abbrev main_cst_12 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_13 : Ref sig .tc := ⟨.hbm, 163, rfl⟩
abbrev main_v123 : Ref sig .tc := ⟨.hbm, 164, rfl⟩
abbrev main_v124 : Ref sig .tc := ⟨.hbm, 165, rfl⟩
abbrev main_cst_14 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_15 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_call3_cst : Ref sig .tc := ⟨.hbm, 194, rfl⟩
abbrev main_call3_v0 : Ref sig .tc := ⟨.hbm, 195, rfl⟩
abbrev main_v151 : Ref sig .tc := ⟨.hbm, 196, rfl⟩
abbrev main_c_16 : Ref sig .tc := ⟨.hbm, 197, rfl⟩
abbrev main_v152 : Ref sig .tc := ⟨.hbm, 198, rfl⟩
abbrev main_v153 : Ref sig .tc := ⟨.hbm, 199, rfl⟩
abbrev main_c_17 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_18 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_19 : Ref sig .tc := ⟨.hbm, 221, rfl⟩
abbrev main_v173 : Ref sig .tc := ⟨.hbm, 222, rfl⟩
abbrev main_v174 : Ref sig .tc := ⟨.hbm, 223, rfl⟩
abbrev main_cst_20 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_21 : Ref sig .tc := ⟨.hbm, 237, rfl⟩
abbrev main_v187 : Ref sig .tc := ⟨.hbm, 238, rfl⟩
abbrev main_v188 : Ref sig .tc := ⟨.hbm, 239, rfl⟩
abbrev main_cst_22 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_23 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_call4_cst : Ref sig .tc := ⟨.hbm, 268, rfl⟩
abbrev main_call4_v0 : Ref sig .tc := ⟨.hbm, 269, rfl⟩
abbrev main_v215 : Ref sig .tc := ⟨.hbm, 270, rfl⟩
abbrev main_c_24 : Ref sig .tc := ⟨.hbm, 271, rfl⟩
abbrev main_v216 : Ref sig .tc := ⟨.hbm, 272, rfl⟩
abbrev main_v217 : Ref sig .tc := ⟨.hbm, 273, rfl⟩
abbrev main_c_25 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_cst_26 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_cst_27 : Ref sig .tc := ⟨.hbm, 295, rfl⟩
abbrev main_v237 : Ref sig .tc := ⟨.hbm, 296, rfl⟩
abbrev main_v238 : Ref sig .tc := ⟨.hbm, 297, rfl⟩
abbrev main_cst_28 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_cst_29 : Ref sig .tc := ⟨.hbm, 311, rfl⟩
abbrev main_v251 : Ref sig .tc := ⟨.hbm, 312, rfl⟩
abbrev main_v252 : Ref sig .tc := ⟨.hbm, 313, rfl⟩
abbrev main_cst_30 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_cst_31 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_cst_32 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_cst_33 : Ref sig .tc := ⟨.hbm, 352, rfl⟩
abbrev main_v288 : Ref sig .tc := ⟨.hbm, 353, rfl⟩
abbrev main_v289 : Ref sig .tc := ⟨.hbm, 354, rfl⟩
abbrev main_cst_34 : Ref sig .tc := ⟨.hbm, 355, rfl⟩
abbrev main_v290 : Ref sig .tc := ⟨.hbm, 356, rfl⟩
abbrev main_v291 : Ref sig .tc := ⟨.hbm, 357, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x7 : S_.BroadcastsInDim S8192x7 (![] : Fin 0 → Fin S8192x7.rank)
  bcast_S5_S1x5_1 : S5.BroadcastsInDim S1x5 (![1] : Fin 1 → Fin S1x5.rank)
  bcast_S1x5_S8192x5_0_1 : S1x5.BroadcastsInDim S8192x5 (![0, 1] : Fin 2 → Fin S8192x5.rank)
  bcast_S_S8192x5 : S_.BroadcastsInDim S8192x5 (![] : Fin 0 → Fin S8192x5.rank)
  slices_S4x5x5_S1x5x5_0_0_0 : S4x5x5.Slices ![0, 0, 0] S1x5x5
  shapeCasts_S1x5x5_S5x5 : S1x5x5.ShapeCasts S5x5
  slices_S4x5_S1x5_0_0 : S4x5.Slices ![0, 0] S1x5
  shapeCasts_S1x5_S5 : S1x5.ShapeCasts S5
  bcast_S_S262144 : S_.BroadcastsInDim S262144 (![] : Fin 0 → Fin S262144.rank)
  bcast_S262144_S262144x1_0 : S262144.BroadcastsInDim S262144x1 (![0] : Fin 1 → Fin S262144x1.rank)
  concatenates_S8192x5_S8192x5_S8192x10_d1 : Shape.Concatenates [S8192x5, S8192x5] S8192x10 1
  slices_S4x10x5_S1x10x5_0_0_0 : S4x10x5.Slices ![0, 0, 0] S1x10x5
  shapeCasts_S1x10x5_S10x5 : S1x10x5.ShapeCasts S10x5
  slices_S4x5x5_S1x5x5_1_0_0 : S4x5x5.Slices ![1, 0, 0] S1x5x5
  slices_S4x5_S1x5_1_0 : S4x5.Slices ![1, 0] S1x5
  slices_S4x10x5_S1x10x5_1_0_0 : S4x10x5.Slices ![1, 0, 0] S1x10x5
  slices_S4x5x5_S1x5x5_2_0_0 : S4x5x5.Slices ![2, 0, 0] S1x5x5
  slices_S4x5_S1x5_2_0 : S4x5.Slices ![2, 0] S1x5
  slices_S4x10x5_S1x10x5_2_0_0 : S4x10x5.Slices ![2, 0, 0] S1x10x5
  slices_S4x5x5_S1x5x5_3_0_0 : S4x5x5.Slices ![3, 0, 0] S1x5x5
  slices_S4x5_S1x5_3_0 : S4x5.Slices ![3, 0] S1x5
  slices_S4x10x5_S1x10x5_3_0_0 : S4x10x5.Slices ![3, 0, 0] S1x10x5
  transposes_S8192x5_S5x8192_1_0 : S8192x5.Transposes [1, 0] S5x8192
  bcast_S_S8192x8192 : S_.BroadcastsInDim S8192x8192 (![] : Fin 0 → Fin S8192x8192.rank)
  dot_S8192x7_S7x5_S8192x5_1_0_0_1_n_n_wf : DotDims.WF S8192x7 S7x5 S8192x5 [1] [0] [0] [1] [] []
  dot_S8192x5_S5x5_S8192x5_1_0_0_1_n_n_wf : DotDims.WF S8192x5 S5x5 S8192x5 [1] [0] [0] [1] [] []
  gather_S8192x5_S262144x1_S262144x5_1_0_n_n_0_1_15_wf : GatherDims.WF S8192x5 S262144x1 S262144x5 [1] [0] [] [0] [] 1 ![1, 5]
  scatter_S8192x5_S262144x1_S262144x5_1_0_0_1_wf : ScatterDims.WF S8192x5 S262144x1 S262144x5 [1] [0] [0] 1
  dot_S8192x10_S10x5_S8192x5_1_0_0_1_n_n_wf : DotDims.WF S8192x10 S10x5 S8192x5 [1] [0] [0] [1] [] []
  dot_S8192x5_S5x8192_S8192x8192_1_0_0_1_n_n_wf : DotDims.WF S8192x5 S5x8192 S8192x8192 [1] [0] [0] [1] [] []

variable [Facts₀]

def dot_S8192x7_S7x5_S8192x5_1_0_0_1_n_n : DotDims S8192x7 S7x5 S8192x5 where
  lhsContracting := [1]
  rhsContracting := [0]
  lhsNonContracting := [0]
  rhsNonContracting := [1]
  lhsBatch := []
  rhsBatch := []
  wf := dot_S8192x7_S7x5_S8192x5_1_0_0_1_n_n_wf
def dot_S8192x5_S5x5_S8192x5_1_0_0_1_n_n : DotDims S8192x5 S5x5 S8192x5 where
  lhsContracting := [1]
  rhsContracting := [0]
  lhsNonContracting := [0]
  rhsNonContracting := [1]
  lhsBatch := []
  rhsBatch := []
  wf := dot_S8192x5_S5x5_S8192x5_1_0_0_1_n_n_wf
def gather_S8192x5_S262144x1_S262144x5_1_0_n_n_0_1_15 : GatherDims S8192x5 S262144x1 S262144x5 where
  offsetDims := [1]
  collapsedSliceDims := [0]
  operandBatchingDims := []
  startIndicesBatchingDims := []
  startIndexMap := [0]
  indexVectorDim := 1
  sliceSizes := ![1, 5]
  wf := gather_S8192x5_S262144x1_S262144x5_1_0_n_n_0_1_15_wf
def scatter_S8192x5_S262144x1_S262144x5_1_0_0_1 : ScatterDims S8192x5 S262144x1 S262144x5 where
  updateWindowDims := [1]
  insertedWindowDims := [0]
  scatterDimsToOperandDims := [0]
  indexVectorDim := 1
  wf := scatter_S8192x5_S262144x1_S262144x5_1_0_0_1_wf
def dot_S8192x10_S10x5_S8192x5_1_0_0_1_n_n : DotDims S8192x10 S10x5 S8192x5 where
  lhsContracting := [1]
  rhsContracting := [0]
  lhsNonContracting := [0]
  rhsNonContracting := [1]
  lhsBatch := []
  rhsBatch := []
  wf := dot_S8192x10_S10x5_S8192x5_1_0_0_1_n_n_wf
def dot_S8192x5_S5x8192_S8192x8192_1_0_0_1_n_n : DotDims S8192x5 S5x8192 S8192x8192 where
  lhsContracting := [1]
  rhsContracting := [0]
  lhsNonContracting := [0]
  rhsNonContracting := [1]
  lhsBatch := []
  rhsBatch := []
  wf := dot_S8192x5_S5x8192_S8192x8192_1_0_0_1_n_n_wf

class Facts : Prop extends Facts₀ where

variable [Facts]
-- ==== Proof.LibSharedLaunch.lean ====
/-
  A pipelined kernel may be handed ONE array through several input windows (an activation read in four channel
  slices, a weight matrix read in four row slices).  The launch then cannot hold every window's array at the full
  share: the buffer behind a shared array is dealt among the windows on it.  This file states the frame run for
  such a kernel once: the certificate says how the distinct buffers behind the arrays make the proof data's
  arrays at entry, and the run concludes the same post as for distinct arrays — every window's array at what the
  write-backs leave, every other unscoped buffer as the region found it.  The region invariant is the scoped
  buffers that are no staging buffer, at some contents; the generator register is not needed by such a body.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a one-region program whose windows may share arrays.  `hsplit` deals the buffers behind the
    arrays, each whole at the full share at the region-entry contents `V`, among the windows; the proof data's
    invariant is the scoped rest at every point.  Every final state has each window's array at the proof data's
    `arrAt … N` and every unscoped buffer that is no window's array at `V`. -/
theorem θ_run_frame_sharedArrays (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩
      iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KernelMain.lean ====
/-
  The frame run of `Kernel`: @main is a long line of host operations followed by one pipelined region whose two
  input windows read ONE array (the node embeddings `z`, once by row tiles and once by column tiles) and whose
  output window is the dense decoder's result.  The buffer behind the shared array is dealt between the two input
  windows as the two halves of the full share; the body loads both tiles, forms the tile of sigmoid (z zᵀ) and stores
  it over the whole output tile.  Nothing here depends on what the host line computes: only that it writes no
  argument array.
-/
import proofs.«112254_j79388175499762_1_alg».proof.Proof.Gen.Kernel.Launch
import proofs.«112254_j79388175499762_1_alg».proof.Proof.Gen.Kernel.Skeleton
import proofs.«112254_j79388175499762_1_alg».proof.Proof.Gen.Kernel.Points
import proofs.«112254_j79388175499762_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host line before the region, stretch by stretch. -/
abbrev hostLine : List (List (HloOp τ sig (Elt F))) := [hostOps0, hostOps0_1, hostOps0_2, hostOps0_3, hostOps0_4, hostOps0_5, hostOps0_6, hostOps0_7, hostOps0_8, hostOps0_9, hostOps0_10]

/-- Core `c`'s buffers when the region is entered: the launch contents after the host line. -/
abbrev V (c : Dev nD) (b : Ref sig .tc) : Buf (Elt F) ((c : Thread nD τ).loc b) :=
  StableHlo.after (List.flatten (hostLine (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostLine (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-! ## The host line writes no argument array -/

/-- The references stretch 0 of the host line writes. -/
abbrev W0 : List (Ref sig .tc) := [main_v0, main_v1, main_v2, main_v3, main_cst, main_v4, main_v5, main_v6, main_v7, main_cst_0, main_v8, main_v9, main_v10, main_v11, main_v12, main_v13]
theorem writes0 : (hostOps0 : List (HloOp τ sig (Elt F))).Forall fun op => op.writes ⊆ (W0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 1 of the host line writes. -/
abbrev W1 : List (Ref sig .tc) := [main_call0_cst, main_call0_v0, main_v14]
theorem writes1 : (hostOps0_1 : List (HloOp τ sig (Elt F))).Forall fun op => op.writes ⊆ (W1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 2 of the host line writes. -/
abbrev W2 : List (Ref sig .tc) := [main_v15, main_v16, main_v17, main_v18, main_v19, main_v20, main_v21, main_v22]
theorem writes2 : (hostOps0_2 : List (HloOp τ sig (Elt F))).Forall fun op => op.writes ⊆ (W2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 3 of the host line writes. -/
abbrev W3 : List (Ref sig .tc) := [main_call1_cst, main_call1_v0, main_v23]
theorem writes3 : (hostOps0_3 : List (HloOp τ sig (Elt F))).Forall fun op => op.writes ⊆ (W3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 4 of the host line writes. -/
abbrev W4 : List (Ref sig .tc) := [main_c, main_v24, main_v25, main_c_1, main_v26, main_v27, main_v28, main_v29, main_v30, main_cst_2, main_v31, main_v32, main_v33, main_v34, main_v35, main_v36, main_v37, main_v38, main_v39, main_v40, main_v41, main_v42, main_v43, main_v44, main_cst_3, main_v45, main_v46, main_cst_4, main_v47, main_v48, main_v49, main_v50, main_v51, main_v52, main_v53, main_v54, main_v55, main_v56, main_v57, main_v58, main_cst_5, main_v59, main_v60, main_cst_6, main_v61, main_v62, main_v63, main_v64, main_v65, main_v66, main_v67, main_v68, main_v69, main_v70, main_v71, main_v72, main_v73, main_cst_7, main_v74, main_v75, main_v76, main_v77, main_v78, main_v79, main_v80, main_v81, main_v82, main_v83, main_v84, main_v85, main_v86]
theorem writes4 : (hostOps0_4 : List (HloOp τ sig (Elt F))).Forall fun op => op.writes ⊆ (W4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 5 of the host line writes. -/
abbrev W5 : List (Ref sig .tc) := [main_call2_cst, main_call2_v0, main_v87]
theorem writes5 : (hostOps0_5 : List (HloOp τ sig (Elt F))).Forall fun op => op.writes ⊆ (W5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 6 of the host line writes. -/
abbrev W6 : List (Ref sig .tc) := [main_c_8, main_v88, main_v89, main_c_9, main_v90, main_v91, main_v92, main_v93, main_v94, main_cst_10, main_v95, main_v96, main_v97, main_v98, main_v99, main_v100, main_v101, main_v102, main_v103, main_v104, main_v105, main_v106, main_v107, main_v108, main_cst_11, main_v109, main_v110, main_cst_12, main_v111, main_v112, main_v113, main_v114, main_v115, main_v116, main_v117, main_v118, main_v119, main_v120, main_v121, main_v122, main_cst_13, main_v123, main_v124, main_cst_14, main_v125, main_v126, main_v127, main_v128, main_v129, main_v130, main_v131, main_v132, main_v133, main_v134, main_v135, main_v136, main_v137, main_cst_15, main_v138, main_v139, main_v140, main_v141, main_v142, main_v143, main_v144, main_v145, main_v146, main_v147, main_v148, main_v149, main_v150]
theorem writes6 : (hostOps0_6 : List (HloOp τ sig (Elt F))).Forall fun op => op.writes ⊆ (W6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 7 of the host line writes. -/
abbrev W7 : List (Ref sig .tc) := [main_call3_cst, main_call3_v0, main_v151]
theorem writes7 : (hostOps0_7 : List (HloOp τ sig (Elt F))).Forall fun op => op.writes ⊆ (W7.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 8 of the host line writes. -/
abbrev W8 : List (Ref sig .tc) := [main_c_16, main_v152, main_v153, main_c_17, main_v154, main_v155, main_v156, main_v157, main_v158, main_cst_18, main_v159, main_v160, main_v161, main_v162, main_v163, main_v164, main_v165, main_v166, main_v167, main_v168, main_v169, main_v170, main_v171, main_v172, main_cst_19, main_v173, main_v174, main_cst_20, main_v175, main_v176, main_v177, main_v178, main_v179, main_v180, main_v181, main_v182, main_v183, main_v184, main_v185, main_v186, main_cst_21, main_v187, main_v188, main_cst_22, main_v189, main_v190, main_v191, main_v192, main_v193, main_v194, main_v195, main_v196, main_v197, main_v198, main_v199, main_v200, main_v201, main_cst_23, main_v202, main_v203, main_v204, main_v205, main_v206, main_v207, main_v208, main_v209, main_v210, main_v211, main_v212, main_v213, main_v214]
theorem writes8 : (hostOps0_8 : List (HloOp τ sig (Elt F))).Forall fun op => op.writes ⊆ (W8.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 9 of the host line writes. -/
abbrev W9 : List (Ref sig .tc) := [main_call4_cst, main_call4_v0, main_v215]
theorem writes9 : (hostOps0_9 : List (HloOp τ sig (Elt F))).Forall fun op => op.writes ⊆ (W9.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 10 of the host line writes. -/
abbrev W10 : List (Ref sig .tc) := [main_c_24, main_v216, main_v217, main_c_25, main_v218, main_v219, main_v220, main_v221, main_v222, main_cst_26, main_v223, main_v224, main_v225, main_v226, main_v227, main_v228, main_v229, main_v230, main_v231, main_v232, main_v233, main_v234, main_v235, main_v236, main_cst_27, main_v237, main_v238, main_cst_28, main_v239, main_v240, main_v241, main_v242, main_v243, main_v244, main_v245, main_v246, main_v247, main_v248, main_v249, main_v250, main_cst_29, main_v251, main_v252, main_cst_30, main_v253, main_v254, main_v255, main_v256, main_v257, main_v258, main_v259, main_v260, main_v261, main_v262, main_v263, main_v264, main_v265, main_cst_31, main_v266, main_v267, main_v268, main_v269, main_v270, main_v271, main_v272, main_v273, main_v274, main_v275, main_v276, main_v277, main_v278, main_cst_32, main_v279, main_v280, main_v281, main_v282, main_v283]
theorem writes10 : (hostOps0_10 : List (HloOp τ sig (Elt F))).Forall fun op => op.writes ⊆ (W10.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference outside a list that holds everything a stretch writes is written by none of its operations. -/
theorem not_written {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, (Proc.devRef .tc r : DevRef τ sig) ∉ op.writes := fun op hop hb => by
  obtain ⟨y, hy, he⟩ := List.mem_map.mp (List.mem_toFinset.mp ((List.forall_iff_forall_mem.mp hW) op hop hb))
  exact hr (Proc.devRef_injective _ he ▸ hy)

/-- A reference no stretch writes is found by the region as launched. -/
theorem V_kept (c : Dev nD) (r : Ref sig .tc) (h0 : r ∉ W0) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    V m c r = m ((c : Thread nD τ).loc r) :=
  StableHlo.after_of_forall_not_mem (b := Proc.devRef .tc r) _ _ fun op hop => by
    obtain ⟨ops, ho, h'⟩ := List.mem_flatten.mp hop
    simp only [hostLine, List.mem_cons, List.not_mem_nil, or_false] at ho
    rcases ho with rfl | rfl | rfl | rfl | rfl | rfl | rfl | rfl | rfl | rfl | rfl
    · exact not_written _ writes0 h0 op h'
    · exact not_written _ writes1 h1 op h'
    · exact not_written _ writes2 h2 op h'
    · exact not_written _ writes3 h3 op h'
    · exact not_written _ writes4 h4 op h'
    · exact not_written _ writes5 h5 op h'
    · exact not_written _ writes6 h6 op h'
    · exact not_written _ writes7 h7 op h'
    · exact not_written _ writes8 h8 op h'
    · exact not_written _ writes9 h9 op h'
    · exact not_written _ writes10 h10 op h'

theorem V_main_arg0 (c : Dev nD) : V m c main_arg0 = m ((c : Thread nD τ).loc main_arg0) :=
  V_kept m c main_arg0 (by decide) (by decide) (by decide) (by decide) (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide) (by decide) (by decide) (by decide) (by decide)

end Cert.Kernel.Hand

end
-- ==== Proof.KernelBody.lean ====
/-
  The pipelined region of `Kernel` point by point.  At grid point (i, j) the body is handed row tile i and row tile j of
  the embeddings z (2048 × 5 each) and an output tile; it loads both, forms logistic (zᵢ · zⱼᵀ) — a 2048 × 2048 tile —
  and stores it over the whole output tile.  The proof data says so: each input buffer holds its block before and
  after the body, the output buffer holds the one store's payload.  The two input windows read one array, whose
  buffer they hold as the two halves of the full share.
-/
import proofs.«112254_j79388175499762_1_alg».proof.Proof.KernelMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rIn : Rect S2048x5 := Rect.unit (s := S2048x5) ![0, 0] S2048x5.size inb_S2048x5_S2048x5_0_0
abbrev rOut : Rect S2048x2048 := Rect.unit (s := S2048x2048) ![0, 0] S2048x2048.size inb_S2048x2048_S2048x2048_0_0

/-- The output buffer after the body: its one store, over the whole tile, of the payload of the two loaded tiles. -/
def outTile (x0 : Vec F S2048x5 .f32) (x1 : Vec F S2048x5 .f32) : Vec F S2048x2048 .f32 :=
  View.canon [⟨rOut, k0_pay1 (View.ld x0 rIn) (View.ld x1 rIn)⟩]

/-- The store covers the buffer. -/
theorem coverOut (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs, the inputs' at contents `x0`, `x1` and the output's at anything, runs to the
    continuation holding the inputs' as they were and the output's at `outTile x0 x1`. -/
theorem sound_kernel (c : Dev nD) (E : Set ℕ) (i : grid0.Coords) (arg2 : Memref sig .tc .vmem S2048x5 .f32) (harg2 : arg2.IsWhole)
    (arg3 : Memref sig .tc .vmem S2048x5 .f32) (harg3 : arg3.IsWhole) (arg4 : Memref sig .tc .vmem S2048x2048 .f32) (harg4 : arg4.IsWhole)
    (x0 : Vec F S2048x5 .f32) (x1 : Vec F S2048x5 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__decoder_kernel i arg2 harg2 arg3 harg3 arg4 harg4) K := by
  simp only [cc0__decoder_kernel_eq_skeleton]; unfold cc0__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input buffer at
    its block and the output buffer at `outTile` of the two blocks; the invariant the scoped rest; nothing owed; the
    shared input array held by window 0 at the left half and by window 1 at the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The run of `Kernel`: every weakly fair execution of @main terminates; the output array ends at what the write-backs of
  the sixteen grid points leave, every other unscoped buffer as the region found it — in particular the argument arrays,
  which the host line does not write, as launched.
-/
import proofs.«112254_j79388175499762_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The two buffers behind the three windows' arrays, each whole at the full share, make the windows' arrays: the
    embeddings' buffer is split into its left and right halves for the two input windows. -/
theorem hsplit (c : Dev nD) :
    (Pipeline.arrBufs spec0 c (V m c) : sProp 𝕄) ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_v283 ↦{fullShare.left} V m c main_v283) := by
    rw [(arr_whole0 0).set_eq_univ]
    show (_ ↦{_} (dats m 0 c).A 0 : sProp 𝕄) = _
    rw [A_eq]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_v283 ↦{fullShare.right} V m c main_v283) := by
    rw [(arr_whole0 1).set_eq_univ]
    show (_ ↦{_} (dats m 0 c).A 1 : sProp 𝕄) = _
    rw [A_eq]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_v284 ↦{fullShare} V m c main_v284) := by
    rw [(arr_whole0 2).set_eq_univ]
    show (_ ↦{_} (dats m 0 c).A 2 : sProp 𝕄) = _
    rw [A_eq]; rfl
  unfold Pipeline.arrBufs Dat.arrays
  rw [bigSep_W0, e0, e1, e2, bigSep_eq_bigSepL_of_eq [main_v283, main_v284] (by decide) (by decide)]
  show iprop(((c.tc : Thread nD τ).loc main_v283 ↦{fullShare} V m c main_v283) ∗ ((c.tc : Thread nD τ).loc main_v284 ↦{fullShare} V m c main_v284)) ⊢ _
  iintro ⟨Hz, Ho⟩
  ihave Hz2 := (pointsTo_share (PosShare.mem_left_op_right fullShare)).1 $$ Hz
  icases Hz2 with ⟨Hl, Hr⟩
  isplitl [Hl]; · iexact Hl
  isplitl [Hr]; · iexact Hr
  iexact Ho

set_option backward.isDefEq.respectTransparency.types false in
theorem run_main : θ_run defs (onTc (τ := τ) (main (F := F))) (s₀ m ρ) (Pipeline.FramePost cfgs (dats m) 0 (V m)) :=
  Pipeline.θ_run_frame_sharedArrays cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: @main terminates and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.Kernel.Hand

end
-- ==== Proof.KernelIdealMain.lean ====
/-
  The frame run of `KernelIdeal`: @main is a long line of host operations followed by one pipelined region whose two
  input windows read ONE array (the node embeddings `z`, once by row tiles and once by column tiles) and whose
  output window is the dense decoder's result.  The buffer behind the shared array is dealt between the two input
  windows as the two halves of the full share; the body loads both tiles, forms the tile of sigmoid (z zᵀ) and stores
  it over the whole output tile.  Nothing here depends on what the host line computes: only that it writes no
  argument array.
-/
import proofs.«112254_j79388175499762_1_alg».proof.Proof.Gen.KernelIdeal.Launch
import proofs.«112254_j79388175499762_1_alg».proof.Proof.Gen.KernelIdeal.Skeleton
import proofs.«112254_j79388175499762_1_alg».proof.Proof.Gen.KernelIdeal.Points
import proofs.«112254_j79388175499762_1_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host line before the region, stretch by stretch. -/
abbrev hostLine : List (List (HloOp τ sig (Elt F))) := [hostOps0, hostOps0_1, hostOps0_2, hostOps0_3, hostOps0_4, hostOps0_5, hostOps0_6, hostOps0_7, hostOps0_8, hostOps0_9, hostOps0_10]

/-- Core `c`'s buffers when the region is entered: the launch contents after the host line. -/
abbrev V (c : Dev nD) (b : Ref sig .tc) : Buf (Elt F) ((c : Thread nD τ).loc b) :=
  StableHlo.after (List.flatten (hostLine (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostLine (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-! ## The host line writes no argument array -/

/-- The references stretch 0 of the host line writes. -/
abbrev W0 : List (Ref sig .tc) := [main_v0, main_v1, main_v2, main_v3, main_cst, main_v4, main_v5, main_v6, main_v7, main_cst_0, main_v8, main_v9, main_v10, main_v11, main_v12, main_v13]
theorem writes0 : (hostOps0 : List (HloOp τ sig (Elt F))).Forall fun op => op.writes ⊆ (W0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 1 of the host line writes. -/
abbrev W1 : List (Ref sig .tc) := [main_call0_cst, main_call0_v0, main_v14]
theorem writes1 : (hostOps0_1 : List (HloOp τ sig (Elt F))).Forall fun op => op.writes ⊆ (W1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 2 of the host line writes. -/
abbrev W2 : List (Ref sig .tc) := [main_v15, main_v16, main_v17, main_v18, main_v19, main_v20, main_v21, main_v22]
theorem writes2 : (hostOps0_2 : List (HloOp τ sig (Elt F))).Forall fun op => op.writes ⊆ (W2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 3 of the host line writes. -/
abbrev W3 : List (Ref sig .tc) := [main_call1_cst, main_call1_v0, main_v23]
theorem writes3 : (hostOps0_3 : List (HloOp τ sig (Elt F))).Forall fun op => op.writes ⊆ (W3.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 4 of the host line writes. -/
abbrev W4 : List (Ref sig .tc) := [main_c, main_v24, main_v25, main_c_1, main_v26, main_v27, main_v28, main_v29, main_v30, main_cst_2, main_v31, main_v32, main_v33, main_v34, main_v35, main_v36, main_v37, main_v38, main_v39, main_v40, main_v41, main_v42, main_v43, main_v44, main_cst_3, main_v45, main_v46, main_cst_4, main_v47, main_v48, main_v49, main_v50, main_v51, main_v52, main_v53, main_v54, main_v55, main_v56, main_v57, main_v58, main_cst_5, main_v59, main_v60, main_cst_6, main_v61, main_v62, main_v63, main_v64, main_v65, main_v66, main_v67, main_v68, main_v69, main_v70, main_v71, main_v72, main_v73, main_cst_7, main_v74, main_v75, main_v76, main_v77, main_v78, main_v79, main_v80, main_v81, main_v82, main_v83, main_v84, main_v85, main_v86]
theorem writes4 : (hostOps0_4 : List (HloOp τ sig (Elt F))).Forall fun op => op.writes ⊆ (W4.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 5 of the host line writes. -/
abbrev W5 : List (Ref sig .tc) := [main_call2_cst, main_call2_v0, main_v87]
theorem writes5 : (hostOps0_5 : List (HloOp τ sig (Elt F))).Forall fun op => op.writes ⊆ (W5.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 6 of the host line writes. -/
abbrev W6 : List (Ref sig .tc) := [main_c_8, main_v88, main_v89, main_c_9, main_v90, main_v91, main_v92, main_v93, main_v94, main_cst_10, main_v95, main_v96, main_v97, main_v98, main_v99, main_v100, main_v101, main_v102, main_v103, main_v104, main_v105, main_v106, main_v107, main_v108, main_cst_11, main_v109, main_v110, main_cst_12, main_v111, main_v112, main_v113, main_v114, main_v115, main_v116, main_v117, main_v118, main_v119, main_v120, main_v121, main_v122, main_cst_13, main_v123, main_v124, main_cst_14, main_v125, main_v126, main_v127, main_v128, main_v129, main_v130, main_v131, main_v132, main_v133, main_v134, main_v135, main_v136, main_v137, main_cst_15, main_v138, main_v139, main_v140, main_v141, main_v142, main_v143, main_v144, main_v145, main_v146, main_v147, main_v148, main_v149, main_v150]
theorem writes6 : (hostOps0_6 : List (HloOp τ sig (Elt F))).Forall fun op => op.writes ⊆ (W6.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 7 of the host line writes. -/
abbrev W7 : List (Ref sig .tc) := [main_call3_cst, main_call3_v0, main_v151]
theorem writes7 : (hostOps0_7 : List (HloOp τ sig (Elt F))).Forall fun op => op.writes ⊆ (W7.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 8 of the host line writes. -/
abbrev W8 : List (Ref sig .tc) := [main_c_16, main_v152, main_v153, main_c_17, main_v154, main_v155, main_v156, main_v157, main_v158, main_cst_18, main_v159, main_v160, main_v161, main_v162, main_v163, main_v164, main_v165, main_v166, main_v167, main_v168, main_v169, main_v170, main_v171, main_v172, main_cst_19, main_v173, main_v174, main_cst_20, main_v175, main_v176, main_v177, main_v178, main_v179, main_v180, main_v181, main_v182, main_v183, main_v184, main_v185, main_v186, main_cst_21, main_v187, main_v188, main_cst_22, main_v189, main_v190, main_v191, main_v192, main_v193, main_v194, main_v195, main_v196, main_v197, main_v198, main_v199, main_v200, main_v201, main_cst_23, main_v202, main_v203, main_v204, main_v205, main_v206, main_v207, main_v208, main_v209, main_v210, main_v211, main_v212, main_v213, main_v214]
theorem writes8 : (hostOps0_8 : List (HloOp τ sig (Elt F))).Forall fun op => op.writes ⊆ (W8.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 9 of the host line writes. -/
abbrev W9 : List (Ref sig .tc) := [main_call4_cst, main_call4_v0, main_v215]
theorem writes9 : (hostOps0_9 : List (HloOp τ sig (Elt F))).Forall fun op => op.writes ⊆ (W9.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- The references stretch 10 of the host line writes. -/
abbrev W10 : List (Ref sig .tc) := [main_c_24, main_v216, main_v217, main_c_25, main_v218, main_v219, main_v220, main_v221, main_v222, main_cst_26, main_v223, main_v224, main_v225, main_v226, main_v227, main_v228, main_v229, main_v230, main_v231, main_v232, main_v233, main_v234, main_v235, main_v236, main_cst_27, main_v237, main_v238, main_cst_28, main_v239, main_v240, main_v241, main_v242, main_v243, main_v244, main_v245, main_v246, main_v247, main_v248, main_v249, main_v250, main_cst_29, main_v251, main_v252, main_cst_30, main_v253, main_v254, main_v255, main_v256, main_v257, main_v258, main_v259, main_v260, main_v261, main_v262, main_v263, main_v264, main_v265, main_cst_31, main_v266, main_v267, main_v268, main_v269, main_v270, main_v271, main_v272, main_v273, main_v274, main_v275, main_v276, main_v277, main_v278, main_cst_32, main_v279, main_v280, main_v281, main_v282, main_v283]
theorem writes10 : (hostOps0_10 : List (HloOp τ sig (Elt F))).Forall fun op => op.writes ⊆ (W10.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- A reference outside a list that holds everything a stretch writes is written by none of its operations. -/
theorem not_written {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, (Proc.devRef .tc r : DevRef τ sig) ∉ op.writes := fun op hop hb => by
  obtain ⟨y, hy, he⟩ := List.mem_map.mp (List.mem_toFinset.mp ((List.forall_iff_forall_mem.mp hW) op hop hb))
  exact hr (Proc.devRef_injective _ he ▸ hy)

/-- A reference no stretch writes is found by the region as launched. -/
theorem V_kept (c : Dev nD) (r : Ref sig .tc) (h0 : r ∉ W0) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    V m c r = m ((c : Thread nD τ).loc r) :=
  StableHlo.after_of_forall_not_mem (b := Proc.devRef .tc r) _ _ fun op hop => by
    obtain ⟨ops, ho, h'⟩ := List.mem_flatten.mp hop
    simp only [hostLine, List.mem_cons, List.not_mem_nil, or_false] at ho
    rcases ho with rfl | rfl | rfl | rfl | rfl | rfl | rfl | rfl | rfl | rfl | rfl
    · exact not_written _ writes0 h0 op h'
    · exact not_written _ writes1 h1 op h'
    · exact not_written _ writes2 h2 op h'
    · exact not_written _ writes3 h3 op h'
    · exact not_written _ writes4 h4 op h'
    · exact not_written _ writes5 h5 op h'
    · exact not_written _ writes6 h6 op h'
    · exact not_written _ writes7 h7 op h'
    · exact not_written _ writes8 h8 op h'
    · exact not_written _ writes9 h9 op h'
    · exact not_written _ writes10 h10 op h'

theorem V_main_arg0 (c : Dev nD) : V m c main_arg0 = m ((c : Thread nD τ).loc main_arg0) :=
  V_kept m c main_arg0 (by decide) (by decide) (by decide) (by decide) (by decide) (by decide) (by decide) (by decide) (by decide) (by decide) (by decide)
theorem V_main_arg1 (c : Dev nD) : V m c main_arg1 = m ((c : Thread nD τ).loc main_arg1) :=
  V_kept m c main_arg1 (by decide) (by decide) (by decide) (by decide) (by decide) (by decide) (by decide) (by decide) (by decide) (by decide) (by decide)
theorem V_main_arg2 (c : Dev nD) : V m c main_arg2 = m ((c : Thread nD τ).loc main_arg2) :=
  V_kept m c main_arg2 (by decide) (by decide) (by decide) (by decide) (by decide) (by decide) (by decide) (by decide) (by decide) (by decide) (by decide)
theorem V_main_arg3 (c : Dev nD) : V m c main_arg3 = m ((c : Thread nD τ).loc main_arg3) :=
  V_kept m c main_arg3 (by decide) (by decide) (by decide) (by decide) (by decide) (by decide) (by decide) (by decide) (by decide) (by decide) (by decide)
theorem V_main_arg4 (c : Dev nD) : V m c main_arg4 = m ((c : Thread nD τ).loc main_arg4) :=
  V_kept m c main_arg4 (by decide) (by decide) (by decide) (by decide) (by decide) (by decide) (by decide) (by decide) (by decide) (by decide) (by decide)
theorem V_main_arg5 (c : Dev nD) : V m c main_arg5 = m ((c : Thread nD τ).loc main_arg5) :=
  V_kept m c main_arg5 (by decide) (by decide) (by decide) (by decide) (by decide) (by decide) (by decide) (by decide) (by decide) (by decide) (by decide)
theorem V_main_arg6 (c : Dev nD) : V m c main_arg6 = m ((c : Thread nD τ).loc main_arg6) :=
  V_kept m c main_arg6 (by decide) (by decide) (by decide) (by decide) (by decide) (by decide) (by decide) (by decide) (by decide) (by decide) (by decide)
theorem V_main_arg7 (c : Dev nD) : V m c main_arg7 = m ((c : Thread nD τ).loc main_arg7) :=
  V_kept m c main_arg7 (by decide) (by decide) (by decide) (by decide) (by decide) (by decide) (by decide) (by decide) (by decide) (by decide) (by decide)
theorem V_main_arg8 (c : Dev nD) : V m c main_arg8 = m ((c : Thread nD τ).loc main_arg8) :=
  V_kept m c main_arg8 (by decide) (by decide) (by decide) (by decide) (by decide) (by decide) (by decide) (by decide) (by decide) (by decide) (by decide)
theorem V_main_arg9 (c : Dev nD) : V m c main_arg9 = m ((c : Thread nD τ).loc main_arg9) :=
  V_kept m c main_arg9 (by decide) (by decide) (by decide) (by decide) (by decide) (by decide) (by decide) (by decide) (by decide) (by decide) (by decide)
theorem V_main_arg10 (c : Dev nD) : V m c main_arg10 = m ((c : Thread nD τ).loc main_arg10) :=
  V_kept m c main_arg10 (by decide) (by decide) (by decide) (by decide) (by decide) (by decide) (by decide) (by decide) (by decide) (by decide) (by decide)
theorem V_main_arg11 (c : Dev nD) : V m c main_arg11 = m ((c : Thread nD τ).loc main_arg11) :=
  V_kept m c main_arg11 (by decide) (by decide) (by decide) (by decide) (by decide) (by decide) (by decide) (by decide) (by decide) (by decide) (by decide)
theorem V_main_arg12 (c : Dev nD) : V m c main_arg12 = m ((c : Thread nD τ).loc main_arg12) :=
  V_kept m c main_arg12 (by decide) (by decide) (by decide) (by decide) (by decide) (by decide) (by decide) (by decide) (by decide) (by decide) (by decide)
theorem V_main_arg13 (c : Dev nD) : V m c main_arg13 = m ((c : Thread nD τ).loc main_arg13) :=
  V_kept m c main_arg13 (by decide) (by decide) (by decide) (by decide) (by decide) (by decide) (by decide) (by decide) (by decide) (by decide) (by decide)
theorem V_main_arg14 (c : Dev nD) : V m c main_arg14 = m ((c : Thread nD τ).loc main_arg14) :=
  V_kept m c main_arg14 (by decide) (by decide) (by decide) (by decide) (by decide) (by decide) (by decide) (by decide) (by decide) (by decide) (by decide)
theorem V_main_arg15 (c : Dev nD) : V m c main_arg15 = m ((c : Thread nD τ).loc main_arg15) :=
  V_kept m c main_arg15 (by decide) (by decide) (by decide) (by decide) (by decide) (by decide) (by decide) (by decide) (by decide) (by decide) (by decide)
theorem V_main_arg16 (c : Dev nD) : V m c main_arg16 = m ((c : Thread nD τ).loc main_arg16) :=
  V_kept m c main_arg16 (by decide) (by decide) (by decide) (by decide) (by decide) (by decide) (by decide) (by decide) (by decide) (by decide) (by decide)
theorem V_main_arg17 (c : Dev nD) : V m c main_arg17 = m ((c : Thread nD τ).loc main_arg17) :=
  V_kept m c main_arg17 (by decide) (by decide) (by decide) (by decide) (by decide) (by decide) (by decide) (by decide) (by decide) (by decide) (by decide)
theorem V_main_arg18 (c : Dev nD) : V m c main_arg18 = m ((c : Thread nD τ).loc main_arg18) :=
  V_kept m c main_arg18 (by decide) (by decide) (by decide) (by decide) (by decide) (by decide) (by decide) (by decide) (by decide) (by decide) (by decide)

end Cert.KernelIdeal.Hand

end
-- ==== Proof.KernelIdealBody.lean ====
/-
  The pipelined region of `KernelIdeal` point by point.  At grid point (i, j) the body is handed row tile i and row tile j of
  the embeddings z (2048 × 5 each) and an output tile; it loads both, forms logistic (zᵢ · zⱼᵀ) — a 2048 × 2048 tile —
  and stores it over the whole output tile.  The proof data says so: each input buffer holds its block before and
  after the body, the output buffer holds the one store's payload.  The two input windows read one array, whose
  buffer they hold as the two halves of the full share.
-/
import proofs.«112254_j79388175499762_1_alg».proof.Proof.KernelIdealMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output buffer -/

abbrev rIn : Rect S2048x5 := Rect.unit (s := S2048x5) ![0, 0] S2048x5.size inb_S2048x5_S2048x5_0_0
abbrev rOut : Rect S2048x2048 := Rect.unit (s := S2048x2048) ![0, 0] S2048x2048.size inb_S2048x2048_S2048x2048_0_0

/-- The output buffer after the body: its one store, over the whole tile, of the payload of the two loaded tiles. -/
def outTile (x0 : Vec F S2048x5 .f32) (x1 : Vec F S2048x5 .f32) : Vec F S2048x2048 .f32 :=
  View.canon [⟨rOut, k0_pay1 (View.ld x0 rIn) (View.ld x1 rIn)⟩]

/-- The store covers the buffer. -/
theorem coverOut (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs, the inputs' at contents `x0`, `x1` and the output's at anything, runs to the
    continuation holding the inputs' as they were and the output's at `outTile x0 x1`. -/
theorem sound_kernel (c : Dev nD) (E : Set ℕ) (i : grid0.Coords) (arg2 : Memref sig .tc .vmem S2048x5 .f32) (harg2 : arg2.IsWhole)
    (arg3 : Memref sig .tc .vmem S2048x5 .f32) (harg3 : arg3.IsWhole) (arg4 : Memref sig .tc .vmem S2048x2048 .f32) (harg4 : arg4.IsWhole)
    (x0 : Vec F S2048x5 .f32) (x1 : Vec F S2048x5 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outTile x0 x1)) -∗ K ⟨⟩))
      ⊢ wp frame (wpE (defs₀ (F := F)) Variants.none c none) E (cc0__decoder_kernel i arg2 harg2 arg3 harg3 arg4 harg4) K := by
  simp only [cc0__decoder_kernel_eq_skeleton]; unfold cc0__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data on core `c`: the arrays as the region finds them; after the body at point `t` each input buffer at
    its block and the output buffer at `outTile` of the two blocks; the invariant the scoped rest; nothing owed; the
    shared input array held by window 0 at the left half and by window 1 at the right half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The run of `KernelIdeal`: every weakly fair execution of @main terminates; the output array ends at what the write-backs of
  the sixteen grid points leave, every other unscoped buffer as the region found it — in particular the argument arrays,
  which the host line does not write, as launched.
-/
import proofs.«112254_j79388175499762_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The two buffers behind the three windows' arrays, each whole at the full share, make the windows' arrays: the
    embeddings' buffer is split into its left and right halves for the two input windows. -/
theorem hsplit (c : Dev nD) :
    (Pipeline.arrBufs spec0 c (V m c) : sProp 𝕄) ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_v283 ↦{fullShare.left} V m c main_v283) := by
    rw [(arr_whole0 0).set_eq_univ]
    show (_ ↦{_} (dats m 0 c).A 0 : sProp 𝕄) = _
    rw [A_eq]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_v283 ↦{fullShare.right} V m c main_v283) := by
    rw [(arr_whole0 1).set_eq_univ]
    show (_ ↦{_} (dats m 0 c).A 1 : sProp 𝕄) = _
    rw [A_eq]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_v284 ↦{fullShare} V m c main_v284) := by
    rw [(arr_whole0 2).set_eq_univ]
    show (_ ↦{_} (dats m 0 c).A 2 : sProp 𝕄) = _
    rw [A_eq]; rfl
  unfold Pipeline.arrBufs Dat.arrays
  rw [bigSep_W0, e0, e1, e2, bigSep_eq_bigSepL_of_eq [main_v283, main_v284] (by decide) (by decide)]
  show iprop(((c.tc : Thread nD τ).loc main_v283 ↦{fullShare} V m c main_v283) ∗ ((c.tc : Thread nD τ).loc main_v284 ↦{fullShare} V m c main_v284)) ⊢ _
  iintro ⟨Hz, Ho⟩
  ihave Hz2 := (pointsTo_share (PosShare.mem_left_op_right fullShare)).1 $$ Hz
  icases Hz2 with ⟨Hl, Hr⟩
  isplitl [Hl]; · iexact Hl
  isplitl [Hr]; · iexact Hr
  iexact Ho

set_option backward.isDefEq.respectTransparency.types false in
theorem run_main : θ_run defs (onTc (τ := τ) (main (F := F))) (s₀ m ρ) (Pipeline.FramePost cfgs (dats m) 0 (V m)) :=
  Pipeline.θ_run_frame_sharedArrays cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: @main terminates and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Hand

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«112254_j79388175499762_1_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.Decoder.lean ====
/-
  The dense decoder, as mathematics.  With z the 8192 × 5 matrix of node embeddings, the decoder's entry (r, s) is the
  logistic function of the inner product of rows r and s:  G z (r, s) = 1 / (1 + exp (−∑ₖ z(r,k) · z(s,k))).
  The kernel forms it tile by tile — a 2048 × 5 tile times the transpose of another, into a zero accumulator, then
  `logistic` —; the reference forms z zᵀ whole and spells the logistic function as negate, exponential, add one,
  reciprocal.  On the extended reals the two spellings are one function, so both are `G`, entry by entry.
-/
import Idealize.ShloMosaic.Lib.Pipeline.Value
import Idealize.ShloMosaic.Lib.ValueIdx
import Idealize.ShloMosaic.Lib.ValueLayout
import Idealize.ShloMosaic.PureOps.Ideal.Laws
import proofs.«112254_j79388175499762_1_alg».proof.Proof.LibBlock
import proofs.«112254_j79388175499762_1_alg».proof.Proof.LibHostProduct

noncomputable section

open scoped BigOperators

namespace Cert.Decoder

open Idealize.ShloMosaic Idealize.ShloMosaic.ValueIdx

/-- The decoder's entry (r, s): the logistic function of the inner product of rows r and s of the embeddings. -/
def G {N K : Nat} (z : FVec Ideal ⟨2, ![N, K]⟩ .f32) : FVec Ideal ⟨2, ![N, N]⟩ .f32 :=
  fun i => Ideal.logistic (∑ k : Fin K, z (ix2 (i 0) k) * z (ix2 (i 1) k))

theorem G_ix2 {N K : Nat} (z : FVec Ideal ⟨2, ![N, K]⟩ .f32) (r s : Fin N) :
    G z (ix2 r s) = Ideal.logistic (∑ k : Fin K, z (ix2 r k) * z (ix2 s k)) := rfl

/-- The float word of one is the real number one. -/
theorem ofBits_one : Ideal.ofBits .f32 0x3F800000#32 = 1 := by
  simp [Ideal.ofBits, Ideal.ieee, -EReal.coe_mul]; norm_num

section Tile
variable {M N K : Nat} (D : DotDims ⟨2, ![M, K]⟩ ⟨2, ![K, N]⟩ ⟨2, ![M, N]⟩)

/-- A tile of the kernel: rows `x0` times the transpose of rows `x1` into the zero accumulator, then `logistic`,
    read at (p, q), is the logistic function of the inner product of row p of `x0` and row q of `x1`. -/
theorem tile_apply (hlc : D.lhsContracting = [1]) (hrc : D.rhsContracting = [0])
    (hlb : D.lhsBatch = []) (hln : D.lhsNonContracting = [0]) (hrb : D.rhsBatch = []) (hrn : D.rhsNonContracting = [1])
    (hT : (⟨2, ![N, K]⟩ : Shape).Transposes [1, 0] ⟨2, ![K, N]⟩)
    (h0 : (⟨2, ![M, K]⟩ : Shape).ShapeCasts ⟨2, ![M, K]⟩) (h1 : (⟨2, ![N, K]⟩ : Shape).ShapeCasts ⟨2, ![N, K]⟩)
    (x0 : FVec Ideal ⟨2, ![M, K]⟩ .f32) (x1 : FVec Ideal ⟨2, ![N, K]⟩ .f32) (p : Fin M) (q : Fin N) :
    logistic (matmul D none (shapeCast ⟨2, ![M, K]⟩ x0 h0) (transpose ⟨2, ![K, N]⟩ [1, 0] (shapeCast ⟨2, ![N, K]⟩ x1 h1) hT)
        (constant (F := Ideal) ⟨2, ![M, N]⟩ .f32 0x00000000#32)) (ix2 p q)
      = Ideal.logistic (∑ k : Fin K, x0 (ix2 p k) * x1 (ix2 q k)) := by
  rw [shapeCast_self, shapeCast_self]
  show Ideal.logistic (FloatOps.matmul D none x0 (transpose ⟨2, ![K, N]⟩ [1, 0] x1 hT) (constant (F := Ideal) ⟨2, ![M, N]⟩ .f32 0x00000000#32) (ix2 p q)) = _
  rw [LibBlock.matmul_zero_ix2 D hlc hrc hlb hln hrb hrn]
  congr 1
  refine Finset.sum_congr rfl fun k _ => ?_
  rw [transpose_ix2_apply]

end Tile

section Whole
variable {N K : Nat} (D : DotDims ⟨2, ![N, K]⟩ ⟨2, ![K, N]⟩ ⟨2, ![N, N]⟩)

/-- The reference's decoder: z zᵀ by the host's product, then negate, exponential, add one, reciprocal — entry by
    entry the logistic function of the inner product of two rows. -/
theorem whole_eq (hlc : D.lhsContracting = [1]) (hrc : D.rhsContracting = [0])
    (hlb : D.lhsBatch = []) (hln : D.lhsNonContracting = [0]) (hrb : D.rhsBatch = []) (hrn : D.rhsNonContracting = [1])
    (hT : (⟨2, ![N, K]⟩ : Shape).Transposes [1, 0] ⟨2, ![K, N]⟩)
    (hb : (⟨0, ![]⟩ : Shape).BroadcastsInDim ⟨2, ![N, N]⟩ (![] : Fin 0 → Fin 2))
    (z : FVec Ideal ⟨2, ![N, K]⟩ .f32) :
    Host.divf (broadcastInDim ⟨2, ![N, N]⟩ ![] hb (constant (F := Ideal) ⟨0, ![]⟩ .f32 0x3F800000#32))
        (addf (broadcastInDim ⟨2, ![N, N]⟩ ![] hb (constant (F := Ideal) ⟨0, ![]⟩ .f32 0x3F800000#32))
          (Host.exp (Host.negf (Host.dotGeneral D none z (transpose ⟨2, ![K, N]⟩ [1, 0] z hT)))))
      = G z := by
  funext i
  obtain ⟨r, s, rfl⟩ : ∃ (r s : Fin N), i = ix2 r s := ⟨i 0, i 1, eq_ix2 i⟩
  show FloatOps.hostDivf (broadcastInDim ⟨2, ![N, N]⟩ ![] hb (constant (F := Ideal) ⟨0, ![]⟩ .f32 0x3F800000#32) (ix2 r s))
      (FloatOps.addf (broadcastInDim ⟨2, ![N, N]⟩ ![] hb (constant (F := Ideal) ⟨0, ![]⟩ .f32 0x3F800000#32) (ix2 r s))
        (FloatOps.hostUnary .exp (FloatOps.hostNegf (Host.dotGeneral D none z (transpose ⟨2, ![K, N]⟩ [1, 0] z hT) (ix2 r s))))) = _
  rw [LibHostProduct.splat_apply, LibHostProduct.dotGeneral_ix2 D hlc hrc hlb hln hrb hrn, G_ix2]
  show FloatOps.hostDivf (Ideal.ofBits .f32 0x3F800000#32) (FloatOps.addf (Ideal.ofBits .f32 0x3F800000#32) _) = _
  rw [ofBits_one]
  have e : ∀ k : Fin K, z (ix2 r k) * transpose ⟨2, ![K, N]⟩ [1, 0] z hT (ix2 k s) = z (ix2 r k) * z (ix2 s k) := fun k => by
    rw [transpose_ix2_apply]
  rw [Finset.sum_congr rfl fun k _ => e k]
  rfl

end Whole

end Cert.Decoder

end
-- ==== Proof.KernelValue.lean ====
/-
  What the kernel program leaves in the decoder's array.  At grid point t = (i, j) the body's tile, read at (p, q), is
  the logistic function of the inner product of row p of input block i and row q of input block j — rows
  2048·i + p and 2048·j + q of the embeddings z —, which is entry (2048·i + p, 2048·j + q) of the decoder `G z`: the
  output's block at t.  The sixteen blocks cover the 8192 × 8192 array, so after the run the array is `G z`.
-/
import proofs.«112254_j79388175499762_1_alg».proof.Proof.KernelIdealRun
import proofs.«112254_j79388175499762_1_alg».proof.Proof.Decoder
import Idealize.ShloMosaic.Lib.Pipeline.Value

set_option maxRecDepth 16384

noncomputable section

open scoped BigOperators

namespace Cert.KernelIdeal.Hand

open Cert

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's payload read at an index: the logistic function of the inner product of two rows of its loaded tiles. -/
theorem pay_apply (x0 x1 : Vec Ideal S2048x5 .f32) (j : S2048x2048.Idx) :
    k0_pay1 (F := Ideal) x0 x1 j = Ideal.logistic (∑ k : Fin 5, x0 (ix2 (j 0) k) * x1 (ix2 (j 1) k)) := by
  obtain ⟨p, q, rfl⟩ : ∃ (p q : Fin 2048), j = ix2 p q := ⟨j 0, j 1, eq_ix2 j⟩
  unfold k0_pay1
  exact Decoder.tile_apply dot_S2048x5_S5x2048_S2048x2048_1_0_0_1_n_n rfl rfl rfl rfl rfl rfl _ _ _ x0 x1 p q

/-- The printed index maps over the grid: the first input window moves with the output's row block, the second with
    its column block, neither moves along the five columns; the output's block indices are below four. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every block of the output is some point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- Tile (i, j) of the kernel, read at (p, q), is entry (2048 i + p, 2048 j + q) of the decoder: the two input blocks
    at point `t` are row tiles i and j of the embeddings. -/
theorem tile_eq (z0 z1 z : FVec Ideal ⟨2, ![8192, 5]⟩ .f32) (h0 : z0 = z) (h1 : z1 = z) (t : Fin cfg0.N) (j : S2048x2048.Idx) :
    Ideal.logistic (∑ k : Fin 5, z0 (((cfg0.win 0).blk t).view.emb (ix2 (j 0) k)) * z1 (((cfg0.win 1).blk t).view.emb (ix2 (j 1) k)))
      = Decoder.G (N := 8192) (K := 5) z (((cfg0.win 2).blk t).view.emb j) := by
  rw [h0, h1]
  obtain ⟨e0, e1, e2, e3, -, -⟩ := idx_facts t
  show _ = Ideal.logistic (∑ k : Fin 5, z (ix2 ((((cfg0.win 2).blk t).view.emb j) 0) k) * z (ix2 ((((cfg0.win 2).blk t).view.emb j) 1) k))
  congr 1
  refine Finset.sum_congr rfl fun k _ => ?_
  have a0 : ((cfg0.win 0).blk t).view.emb (ix2 (j 0) k) = ix2 ((((cfg0.win 2).blk t).view.emb j) 0) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 5 + 1 * k.val = k.val; omega
  have a1 : ((cfg0.win 1).blk t).view.emb (ix2 (j 1) k) = ix2 ((((cfg0.win 2).blk t).view.emb j) 1) k := by
    funext a; apply Fin.ext
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 5 + 1 * k.val = k.val; omega
  rw [a0, a1]
  rfl

set_option maxHeartbeats 1000000 in
/-- What point `t` writes back is block `t` of the decoder of the embeddings as the region finds them. -/
theorem flushed_eq (c : Dev nD) (t : Fin cfg0.N) :
    (dats m 0 c).flushed 2 t = ((cfg0.win 2).blk t).view.read (Elt Ideal) (Decoder.G (N := 8192) (K := 5) (V m c main_v283)) := by
  show (cfg0.win 2).cut (grid0.coords t) ((dats m 0 c).after 2 t) = _
  rw [after0_2]
  unfold outTile
  rw [View.canon_unit_zero LibBlock.hz]
  simp only [View.ld_unit_zero (S := S2048x5) LibBlock.hz]
  funext j
  refine (pay_apply _ _ j).trans ?_
  exact tile_eq (V m c (Pipeline.arrRef spec0 0)) (V m c (Pipeline.arrRef spec0 1)) (V m c main_v283) rfl rfl t j

/-- An index of the array is in point `t`'s block iff each coordinate is in the block's range on its axis. -/
theorem mem_blk (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v284).slice (win0_2.rect t)).set ↔ _
  rw [View.set_slice_whole, Rect.mem_set_unit]
  exact Iff.rfl

/-- The sixteen blocks cover the array: entry (r, s) is in the block of the point whose block index is (r / 2048, s / 2048). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- After the write-backs of all sixteen points the output array is the decoder of the embeddings. -/
theorem final (c : Dev nD) : (dats m 0 c).arrAt 2 cfg0.N = Decoder.G (N := 8192) (K := 5) (V m c main_v283) :=
  (dats m 0 c).arrAt_eq_of_cover 2 (Decoder.G (N := 8192) (K := 5) (V m c main_v283)) (fun t _ => flushed_eq m c t) cover

/-- The run, read: the embeddings and the two heads end as the host line left them, the decoder's array at the decoder
    of the embeddings, the arguments as launched. -/
theorem run : θ_run defs (onTc (τ := τ) (main (F := Ideal))) ⟨m, fun _ => 0, ρ⟩ fun r => ∀ c : Dev nD,
      r.2.mem ((c.tc : Thread nD τ).loc main_v283) = V m c main_v283
      ∧ r.2.mem ((c.tc : Thread nD τ).loc main_v284) = Decoder.G (N := 8192) (K := 5) (V m c main_v283)
      ∧ r.2.mem ((c.tc : Thread nD τ).loc main_v274) = V m c main_v274
      ∧ r.2.mem ((c.tc : Thread nD τ).loc main_v278) = V m c main_v278
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 0).trans (((dats m 0 c).arrAt_in 0 rfl _).trans (A_eq m c 0)),
      ((h c).1 2).trans (final m c),
      (h c).2 main_v274 (Pipeline.mem_restRefs_of main_v274 (by decide) (by decide)),
      (h c).2 main_v278 (Pipeline.mem_restRefs_of main_v278 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Hand

end
-- ==== Proof.RefOps.lean ====
/-
  The reference program's @main is one straight line of host operations: the same line the kernel's @main runs before
  its region (the graph network's message passing and the two heads, ending in the embeddings z), followed by the
  dense decoder z zᵀ, negate, exponential, add one, reciprocal.  Here the line is listed, cut into the stretches the
  kernel's @main is cut into (at the module-local function calls), so that the two programs can be compared stretch
  by stretch.
-/
import proofs.«112254_j79388175499762_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line, stretch by stretch -/

abbrev L0 : List (HloOp τ sig (Elt F)) :=
  [ unary main_arg3 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg3 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_cst (constant S_ .f32 0x3E800000#32),
    unary main_cst main_v4 (broadcastInDim S8192x7 ![] bcast_S_S8192x7 : (⟨S_, .f32⟩ : BufTy).Contents (Elt F) → (⟨S8192x7, .f32⟩ : BufTy).Contents (Elt F)),
    binary main_arg1 main_v4 main_v5 (cmpf .ogt : (⟨S8192x7, .f32⟩ : BufTy).Contents (Elt F) → (⟨S8192x7, .f32⟩ : BufTy).Contents (Elt F) → (⟨S8192x7, .i1⟩ : BufTy).Contents (Elt F)),
    unary main_v5 main_v6 (uitofp .f32 : (⟨S8192x7, .i1⟩ : BufTy).Contents (Elt F) → (⟨S8192x7, .f32⟩ : BufTy).Contents (Elt F)),
    binary main_arg0 main_v6 main_v7 (mulf : (⟨S8192x7, .f32⟩ : BufTy).Contents (Elt F) → (⟨S8192x7, .f32⟩ : BufTy).Contents (Elt F) → (⟨S8192x7, .f32⟩ : BufTy).Contents (Elt F)),
    nullary main_cst_0 (constant S_ .f32 0x3F400000#32),
    unary main_cst_0 main_v8 (broadcastInDim S8192x7 ![] bcast_S_S8192x7 : (⟨S_, .f32⟩ : BufTy).Contents (Elt F) → (⟨S8192x7, .f32⟩ : BufTy).Contents (Elt F)),
    binary main_v7 main_v8 main_v9 (Host.divf : (⟨S8192x7, .f32⟩ : BufTy).Contents (Elt F) → (⟨S8192x7, .f32⟩ : BufTy).Contents (Elt F) → (⟨S8192x7, .f32⟩ : BufTy).Contents (Elt F)),
    binary main_v9 main_arg5 main_v10 ((fun l r => Host.dotGeneral dot_S8192x7_S7x5_S8192x5_1_0_0_1_n_n none l r) : (⟨S8192x7, .f32⟩ : BufTy).Contents (Elt F) → (⟨S7x5, .f32⟩ : BufTy).Contents (Elt F) → (⟨S8192x5, .f32⟩ : BufTy).Contents (Elt F)),
    unary main_arg6 main_v11 (broadcastInDim S1x5 ![1] bcast_S5_S1x5_1 : (⟨S5, .f32⟩ : BufTy).Contents (Elt F) → (⟨S1x5, .f32⟩ : BufTy).Contents (Elt F)),
    unary main_v11 main_v12 (broadcastInDim S8192x5 ![0, 1] bcast_S1x5_S8192x5_0_1 : (⟨S1x5, .f32⟩ : BufTy).Contents (Elt F) → (⟨S8192x5, .f32⟩ : BufTy).Contents (Elt F)),
    binary main_v10 main_v12 main_v13 (addf : (⟨S8192x5, .f32⟩ : BufTy).Contents (Elt F) → (⟨S8192x5, .f32⟩ : BufTy).Contents (Elt F) → (⟨S8192x5, .f32⟩ : BufTy).Contents (Elt F)) ]
theorem L0_fresh : (L0 : List (HloOp τ sig (Elt F))).Forall fun op => op.fresh = ∅ := by
  simp only [List.Forall]; repeat' constructor
theorem L0_sub : (L0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub ..⟩
abbrev L1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S8192x5, .f32⟩) main_call0_v0) (broadcastInDim S8192x5 ![] bcast_S_S8192x5),
    TRef.binary (TRef.of (T := ⟨S8192x5, .f32⟩) main_v13) (TRef.of (T := ⟨S8192x5, .f32⟩) main_call0_v0) (TRef.of (T := ⟨S8192x5, .f32⟩) main_v14) maximumf ]
theorem L1_fresh : (L1 : List (HloOp τ sig (Elt F))).Forall fun op => op.fresh = ∅ := by
  simp only [List.Forall]; repeat' constructor
theorem L1_sub : (L1 : List (HloOp τ sig (Elt F))).Forall fun op => op.bufs ⊆ tcRefs τ sig :=
  ⟨nullary_bufs_sub .., unary_bufs_sub .., binary_bufs_sub ..⟩
abbrev L2 : List (HloOp τ sig (Elt F)) :=
  [ unary main_arg7 main_v15 ((extractStridedSlice S1x5x5 ![0, 0, 0] · slices_S4x5x5_S1x5x5_0_0_0) : (⟨S4x5x5, .f32⟩ : BufTy).Contents (Elt F) → (⟨S1x5x5, .f32⟩ : BufTy).Contents (Elt F)),
    reshape main_v15 main_v16 rfl shapeCasts_S1x5x5_S5x5,
    binary main_v14 main_v16 main_v17 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v18 ((extractStridedSlice S1x5 ![0, 0] · slices_S4x5_S1x5_0_0) : (⟨S4x5, .f32⟩ : BufTy).Contents (Elt F) → (⟨S1x5, .f32⟩ : BufTy).Contents (Elt F)),
    reshape main_v18 main_v19 rfl shapeCasts_S1x5_S5,
    unary main_v19 main_v20 (broadcastInDim S1x5 ![1] bcast_S5_S1x5_1 : (⟨S5, .f32⟩ : BufTy).Contents (Elt F) → (⟨S1x5, .f32⟩ : BufTy).Contents (Elt F)),
    unary main_v20 main_v21 (broadcastInDim S8192x5 ![0, 1] bcast_S1x5_S8192x5_0_1 : (⟨S1x5, .f32⟩ : BufTy).Contents (Elt F) → (⟨S8192x5, .f32⟩ : BufTy).Contents (Elt F)),
    binary main_v17 main_v21 main_v22 (addf : (⟨S8192x5, .f32⟩ : BufTy).Contents (Elt F) → (⟨S8192x5, .f32⟩ : BufTy).Contents (Elt F) → (⟨S8192x5, .f32⟩ : BufTy).Contents (Elt F)) ]
theorem L2_fresh : (L2 : List (HloOp τ sig (Elt F))).Forall fun op => op.fresh = ∅ := by
  simp only [List.Forall]; repeat' constructor
theorem L2_sub : (L2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
abbrev L3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S8192x5, .f32⟩) main_call1_v0) (broadcastInDim S8192x5 ![] bcast_S_S8192x5),
    TRef.binary (TRef.of (T := ⟨S8192x5, .f32⟩) main_v22) (TRef.of (T := ⟨S8192x5, .f32⟩) main_call1_v0) (TRef.of (T := ⟨S8192x5, .f32⟩) main_v23) maximumf ]
theorem L3_fresh : (L3 : List (HloOp τ sig (Elt F))).Forall fun op => op.fresh = ∅ := by
  simp only [List.Forall]; repeat' constructor
theorem L3_sub : (L3 : List (HloOp τ sig (Elt F))).Forall fun op => op.bufs ⊆ tcRefs τ sig :=
  ⟨nullary_bufs_sub .., unary_bufs_sub .., binary_bufs_sub ..⟩
abbrev L4 : List (HloOp τ sig (Elt F)) :=
  [ nullary main_c (constantI S_ 32 0#32),
    unary main_c main_v24 (broadcastInDim S262144 ![] bcast_S_S262144 : (⟨S_, .i32⟩ : BufTy).Contents (Elt F) → (⟨S262144, .i32⟩ : BufTy).Contents (Elt F)),
    binary main_v1 main_v24 main_v25 (cmpi .slt : (⟨S262144, .i32⟩ : BufTy).Contents (Elt F) → (⟨S262144, .i32⟩ : BufTy).Contents (Elt F) → (⟨S262144, .i1⟩ : BufTy).Contents (Elt F)),
    nullary main_c_1 (constantI S_ 32 8192#32),
    unary main_c_1 main_v26 (broadcastInDim S262144 ![] bcast_S_S262144 : (⟨S_, .i32⟩ : BufTy).Contents (Elt F) → (⟨S262144, .i32⟩ : BufTy).Contents (Elt F)),
    binary main_v1 main_v26 main_v27 (addi : (⟨S262144, .i32⟩ : BufTy).Contents (Elt F) → (⟨S262144, .i32⟩ : BufTy).Contents (Elt F) → (⟨S262144, .i32⟩ : BufTy).Contents (Elt F)),
    ternary main_v25 main_v27 main_v1 main_v28 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v28 main_v29 (broadcastInDim S262144x1 ![0] bcast_S262144_S262144x1_0 : (⟨S262144, .i32⟩ : BufTy).Contents (Elt F) → (⟨S262144x1, .i32⟩ : BufTy).Contents (Elt F)),
    binary main_v23 main_v29 main_v30 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_2 (constant S_ .f32 0x00000000#32),
    unary main_cst_2 main_v31 (broadcastInDim S8192x5 ![] bcast_S_S8192x5 : (⟨S_, .f32⟩ : BufTy).Contents (Elt F) → (⟨S8192x5, .f32⟩ : BufTy).Contents (Elt F)),
    unary main_v3 main_v32 (broadcastInDim S262144x1 ![0] bcast_S262144_S262144x1_0 : (⟨S262144, .i32⟩ : BufTy).Contents (Elt F) → (⟨S262144x1, .i32⟩ : BufTy).Contents (Elt F)),
    ternary main_v31 main_v32 main_v30 main_v33 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v14 main_v33 main_v34 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v35 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v35 main_v36 rfl shapeCasts_S1x10x5_S10x5,
    binary main_v34 main_v36 main_v37 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v38 ((extractStridedSlice S1x5 ![0, 0] · slices_S4x5_S1x5_0_0) : (⟨S4x5, .f32⟩ : BufTy).Contents (Elt F) → (⟨S1x5, .f32⟩ : BufTy).Contents (Elt F)),
    reshape main_v38 main_v39 rfl shapeCasts_S1x5_S5,
    unary main_v39 main_v40 (broadcastInDim S1x5 ![1] bcast_S5_S1x5_1 : (⟨S5, .f32⟩ : BufTy).Contents (Elt F) → (⟨S1x5, .f32⟩ : BufTy).Contents (Elt F)),
    unary main_v40 main_v41 (broadcastInDim S8192x5 ![0, 1] bcast_S1x5_S8192x5_0_1 : (⟨S1x5, .f32⟩ : BufTy).Contents (Elt F) → (⟨S8192x5, .f32⟩ : BufTy).Contents (Elt F)),
    binary main_v37 main_v41 main_v42 (addf : (⟨S8192x5, .f32⟩ : BufTy).Contents (Elt F) → (⟨S8192x5, .f32⟩ : BufTy).Contents (Elt F) → (⟨S8192x5, .f32⟩ : BufTy).Contents (Elt F)),
    unary main_v42 main_v43 (Host.negf : (⟨S8192x5, .f32⟩ : BufTy).Contents (Elt F) → (⟨S8192x5, .f32⟩ : BufTy).Contents (Elt F)),
    unary main_v43 main_v44 (Host.exp : (⟨S8192x5, .f32⟩ : BufTy).Contents (Elt F) → (⟨S8192x5, .f32⟩ : BufTy).Contents (Elt F)),
    nullary main_cst_3 (constant S_ .f32 0x3F800000#32),
    unary main_cst_3 main_v45 (broadcastInDim S8192x5 ![] bcast_S_S8192x5 : (⟨S_, .f32⟩ : BufTy).Contents (Elt F) → (⟨S8192x5, .f32⟩ : BufTy).Contents (Elt F)),
    binary main_v45 main_v44 main_v46 (addf : (⟨S8192x5, .f32⟩ : BufTy).Contents (Elt F) → (⟨S8192x5, .f32⟩ : BufTy).Contents (Elt F) → (⟨S8192x5, .f32⟩ : BufTy).Contents (Elt F)),
    nullary main_cst_4 (constant S_ .f32 0x3F800000#32),
    unary main_cst_4 main_v47 (broadcastInDim S8192x5 ![] bcast_S_S8192x5 : (⟨S_, .f32⟩ : BufTy).Contents (Elt F) → (⟨S8192x5, .f32⟩ : BufTy).Contents (Elt F)),
    binary main_v47 main_v46 main_v48 (Host.divf : (⟨S8192x5, .f32⟩ : BufTy).Contents (Elt F) → (⟨S8192x5, .f32⟩ : BufTy).Contents (Elt F) → (⟨S8192x5, .f32⟩ : BufTy).Contents (Elt F)),
    unary main_arg11 main_v49 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v49 main_v50 rfl shapeCasts_S1x10x5_S10x5,
    binary main_v34 main_v50 main_v51 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v52 ((extractStridedSlice S1x5 ![0, 0] · slices_S4x5_S1x5_0_0) : (⟨S4x5, .f32⟩ : BufTy).Contents (Elt F) → (⟨S1x5, .f32⟩ : BufTy).Contents (Elt F)),
    reshape main_v52 main_v53 rfl shapeCasts_S1x5_S5,
    unary main_v53 main_v54 (broadcastInDim S1x5 ![1] bcast_S5_S1x5_1 : (⟨S5, .f32⟩ : BufTy).Contents (Elt F) → (⟨S1x5, .f32⟩ : BufTy).Contents (Elt F)),
    unary main_v54 main_v55 (broadcastInDim S8192x5 ![0, 1] bcast_S1x5_S8192x5_0_1 : (⟨S1x5, .f32⟩ : BufTy).Contents (Elt F) → (⟨S8192x5, .f32⟩ : BufTy).Contents (Elt F)),
    binary main_v51 main_v55 main_v56 (addf : (⟨S8192x5, .f32⟩ : BufTy).Contents (Elt F) → (⟨S8192x5, .f32⟩ : BufTy).Contents (Elt F) → (⟨S8192x5, .f32⟩ : BufTy).Contents (Elt F)),
    unary main_v56 main_v57 (Host.negf : (⟨S8192x5, .f32⟩ : BufTy).Contents (Elt F) → (⟨S8192x5, .f32⟩ : BufTy).Contents (Elt F)),
    unary main_v57 main_v58 (Host.exp : (⟨S8192x5, .f32⟩ : BufTy).Contents (Elt F) → (⟨S8192x5, .f32⟩ : BufTy).Contents (Elt F)),
    nullary main_cst_5 (constant S_ .f32 0x3F800000#32),
    unary main_cst_5 main_v59 (broadcastInDim S8192x5 ![] bcast_S_S8192x5 : (⟨S_, .f32⟩ : BufTy).Contents (Elt F) → (⟨S8192x5, .f32⟩ : BufTy).Contents (Elt F)),
    binary main_v59 main_v58 main_v60 (addf : (⟨S8192x5, .f32⟩ : BufTy).Contents (Elt F) → (⟨S8192x5, .f32⟩ : BufTy).Contents (Elt F) → (⟨S8192x5, .f32⟩ : BufTy).Contents (Elt F)),
    nullary main_cst_6 (constant S_ .f32 0x3F800000#32),
    unary main_cst_6 main_v61 (broadcastInDim S8192x5 ![] bcast_S_S8192x5 : (⟨S_, .f32⟩ : BufTy).Contents (Elt F) → (⟨S8192x5, .f32⟩ : BufTy).Contents (Elt F)),
    binary main_v61 main_v60 main_v62 (Host.divf : (⟨S8192x5, .f32⟩ : BufTy).Contents (Elt F) → (⟨S8192x5, .f32⟩ : BufTy).Contents (Elt F) → (⟨S8192x5, .f32⟩ : BufTy).Contents (Elt F)),
    binary main_v14 main_v48 main_v63 (mulf : (⟨S8192x5, .f32⟩ : BufTy).Contents (Elt F) → (⟨S8192x5, .f32⟩ : BufTy).Contents (Elt F) → (⟨S8192x5, .f32⟩ : BufTy).Contents (Elt F)),
    binary main_v63 main_v33 main_v64 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v65 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v65 main_v66 rfl shapeCasts_S1x10x5_S10x5,
    binary main_v64 main_v66 main_v67 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v68 ((extractStridedSlice S1x5 ![0, 0] · slices_S4x5_S1x5_0_0) : (⟨S4x5, .f32⟩ : BufTy).Contents (Elt F) → (⟨S1x5, .f32⟩ : BufTy).Contents (Elt F)),
    reshape main_v68 main_v69 rfl shapeCasts_S1x5_S5,
    unary main_v69 main_v70 (broadcastInDim S1x5 ![1] bcast_S5_S1x5_1 : (⟨S5, .f32⟩ : BufTy).Contents (Elt F) → (⟨S1x5, .f32⟩ : BufTy).Contents (Elt F)),
    unary main_v70 main_v71 (broadcastInDim S8192x5 ![0, 1] bcast_S1x5_S8192x5_0_1 : (⟨S1x5, .f32⟩ : BufTy).Contents (Elt F) → (⟨S8192x5, .f32⟩ : BufTy).Contents (Elt F)),
    binary main_v67 main_v71 main_v72 (addf : (⟨S8192x5, .f32⟩ : BufTy).Contents (Elt F) → (⟨S8192x5, .f32⟩ : BufTy).Contents (Elt F) → (⟨S8192x5, .f32⟩ : BufTy).Contents (Elt F)),
    unary main_v72 main_v73 (Host.tanh : (⟨S8192x5, .f32⟩ : BufTy).Contents (Elt F) → (⟨S8192x5, .f32⟩ : BufTy).Contents (Elt F)),
    nullary main_cst_7 (constant S_ .f32 0x3F800000#32),
    unary main_cst_7 main_v74 (broadcastInDim S8192x5 ![] bcast_S_S8192x5 : (⟨S_, .f32⟩ : BufTy).Contents (Elt F) → (⟨S8192x5, .f32⟩ : BufTy).Contents (Elt F)),
    binary main_v74 main_v62 main_v75 (subf : (⟨S8192x5, .f32⟩ : BufTy).Contents (Elt F) → (⟨S8192x5, .f32⟩ : BufTy).Contents (Elt F) → (⟨S8192x5, .f32⟩ : BufTy).Contents (Elt F)),
    binary main_v14 main_v75 main_v76 (mulf : (⟨S8192x5, .f32⟩ : BufTy).Contents (Elt F) → (⟨S8192x5, .f32⟩ : BufTy).Contents (Elt F) → (⟨S8192x5, .f32⟩ : BufTy).Contents (Elt F)),
    binary main_v73 main_v62 main_v77 (mulf : (⟨S8192x5, .f32⟩ : BufTy).Contents (Elt F) → (⟨S8192x5, .f32⟩ : BufTy).Contents (Elt F) → (⟨S8192x5, .f32⟩ : BufTy).Contents (Elt F)),
    binary main_v76 main_v77 main_v78 (addf : (⟨S8192x5, .f32⟩ : BufTy).Contents (Elt F) → (⟨S8192x5, .f32⟩ : BufTy).Contents (Elt F) → (⟨S8192x5, .f32⟩ : BufTy).Contents (Elt F)),
    unary main_arg7 main_v79 ((extractStridedSlice S1x5x5 ![1, 0, 0] · slices_S4x5x5_S1x5x5_1_0_0) : (⟨S4x5x5, .f32⟩ : BufTy).Contents (Elt F) → (⟨S1x5x5, .f32⟩ : BufTy).Contents (Elt F)),
    reshape main_v79 main_v80 rfl shapeCasts_S1x5x5_S5x5,
    binary main_v78 main_v80 main_v81 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v82 ((extractStridedSlice S1x5 ![1, 0] · slices_S4x5_S1x5_1_0) : (⟨S4x5, .f32⟩ : BufTy).Contents (Elt F) → (⟨S1x5, .f32⟩ : BufTy).Contents (Elt F)),
    reshape main_v82 main_v83 rfl shapeCasts_S1x5_S5,
    unary main_v83 main_v84 (broadcastInDim S1x5 ![1] bcast_S5_S1x5_1 : (⟨S5, .f32⟩ : BufTy).Contents (Elt F) → (⟨S1x5, .f32⟩ : BufTy).Contents (Elt F)),
    unary main_v84 main_v85 (broadcastInDim S8192x5 ![0, 1] bcast_S1x5_S8192x5_0_1 : (⟨S1x5, .f32⟩ : BufTy).Contents (Elt F) → (⟨S8192x5, .f32⟩ : BufTy).Contents (Elt F)),
    binary main_v81 main_v85 main_v86 (addf : (⟨S8192x5, .f32⟩ : BufTy).Contents (Elt F) → (⟨S8192x5, .f32⟩ : BufTy).Contents (Elt F) → (⟨S8192x5, .f32⟩ : BufTy).Contents (Elt F)) ]
theorem L4_fresh : (L4 : List (HloOp τ sig (Elt F))).Forall fun op => op.fresh = ∅ := by
  simp only [List.Forall]; repeat' constructor
theorem L4_sub : (L4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
abbrev L5 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S8192x5, .f32⟩) main_call2_v0) (broadcastInDim S8192x5 ![] bcast_S_S8192x5),
    TRef.binary (TRef.of (T := ⟨S8192x5, .f32⟩) main_v86) (TRef.of (T := ⟨S8192x5, .f32⟩) main_call2_v0) (TRef.of (T := ⟨S8192x5, .f32⟩) main_v87) maximumf ]
theorem L5_fresh : (L5 : List (HloOp τ sig (Elt F))).Forall fun op => op.fresh = ∅ := by
  simp only [List.Forall]; repeat' constructor
theorem L5_sub : (L5 : List (HloOp τ sig (Elt F))).Forall fun op => op.bufs ⊆ tcRefs τ sig :=
  ⟨nullary_bufs_sub .., unary_bufs_sub .., binary_bufs_sub ..⟩
abbrev L6 : List (HloOp τ sig (Elt F)) :=
  [ nullary main_c_8 (constantI S_ 32 0#32),
    unary main_c_8 main_v88 (broadcastInDim S262144 ![] bcast_S_S262144 : (⟨S_, .i32⟩ : BufTy).Contents (Elt F) → (⟨S262144, .i32⟩ : BufTy).Contents (Elt F)),
    binary main_v1 main_v88 main_v89 (cmpi .slt : (⟨S262144, .i32⟩ : BufTy).Contents (Elt F) → (⟨S262144, .i32⟩ : BufTy).Contents (Elt F) → (⟨S262144, .i1⟩ : BufTy).Contents (Elt F)),
    nullary main_c_9 (constantI S_ 32 8192#32),
    unary main_c_9 main_v90 (broadcastInDim S262144 ![] bcast_S_S262144 : (⟨S_, .i32⟩ : BufTy).Contents (Elt F) → (⟨S262144, .i32⟩ : BufTy).Contents (Elt F)),
    binary main_v1 main_v90 main_v91 (addi : (⟨S262144, .i32⟩ : BufTy).Contents (Elt F) → (⟨S262144, .i32⟩ : BufTy).Contents (Elt F) → (⟨S262144, .i32⟩ : BufTy).Contents (Elt F)),
    ternary main_v89 main_v91 main_v1 main_v92 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v92 main_v93 (broadcastInDim S262144x1 ![0] bcast_S262144_S262144x1_0 : (⟨S262144, .i32⟩ : BufTy).Contents (Elt F) → (⟨S262144x1, .i32⟩ : BufTy).Contents (Elt F)),
    binary main_v87 main_v93 main_v94 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_10 (constant S_ .f32 0x00000000#32),
    unary main_cst_10 main_v95 (broadcastInDim S8192x5 ![] bcast_S_S8192x5 : (⟨S_, .f32⟩ : BufTy).Contents (Elt F) → (⟨S8192x5, .f32⟩ : BufTy).Contents (Elt F)),
    unary main_v3 main_v96 (broadcastInDim S262144x1 ![0] bcast_S262144_S262144x1_0 : (⟨S262144, .i32⟩ : BufTy).Contents (Elt F) → (⟨S262144x1, .i32⟩ : BufTy).Contents (Elt F)),
    ternary main_v95 main_v96 main_v94 main_v97 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v78 main_v97 main_v98 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v99 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v99 main_v100 rfl shapeCasts_S1x10x5_S10x5,
    binary main_v98 main_v100 main_v101 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v102 ((extractStridedSlice S1x5 ![1, 0] · slices_S4x5_S1x5_1_0) : (⟨S4x5, .f32⟩ : BufTy).Contents (Elt F) → (⟨S1x5, .f32⟩ : BufTy).Contents (Elt F)),
    reshape main_v102 main_v103 rfl shapeCasts_S1x5_S5,
    unary main_v103 main_v104 (broadcastInDim S1x5 ![1] bcast_S5_S1x5_1 : (⟨S5, .f32⟩ : BufTy).Contents (Elt F) → (⟨S1x5, .f32⟩ : BufTy).Contents (Elt F)),
    unary main_v104 main_v105 (broadcastInDim S8192x5 ![0, 1] bcast_S1x5_S8192x5_0_1 : (⟨S1x5, .f32⟩ : BufTy).Contents (Elt F) → (⟨S8192x5, .f32⟩ : BufTy).Contents (Elt F)),
    binary main_v101 main_v105 main_v106 (addf : (⟨S8192x5, .f32⟩ : BufTy).Contents (Elt F) → (⟨S8192x5, .f32⟩ : BufTy).Contents (Elt F) → (⟨S8192x5, .f32⟩ : BufTy).Contents (Elt F)),
    unary main_v106 main_v107 (Host.negf : (⟨S8192x5, .f32⟩ : BufTy).Contents (Elt F) → (⟨S8192x5, .f32⟩ : BufTy).Contents (Elt F)),
    unary main_v107 main_v108 (Host.exp : (⟨S8192x5, .f32⟩ : BufTy).Contents (Elt F) → (⟨S8192x5, .f32⟩ : BufTy).Contents (Elt F)),
    nullary main_cst_11 (constant S_ .f32 0x3F800000#32),
    unary main_cst_11 main_v109 (broadcastInDim S8192x5 ![] bcast_S_S8192x5 : (⟨S_, .f32⟩ : BufTy).Contents (Elt F) → (⟨S8192x5, .f32⟩ : BufTy).Contents (Elt F)),
    binary main_v109 main_v108 main_v110 (addf : (⟨S8192x5, .f32⟩ : BufTy).Contents (Elt F) → (⟨S8192x5, .f32⟩ : BufTy).Contents (Elt F) → (⟨S8192x5, .f32⟩ : BufTy).Contents (Elt F)),
    nullary main_cst_12 (constant S_ .f32 0x3F800000#32),
    unary main_cst_12 main_v111 (broadcastInDim S8192x5 ![] bcast_S_S8192x5 : (⟨S_, .f32⟩ : BufTy).Contents (Elt F) → (⟨S8192x5, .f32⟩ : BufTy).Contents (Elt F)),
    binary main_v111 main_v110 main_v112 (Host.divf : (⟨S8192x5, .f32⟩ : BufTy).Contents (Elt F) → (⟨S8192x5, .f32⟩ : BufTy).Contents (Elt F) → (⟨S8192x5, .f32⟩ : BufTy).Contents (Elt F)),
    unary main_arg11 main_v113 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v113 main_v114 rfl shapeCasts_S1x10x5_S10x5,
    binary main_v98 main_v114 main_v115 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v116 ((extractStridedSlice S1x5 ![1, 0] · slices_S4x5_S1x5_1_0) : (⟨S4x5, .f32⟩ : BufTy).Contents (Elt F) → (⟨S1x5, .f32⟩ : BufTy).Contents (Elt F)),
    reshape main_v116 main_v117 rfl shapeCasts_S1x5_S5,
    unary main_v117 main_v118 (broadcastInDim S1x5 ![1] bcast_S5_S1x5_1 : (⟨S5, .f32⟩ : BufTy).Contents (Elt F) → (⟨S1x5, .f32⟩ : BufTy).Contents (Elt F)),
    unary main_v118 main_v119 (broadcastInDim S8192x5 ![0, 1] bcast_S1x5_S8192x5_0_1 : (⟨S1x5, .f32⟩ : BufTy).Contents (Elt F) → (⟨S8192x5, .f32⟩ : BufTy).Contents (Elt F)),
    binary main_v115 main_v119 main_v120 (addf : (⟨S8192x5, .f32⟩ : BufTy).Contents (Elt F) → (⟨S8192x5, .f32⟩ : BufTy).Contents (Elt F) → (⟨S8192x5, .f32⟩ : BufTy).Contents (Elt F)),
    unary main_v120 main_v121 (Host.negf : (⟨S8192x5, .f32⟩ : BufTy).Contents (Elt F) → (⟨S8192x5, .f32⟩ : BufTy).Contents (Elt F)),
    unary main_v121 main_v122 (Host.exp : (⟨S8192x5, .f32⟩ : BufTy).Contents (Elt F) → (⟨S8192x5, .f32⟩ : BufTy).Contents (Elt F)),
    nullary main_cst_13 (constant S_ .f32 0x3F800000#32),
    unary main_cst_13 main_v123 (broadcastInDim S8192x5 ![] bcast_S_S8192x5 : (⟨S_, .f32⟩ : BufTy).Contents (Elt F) → (⟨S8192x5, .f32⟩ : BufTy).Contents (Elt F)),
    binary main_v123 main_v122 main_v124 (addf : (⟨S8192x5, .f32⟩ : BufTy).Contents (Elt F) → (⟨S8192x5, .f32⟩ : BufTy).Contents (Elt F) → (⟨S8192x5, .f32⟩ : BufTy).Contents (Elt F)),
    nullary main_cst_14 (constant S_ .f32 0x3F800000#32),
    unary main_cst_14 main_v125 (broadcastInDim S8192x5 ![] bcast_S_S8192x5 : (⟨S_, .f32⟩ : BufTy).Contents (Elt F) → (⟨S8192x5, .f32⟩ : BufTy).Contents (Elt F)),
    binary main_v125 main_v124 main_v126 (Host.divf : (⟨S8192x5, .f32⟩ : BufTy).Contents (Elt F) → (⟨S8192x5, .f32⟩ : BufTy).Contents (Elt F) → (⟨S8192x5, .f32⟩ : BufTy).Contents (Elt F)),
    binary main_v78 main_v112 main_v127 (mulf : (⟨S8192x5, .f32⟩ : BufTy).Contents (Elt F) → (⟨S8192x5, .f32⟩ : BufTy).Contents (Elt F) → (⟨S8192x5, .f32⟩ : BufTy).Contents (Elt F)),
    binary main_v127 main_v97 main_v128 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v129 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v129 main_v130 rfl shapeCasts_S1x10x5_S10x5,
    binary main_v128 main_v130 main_v131 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v132 ((extractStridedSlice S1x5 ![1, 0] · slices_S4x5_S1x5_1_0) : (⟨S4x5, .f32⟩ : BufTy).Contents (Elt F) → (⟨S1x5, .f32⟩ : BufTy).Contents (Elt F)),
    reshape main_v132 main_v133 rfl shapeCasts_S1x5_S5,
    unary main_v133 main_v134 (broadcastInDim S1x5 ![1] bcast_S5_S1x5_1 : (⟨S5, .f32⟩ : BufTy).Contents (Elt F) → (⟨S1x5, .f32⟩ : BufTy).Contents (Elt F)),
    unary main_v134 main_v135 (broadcastInDim S8192x5 ![0, 1] bcast_S1x5_S8192x5_0_1 : (⟨S1x5, .f32⟩ : BufTy).Contents (Elt F) → (⟨S8192x5, .f32⟩ : BufTy).Contents (Elt F)),
    binary main_v131 main_v135 main_v136 (addf : (⟨S8192x5, .f32⟩ : BufTy).Contents (Elt F) → (⟨S8192x5, .f32⟩ : BufTy).Contents (Elt F) → (⟨S8192x5, .f32⟩ : BufTy).Contents (Elt F)),
    unary main_v136 main_v137 (Host.tanh : (⟨S8192x5, .f32⟩ : BufTy).Contents (Elt F) → (⟨S8192x5, .f32⟩ : BufTy).Contents (Elt F)),
    nullary main_cst_15 (constant S_ .f32 0x3F800000#32),
    unary main_cst_15 main_v138 (broadcastInDim S8192x5 ![] bcast_S_S8192x5 : (⟨S_, .f32⟩ : BufTy).Contents (Elt F) → (⟨S8192x5, .f32⟩ : BufTy).Contents (Elt F)),
    binary main_v138 main_v126 main_v139 (subf : (⟨S8192x5, .f32⟩ : BufTy).Contents (Elt F) → (⟨S8192x5, .f32⟩ : BufTy).Contents (Elt F) → (⟨S8192x5, .f32⟩ : BufTy).Contents (Elt F)),
    binary main_v78 main_v139 main_v140 (mulf : (⟨S8192x5, .f32⟩ : BufTy).Contents (Elt F) → (⟨S8192x5, .f32⟩ : BufTy).Contents (Elt F) → (⟨S8192x5, .f32⟩ : BufTy).Contents (Elt F)),
    binary main_v137 main_v126 main_v141 (mulf : (⟨S8192x5, .f32⟩ : BufTy).Contents (Elt F) → (⟨S8192x5, .f32⟩ : BufTy).Contents (Elt F) → (⟨S8192x5, .f32⟩ : BufTy).Contents (Elt F)),
    binary main_v140 main_v141 main_v142 (addf : (⟨S8192x5, .f32⟩ : BufTy).Contents (Elt F) → (⟨S8192x5, .f32⟩ : BufTy).Contents (Elt F) → (⟨S8192x5, .f32⟩ : BufTy).Contents (Elt F)),
    unary main_arg7 main_v143 ((extractStridedSlice S1x5x5 ![2, 0, 0] · slices_S4x5x5_S1x5x5_2_0_0) : (⟨S4x5x5, .f32⟩ : BufTy).Contents (Elt F) → (⟨S1x5x5, .f32⟩ : BufTy).Contents (Elt F)),
    reshape main_v143 main_v144 rfl shapeCasts_S1x5x5_S5x5,
    binary main_v142 main_v144 main_v145 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v146 ((extractStridedSlice S1x5 ![2, 0] · slices_S4x5_S1x5_2_0) : (⟨S4x5, .f32⟩ : BufTy).Contents (Elt F) → (⟨S1x5, .f32⟩ : BufTy).Contents (Elt F)),
    reshape main_v146 main_v147 rfl shapeCasts_S1x5_S5,
    unary main_v147 main_v148 (broadcastInDim S1x5 ![1] bcast_S5_S1x5_1 : (⟨S5, .f32⟩ : BufTy).Contents (Elt F) → (⟨S1x5, .f32⟩ : BufTy).Contents (Elt F)),
    unary main_v148 main_v149 (broadcastInDim S8192x5 ![0, 1] bcast_S1x5_S8192x5_0_1 : (⟨S1x5, .f32⟩ : BufTy).Contents (Elt F) → (⟨S8192x5, .f32⟩ : BufTy).Contents (Elt F)),
    binary main_v145 main_v149 main_v150 (addf : (⟨S8192x5, .f32⟩ : BufTy).Contents (Elt F) → (⟨S8192x5, .f32⟩ : BufTy).Contents (Elt F) → (⟨S8192x5, .f32⟩ : BufTy).Contents (Elt F)) ]
theorem L6_fresh : (L6 : List (HloOp τ sig (Elt F))).Forall fun op => op.fresh = ∅ := by
  simp only [List.Forall]; repeat' constructor
theorem L6_sub : (L6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
abbrev L7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S8192x5, .f32⟩) main_call3_v0) (broadcastInDim S8192x5 ![] bcast_S_S8192x5),
    TRef.binary (TRef.of (T := ⟨S8192x5, .f32⟩) main_v150) (TRef.of (T := ⟨S8192x5, .f32⟩) main_call3_v0) (TRef.of (T := ⟨S8192x5, .f32⟩) main_v151) maximumf ]
theorem L7_fresh : (L7 : List (HloOp τ sig (Elt F))).Forall fun op => op.fresh = ∅ := by
  simp only [List.Forall]; repeat' constructor
theorem L7_sub : (L7 : List (HloOp τ sig (Elt F))).Forall fun op => op.bufs ⊆ tcRefs τ sig :=
  ⟨nullary_bufs_sub .., unary_bufs_sub .., binary_bufs_sub ..⟩
abbrev L8 : List (HloOp τ sig (Elt F)) :=
  [ nullary main_c_16 (constantI S_ 32 0#32),
    unary main_c_16 main_v152 (broadcastInDim S262144 ![] bcast_S_S262144 : (⟨S_, .i32⟩ : BufTy).Contents (Elt F) → (⟨S262144, .i32⟩ : BufTy).Contents (Elt F)),
    binary main_v1 main_v152 main_v153 (cmpi .slt : (⟨S262144, .i32⟩ : BufTy).Contents (Elt F) → (⟨S262144, .i32⟩ : BufTy).Contents (Elt F) → (⟨S262144, .i1⟩ : BufTy).Contents (Elt F)),
    nullary main_c_17 (constantI S_ 32 8192#32),
    unary main_c_17 main_v154 (broadcastInDim S262144 ![] bcast_S_S262144 : (⟨S_, .i32⟩ : BufTy).Contents (Elt F) → (⟨S262144, .i32⟩ : BufTy).Contents (Elt F)),
    binary main_v1 main_v154 main_v155 (addi : (⟨S262144, .i32⟩ : BufTy).Contents (Elt F) → (⟨S262144, .i32⟩ : BufTy).Contents (Elt F) → (⟨S262144, .i32⟩ : BufTy).Contents (Elt F)),
    ternary main_v153 main_v155 main_v1 main_v156 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v156 main_v157 (broadcastInDim S262144x1 ![0] bcast_S262144_S262144x1_0 : (⟨S262144, .i32⟩ : BufTy).Contents (Elt F) → (⟨S262144x1, .i32⟩ : BufTy).Contents (Elt F)),
    binary main_v151 main_v157 main_v158 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_18 (constant S_ .f32 0x00000000#32),
    unary main_cst_18 main_v159 (broadcastInDim S8192x5 ![] bcast_S_S8192x5 : (⟨S_, .f32⟩ : BufTy).Contents (Elt F) → (⟨S8192x5, .f32⟩ : BufTy).Contents (Elt F)),
    unary main_v3 main_v160 (broadcastInDim S262144x1 ![0] bcast_S262144_S262144x1_0 : (⟨S262144, .i32⟩ : BufTy).Contents (Elt F) → (⟨S262144x1, .i32⟩ : BufTy).Contents (Elt F)),
    ternary main_v159 main_v160 main_v158 main_v161 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v142 main_v161 main_v162 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v163 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v163 main_v164 rfl shapeCasts_S1x10x5_S10x5,
    binary main_v162 main_v164 main_v165 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v166 ((extractStridedSlice S1x5 ![2, 0] · slices_S4x5_S1x5_2_0) : (⟨S4x5, .f32⟩ : BufTy).Contents (Elt F) → (⟨S1x5, .f32⟩ : BufTy).Contents (Elt F)),
    reshape main_v166 main_v167 rfl shapeCasts_S1x5_S5,
    unary main_v167 main_v168 (broadcastInDim S1x5 ![1] bcast_S5_S1x5_1 : (⟨S5, .f32⟩ : BufTy).Contents (Elt F) → (⟨S1x5, .f32⟩ : BufTy).Contents (Elt F)),
    unary main_v168 main_v169 (broadcastInDim S8192x5 ![0, 1] bcast_S1x5_S8192x5_0_1 : (⟨S1x5, .f32⟩ : BufTy).Contents (Elt F) → (⟨S8192x5, .f32⟩ : BufTy).Contents (Elt F)),
    binary main_v165 main_v169 main_v170 (addf : (⟨S8192x5, .f32⟩ : BufTy).Contents (Elt F) → (⟨S8192x5, .f32⟩ : BufTy).Contents (Elt F) → (⟨S8192x5, .f32⟩ : BufTy).Contents (Elt F)),
    unary main_v170 main_v171 (Host.negf : (⟨S8192x5, .f32⟩ : BufTy).Contents (Elt F) → (⟨S8192x5, .f32⟩ : BufTy).Contents (Elt F)),
    unary main_v171 main_v172 (Host.exp : (⟨S8192x5, .f32⟩ : BufTy).Contents (Elt F) → (⟨S8192x5, .f32⟩ : BufTy).Contents (Elt F)),
    nullary main_cst_19 (constant S_ .f32 0x3F800000#32),
    unary main_cst_19 main_v173 (broadcastInDim S8192x5 ![] bcast_S_S8192x5 : (⟨S_, .f32⟩ : BufTy).Contents (Elt F) → (⟨S8192x5, .f32⟩ : BufTy).Contents (Elt F)),
    binary main_v173 main_v172 main_v174 (addf : (⟨S8192x5, .f32⟩ : BufTy).Contents (Elt F) → (⟨S8192x5, .f32⟩ : BufTy).Contents (Elt F) → (⟨S8192x5, .f32⟩ : BufTy).Contents (Elt F)),
    nullary main_cst_20 (constant S_ .f32 0x3F800000#32),
    unary main_cst_20 main_v175 (broadcastInDim S8192x5 ![] bcast_S_S8192x5 : (⟨S_, .f32⟩ : BufTy).Contents (Elt F) → (⟨S8192x5, .f32⟩ : BufTy).Contents (Elt F)),
    binary main_v175 main_v174 main_v176 (Host.divf : (⟨S8192x5, .f32⟩ : BufTy).Contents (Elt F) → (⟨S8192x5, .f32⟩ : BufTy).Contents (Elt F) → (⟨S8192x5, .f32⟩ : BufTy).Contents (Elt F)),
    unary main_arg11 main_v177 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v177 main_v178 rfl shapeCasts_S1x10x5_S10x5,
    binary main_v162 main_v178 main_v179 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v180 ((extractStridedSlice S1x5 ![2, 0] · slices_S4x5_S1x5_2_0) : (⟨S4x5, .f32⟩ : BufTy).Contents (Elt F) → (⟨S1x5, .f32⟩ : BufTy).Contents (Elt F)),
    reshape main_v180 main_v181 rfl shapeCasts_S1x5_S5,
    unary main_v181 main_v182 (broadcastInDim S1x5 ![1] bcast_S5_S1x5_1 : (⟨S5, .f32⟩ : BufTy).Contents (Elt F) → (⟨S1x5, .f32⟩ : BufTy).Contents (Elt F)),
    unary main_v182 main_v183 (broadcastInDim S8192x5 ![0, 1] bcast_S1x5_S8192x5_0_1 : (⟨S1x5, .f32⟩ : BufTy).Contents (Elt F) → (⟨S8192x5, .f32⟩ : BufTy).Contents (Elt F)),
    binary main_v179 main_v183 main_v184 (addf : (⟨S8192x5, .f32⟩ : BufTy).Contents (Elt F) → (⟨S8192x5, .f32⟩ : BufTy).Contents (Elt F) → (⟨S8192x5, .f32⟩ : BufTy).Contents (Elt F)),
    unary main_v184 main_v185 (Host.negf : (⟨S8192x5, .f32⟩ : BufTy).Contents (Elt F) → (⟨S8192x5, .f32⟩ : BufTy).Contents (Elt F)),
    unary main_v185 main_v186 (Host.exp : (⟨S8192x5, .f32⟩ : BufTy).Contents (Elt F) → (⟨S8192x5, .f32⟩ : BufTy).Contents (Elt F)),
    nullary main_cst_21 (constant S_ .f32 0x3F800000#32),
    unary main_cst_21 main_v187 (broadcastInDim S8192x5 ![] bcast_S_S8192x5 : (⟨S_, .f32⟩ : BufTy).Contents (Elt F) → (⟨S8192x5, .f32⟩ : BufTy).Contents (Elt F)),
    binary main_v187 main_v186 main_v188 (addf : (⟨S8192x5, .f32⟩ : BufTy).Contents (Elt F) → (⟨S8192x5, .f32⟩ : BufTy).Contents (Elt F) → (⟨S8192x5, .f32⟩ : BufTy).Contents (Elt F)),
    nullary main_cst_22 (constant S_ .f32 0x3F800000#32),
    unary main_cst_22 main_v189 (broadcastInDim S8192x5 ![] bcast_S_S8192x5 : (⟨S_, .f32⟩ : BufTy).Contents (Elt F) → (⟨S8192x5, .f32⟩ : BufTy).Contents (Elt F)),
    binary main_v189 main_v188 main_v190 (Host.divf : (⟨S8192x5, .f32⟩ : BufTy).Contents (Elt F) → (⟨S8192x5, .f32⟩ : BufTy).Contents (Elt F) → (⟨S8192x5, .f32⟩ : BufTy).Contents (Elt F)),
    binary main_v142 main_v176 main_v191 (mulf : (⟨S8192x5, .f32⟩ : BufTy).Contents (Elt F) → (⟨S8192x5, .f32⟩ : BufTy).Contents (Elt F) → (⟨S8192x5, .f32⟩ : BufTy).Contents (Elt F)),
    binary main_v191 main_v161 main_v192 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v193 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v193 main_v194 rfl shapeCasts_S1x10x5_S10x5,
    binary main_v192 main_v194 main_v195 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v196 ((extractStridedSlice S1x5 ![2, 0] · slices_S4x5_S1x5_2_0) : (⟨S4x5, .f32⟩ : BufTy).Contents (Elt F) → (⟨S1x5, .f32⟩ : BufTy).Contents (Elt F)),
    reshape main_v196 main_v197 rfl shapeCasts_S1x5_S5,
    unary main_v197 main_v198 (broadcastInDim S1x5 ![1] bcast_S5_S1x5_1 : (⟨S5, .f32⟩ : BufTy).Contents (Elt F) → (⟨S1x5, .f32⟩ : BufTy).Contents (Elt F)),
    unary main_v198 main_v199 (broadcastInDim S8192x5 ![0, 1] bcast_S1x5_S8192x5_0_1 : (⟨S1x5, .f32⟩ : BufTy).Contents (Elt F) → (⟨S8192x5, .f32⟩ : BufTy).Contents (Elt F)),
    binary main_v195 main_v199 main_v200 (addf : (⟨S8192x5, .f32⟩ : BufTy).Contents (Elt F) → (⟨S8192x5, .f32⟩ : BufTy).Contents (Elt F) → (⟨S8192x5, .f32⟩ : BufTy).Contents (Elt F)),
    unary main_v200 main_v201 (Host.tanh : (⟨S8192x5, .f32⟩ : BufTy).Contents (Elt F) → (⟨S8192x5, .f32⟩ : BufTy).Contents (Elt F)),
    nullary main_cst_23 (constant S_ .f32 0x3F800000#32),
    unary main_cst_23 main_v202 (broadcastInDim S8192x5 ![] bcast_S_S8192x5 : (⟨S_, .f32⟩ : BufTy).Contents (Elt F) → (⟨S8192x5, .f32⟩ : BufTy).Contents (Elt F)),
    binary main_v202 main_v190 main_v203 (subf : (⟨S8192x5, .f32⟩ : BufTy).Contents (Elt F) → (⟨S8192x5, .f32⟩ : BufTy).Contents (Elt F) → (⟨S8192x5, .f32⟩ : BufTy).Contents (Elt F)),
    binary main_v142 main_v203 main_v204 (mulf : (⟨S8192x5, .f32⟩ : BufTy).Contents (Elt F) → (⟨S8192x5, .f32⟩ : BufTy).Contents (Elt F) → (⟨S8192x5, .f32⟩ : BufTy).Contents (Elt F)),
    binary main_v201 main_v190 main_v205 (mulf : (⟨S8192x5, .f32⟩ : BufTy).Contents (Elt F) → (⟨S8192x5, .f32⟩ : BufTy).Contents (Elt F) → (⟨S8192x5, .f32⟩ : BufTy).Contents (Elt F)),
    binary main_v204 main_v205 main_v206 (addf : (⟨S8192x5, .f32⟩ : BufTy).Contents (Elt F) → (⟨S8192x5, .f32⟩ : BufTy).Contents (Elt F) → (⟨S8192x5, .f32⟩ : BufTy).Contents (Elt F)),
    unary main_arg7 main_v207 ((extractStridedSlice S1x5x5 ![3, 0, 0] · slices_S4x5x5_S1x5x5_3_0_0) : (⟨S4x5x5, .f32⟩ : BufTy).Contents (Elt F) → (⟨S1x5x5, .f32⟩ : BufTy).Contents (Elt F)),
    reshape main_v207 main_v208 rfl shapeCasts_S1x5x5_S5x5,
    binary main_v206 main_v208 main_v209 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v210 ((extractStridedSlice S1x5 ![3, 0] · slices_S4x5_S1x5_3_0) : (⟨S4x5, .f32⟩ : BufTy).Contents (Elt F) → (⟨S1x5, .f32⟩ : BufTy).Contents (Elt F)),
    reshape main_v210 main_v211 rfl shapeCasts_S1x5_S5,
    unary main_v211 main_v212 (broadcastInDim S1x5 ![1] bcast_S5_S1x5_1 : (⟨S5, .f32⟩ : BufTy).Contents (Elt F) → (⟨S1x5, .f32⟩ : BufTy).Contents (Elt F)),
    unary main_v212 main_v213 (broadcastInDim S8192x5 ![0, 1] bcast_S1x5_S8192x5_0_1 : (⟨S1x5, .f32⟩ : BufTy).Contents (Elt F) → (⟨S8192x5, .f32⟩ : BufTy).Contents (Elt F)),
    binary main_v209 main_v213 main_v214 (addf : (⟨S8192x5, .f32⟩ : BufTy).Contents (Elt F) → (⟨S8192x5, .f32⟩ : BufTy).Contents (Elt F) → (⟨S8192x5, .f32⟩ : BufTy).Contents (Elt F)) ]
theorem L8_fresh : (L8 : List (HloOp τ sig (Elt F))).Forall fun op => op.fresh = ∅ := by
  simp only [List.Forall]; repeat' constructor
theorem L8_sub : (L8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
abbrev L9 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S8192x5, .f32⟩) main_call4_v0) (broadcastInDim S8192x5 ![] bcast_S_S8192x5),
    TRef.binary (TRef.of (T := ⟨S8192x5, .f32⟩) main_v214) (TRef.of (T := ⟨S8192x5, .f32⟩) main_call4_v0) (TRef.of (T := ⟨S8192x5, .f32⟩) main_v215) maximumf ]
theorem L9_fresh : (L9 : List (HloOp τ sig (Elt F))).Forall fun op => op.fresh = ∅ := by
  simp only [List.Forall]; repeat' constructor
theorem L9_sub : (L9 : List (HloOp τ sig (Elt F))).Forall fun op => op.bufs ⊆ tcRefs τ sig :=
  ⟨nullary_bufs_sub .., unary_bufs_sub .., binary_bufs_sub ..⟩
abbrev L10 : List (HloOp τ sig (Elt F)) :=
  [ nullary main_c_24 (constantI S_ 32 0#32),
    unary main_c_24 main_v216 (broadcastInDim S262144 ![] bcast_S_S262144 : (⟨S_, .i32⟩ : BufTy).Contents (Elt F) → (⟨S262144, .i32⟩ : BufTy).Contents (Elt F)),
    binary main_v1 main_v216 main_v217 (cmpi .slt : (⟨S262144, .i32⟩ : BufTy).Contents (Elt F) → (⟨S262144, .i32⟩ : BufTy).Contents (Elt F) → (⟨S262144, .i1⟩ : BufTy).Contents (Elt F)),
    nullary main_c_25 (constantI S_ 32 8192#32),
    unary main_c_25 main_v218 (broadcastInDim S262144 ![] bcast_S_S262144 : (⟨S_, .i32⟩ : BufTy).Contents (Elt F) → (⟨S262144, .i32⟩ : BufTy).Contents (Elt F)),
    binary main_v1 main_v218 main_v219 (addi : (⟨S262144, .i32⟩ : BufTy).Contents (Elt F) → (⟨S262144, .i32⟩ : BufTy).Contents (Elt F) → (⟨S262144, .i32⟩ : BufTy).Contents (Elt F)),
    ternary main_v217 main_v219 main_v1 main_v220 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v220 main_v221 (broadcastInDim S262144x1 ![0] bcast_S262144_S262144x1_0 : (⟨S262144, .i32⟩ : BufTy).Contents (Elt F) → (⟨S262144x1, .i32⟩ : BufTy).Contents (Elt F)),
    binary main_v215 main_v221 main_v222 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_26 (constant S_ .f32 0x00000000#32),
    unary main_cst_26 main_v223 (broadcastInDim S8192x5 ![] bcast_S_S8192x5 : (⟨S_, .f32⟩ : BufTy).Contents (Elt F) → (⟨S8192x5, .f32⟩ : BufTy).Contents (Elt F)),
    unary main_v3 main_v224 (broadcastInDim S262144x1 ![0] bcast_S262144_S262144x1_0 : (⟨S262144, .i32⟩ : BufTy).Contents (Elt F) → (⟨S262144x1, .i32⟩ : BufTy).Contents (Elt F)),
    ternary main_v223 main_v224 main_v222 main_v225 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v206 main_v225 main_v226 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v227 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v227 main_v228 rfl shapeCasts_S1x10x5_S10x5,
    binary main_v226 main_v228 main_v229 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v230 ((extractStridedSlice S1x5 ![3, 0] · slices_S4x5_S1x5_3_0) : (⟨S4x5, .f32⟩ : BufTy).Contents (Elt F) → (⟨S1x5, .f32⟩ : BufTy).Contents (Elt F)),
    reshape main_v230 main_v231 rfl shapeCasts_S1x5_S5,
    unary main_v231 main_v232 (broadcastInDim S1x5 ![1] bcast_S5_S1x5_1 : (⟨S5, .f32⟩ : BufTy).Contents (Elt F) → (⟨S1x5, .f32⟩ : BufTy).Contents (Elt F)),
    unary main_v232 main_v233 (broadcastInDim S8192x5 ![0, 1] bcast_S1x5_S8192x5_0_1 : (⟨S1x5, .f32⟩ : BufTy).Contents (Elt F) → (⟨S8192x5, .f32⟩ : BufTy).Contents (Elt F)),
    binary main_v229 main_v233 main_v234 (addf : (⟨S8192x5, .f32⟩ : BufTy).Contents (Elt F) → (⟨S8192x5, .f32⟩ : BufTy).Contents (Elt F) → (⟨S8192x5, .f32⟩ : BufTy).Contents (Elt F)),
    unary main_v234 main_v235 (Host.negf : (⟨S8192x5, .f32⟩ : BufTy).Contents (Elt F) → (⟨S8192x5, .f32⟩ : BufTy).Contents (Elt F)),
    unary main_v235 main_v236 (Host.exp : (⟨S8192x5, .f32⟩ : BufTy).Contents (Elt F) → (⟨S8192x5, .f32⟩ : BufTy).Contents (Elt F)),
    nullary main_cst_27 (constant S_ .f32 0x3F800000#32),
    unary main_cst_27 main_v237 (broadcastInDim S8192x5 ![] bcast_S_S8192x5 : (⟨S_, .f32⟩ : BufTy).Contents (Elt F) → (⟨S8192x5, .f32⟩ : BufTy).Contents (Elt F)),
    binary main_v237 main_v236 main_v238 (addf : (⟨S8192x5, .f32⟩ : BufTy).Contents (Elt F) → (⟨S8192x5, .f32⟩ : BufTy).Contents (Elt F) → (⟨S8192x5, .f32⟩ : BufTy).Contents (Elt F)),
    nullary main_cst_28 (constant S_ .f32 0x3F800000#32),
    unary main_cst_28 main_v239 (broadcastInDim S8192x5 ![] bcast_S_S8192x5 : (⟨S_, .f32⟩ : BufTy).Contents (Elt F) → (⟨S8192x5, .f32⟩ : BufTy).Contents (Elt F)),
    binary main_v239 main_v238 main_v240 (Host.divf : (⟨S8192x5, .f32⟩ : BufTy).Contents (Elt F) → (⟨S8192x5, .f32⟩ : BufTy).Contents (Elt F) → (⟨S8192x5, .f32⟩ : BufTy).Contents (Elt F)),
    unary main_arg11 main_v241 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v241 main_v242 rfl shapeCasts_S1x10x5_S10x5,
    binary main_v226 main_v242 main_v243 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v244 ((extractStridedSlice S1x5 ![3, 0] · slices_S4x5_S1x5_3_0) : (⟨S4x5, .f32⟩ : BufTy).Contents (Elt F) → (⟨S1x5, .f32⟩ : BufTy).Contents (Elt F)),
    reshape main_v244 main_v245 rfl shapeCasts_S1x5_S5,
    unary main_v245 main_v246 (broadcastInDim S1x5 ![1] bcast_S5_S1x5_1 : (⟨S5, .f32⟩ : BufTy).Contents (Elt F) → (⟨S1x5, .f32⟩ : BufTy).Contents (Elt F)),
    unary main_v246 main_v247 (broadcastInDim S8192x5 ![0, 1] bcast_S1x5_S8192x5_0_1 : (⟨S1x5, .f32⟩ : BufTy).Contents (Elt F) → (⟨S8192x5, .f32⟩ : BufTy).Contents (Elt F)),
    binary main_v243 main_v247 main_v248 (addf : (⟨S8192x5, .f32⟩ : BufTy).Contents (Elt F) → (⟨S8192x5, .f32⟩ : BufTy).Contents (Elt F) → (⟨S8192x5, .f32⟩ : BufTy).Contents (Elt F)),
    unary main_v248 main_v249 (Host.negf : (⟨S8192x5, .f32⟩ : BufTy).Contents (Elt F) → (⟨S8192x5, .f32⟩ : BufTy).Contents (Elt F)),
    unary main_v249 main_v250 (Host.exp : (⟨S8192x5, .f32⟩ : BufTy).Contents (Elt F) → (⟨S8192x5, .f32⟩ : BufTy).Contents (Elt F)),
    nullary main_cst_29 (constant S_ .f32 0x3F800000#32),
    unary main_cst_29 main_v251 (broadcastInDim S8192x5 ![] bcast_S_S8192x5 : (⟨S_, .f32⟩ : BufTy).Contents (Elt F) → (⟨S8192x5, .f32⟩ : BufTy).Contents (Elt F)),
    binary main_v251 main_v250 main_v252 (addf : (⟨S8192x5, .f32⟩ : BufTy).Contents (Elt F) → (⟨S8192x5, .f32⟩ : BufTy).Contents (Elt F) → (⟨S8192x5, .f32⟩ : BufTy).Contents (Elt F)),
    nullary main_cst_30 (constant S_ .f32 0x3F800000#32),
    unary main_cst_30 main_v253 (broadcastInDim S8192x5 ![] bcast_S_S8192x5 : (⟨S_, .f32⟩ : BufTy).Contents (Elt F) → (⟨S8192x5, .f32⟩ : BufTy).Contents (Elt F)),
    binary main_v253 main_v252 main_v254 (Host.divf : (⟨S8192x5, .f32⟩ : BufTy).Contents (Elt F) → (⟨S8192x5, .f32⟩ : BufTy).Contents (Elt F) → (⟨S8192x5, .f32⟩ : BufTy).Contents (Elt F)),
    binary main_v206 main_v240 main_v255 (mulf : (⟨S8192x5, .f32⟩ : BufTy).Contents (Elt F) → (⟨S8192x5, .f32⟩ : BufTy).Contents (Elt F) → (⟨S8192x5, .f32⟩ : BufTy).Contents (Elt F)),
    binary main_v255 main_v225 main_v256 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v257 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v257 main_v258 rfl shapeCasts_S1x10x5_S10x5,
    binary main_v256 main_v258 main_v259 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v260 ((extractStridedSlice S1x5 ![3, 0] · slices_S4x5_S1x5_3_0) : (⟨S4x5, .f32⟩ : BufTy).Contents (Elt F) → (⟨S1x5, .f32⟩ : BufTy).Contents (Elt F)),
    reshape main_v260 main_v261 rfl shapeCasts_S1x5_S5,
    unary main_v261 main_v262 (broadcastInDim S1x5 ![1] bcast_S5_S1x5_1 : (⟨S5, .f32⟩ : BufTy).Contents (Elt F) → (⟨S1x5, .f32⟩ : BufTy).Contents (Elt F)),
    unary main_v262 main_v263 (broadcastInDim S8192x5 ![0, 1] bcast_S1x5_S8192x5_0_1 : (⟨S1x5, .f32⟩ : BufTy).Contents (Elt F) → (⟨S8192x5, .f32⟩ : BufTy).Contents (Elt F)),
    binary main_v259 main_v263 main_v264 (addf : (⟨S8192x5, .f32⟩ : BufTy).Contents (Elt F) → (⟨S8192x5, .f32⟩ : BufTy).Contents (Elt F) → (⟨S8192x5, .f32⟩ : BufTy).Contents (Elt F)),
    unary main_v264 main_v265 (Host.tanh : (⟨S8192x5, .f32⟩ : BufTy).Contents (Elt F) → (⟨S8192x5, .f32⟩ : BufTy).Contents (Elt F)),
    nullary main_cst_31 (constant S_ .f32 0x3F800000#32),
    unary main_cst_31 main_v266 (broadcastInDim S8192x5 ![] bcast_S_S8192x5 : (⟨S_, .f32⟩ : BufTy).Contents (Elt F) → (⟨S8192x5, .f32⟩ : BufTy).Contents (Elt F)),
    binary main_v266 main_v254 main_v267 (subf : (⟨S8192x5, .f32⟩ : BufTy).Contents (Elt F) → (⟨S8192x5, .f32⟩ : BufTy).Contents (Elt F) → (⟨S8192x5, .f32⟩ : BufTy).Contents (Elt F)),
    binary main_v206 main_v267 main_v268 (mulf : (⟨S8192x5, .f32⟩ : BufTy).Contents (Elt F) → (⟨S8192x5, .f32⟩ : BufTy).Contents (Elt F) → (⟨S8192x5, .f32⟩ : BufTy).Contents (Elt F)),
    binary main_v265 main_v254 main_v269 (mulf : (⟨S8192x5, .f32⟩ : BufTy).Contents (Elt F) → (⟨S8192x5, .f32⟩ : BufTy).Contents (Elt F) → (⟨S8192x5, .f32⟩ : BufTy).Contents (Elt F)),
    binary main_v268 main_v269 main_v270 (addf : (⟨S8192x5, .f32⟩ : BufTy).Contents (Elt F) → (⟨S8192x5, .f32⟩ : BufTy).Contents (Elt F) → (⟨S8192x5, .f32⟩ : BufTy).Contents (Elt F)),
    binary main_v270 main_arg15 main_v271 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg16 main_v272 (broadcastInDim S1x5 ![1] bcast_S5_S1x5_1 : (⟨S5, .f32⟩ : BufTy).Contents (Elt F) → (⟨S1x5, .f32⟩ : BufTy).Contents (Elt F)),
    unary main_v272 main_v273 (broadcastInDim S8192x5 ![0, 1] bcast_S1x5_S8192x5_0_1 : (⟨S1x5, .f32⟩ : BufTy).Contents (Elt F) → (⟨S8192x5, .f32⟩ : BufTy).Contents (Elt F)),
    binary main_v271 main_v273 main_v274 (addf : (⟨S8192x5, .f32⟩ : BufTy).Contents (Elt F) → (⟨S8192x5, .f32⟩ : BufTy).Contents (Elt F) → (⟨S8192x5, .f32⟩ : BufTy).Contents (Elt F)),
    binary main_v270 main_arg17 main_v275 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg18 main_v276 (broadcastInDim S1x5 ![1] bcast_S5_S1x5_1 : (⟨S5, .f32⟩ : BufTy).Contents (Elt F) → (⟨S1x5, .f32⟩ : BufTy).Contents (Elt F)),
    unary main_v276 main_v277 (broadcastInDim S8192x5 ![0, 1] bcast_S1x5_S8192x5_0_1 : (⟨S1x5, .f32⟩ : BufTy).Contents (Elt F) → (⟨S8192x5, .f32⟩ : BufTy).Contents (Elt F)),
    binary main_v275 main_v277 main_v278 (addf : (⟨S8192x5, .f32⟩ : BufTy).Contents (Elt F) → (⟨S8192x5, .f32⟩ : BufTy).Contents (Elt F) → (⟨S8192x5, .f32⟩ : BufTy).Contents (Elt F)),
    nullary main_cst_32 (constant S_ .f32 0x3F000000#32),
    unary main_cst_32 main_v279 (broadcastInDim S8192x5 ![] bcast_S_S8192x5 : (⟨S_, .f32⟩ : BufTy).Contents (Elt F) → (⟨S8192x5, .f32⟩ : BufTy).Contents (Elt F)),
    binary main_v279 main_v278 main_v280 (mulf : (⟨S8192x5, .f32⟩ : BufTy).Contents (Elt F) → (⟨S8192x5, .f32⟩ : BufTy).Contents (Elt F) → (⟨S8192x5, .f32⟩ : BufTy).Contents (Elt F)),
    unary main_v280 main_v281 (Host.exp : (⟨S8192x5, .f32⟩ : BufTy).Contents (Elt F) → (⟨S8192x5, .f32⟩ : BufTy).Contents (Elt F)),
    binary main_arg2 main_v281 main_v282 (mulf : (⟨S8192x5, .f32⟩ : BufTy).Contents (Elt F) → (⟨S8192x5, .f32⟩ : BufTy).Contents (Elt F) → (⟨S8192x5, .f32⟩ : BufTy).Contents (Elt F)),
    binary main_v274 main_v282 main_v283 (addf : (⟨S8192x5, .f32⟩ : BufTy).Contents (Elt F) → (⟨S8192x5, .f32⟩ : BufTy).Contents (Elt F) → (⟨S8192x5, .f32⟩ : BufTy).Contents (Elt F)) ]
theorem L10_fresh : (L10 : List (HloOp τ sig (Elt F))).Forall fun op => op.fresh = ∅ := by
  simp only [List.Forall]; repeat' constructor
theorem L10_sub : (L10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., binary_bufs_sub .., binary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub ..⟩
abbrev Ltail : List (HloOp τ sig (Elt F)) :=
  [ unary main_v283 main_v284 ((transpose S5x8192 [1, 0] · transposes_S8192x5_S5x8192_1_0) : (⟨S8192x5, .f32⟩ : BufTy).Contents (Elt F) → (⟨S5x8192, .f32⟩ : BufTy).Contents (Elt F)),
    binary main_v283 main_v284 main_v285 ((fun l r => Host.dotGeneral dot_S8192x5_S5x8192_S8192x8192_1_0_0_1_n_n none l r) : (⟨S8192x5, .f32⟩ : BufTy).Contents (Elt F) → (⟨S5x8192, .f32⟩ : BufTy).Contents (Elt F) → (⟨S8192x8192, .f32⟩ : BufTy).Contents (Elt F)),
    unary main_v285 main_v286 (Host.negf : (⟨S8192x8192, .f32⟩ : BufTy).Contents (Elt F) → (⟨S8192x8192, .f32⟩ : BufTy).Contents (Elt F)),
    unary main_v286 main_v287 (Host.exp : (⟨S8192x8192, .f32⟩ : BufTy).Contents (Elt F) → (⟨S8192x8192, .f32⟩ : BufTy).Contents (Elt F)),
    nullary main_cst_33 (constant S_ .f32 0x3F800000#32),
    unary main_cst_33 main_v288 (broadcastInDim S8192x8192 ![] bcast_S_S8192x8192 : (⟨S_, .f32⟩ : BufTy).Contents (Elt F) → (⟨S8192x8192, .f32⟩ : BufTy).Contents (Elt F)),
    binary main_v288 main_v287 main_v289 (addf : (⟨S8192x8192, .f32⟩ : BufTy).Contents (Elt F) → (⟨S8192x8192, .f32⟩ : BufTy).Contents (Elt F) → (⟨S8192x8192, .f32⟩ : BufTy).Contents (Elt F)),
    nullary main_cst_34 (constant S_ .f32 0x3F800000#32),
    unary main_cst_34 main_v290 (broadcastInDim S8192x8192 ![] bcast_S_S8192x8192 : (⟨S_, .f32⟩ : BufTy).Contents (Elt F) → (⟨S8192x8192, .f32⟩ : BufTy).Contents (Elt F)),
    binary main_v290 main_v289 main_v291 (Host.divf : (⟨S8192x8192, .f32⟩ : BufTy).Contents (Elt F) → (⟨S8192x8192, .f32⟩ : BufTy).Contents (Elt F) → (⟨S8192x8192, .f32⟩ : BufTy).Contents (Elt F)) ]
theorem Ltail_fresh : (Ltail : List (HloOp τ sig (Elt F))).Forall fun op => op.fresh = ∅ := by
  simp only [List.Forall]; repeat' constructor
theorem Ltail_sub : (Ltail : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩

/-- The stretches before the decoder. -/
abbrev hostLine : List (List (HloOp τ sig (Elt F))) := [L0, L1, L2, L3, L4, L5, L6, L7, L8, L9, L10]

/-- @main's operations, in order (a called function's operations stand in its call's place). -/
abbrev ops : List (HloOp τ sig (Elt F)) := List.flatten hostLine ++ Ltail

theorem ops_eq : (ops : List (HloOp τ sig (Elt F))) = List.flatten hostLine ++ Ltail := rfl

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A property every stretch's operations have, every operation of the line has. -/
theorem forall_ops (P : HloOp τ sig (Elt F) → Prop) (h0 : (L0 : List (HloOp τ sig (Elt F))).Forall P) (h1 : (L1 : List (HloOp τ sig (Elt F))).Forall P) (h2 : (L2 : List (HloOp τ sig (Elt F))).Forall P) (h3 : (L3 : List (HloOp τ sig (Elt F))).Forall P) (h4 : (L4 : List (HloOp τ sig (Elt F))).Forall P) (h5 : (L5 : List (HloOp τ sig (Elt F))).Forall P) (h6 : (L6 : List (HloOp τ sig (Elt F))).Forall P) (h7 : (L7 : List (HloOp τ sig (Elt F))).Forall P) (h8 : (L8 : List (HloOp τ sig (Elt F))).Forall P) (h9 : (L9 : List (HloOp τ sig (Elt F))).Forall P) (h10 : (L10 : List (HloOp τ sig (Elt F))).Forall P) (h11 : (Ltail : List (HloOp τ sig (Elt F))).Forall P) :
    ∀ op ∈ (ops : List (HloOp τ sig (Elt F))), P op := by
  intro op hop
  rcases List.mem_append.mp hop with hop | hop
  · obtain ⟨l, ho, h'⟩ := List.mem_flatten.mp hop
    simp only [hostLine, List.mem_cons, List.not_mem_nil, or_false] at ho
    rcases ho with rfl | rfl | rfl | rfl | rfl | rfl | rfl | rfl | rfl | rfl | rfl
    · exact List.forall_iff_forall_mem.mp h0 op h'
    · exact List.forall_iff_forall_mem.mp h1 op h'
    · exact List.forall_iff_forall_mem.mp h2 op h'
    · exact List.forall_iff_forall_mem.mp h3 op h'
    · exact List.forall_iff_forall_mem.mp h4 op h'
    · exact List.forall_iff_forall_mem.mp h5 op h'
    · exact List.forall_iff_forall_mem.mp h6 op h'
    · exact List.forall_iff_forall_mem.mp h7 op h'
    · exact List.forall_iff_forall_mem.mp h8 op h'
    · exact List.forall_iff_forall_mem.mp h9 op h'
    · exact List.forall_iff_forall_mem.mp h10 op h'
  · exact List.forall_iff_forall_mem.mp h11 op hop

/-- Every operation of the line determines its result. -/
theorem ops_fresh : ∀ op ∈ (ops : List (HloOp τ sig (Elt F))), op.fresh = ∅ :=
  forall_ops _ L0_fresh L1_fresh L2_fresh L3_fresh L4_fresh L5_fresh L6_fresh L7_fresh L8_fresh L9_fresh L10_fresh Ltail_fresh

/-- Every operation of the line touches TensorCore buffers only. -/
theorem ops_sub : (ops : List (HloOp τ sig (Elt F))).Forall fun op => op.bufs ⊆ tcRefs τ sig :=
  List.forall_iff_forall_mem.mpr (forall_ops _ L0_sub L1_sub L2_sub L3_sub L4_sub L5_sub L6_sub L7_sub L8_sub L9_sub L10_sub Ltail_sub)

end Cert.ReferenceIdeal.Hand

end
-- ==== Proof.RefWrites.lean ====
/-
  Which buffers each stretch of the reference's line writes: none writes an argument array, and the decoder's ten
  operations write neither the embeddings nor the two heads.
-/
import proofs.«112254_j79388175499762_1_alg».proof.Proof.RefOps

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What each stretch writes -/

abbrev W0 : List (Ref sig .tc) := [main_v0, main_v1, main_v2, main_v3, main_cst, main_v4, main_v5, main_v6, main_v7, main_cst_0, main_v8, main_v9, main_v10, main_v11, main_v12, main_v13]
theorem writes0 : (L0 : List (HloOp τ sig (Elt F))).Forall fun op => op.writes ⊆ (W0.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W1 : List (Ref sig .tc) := [main_call0_cst, main_call0_v0, main_v14]
theorem writes1 : (L1 : List (HloOp τ sig (Elt F))).Forall fun op => op.writes ⊆ (W1.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W2 : List (Ref sig .tc) := [main_v15, main_v16, main_v17, main_v18, main_v19, main_v20, main_v21, main_v22]
theorem writes2 : (L2 : List (HloOp τ sig (Elt F))).Forall fun op => op.writes ⊆ (W2.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W3 : List (Ref sig .tc) := [main_call1_cst, main_call1_v0, main_v23]
theorem writes3 : (L3 : List (HloOp τ sig (Elt F))).Forall fun op => op.writes ⊆ (W3.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W4 : List (Ref sig .tc) := [main_c, main_v24, main_v25, main_c_1, main_v26, main_v27, main_v28, main_v29, main_v30, main_cst_2, main_v31, main_v32, main_v33, main_v34, main_v35, main_v36, main_v37, main_v38, main_v39, main_v40, main_v41, main_v42, main_v43, main_v44, main_cst_3, main_v45, main_v46, main_cst_4, main_v47, main_v48, main_v49, main_v50, main_v51, main_v52, main_v53, main_v54, main_v55, main_v56, main_v57, main_v58, main_cst_5, main_v59, main_v60, main_cst_6, main_v61, main_v62, main_v63, main_v64, main_v65, main_v66, main_v67, main_v68, main_v69, main_v70, main_v71, main_v72, main_v73, main_cst_7, main_v74, main_v75, main_v76, main_v77, main_v78, main_v79, main_v80, main_v81, main_v82, main_v83, main_v84, main_v85, main_v86]
theorem writes4 : (L4 : List (HloOp τ sig (Elt F))).Forall fun op => op.writes ⊆ (W4.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W5 : List (Ref sig .tc) := [main_call2_cst, main_call2_v0, main_v87]
theorem writes5 : (L5 : List (HloOp τ sig (Elt F))).Forall fun op => op.writes ⊆ (W5.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W6 : List (Ref sig .tc) := [main_c_8, main_v88, main_v89, main_c_9, main_v90, main_v91, main_v92, main_v93, main_v94, main_cst_10, main_v95, main_v96, main_v97, main_v98, main_v99, main_v100, main_v101, main_v102, main_v103, main_v104, main_v105, main_v106, main_v107, main_v108, main_cst_11, main_v109, main_v110, main_cst_12, main_v111, main_v112, main_v113, main_v114, main_v115, main_v116, main_v117, main_v118, main_v119, main_v120, main_v121, main_v122, main_cst_13, main_v123, main_v124, main_cst_14, main_v125, main_v126, main_v127, main_v128, main_v129, main_v130, main_v131, main_v132, main_v133, main_v134, main_v135, main_v136, main_v137, main_cst_15, main_v138, main_v139, main_v140, main_v141, main_v142, main_v143, main_v144, main_v145, main_v146, main_v147, main_v148, main_v149, main_v150]
theorem writes6 : (L6 : List (HloOp τ sig (Elt F))).Forall fun op => op.writes ⊆ (W6.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W7 : List (Ref sig .tc) := [main_call3_cst, main_call3_v0, main_v151]
theorem writes7 : (L7 : List (HloOp τ sig (Elt F))).Forall fun op => op.writes ⊆ (W7.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W8 : List (Ref sig .tc) := [main_c_16, main_v152, main_v153, main_c_17, main_v154, main_v155, main_v156, main_v157, main_v158, main_cst_18, main_v159, main_v160, main_v161, main_v162, main_v163, main_v164, main_v165, main_v166, main_v167, main_v168, main_v169, main_v170, main_v171, main_v172, main_cst_19, main_v173, main_v174, main_cst_20, main_v175, main_v176, main_v177, main_v178, main_v179, main_v180, main_v181, main_v182, main_v183, main_v184, main_v185, main_v186, main_cst_21, main_v187, main_v188, main_cst_22, main_v189, main_v190, main_v191, main_v192, main_v193, main_v194, main_v195, main_v196, main_v197, main_v198, main_v199, main_v200, main_v201, main_cst_23, main_v202, main_v203, main_v204, main_v205, main_v206, main_v207, main_v208, main_v209, main_v210, main_v211, main_v212, main_v213, main_v214]
theorem writes8 : (L8 : List (HloOp τ sig (Elt F))).Forall fun op => op.writes ⊆ (W8.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W9 : List (Ref sig .tc) := [main_call4_cst, main_call4_v0, main_v215]
theorem writes9 : (L9 : List (HloOp τ sig (Elt F))).Forall fun op => op.writes ⊆ (W9.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W10 : List (Ref sig .tc) := [main_c_24, main_v216, main_v217, main_c_25, main_v218, main_v219, main_v220, main_v221, main_v222, main_cst_26, main_v223, main_v224, main_v225, main_v226, main_v227, main_v228, main_v229, main_v230, main_v231, main_v232, main_v233, main_v234, main_v235, main_v236, main_cst_27, main_v237, main_v238, main_cst_28, main_v239, main_v240, main_v241, main_v242, main_v243, main_v244, main_v245, main_v246, main_v247, main_v248, main_v249, main_v250, main_cst_29, main_v251, main_v252, main_cst_30, main_v253, main_v254, main_v255, main_v256, main_v257, main_v258, main_v259, main_v260, main_v261, main_v262, main_v263, main_v264, main_v265, main_cst_31, main_v266, main_v267, main_v268, main_v269, main_v270, main_v271, main_v272, main_v273, main_v274, main_v275, main_v276, main_v277, main_v278, main_cst_32, main_v279, main_v280, main_v281, main_v282, main_v283]
theorem writes10 : (L10 : List (HloOp τ sig (Elt F))).Forall fun op => op.writes ⊆ (W10.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)
abbrev W11 : List (Ref sig .tc) := [main_v284, main_v285, main_v286, main_v287, main_cst_33, main_v288, main_v289, main_cst_34, main_v290, main_v291]
theorem writes11 : (Ltail : List (HloOp τ sig (Elt F))).Forall fun op => op.writes ⊆ (W11.map (Proc.devRef (τ := τ) .tc)).toFinset := by
  simp only [List.Forall, nullary_writes, unary_writes, binary_writes, ternary_writes,
    reshape_writes, Finset.singleton_subset_iff, List.mem_toFinset]
  repeat' apply And.intro
  all_goals exact List.mem_map_of_mem (by decide)

/-- A reference outside a list that holds everything a stretch writes is written by none of its operations. -/
theorem not_written {W : List (Ref sig .tc)} {r : Ref sig .tc} (l : List (HloOp τ sig (Elt F)))
    (hW : l.Forall fun op => op.writes ⊆ (W.map (Proc.devRef (τ := τ) .tc)).toFinset) (hr : r ∉ W) :
    ∀ op ∈ l, (Proc.devRef .tc r : DevRef τ sig) ∉ op.writes := fun op hop hb => by
  obtain ⟨y, hy, he⟩ := List.mem_map.mp (List.mem_toFinset.mp ((List.forall_iff_forall_mem.mp hW) op hop hb))
  exact hr (Proc.devRef_injective _ he ▸ hy)

/-- A reference no stretch writes keeps its contents through the whole line. -/
theorem kept (V : Valuation τ sig (Elt F)) (r : Ref sig .tc) (h0 : r ∉ W0) (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) :
    after (ops (F := F)) V (Proc.devRef .tc r) = V (Proc.devRef .tc r) := by
  rw [ops_eq]
  refine after_of_forall_not_mem (b := Proc.devRef .tc r) _ _ fun op hop => ?_
  rcases List.mem_append.mp hop with hop | hop
  · obtain ⟨l, ho, h'⟩ := List.mem_flatten.mp hop
    simp only [hostLine, List.mem_cons, List.not_mem_nil, or_false] at ho
    rcases ho with rfl | rfl | rfl | rfl | rfl | rfl | rfl | rfl | rfl | rfl | rfl
    · exact not_written _ writes0 h0 op h'
    · exact not_written _ writes1 h1 op h'
    · exact not_written _ writes2 h2 op h'
    · exact not_written _ writes3 h3 op h'
    · exact not_written _ writes4 h4 op h'
    · exact not_written _ writes5 h5 op h'
    · exact not_written _ writes6 h6 op h'
    · exact not_written _ writes7 h7 op h'
    · exact not_written _ writes8 h8 op h'
    · exact not_written _ writes9 h9 op h'
    · exact not_written _ writes10 h10 op h'
  · exact not_written _ writes11 h11 op hop

end Cert.ReferenceIdeal.Hand

end
-- ==== Proof.RefValue.lean ====
/-
  The reference program's results, read off its run.  The embeddings z and the two heads are written by the line before
  the decoder and not by the decoder's ten operations; the decoder's result is, entry by entry, the logistic function
  of the inner product of two rows of z.
-/
import proofs.«112254_j79388175499762_1_alg».proof.Proof.RefWrites
import proofs.«112254_j79388175499762_1_alg».proof.Proof.Decoder

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- A buffer the decoder's operations do not write holds after the whole line what the stretches before them left. -/
theorem head_eq {F : FTy → Type} [FloatOps F] (V : Valuation τ sig (Elt F)) (r : Ref sig .tc) (h : r ∉ W11) :
    after (ops (F := F)) V (Proc.devRef .tc r) = after (List.flatten (hostLine (F := F))) V (Proc.devRef .tc r) := by
  rw [ops_eq, after_app]
  exact after_of_forall_not_mem (b := Proc.devRef .tc r) _ _ (not_written _ writes11 h)

/-- The decoder's result is the decoder, as mathematics, of the embeddings the earlier stretches left. -/
theorem decoder_eq (V : Valuation τ sig (Elt Ideal)) :
    after (ops (F := Ideal)) V (Proc.devRef .tc main_v291)
      = Decoder.G (N := 8192) (K := 5) (after (List.flatten (hostLine (F := Ideal))) V (Proc.devRef .tc main_v283)) := by
  rw [ops_eq, after_app]
  generalize after (List.flatten (hostLine (F := Ideal))) V = X
  dsimp only [Ltail]
  after_results
  exact Decoder.whole_eq dot_S8192x5_S5x8192_S8192x8192_1_0_0_1_n_n rfl rfl rfl rfl rfl rfl _ _ _

end Cert.ReferenceIdeal.Hand

end
-- ==== Proof.RefMain.lean ====
/-
  The reference program's @main, printed in six parts of sixty statements, is the straight line of its operations run
  one after the other.
-/
import proofs.«112254_j79388175499762_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of part 0 of @main. -/
abbrev P0 : List (HloOp τ sig (Elt F)) :=
  [ unary main_arg3 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg3 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_cst (constant S_ .f32 0x3E800000#32),
    unary main_cst main_v4 (broadcastInDim S8192x7 ![] bcast_S_S8192x7 : (⟨S_, .f32⟩ : BufTy).Contents (Elt F) → (⟨S8192x7, .f32⟩ : BufTy).Contents (Elt F)),
    binary main_arg1 main_v4 main_v5 (cmpf .ogt : (⟨S8192x7, .f32⟩ : BufTy).Contents (Elt F) → (⟨S8192x7, .f32⟩ : BufTy).Contents (Elt F) → (⟨S8192x7, .i1⟩ : BufTy).Contents (Elt F)),
    unary main_v5 main_v6 (uitofp .f32 : (⟨S8192x7, .i1⟩ : BufTy).Contents (Elt F) → (⟨S8192x7, .f32⟩ : BufTy).Contents (Elt F)),
    binary main_arg0 main_v6 main_v7 (mulf : (⟨S8192x7, .f32⟩ : BufTy).Contents (Elt F) → (⟨S8192x7, .f32⟩ : BufTy).Contents (Elt F) → (⟨S8192x7, .f32⟩ : BufTy).Contents (Elt F)),
    nullary main_cst_0 (constant S_ .f32 0x3F400000#32),
    unary main_cst_0 main_v8 (broadcastInDim S8192x7 ![] bcast_S_S8192x7 : (⟨S_, .f32⟩ : BufTy).Contents (Elt F) → (⟨S8192x7, .f32⟩ : BufTy).Contents (Elt F)),
    binary main_v7 main_v8 main_v9 (Host.divf : (⟨S8192x7, .f32⟩ : BufTy).Contents (Elt F) → (⟨S8192x7, .f32⟩ : BufTy).Contents (Elt F) → (⟨S8192x7, .f32⟩ : BufTy).Contents (Elt F)),
    binary main_v9 main_arg5 main_v10 ((fun l r => Host.dotGeneral dot_S8192x7_S7x5_S8192x5_1_0_0_1_n_n none l r) : (⟨S8192x7, .f32⟩ : BufTy).Contents (Elt F) → (⟨S7x5, .f32⟩ : BufTy).Contents (Elt F) → (⟨S8192x5, .f32⟩ : BufTy).Contents (Elt F)),
    unary main_arg6 main_v11 (broadcastInDim S1x5 ![1] bcast_S5_S1x5_1 : (⟨S5, .f32⟩ : BufTy).Contents (Elt F) → (⟨S1x5, .f32⟩ : BufTy).Contents (Elt F)),
    unary main_v11 main_v12 (broadcastInDim S8192x5 ![0, 1] bcast_S1x5_S8192x5_0_1 : (⟨S1x5, .f32⟩ : BufTy).Contents (Elt F) → (⟨S8192x5, .f32⟩ : BufTy).Contents (Elt F)),
    binary main_v10 main_v12 main_v13 (addf : (⟨S8192x5, .f32⟩ : BufTy).Contents (Elt F) → (⟨S8192x5, .f32⟩ : BufTy).Contents (Elt F) → (⟨S8192x5, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x5, .f32⟩) main_call0_v0) (broadcastInDim S8192x5 ![] bcast_S_S8192x5),
    TRef.binary (TRef.of (T := ⟨S8192x5, .f32⟩) main_v13) (TRef.of (T := ⟨S8192x5, .f32⟩) main_call0_v0) (TRef.of (T := ⟨S8192x5, .f32⟩) main_v14) maximumf,
    unary main_arg7 main_v15 ((extractStridedSlice S1x5x5 ![0, 0, 0] · slices_S4x5x5_S1x5x5_0_0_0) : (⟨S4x5x5, .f32⟩ : BufTy).Contents (Elt F) → (⟨S1x5x5, .f32⟩ : BufTy).Contents (Elt F)),
    reshape main_v15 main_v16 rfl shapeCasts_S1x5x5_S5x5,
    binary main_v14 main_v16 main_v17 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v18 ((extractStridedSlice S1x5 ![0, 0] · slices_S4x5_S1x5_0_0) : (⟨S4x5, .f32⟩ : BufTy).Contents (Elt F) → (⟨S1x5, .f32⟩ : BufTy).Contents (Elt F)),
    reshape main_v18 main_v19 rfl shapeCasts_S1x5_S5,
    unary main_v19 main_v20 (broadcastInDim S1x5 ![1] bcast_S5_S1x5_1 : (⟨S5, .f32⟩ : BufTy).Contents (Elt F) → (⟨S1x5, .f32⟩ : BufTy).Contents (Elt F)),
    unary main_v20 main_v21 (broadcastInDim S8192x5 ![0, 1] bcast_S1x5_S8192x5_0_1 : (⟨S1x5, .f32⟩ : BufTy).Contents (Elt F) → (⟨S8192x5, .f32⟩ : BufTy).Contents (Elt F)),
    binary main_v17 main_v21 main_v22 (addf : (⟨S8192x5, .f32⟩ : BufTy).Contents (Elt F) → (⟨S8192x5, .f32⟩ : BufTy).Contents (Elt F) → (⟨S8192x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x5, .f32⟩) main_call1_v0) (broadcastInDim S8192x5 ![] bcast_S_S8192x5),
    TRef.binary (TRef.of (T := ⟨S8192x5, .f32⟩) main_v22) (TRef.of (T := ⟨S8192x5, .f32⟩) main_call1_v0) (TRef.of (T := ⟨S8192x5, .f32⟩) main_v23) maximumf,
    nullary main_c (constantI S_ 32 0#32),
    unary main_c main_v24 (broadcastInDim S262144 ![] bcast_S_S262144 : (⟨S_, .i32⟩ : BufTy).Contents (Elt F) → (⟨S262144, .i32⟩ : BufTy).Contents (Elt F)),
    binary main_v1 main_v24 main_v25 (cmpi .slt : (⟨S262144, .i32⟩ : BufTy).Contents (Elt F) → (⟨S262144, .i32⟩ : BufTy).Contents (Elt F) → (⟨S262144, .i1⟩ : BufTy).Contents (Elt F)),
    nullary main_c_1 (constantI S_ 32 8192#32),
    unary main_c_1 main_v26 (broadcastInDim S262144 ![] bcast_S_S262144 : (⟨S_, .i32⟩ : BufTy).Contents (Elt F) → (⟨S262144, .i32⟩ : BufTy).Contents (Elt F)),
    binary main_v1 main_v26 main_v27 (addi : (⟨S262144, .i32⟩ : BufTy).Contents (Elt F) → (⟨S262144, .i32⟩ : BufTy).Contents (Elt F) → (⟨S262144, .i32⟩ : BufTy).Contents (Elt F)),
    ternary main_v25 main_v27 main_v1 main_v28 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v28 main_v29 (broadcastInDim S262144x1 ![0] bcast_S262144_S262144x1_0 : (⟨S262144, .i32⟩ : BufTy).Contents (Elt F) → (⟨S262144x1, .i32⟩ : BufTy).Contents (Elt F)),
    binary main_v23 main_v29 main_v30 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_2 (constant S_ .f32 0x00000000#32),
    unary main_cst_2 main_v31 (broadcastInDim S8192x5 ![] bcast_S_S8192x5 : (⟨S_, .f32⟩ : BufTy).Contents (Elt F) → (⟨S8192x5, .f32⟩ : BufTy).Contents (Elt F)),
    unary main_v3 main_v32 (broadcastInDim S262144x1 ![0] bcast_S262144_S262144x1_0 : (⟨S262144, .i32⟩ : BufTy).Contents (Elt F) → (⟨S262144x1, .i32⟩ : BufTy).Contents (Elt F)),
    ternary main_v31 main_v32 main_v30 main_v33 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v14 main_v33 main_v34 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v35 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v35 main_v36 rfl shapeCasts_S1x10x5_S10x5,
    binary main_v34 main_v36 main_v37 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v38 ((extractStridedSlice S1x5 ![0, 0] · slices_S4x5_S1x5_0_0) : (⟨S4x5, .f32⟩ : BufTy).Contents (Elt F) → (⟨S1x5, .f32⟩ : BufTy).Contents (Elt F)),
    reshape main_v38 main_v39 rfl shapeCasts_S1x5_S5,
    unary main_v39 main_v40 (broadcastInDim S1x5 ![1] bcast_S5_S1x5_1 : (⟨S5, .f32⟩ : BufTy).Contents (Elt F) → (⟨S1x5, .f32⟩ : BufTy).Contents (Elt F)),
    unary main_v40 main_v41 (broadcastInDim S8192x5 ![0, 1] bcast_S1x5_S8192x5_0_1 : (⟨S1x5, .f32⟩ : BufTy).Contents (Elt F) → (⟨S8192x5, .f32⟩ : BufTy).Contents (Elt F)),
    binary main_v37 main_v41 main_v42 (addf : (⟨S8192x5, .f32⟩ : BufTy).Contents (Elt F) → (⟨S8192x5, .f32⟩ : BufTy).Contents (Elt F) → (⟨S8192x5, .f32⟩ : BufTy).Contents (Elt F)),
    unary main_v42 main_v43 (Host.negf : (⟨S8192x5, .f32⟩ : BufTy).Contents (Elt F) → (⟨S8192x5, .f32⟩ : BufTy).Contents (Elt F)),
    unary main_v43 main_v44 (Host.exp : (⟨S8192x5, .f32⟩ : BufTy).Contents (Elt F) → (⟨S8192x5, .f32⟩ : BufTy).Contents (Elt F)),
    nullary main_cst_3 (constant S_ .f32 0x3F800000#32),
    unary main_cst_3 main_v45 (broadcastInDim S8192x5 ![] bcast_S_S8192x5 : (⟨S_, .f32⟩ : BufTy).Contents (Elt F) → (⟨S8192x5, .f32⟩ : BufTy).Contents (Elt F)),
    binary main_v45 main_v44 main_v46 (addf : (⟨S8192x5, .f32⟩ : BufTy).Contents (Elt F) → (⟨S8192x5, .f32⟩ : BufTy).Contents (Elt F) → (⟨S8192x5, .f32⟩ : BufTy).Contents (Elt F)),
    nullary main_cst_4 (constant S_ .f32 0x3F800000#32),
    unary main_cst_4 main_v47 (broadcastInDim S8192x5 ![] bcast_S_S8192x5 : (⟨S_, .f32⟩ : BufTy).Contents (Elt F) → (⟨S8192x5, .f32⟩ : BufTy).Contents (Elt F)),
    binary main_v47 main_v46 main_v48 (Host.divf : (⟨S8192x5, .f32⟩ : BufTy).Contents (Elt F) → (⟨S8192x5, .f32⟩ : BufTy).Contents (Elt F) → (⟨S8192x5, .f32⟩ : BufTy).Contents (Elt F)),
    unary main_arg11 main_v49 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v49 main_v50 rfl shapeCasts_S1x10x5_S10x5,
    binary main_v34 main_v50 main_v51 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v52 ((extractStridedSlice S1x5 ![0, 0] · slices_S4x5_S1x5_0_0) : (⟨S4x5, .f32⟩ : BufTy).Contents (Elt F) → (⟨S1x5, .f32⟩ : BufTy).Contents (Elt F)) ]
set_option maxRecDepth 8192 in
set_option maxHeartbeats 4000000 in
theorem part0_eq (c : Dev nD) : main_part0 (F := F) c = seq P0 := rfl
/-- The operations of part 1 of @main. -/
abbrev P1 : List (HloOp τ sig (Elt F)) :=
  [ reshape main_v52 main_v53 rfl shapeCasts_S1x5_S5,
    unary main_v53 main_v54 (broadcastInDim S1x5 ![1] bcast_S5_S1x5_1 : (⟨S5, .f32⟩ : BufTy).Contents (Elt F) → (⟨S1x5, .f32⟩ : BufTy).Contents (Elt F)),
    unary main_v54 main_v55 (broadcastInDim S8192x5 ![0, 1] bcast_S1x5_S8192x5_0_1 : (⟨S1x5, .f32⟩ : BufTy).Contents (Elt F) → (⟨S8192x5, .f32⟩ : BufTy).Contents (Elt F)),
    binary main_v51 main_v55 main_v56 (addf : (⟨S8192x5, .f32⟩ : BufTy).Contents (Elt F) → (⟨S8192x5, .f32⟩ : BufTy).Contents (Elt F) → (⟨S8192x5, .f32⟩ : BufTy).Contents (Elt F)),
    unary main_v56 main_v57 (Host.negf : (⟨S8192x5, .f32⟩ : BufTy).Contents (Elt F) → (⟨S8192x5, .f32⟩ : BufTy).Contents (Elt F)),
    unary main_v57 main_v58 (Host.exp : (⟨S8192x5, .f32⟩ : BufTy).Contents (Elt F) → (⟨S8192x5, .f32⟩ : BufTy).Contents (Elt F)),
    nullary main_cst_5 (constant S_ .f32 0x3F800000#32),
    unary main_cst_5 main_v59 (broadcastInDim S8192x5 ![] bcast_S_S8192x5 : (⟨S_, .f32⟩ : BufTy).Contents (Elt F) → (⟨S8192x5, .f32⟩ : BufTy).Contents (Elt F)),
    binary main_v59 main_v58 main_v60 (addf : (⟨S8192x5, .f32⟩ : BufTy).Contents (Elt F) → (⟨S8192x5, .f32⟩ : BufTy).Contents (Elt F) → (⟨S8192x5, .f32⟩ : BufTy).Contents (Elt F)),
    nullary main_cst_6 (constant S_ .f32 0x3F800000#32),
    unary main_cst_6 main_v61 (broadcastInDim S8192x5 ![] bcast_S_S8192x5 : (⟨S_, .f32⟩ : BufTy).Contents (Elt F) → (⟨S8192x5, .f32⟩ : BufTy).Contents (Elt F)),
    binary main_v61 main_v60 main_v62 (Host.divf : (⟨S8192x5, .f32⟩ : BufTy).Contents (Elt F) → (⟨S8192x5, .f32⟩ : BufTy).Contents (Elt F) → (⟨S8192x5, .f32⟩ : BufTy).Contents (Elt F)),
    binary main_v14 main_v48 main_v63 (mulf : (⟨S8192x5, .f32⟩ : BufTy).Contents (Elt F) → (⟨S8192x5, .f32⟩ : BufTy).Contents (Elt F) → (⟨S8192x5, .f32⟩ : BufTy).Contents (Elt F)),
    binary main_v63 main_v33 main_v64 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v65 ((extractStridedSlice S1x10x5 ![0, 0, 0] · slices_S4x10x5_S1x10x5_0_0_0) : (⟨S4x10x5, .f32⟩ : BufTy).Contents (Elt F) → (⟨S1x10x5, .f32⟩ : BufTy).Contents (Elt F)),
    reshape main_v65 main_v66 rfl shapeCasts_S1x10x5_S10x5,
    binary main_v64 main_v66 main_v67 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v68 ((extractStridedSlice S1x5 ![0, 0] · slices_S4x5_S1x5_0_0) : (⟨S4x5, .f32⟩ : BufTy).Contents (Elt F) → (⟨S1x5, .f32⟩ : BufTy).Contents (Elt F)),
    reshape main_v68 main_v69 rfl shapeCasts_S1x5_S5,
    unary main_v69 main_v70 (broadcastInDim S1x5 ![1] bcast_S5_S1x5_1 : (⟨S5, .f32⟩ : BufTy).Contents (Elt F) → (⟨S1x5, .f32⟩ : BufTy).Contents (Elt F)),
    unary main_v70 main_v71 (broadcastInDim S8192x5 ![0, 1] bcast_S1x5_S8192x5_0_1 : (⟨S1x5, .f32⟩ : BufTy).Contents (Elt F) → (⟨S8192x5, .f32⟩ : BufTy).Contents (Elt F)),
    binary main_v67 main_v71 main_v72 (addf : (⟨S8192x5, .f32⟩ : BufTy).Contents (Elt F) → (⟨S8192x5, .f32⟩ : BufTy).Contents (Elt F) → (⟨S8192x5, .f32⟩ : BufTy).Contents (Elt F)),
    unary main_v72 main_v73 (Host.tanh : (⟨S8192x5, .f32⟩ : BufTy).Contents (Elt F) → (⟨S8192x5, .f32⟩ : BufTy).Contents (Elt F)),
    nullary main_cst_7 (constant S_ .f32 0x3F800000#32),
    unary main_cst_7 main_v74 (broadcastInDim S8192x5 ![] bcast_S_S8192x5 : (⟨S_, .f32⟩ : BufTy).Contents (Elt F) → (⟨S8192x5, .f32⟩ : BufTy).Contents (Elt F)),
    binary main_v74 main_v62 main_v75 (subf : (⟨S8192x5, .f32⟩ : BufTy).Contents (Elt F) → (⟨S8192x5, .f32⟩ : BufTy).Contents (Elt F) → (⟨S8192x5, .f32⟩ : BufTy).Contents (Elt F)),
    binary main_v14 main_v75 main_v76 (mulf : (⟨S8192x5, .f32⟩ : BufTy).Contents (Elt F) → (⟨S8192x5, .f32⟩ : BufTy).Contents (Elt F) → (⟨S8192x5, .f32⟩ : BufTy).Contents (Elt F)),
    binary main_v73 main_v62 main_v77 (mulf : (⟨S8192x5, .f32⟩ : BufTy).Contents (Elt F) → (⟨S8192x5, .f32⟩ : BufTy).Contents (Elt F) → (⟨S8192x5, .f32⟩ : BufTy).Contents (Elt F)),
    binary main_v76 main_v77 main_v78 (addf : (⟨S8192x5, .f32⟩ : BufTy).Contents (Elt F) → (⟨S8192x5, .f32⟩ : BufTy).Contents (Elt F) → (⟨S8192x5, .f32⟩ : BufTy).Contents (Elt F)),
    unary main_arg7 main_v79 ((extractStridedSlice S1x5x5 ![1, 0, 0] · slices_S4x5x5_S1x5x5_1_0_0) : (⟨S4x5x5, .f32⟩ : BufTy).Contents (Elt F) → (⟨S1x5x5, .f32⟩ : BufTy).Contents (Elt F)),
    reshape main_v79 main_v80 rfl shapeCasts_S1x5x5_S5x5,
    binary main_v78 main_v80 main_v81 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v82 ((extractStridedSlice S1x5 ![1, 0] · slices_S4x5_S1x5_1_0) : (⟨S4x5, .f32⟩ : BufTy).Contents (Elt F) → (⟨S1x5, .f32⟩ : BufTy).Contents (Elt F)),
    reshape main_v82 main_v83 rfl shapeCasts_S1x5_S5,
    unary main_v83 main_v84 (broadcastInDim S1x5 ![1] bcast_S5_S1x5_1 : (⟨S5, .f32⟩ : BufTy).Contents (Elt F) → (⟨S1x5, .f32⟩ : BufTy).Contents (Elt F)),
    unary main_v84 main_v85 (broadcastInDim S8192x5 ![0, 1] bcast_S1x5_S8192x5_0_1 : (⟨S1x5, .f32⟩ : BufTy).Contents (Elt F) → (⟨S8192x5, .f32⟩ : BufTy).Contents (Elt F)),
    binary main_v81 main_v85 main_v86 (addf : (⟨S8192x5, .f32⟩ : BufTy).Contents (Elt F) → (⟨S8192x5, .f32⟩ : BufTy).Contents (Elt F) → (⟨S8192x5, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x5, .f32⟩) main_call2_v0) (broadcastInDim S8192x5 ![] bcast_S_S8192x5),
    TRef.binary (TRef.of (T := ⟨S8192x5, .f32⟩) main_v86) (TRef.of (T := ⟨S8192x5, .f32⟩) main_call2_v0) (TRef.of (T := ⟨S8192x5, .f32⟩) main_v87) maximumf,
    nullary main_c_8 (constantI S_ 32 0#32),
    unary main_c_8 main_v88 (broadcastInDim S262144 ![] bcast_S_S262144 : (⟨S_, .i32⟩ : BufTy).Contents (Elt F) → (⟨S262144, .i32⟩ : BufTy).Contents (Elt F)),
    binary main_v1 main_v88 main_v89 (cmpi .slt : (⟨S262144, .i32⟩ : BufTy).Contents (Elt F) → (⟨S262144, .i32⟩ : BufTy).Contents (Elt F) → (⟨S262144, .i1⟩ : BufTy).Contents (Elt F)),
    nullary main_c_9 (constantI S_ 32 8192#32),
    unary main_c_9 main_v90 (broadcastInDim S262144 ![] bcast_S_S262144 : (⟨S_, .i32⟩ : BufTy).Contents (Elt F) → (⟨S262144, .i32⟩ : BufTy).Contents (Elt F)),
    binary main_v1 main_v90 main_v91 (addi : (⟨S262144, .i32⟩ : BufTy).Contents (Elt F) → (⟨S262144, .i32⟩ : BufTy).Contents (Elt F) → (⟨S262144, .i32⟩ : BufTy).Contents (Elt F)),
    ternary main_v89 main_v91 main_v1 main_v92 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v92 main_v93 (broadcastInDim S262144x1 ![0] bcast_S262144_S262144x1_0 : (⟨S262144, .i32⟩ : BufTy).Contents (Elt F) → (⟨S262144x1, .i32⟩ : BufTy).Contents (Elt F)),
    binary main_v87 main_v93 main_v94 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_10 (constant S_ .f32 0x00000000#32),
    unary main_cst_10 main_v95 (broadcastInDim S8192x5 ![] bcast_S_S8192x5 : (⟨S_, .f32⟩ : BufTy).Contents (Elt F) → (⟨S8192x5, .f32⟩ : BufTy).Contents (Elt F)),
    unary main_v3 main_v96 (broadcastInDim S262144x1 ![0] bcast_S262144_S262144x1_0 : (⟨S262144, .i32⟩ : BufTy).Contents (Elt F) → (⟨S262144x1, .i32⟩ : BufTy).Contents (Elt F)),
    ternary main_v95 main_v96 main_v94 main_v97 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v78 main_v97 main_v98 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v99 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v99 main_v100 rfl shapeCasts_S1x10x5_S10x5,
    binary main_v98 main_v100 main_v101 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v102 ((extractStridedSlice S1x5 ![1, 0] · slices_S4x5_S1x5_1_0) : (⟨S4x5, .f32⟩ : BufTy).Contents (Elt F) → (⟨S1x5, .f32⟩ : BufTy).Contents (Elt F)),
    reshape main_v102 main_v103 rfl shapeCasts_S1x5_S5,
    unary main_v103 main_v104 (broadcastInDim S1x5 ![1] bcast_S5_S1x5_1 : (⟨S5, .f32⟩ : BufTy).Contents (Elt F) → (⟨S1x5, .f32⟩ : BufTy).Contents (Elt F)),
    unary main_v104 main_v105 (broadcastInDim S8192x5 ![0, 1] bcast_S1x5_S8192x5_0_1 : (⟨S1x5, .f32⟩ : BufTy).Contents (Elt F) → (⟨S8192x5, .f32⟩ : BufTy).Contents (Elt F)),
    binary main_v101 main_v105 main_v106 (addf : (⟨S8192x5, .f32⟩ : BufTy).Contents (Elt F) → (⟨S8192x5, .f32⟩ : BufTy).Contents (Elt F) → (⟨S8192x5, .f32⟩ : BufTy).Contents (Elt F)) ]
set_option maxRecDepth 8192 in
set_option maxHeartbeats 4000000 in
theorem part1_eq (c : Dev nD) : main_part1 (F := F) c = seq P1 := rfl
/-- The operations of part 2 of @main. -/
abbrev P2 : List (HloOp τ sig (Elt F)) :=
  [ unary main_v106 main_v107 (Host.negf : (⟨S8192x5, .f32⟩ : BufTy).Contents (Elt F) → (⟨S8192x5, .f32⟩ : BufTy).Contents (Elt F)),
    unary main_v107 main_v108 (Host.exp : (⟨S8192x5, .f32⟩ : BufTy).Contents (Elt F) → (⟨S8192x5, .f32⟩ : BufTy).Contents (Elt F)),
    nullary main_cst_11 (constant S_ .f32 0x3F800000#32),
    unary main_cst_11 main_v109 (broadcastInDim S8192x5 ![] bcast_S_S8192x5 : (⟨S_, .f32⟩ : BufTy).Contents (Elt F) → (⟨S8192x5, .f32⟩ : BufTy).Contents (Elt F)),
    binary main_v109 main_v108 main_v110 (addf : (⟨S8192x5, .f32⟩ : BufTy).Contents (Elt F) → (⟨S8192x5, .f32⟩ : BufTy).Contents (Elt F) → (⟨S8192x5, .f32⟩ : BufTy).Contents (Elt F)),
    nullary main_cst_12 (constant S_ .f32 0x3F800000#32),
    unary main_cst_12 main_v111 (broadcastInDim S8192x5 ![] bcast_S_S8192x5 : (⟨S_, .f32⟩ : BufTy).Contents (Elt F) → (⟨S8192x5, .f32⟩ : BufTy).Contents (Elt F)),
    binary main_v111 main_v110 main_v112 (Host.divf : (⟨S8192x5, .f32⟩ : BufTy).Contents (Elt F) → (⟨S8192x5, .f32⟩ : BufTy).Contents (Elt F) → (⟨S8192x5, .f32⟩ : BufTy).Contents (Elt F)),
    unary main_arg11 main_v113 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v113 main_v114 rfl shapeCasts_S1x10x5_S10x5,
    binary main_v98 main_v114 main_v115 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v116 ((extractStridedSlice S1x5 ![1, 0] · slices_S4x5_S1x5_1_0) : (⟨S4x5, .f32⟩ : BufTy).Contents (Elt F) → (⟨S1x5, .f32⟩ : BufTy).Contents (Elt F)),
    reshape main_v116 main_v117 rfl shapeCasts_S1x5_S5,
    unary main_v117 main_v118 (broadcastInDim S1x5 ![1] bcast_S5_S1x5_1 : (⟨S5, .f32⟩ : BufTy).Contents (Elt F) → (⟨S1x5, .f32⟩ : BufTy).Contents (Elt F)),
    unary main_v118 main_v119 (broadcastInDim S8192x5 ![0, 1] bcast_S1x5_S8192x5_0_1 : (⟨S1x5, .f32⟩ : BufTy).Contents (Elt F) → (⟨S8192x5, .f32⟩ : BufTy).Contents (Elt F)),
    binary main_v115 main_v119 main_v120 (addf : (⟨S8192x5, .f32⟩ : BufTy).Contents (Elt F) → (⟨S8192x5, .f32⟩ : BufTy).Contents (Elt F) → (⟨S8192x5, .f32⟩ : BufTy).Contents (Elt F)),
    unary main_v120 main_v121 (Host.negf : (⟨S8192x5, .f32⟩ : BufTy).Contents (Elt F) → (⟨S8192x5, .f32⟩ : BufTy).Contents (Elt F)),
    unary main_v121 main_v122 (Host.exp : (⟨S8192x5, .f32⟩ : BufTy).Contents (Elt F) → (⟨S8192x5, .f32⟩ : BufTy).Contents (Elt F)),
    nullary main_cst_13 (constant S_ .f32 0x3F800000#32),
    unary main_cst_13 main_v123 (broadcastInDim S8192x5 ![] bcast_S_S8192x5 : (⟨S_, .f32⟩ : BufTy).Contents (Elt F) → (⟨S8192x5, .f32⟩ : BufTy).Contents (Elt F)),
    binary main_v123 main_v122 main_v124 (addf : (⟨S8192x5, .f32⟩ : BufTy).Contents (Elt F) → (⟨S8192x5, .f32⟩ : BufTy).Contents (Elt F) → (⟨S8192x5, .f32⟩ : BufTy).Contents (Elt F)),
    nullary main_cst_14 (constant S_ .f32 0x3F800000#32),
    unary main_cst_14 main_v125 (broadcastInDim S8192x5 ![] bcast_S_S8192x5 : (⟨S_, .f32⟩ : BufTy).Contents (Elt F) → (⟨S8192x5, .f32⟩ : BufTy).Contents (Elt F)),
    binary main_v125 main_v124 main_v126 (Host.divf : (⟨S8192x5, .f32⟩ : BufTy).Contents (Elt F) → (⟨S8192x5, .f32⟩ : BufTy).Contents (Elt F) → (⟨S8192x5, .f32⟩ : BufTy).Contents (Elt F)),
    binary main_v78 main_v112 main_v127 (mulf : (⟨S8192x5, .f32⟩ : BufTy).Contents (Elt F) → (⟨S8192x5, .f32⟩ : BufTy).Contents (Elt F) → (⟨S8192x5, .f32⟩ : BufTy).Contents (Elt F)),
    binary main_v127 main_v97 main_v128 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v129 ((extractStridedSlice S1x10x5 ![1, 0, 0] · slices_S4x10x5_S1x10x5_1_0_0) : (⟨S4x10x5, .f32⟩ : BufTy).Contents (Elt F) → (⟨S1x10x5, .f32⟩ : BufTy).Contents (Elt F)),
    reshape main_v129 main_v130 rfl shapeCasts_S1x10x5_S10x5,
    binary main_v128 main_v130 main_v131 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v132 ((extractStridedSlice S1x5 ![1, 0] · slices_S4x5_S1x5_1_0) : (⟨S4x5, .f32⟩ : BufTy).Contents (Elt F) → (⟨S1x5, .f32⟩ : BufTy).Contents (Elt F)),
    reshape main_v132 main_v133 rfl shapeCasts_S1x5_S5,
    unary main_v133 main_v134 (broadcastInDim S1x5 ![1] bcast_S5_S1x5_1 : (⟨S5, .f32⟩ : BufTy).Contents (Elt F) → (⟨S1x5, .f32⟩ : BufTy).Contents (Elt F)),
    unary main_v134 main_v135 (broadcastInDim S8192x5 ![0, 1] bcast_S1x5_S8192x5_0_1 : (⟨S1x5, .f32⟩ : BufTy).Contents (Elt F) → (⟨S8192x5, .f32⟩ : BufTy).Contents (Elt F)),
    binary main_v131 main_v135 main_v136 (addf : (⟨S8192x5, .f32⟩ : BufTy).Contents (Elt F) → (⟨S8192x5, .f32⟩ : BufTy).Contents (Elt F) → (⟨S8192x5, .f32⟩ : BufTy).Contents (Elt F)),
    unary main_v136 main_v137 (Host.tanh : (⟨S8192x5, .f32⟩ : BufTy).Contents (Elt F) → (⟨S8192x5, .f32⟩ : BufTy).Contents (Elt F)),
    nullary main_cst_15 (constant S_ .f32 0x3F800000#32),
    unary main_cst_15 main_v138 (broadcastInDim S8192x5 ![] bcast_S_S8192x5 : (⟨S_, .f32⟩ : BufTy).Contents (Elt F) → (⟨S8192x5, .f32⟩ : BufTy).Contents (Elt F)),
    binary main_v138 main_v126 main_v139 (subf : (⟨S8192x5, .f32⟩ : BufTy).Contents (Elt F) → (⟨S8192x5, .f32⟩ : BufTy).Contents (Elt F) → (⟨S8192x5, .f32⟩ : BufTy).Contents (Elt F)),
    binary main_v78 main_v139 main_v140 (mulf : (⟨S8192x5, .f32⟩ : BufTy).Contents (Elt F) → (⟨S8192x5, .f32⟩ : BufTy).Contents (Elt F) → (⟨S8192x5, .f32⟩ : BufTy).Contents (Elt F)),
    binary main_v137 main_v126 main_v141 (mulf : (⟨S8192x5, .f32⟩ : BufTy).Contents (Elt F) → (⟨S8192x5, .f32⟩ : BufTy).Contents (Elt F) → (⟨S8192x5, .f32⟩ : BufTy).Contents (Elt F)),
    binary main_v140 main_v141 main_v142 (addf : (⟨S8192x5, .f32⟩ : BufTy).Contents (Elt F) → (⟨S8192x5, .f32⟩ : BufTy).Contents (Elt F) → (⟨S8192x5, .f32⟩ : BufTy).Contents (Elt F)),
    unary main_arg7 main_v143 ((extractStridedSlice S1x5x5 ![2, 0, 0] · slices_S4x5x5_S1x5x5_2_0_0) : (⟨S4x5x5, .f32⟩ : BufTy).Contents (Elt F) → (⟨S1x5x5, .f32⟩ : BufTy).Contents (Elt F)),
    reshape main_v143 main_v144 rfl shapeCasts_S1x5x5_S5x5,
    binary main_v142 main_v144 main_v145 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v146 ((extractStridedSlice S1x5 ![2, 0] · slices_S4x5_S1x5_2_0) : (⟨S4x5, .f32⟩ : BufTy).Contents (Elt F) → (⟨S1x5, .f32⟩ : BufTy).Contents (Elt F)),
    reshape main_v146 main_v147 rfl shapeCasts_S1x5_S5,
    unary main_v147 main_v148 (broadcastInDim S1x5 ![1] bcast_S5_S1x5_1 : (⟨S5, .f32⟩ : BufTy).Contents (Elt F) → (⟨S1x5, .f32⟩ : BufTy).Contents (Elt F)),
    unary main_v148 main_v149 (broadcastInDim S8192x5 ![0, 1] bcast_S1x5_S8192x5_0_1 : (⟨S1x5, .f32⟩ : BufTy).Contents (Elt F) → (⟨S8192x5, .f32⟩ : BufTy).Contents (Elt F)),
    binary main_v145 main_v149 main_v150 (addf : (⟨S8192x5, .f32⟩ : BufTy).Contents (Elt F) → (⟨S8192x5, .f32⟩ : BufTy).Contents (Elt F) → (⟨S8192x5, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x5, .f32⟩) main_call3_v0) (broadcastInDim S8192x5 ![] bcast_S_S8192x5),
    TRef.binary (TRef.of (T := ⟨S8192x5, .f32⟩) main_v150) (TRef.of (T := ⟨S8192x5, .f32⟩) main_call3_v0) (TRef.of (T := ⟨S8192x5, .f32⟩) main_v151) maximumf,
    nullary main_c_16 (constantI S_ 32 0#32),
    unary main_c_16 main_v152 (broadcastInDim S262144 ![] bcast_S_S262144 : (⟨S_, .i32⟩ : BufTy).Contents (Elt F) → (⟨S262144, .i32⟩ : BufTy).Contents (Elt F)),
    binary main_v1 main_v152 main_v153 (cmpi .slt : (⟨S262144, .i32⟩ : BufTy).Contents (Elt F) → (⟨S262144, .i32⟩ : BufTy).Contents (Elt F) → (⟨S262144, .i1⟩ : BufTy).Contents (Elt F)),
    nullary main_c_17 (constantI S_ 32 8192#32),
    unary main_c_17 main_v154 (broadcastInDim S262144 ![] bcast_S_S262144 : (⟨S_, .i32⟩ : BufTy).Contents (Elt F) → (⟨S262144, .i32⟩ : BufTy).Contents (Elt F)),
    binary main_v1 main_v154 main_v155 (addi : (⟨S262144, .i32⟩ : BufTy).Contents (Elt F) → (⟨S262144, .i32⟩ : BufTy).Contents (Elt F) → (⟨S262144, .i32⟩ : BufTy).Contents (Elt F)),
    ternary main_v153 main_v155 main_v1 main_v156 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v156 main_v157 (broadcastInDim S262144x1 ![0] bcast_S262144_S262144x1_0 : (⟨S262144, .i32⟩ : BufTy).Contents (Elt F) → (⟨S262144x1, .i32⟩ : BufTy).Contents (Elt F)),
    binary main_v151 main_v157 main_v158 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_18 (constant S_ .f32 0x00000000#32) ]
set_option maxRecDepth 8192 in
set_option maxHeartbeats 4000000 in
theorem part2_eq (c : Dev nD) : main_part2 (F := F) c = seq P2 := rfl
/-- The operations of part 3 of @main. -/
abbrev P3 : List (HloOp τ sig (Elt F)) :=
  [ unary main_cst_18 main_v159 (broadcastInDim S8192x5 ![] bcast_S_S8192x5 : (⟨S_, .f32⟩ : BufTy).Contents (Elt F) → (⟨S8192x5, .f32⟩ : BufTy).Contents (Elt F)),
    unary main_v3 main_v160 (broadcastInDim S262144x1 ![0] bcast_S262144_S262144x1_0 : (⟨S262144, .i32⟩ : BufTy).Contents (Elt F) → (⟨S262144x1, .i32⟩ : BufTy).Contents (Elt F)),
    ternary main_v159 main_v160 main_v158 main_v161 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v142 main_v161 main_v162 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v163 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v163 main_v164 rfl shapeCasts_S1x10x5_S10x5,
    binary main_v162 main_v164 main_v165 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v166 ((extractStridedSlice S1x5 ![2, 0] · slices_S4x5_S1x5_2_0) : (⟨S4x5, .f32⟩ : BufTy).Contents (Elt F) → (⟨S1x5, .f32⟩ : BufTy).Contents (Elt F)),
    reshape main_v166 main_v167 rfl shapeCasts_S1x5_S5,
    unary main_v167 main_v168 (broadcastInDim S1x5 ![1] bcast_S5_S1x5_1 : (⟨S5, .f32⟩ : BufTy).Contents (Elt F) → (⟨S1x5, .f32⟩ : BufTy).Contents (Elt F)),
    unary main_v168 main_v169 (broadcastInDim S8192x5 ![0, 1] bcast_S1x5_S8192x5_0_1 : (⟨S1x5, .f32⟩ : BufTy).Contents (Elt F) → (⟨S8192x5, .f32⟩ : BufTy).Contents (Elt F)),
    binary main_v165 main_v169 main_v170 (addf : (⟨S8192x5, .f32⟩ : BufTy).Contents (Elt F) → (⟨S8192x5, .f32⟩ : BufTy).Contents (Elt F) → (⟨S8192x5, .f32⟩ : BufTy).Contents (Elt F)),
    unary main_v170 main_v171 (Host.negf : (⟨S8192x5, .f32⟩ : BufTy).Contents (Elt F) → (⟨S8192x5, .f32⟩ : BufTy).Contents (Elt F)),
    unary main_v171 main_v172 (Host.exp : (⟨S8192x5, .f32⟩ : BufTy).Contents (Elt F) → (⟨S8192x5, .f32⟩ : BufTy).Contents (Elt F)),
    nullary main_cst_19 (constant S_ .f32 0x3F800000#32),
    unary main_cst_19 main_v173 (broadcastInDim S8192x5 ![] bcast_S_S8192x5 : (⟨S_, .f32⟩ : BufTy).Contents (Elt F) → (⟨S8192x5, .f32⟩ : BufTy).Contents (Elt F)),
    binary main_v173 main_v172 main_v174 (addf : (⟨S8192x5, .f32⟩ : BufTy).Contents (Elt F) → (⟨S8192x5, .f32⟩ : BufTy).Contents (Elt F) → (⟨S8192x5, .f32⟩ : BufTy).Contents (Elt F)),
    nullary main_cst_20 (constant S_ .f32 0x3F800000#32),
    unary main_cst_20 main_v175 (broadcastInDim S8192x5 ![] bcast_S_S8192x5 : (⟨S_, .f32⟩ : BufTy).Contents (Elt F) → (⟨S8192x5, .f32⟩ : BufTy).Contents (Elt F)),
    binary main_v175 main_v174 main_v176 (Host.divf : (⟨S8192x5, .f32⟩ : BufTy).Contents (Elt F) → (⟨S8192x5, .f32⟩ : BufTy).Contents (Elt F) → (⟨S8192x5, .f32⟩ : BufTy).Contents (Elt F)),
    unary main_arg11 main_v177 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v177 main_v178 rfl shapeCasts_S1x10x5_S10x5,
    binary main_v162 main_v178 main_v179 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v180 ((extractStridedSlice S1x5 ![2, 0] · slices_S4x5_S1x5_2_0) : (⟨S4x5, .f32⟩ : BufTy).Contents (Elt F) → (⟨S1x5, .f32⟩ : BufTy).Contents (Elt F)),
    reshape main_v180 main_v181 rfl shapeCasts_S1x5_S5,
    unary main_v181 main_v182 (broadcastInDim S1x5 ![1] bcast_S5_S1x5_1 : (⟨S5, .f32⟩ : BufTy).Contents (Elt F) → (⟨S1x5, .f32⟩ : BufTy).Contents (Elt F)),
    unary main_v182 main_v183 (broadcastInDim S8192x5 ![0, 1] bcast_S1x5_S8192x5_0_1 : (⟨S1x5, .f32⟩ : BufTy).Contents (Elt F) → (⟨S8192x5, .f32⟩ : BufTy).Contents (Elt F)),
    binary main_v179 main_v183 main_v184 (addf : (⟨S8192x5, .f32⟩ : BufTy).Contents (Elt F) → (⟨S8192x5, .f32⟩ : BufTy).Contents (Elt F) → (⟨S8192x5, .f32⟩ : BufTy).Contents (Elt F)),
    unary main_v184 main_v185 (Host.negf : (⟨S8192x5, .f32⟩ : BufTy).Contents (Elt F) → (⟨S8192x5, .f32⟩ : BufTy).Contents (Elt F)),
    unary main_v185 main_v186 (Host.exp : (⟨S8192x5, .f32⟩ : BufTy).Contents (Elt F) → (⟨S8192x5, .f32⟩ : BufTy).Contents (Elt F)),
    nullary main_cst_21 (constant S_ .f32 0x3F800000#32),
    unary main_cst_21 main_v187 (broadcastInDim S8192x5 ![] bcast_S_S8192x5 : (⟨S_, .f32⟩ : BufTy).Contents (Elt F) → (⟨S8192x5, .f32⟩ : BufTy).Contents (Elt F)),
    binary main_v187 main_v186 main_v188 (addf : (⟨S8192x5, .f32⟩ : BufTy).Contents (Elt F) → (⟨S8192x5, .f32⟩ : BufTy).Contents (Elt F) → (⟨S8192x5, .f32⟩ : BufTy).Contents (Elt F)),
    nullary main_cst_22 (constant S_ .f32 0x3F800000#32),
    unary main_cst_22 main_v189 (broadcastInDim S8192x5 ![] bcast_S_S8192x5 : (⟨S_, .f32⟩ : BufTy).Contents (Elt F) → (⟨S8192x5, .f32⟩ : BufTy).Contents (Elt F)),
    binary main_v189 main_v188 main_v190 (Host.divf : (⟨S8192x5, .f32⟩ : BufTy).Contents (Elt F) → (⟨S8192x5, .f32⟩ : BufTy).Contents (Elt F) → (⟨S8192x5, .f32⟩ : BufTy).Contents (Elt F)),
    binary main_v142 main_v176 main_v191 (mulf : (⟨S8192x5, .f32⟩ : BufTy).Contents (Elt F) → (⟨S8192x5, .f32⟩ : BufTy).Contents (Elt F) → (⟨S8192x5, .f32⟩ : BufTy).Contents (Elt F)),
    binary main_v191 main_v161 main_v192 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v193 ((extractStridedSlice S1x10x5 ![2, 0, 0] · slices_S4x10x5_S1x10x5_2_0_0) : (⟨S4x10x5, .f32⟩ : BufTy).Contents (Elt F) → (⟨S1x10x5, .f32⟩ : BufTy).Contents (Elt F)),
    reshape main_v193 main_v194 rfl shapeCasts_S1x10x5_S10x5,
    binary main_v192 main_v194 main_v195 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v196 ((extractStridedSlice S1x5 ![2, 0] · slices_S4x5_S1x5_2_0) : (⟨S4x5, .f32⟩ : BufTy).Contents (Elt F) → (⟨S1x5, .f32⟩ : BufTy).Contents (Elt F)),
    reshape main_v196 main_v197 rfl shapeCasts_S1x5_S5,
    unary main_v197 main_v198 (broadcastInDim S1x5 ![1] bcast_S5_S1x5_1 : (⟨S5, .f32⟩ : BufTy).Contents (Elt F) → (⟨S1x5, .f32⟩ : BufTy).Contents (Elt F)),
    unary main_v198 main_v199 (broadcastInDim S8192x5 ![0, 1] bcast_S1x5_S8192x5_0_1 : (⟨S1x5, .f32⟩ : BufTy).Contents (Elt F) → (⟨S8192x5, .f32⟩ : BufTy).Contents (Elt F)),
    binary main_v195 main_v199 main_v200 (addf : (⟨S8192x5, .f32⟩ : BufTy).Contents (Elt F) → (⟨S8192x5, .f32⟩ : BufTy).Contents (Elt F) → (⟨S8192x5, .f32⟩ : BufTy).Contents (Elt F)),
    unary main_v200 main_v201 (Host.tanh : (⟨S8192x5, .f32⟩ : BufTy).Contents (Elt F) → (⟨S8192x5, .f32⟩ : BufTy).Contents (Elt F)),
    nullary main_cst_23 (constant S_ .f32 0x3F800000#32),
    unary main_cst_23 main_v202 (broadcastInDim S8192x5 ![] bcast_S_S8192x5 : (⟨S_, .f32⟩ : BufTy).Contents (Elt F) → (⟨S8192x5, .f32⟩ : BufTy).Contents (Elt F)),
    binary main_v202 main_v190 main_v203 (subf : (⟨S8192x5, .f32⟩ : BufTy).Contents (Elt F) → (⟨S8192x5, .f32⟩ : BufTy).Contents (Elt F) → (⟨S8192x5, .f32⟩ : BufTy).Contents (Elt F)),
    binary main_v142 main_v203 main_v204 (mulf : (⟨S8192x5, .f32⟩ : BufTy).Contents (Elt F) → (⟨S8192x5, .f32⟩ : BufTy).Contents (Elt F) → (⟨S8192x5, .f32⟩ : BufTy).Contents (Elt F)),
    binary main_v201 main_v190 main_v205 (mulf : (⟨S8192x5, .f32⟩ : BufTy).Contents (Elt F) → (⟨S8192x5, .f32⟩ : BufTy).Contents (Elt F) → (⟨S8192x5, .f32⟩ : BufTy).Contents (Elt F)),
    binary main_v204 main_v205 main_v206 (addf : (⟨S8192x5, .f32⟩ : BufTy).Contents (Elt F) → (⟨S8192x5, .f32⟩ : BufTy).Contents (Elt F) → (⟨S8192x5, .f32⟩ : BufTy).Contents (Elt F)),
    unary main_arg7 main_v207 ((extractStridedSlice S1x5x5 ![3, 0, 0] · slices_S4x5x5_S1x5x5_3_0_0) : (⟨S4x5x5, .f32⟩ : BufTy).Contents (Elt F) → (⟨S1x5x5, .f32⟩ : BufTy).Contents (Elt F)),
    reshape main_v207 main_v208 rfl shapeCasts_S1x5x5_S5x5,
    binary main_v206 main_v208 main_v209 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg8 main_v210 ((extractStridedSlice S1x5 ![3, 0] · slices_S4x5_S1x5_3_0) : (⟨S4x5, .f32⟩ : BufTy).Contents (Elt F) → (⟨S1x5, .f32⟩ : BufTy).Contents (Elt F)),
    reshape main_v210 main_v211 rfl shapeCasts_S1x5_S5,
    unary main_v211 main_v212 (broadcastInDim S1x5 ![1] bcast_S5_S1x5_1 : (⟨S5, .f32⟩ : BufTy).Contents (Elt F) → (⟨S1x5, .f32⟩ : BufTy).Contents (Elt F)),
    unary main_v212 main_v213 (broadcastInDim S8192x5 ![0, 1] bcast_S1x5_S8192x5_0_1 : (⟨S1x5, .f32⟩ : BufTy).Contents (Elt F) → (⟨S8192x5, .f32⟩ : BufTy).Contents (Elt F)) ]
set_option maxRecDepth 8192 in
set_option maxHeartbeats 4000000 in
theorem part3_eq (c : Dev nD) : main_part3 (F := F) c = seq P3 := rfl
/-- The operations of part 4 of @main. -/
abbrev P4 : List (HloOp τ sig (Elt F)) :=
  [ binary main_v209 main_v213 main_v214 (addf : (⟨S8192x5, .f32⟩ : BufTy).Contents (Elt F) → (⟨S8192x5, .f32⟩ : BufTy).Contents (Elt F) → (⟨S8192x5, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x5, .f32⟩) main_call4_v0) (broadcastInDim S8192x5 ![] bcast_S_S8192x5),
    TRef.binary (TRef.of (T := ⟨S8192x5, .f32⟩) main_v214) (TRef.of (T := ⟨S8192x5, .f32⟩) main_call4_v0) (TRef.of (T := ⟨S8192x5, .f32⟩) main_v215) maximumf,
    nullary main_c_24 (constantI S_ 32 0#32),
    unary main_c_24 main_v216 (broadcastInDim S262144 ![] bcast_S_S262144 : (⟨S_, .i32⟩ : BufTy).Contents (Elt F) → (⟨S262144, .i32⟩ : BufTy).Contents (Elt F)),
    binary main_v1 main_v216 main_v217 (cmpi .slt : (⟨S262144, .i32⟩ : BufTy).Contents (Elt F) → (⟨S262144, .i32⟩ : BufTy).Contents (Elt F) → (⟨S262144, .i1⟩ : BufTy).Contents (Elt F)),
    nullary main_c_25 (constantI S_ 32 8192#32),
    unary main_c_25 main_v218 (broadcastInDim S262144 ![] bcast_S_S262144 : (⟨S_, .i32⟩ : BufTy).Contents (Elt F) → (⟨S262144, .i32⟩ : BufTy).Contents (Elt F)),
    binary main_v1 main_v218 main_v219 (addi : (⟨S262144, .i32⟩ : BufTy).Contents (Elt F) → (⟨S262144, .i32⟩ : BufTy).Contents (Elt F) → (⟨S262144, .i32⟩ : BufTy).Contents (Elt F)),
    ternary main_v217 main_v219 main_v1 main_v220 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v220 main_v221 (broadcastInDim S262144x1 ![0] bcast_S262144_S262144x1_0 : (⟨S262144, .i32⟩ : BufTy).Contents (Elt F) → (⟨S262144x1, .i32⟩ : BufTy).Contents (Elt F)),
    binary main_v215 main_v221 main_v222 ((fun x i => Host.gather gather_S8192x5_S262144x1_S262144x5_1_0_n_n_0_1_15 x i) : (⟨S8192x5, .f32⟩ : BufTy).Contents (Elt F) → (⟨S262144x1, .i32⟩ : BufTy).Contents (Elt F) → (⟨S262144x5, .f32⟩ : BufTy).Contents (Elt F)),
    nullary main_cst_26 (constant S_ .f32 0x00000000#32),
    unary main_cst_26 main_v223 (broadcastInDim S8192x5 ![] bcast_S_S8192x5 : (⟨S_, .f32⟩ : BufTy).Contents (Elt F) → (⟨S8192x5, .f32⟩ : BufTy).Contents (Elt F)),
    unary main_v3 main_v224 (broadcastInDim S262144x1 ![0] bcast_S262144_S262144x1_0 : (⟨S262144, .i32⟩ : BufTy).Contents (Elt F) → (⟨S262144x1, .i32⟩ : BufTy).Contents (Elt F)),
    ternary main_v223 main_v224 main_v222 main_v225 ((fun x i u => Host.scatterAdd scatter_S8192x5_S262144x1_S262144x5_1_0_0_1 x i u) : (⟨S8192x5, .f32⟩ : BufTy).Contents (Elt F) → (⟨S262144x1, .i32⟩ : BufTy).Contents (Elt F) → (⟨S262144x5, .f32⟩ : BufTy).Contents (Elt F) → (⟨S8192x5, .f32⟩ : BufTy).Contents (Elt F)),
    binary main_v206 main_v225 main_v226 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg9 main_v227 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v227 main_v228 rfl shapeCasts_S1x10x5_S10x5,
    binary main_v226 main_v228 main_v229 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg10 main_v230 ((extractStridedSlice S1x5 ![3, 0] · slices_S4x5_S1x5_3_0) : (⟨S4x5, .f32⟩ : BufTy).Contents (Elt F) → (⟨S1x5, .f32⟩ : BufTy).Contents (Elt F)),
    reshape main_v230 main_v231 rfl shapeCasts_S1x5_S5,
    unary main_v231 main_v232 (broadcastInDim S1x5 ![1] bcast_S5_S1x5_1 : (⟨S5, .f32⟩ : BufTy).Contents (Elt F) → (⟨S1x5, .f32⟩ : BufTy).Contents (Elt F)),
    unary main_v232 main_v233 (broadcastInDim S8192x5 ![0, 1] bcast_S1x5_S8192x5_0_1 : (⟨S1x5, .f32⟩ : BufTy).Contents (Elt F) → (⟨S8192x5, .f32⟩ : BufTy).Contents (Elt F)),
    binary main_v229 main_v233 main_v234 (addf : (⟨S8192x5, .f32⟩ : BufTy).Contents (Elt F) → (⟨S8192x5, .f32⟩ : BufTy).Contents (Elt F) → (⟨S8192x5, .f32⟩ : BufTy).Contents (Elt F)),
    unary main_v234 main_v235 (Host.negf : (⟨S8192x5, .f32⟩ : BufTy).Contents (Elt F) → (⟨S8192x5, .f32⟩ : BufTy).Contents (Elt F)),
    unary main_v235 main_v236 (Host.exp : (⟨S8192x5, .f32⟩ : BufTy).Contents (Elt F) → (⟨S8192x5, .f32⟩ : BufTy).Contents (Elt F)),
    nullary main_cst_27 (constant S_ .f32 0x3F800000#32),
    unary main_cst_27 main_v237 (broadcastInDim S8192x5 ![] bcast_S_S8192x5 : (⟨S_, .f32⟩ : BufTy).Contents (Elt F) → (⟨S8192x5, .f32⟩ : BufTy).Contents (Elt F)),
    binary main_v237 main_v236 main_v238 (addf : (⟨S8192x5, .f32⟩ : BufTy).Contents (Elt F) → (⟨S8192x5, .f32⟩ : BufTy).Contents (Elt F) → (⟨S8192x5, .f32⟩ : BufTy).Contents (Elt F)),
    nullary main_cst_28 (constant S_ .f32 0x3F800000#32),
    unary main_cst_28 main_v239 (broadcastInDim S8192x5 ![] bcast_S_S8192x5 : (⟨S_, .f32⟩ : BufTy).Contents (Elt F) → (⟨S8192x5, .f32⟩ : BufTy).Contents (Elt F)),
    binary main_v239 main_v238 main_v240 (Host.divf : (⟨S8192x5, .f32⟩ : BufTy).Contents (Elt F) → (⟨S8192x5, .f32⟩ : BufTy).Contents (Elt F) → (⟨S8192x5, .f32⟩ : BufTy).Contents (Elt F)),
    unary main_arg11 main_v241 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v241 main_v242 rfl shapeCasts_S1x10x5_S10x5,
    binary main_v226 main_v242 main_v243 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg12 main_v244 ((extractStridedSlice S1x5 ![3, 0] · slices_S4x5_S1x5_3_0) : (⟨S4x5, .f32⟩ : BufTy).Contents (Elt F) → (⟨S1x5, .f32⟩ : BufTy).Contents (Elt F)),
    reshape main_v244 main_v245 rfl shapeCasts_S1x5_S5,
    unary main_v245 main_v246 (broadcastInDim S1x5 ![1] bcast_S5_S1x5_1 : (⟨S5, .f32⟩ : BufTy).Contents (Elt F) → (⟨S1x5, .f32⟩ : BufTy).Contents (Elt F)),
    unary main_v246 main_v247 (broadcastInDim S8192x5 ![0, 1] bcast_S1x5_S8192x5_0_1 : (⟨S1x5, .f32⟩ : BufTy).Contents (Elt F) → (⟨S8192x5, .f32⟩ : BufTy).Contents (Elt F)),
    binary main_v243 main_v247 main_v248 (addf : (⟨S8192x5, .f32⟩ : BufTy).Contents (Elt F) → (⟨S8192x5, .f32⟩ : BufTy).Contents (Elt F) → (⟨S8192x5, .f32⟩ : BufTy).Contents (Elt F)),
    unary main_v248 main_v249 (Host.negf : (⟨S8192x5, .f32⟩ : BufTy).Contents (Elt F) → (⟨S8192x5, .f32⟩ : BufTy).Contents (Elt F)),
    unary main_v249 main_v250 (Host.exp : (⟨S8192x5, .f32⟩ : BufTy).Contents (Elt F) → (⟨S8192x5, .f32⟩ : BufTy).Contents (Elt F)),
    nullary main_cst_29 (constant S_ .f32 0x3F800000#32),
    unary main_cst_29 main_v251 (broadcastInDim S8192x5 ![] bcast_S_S8192x5 : (⟨S_, .f32⟩ : BufTy).Contents (Elt F) → (⟨S8192x5, .f32⟩ : BufTy).Contents (Elt F)),
    binary main_v251 main_v250 main_v252 (addf : (⟨S8192x5, .f32⟩ : BufTy).Contents (Elt F) → (⟨S8192x5, .f32⟩ : BufTy).Contents (Elt F) → (⟨S8192x5, .f32⟩ : BufTy).Contents (Elt F)),
    nullary main_cst_30 (constant S_ .f32 0x3F800000#32),
    unary main_cst_30 main_v253 (broadcastInDim S8192x5 ![] bcast_S_S8192x5 : (⟨S_, .f32⟩ : BufTy).Contents (Elt F) → (⟨S8192x5, .f32⟩ : BufTy).Contents (Elt F)),
    binary main_v253 main_v252 main_v254 (Host.divf : (⟨S8192x5, .f32⟩ : BufTy).Contents (Elt F) → (⟨S8192x5, .f32⟩ : BufTy).Contents (Elt F) → (⟨S8192x5, .f32⟩ : BufTy).Contents (Elt F)),
    binary main_v206 main_v240 main_v255 (mulf : (⟨S8192x5, .f32⟩ : BufTy).Contents (Elt F) → (⟨S8192x5, .f32⟩ : BufTy).Contents (Elt F) → (⟨S8192x5, .f32⟩ : BufTy).Contents (Elt F)),
    binary main_v255 main_v225 main_v256 ((fun a b => concatenate S8192x10 1 [⟨S8192x5, a⟩, ⟨S8192x5, b⟩] concatenates_S8192x5_S8192x5_S8192x10_d1) : (⟨S8192x5, .f32⟩ : BufTy).Contents (Elt F) → (⟨S8192x5, .f32⟩ : BufTy).Contents (Elt F) → (⟨S8192x10, .f32⟩ : BufTy).Contents (Elt F)),
    unary main_arg13 main_v257 ((extractStridedSlice S1x10x5 ![3, 0, 0] · slices_S4x10x5_S1x10x5_3_0_0) : (⟨S4x10x5, .f32⟩ : BufTy).Contents (Elt F) → (⟨S1x10x5, .f32⟩ : BufTy).Contents (Elt F)),
    reshape main_v257 main_v258 rfl shapeCasts_S1x10x5_S10x5,
    binary main_v256 main_v258 main_v259 ((fun l r => Host.dotGeneral dot_S8192x10_S10x5_S8192x5_1_0_0_1_n_n none l r) : (⟨S8192x10, .f32⟩ : BufTy).Contents (Elt F) → (⟨S10x5, .f32⟩ : BufTy).Contents (Elt F) → (⟨S8192x5, .f32⟩ : BufTy).Contents (Elt F)),
    unary main_arg14 main_v260 ((extractStridedSlice S1x5 ![3, 0] · slices_S4x5_S1x5_3_0) : (⟨S4x5, .f32⟩ : BufTy).Contents (Elt F) → (⟨S1x5, .f32⟩ : BufTy).Contents (Elt F)),
    reshape main_v260 main_v261 rfl shapeCasts_S1x5_S5,
    unary main_v261 main_v262 (broadcastInDim S1x5 ![1] bcast_S5_S1x5_1 : (⟨S5, .f32⟩ : BufTy).Contents (Elt F) → (⟨S1x5, .f32⟩ : BufTy).Contents (Elt F)),
    unary main_v262 main_v263 (broadcastInDim S8192x5 ![0, 1] bcast_S1x5_S8192x5_0_1 : (⟨S1x5, .f32⟩ : BufTy).Contents (Elt F) → (⟨S8192x5, .f32⟩ : BufTy).Contents (Elt F)),
    binary main_v259 main_v263 main_v264 (addf : (⟨S8192x5, .f32⟩ : BufTy).Contents (Elt F) → (⟨S8192x5, .f32⟩ : BufTy).Contents (Elt F) → (⟨S8192x5, .f32⟩ : BufTy).Contents (Elt F)),
    unary main_v264 main_v265 (Host.tanh : (⟨S8192x5, .f32⟩ : BufTy).Contents (Elt F) → (⟨S8192x5, .f32⟩ : BufTy).Contents (Elt F)),
    nullary main_cst_31 (constant S_ .f32 0x3F800000#32) ]
set_option maxRecDepth 8192 in
set_option maxHeartbeats 4000000 in
theorem part4_eq (c : Dev nD) : main_part4 (F := F) c = seq P4 := rfl
/-- The operations of part 5 of @main. -/
abbrev P5 : List (HloOp τ sig (Elt F)) :=
  [ unary main_cst_31 main_v266 (broadcastInDim S8192x5 ![] bcast_S_S8192x5 : (⟨S_, .f32⟩ : BufTy).Contents (Elt F) → (⟨S8192x5, .f32⟩ : BufTy).Contents (Elt F)),
    binary main_v266 main_v254 main_v267 (subf : (⟨S8192x5, .f32⟩ : BufTy).Contents (Elt F) → (⟨S8192x5, .f32⟩ : BufTy).Contents (Elt F) → (⟨S8192x5, .f32⟩ : BufTy).Contents (Elt F)),
    binary main_v206 main_v267 main_v268 (mulf : (⟨S8192x5, .f32⟩ : BufTy).Contents (Elt F) → (⟨S8192x5, .f32⟩ : BufTy).Contents (Elt F) → (⟨S8192x5, .f32⟩ : BufTy).Contents (Elt F)),
    binary main_v265 main_v254 main_v269 (mulf : (⟨S8192x5, .f32⟩ : BufTy).Contents (Elt F) → (⟨S8192x5, .f32⟩ : BufTy).Contents (Elt F) → (⟨S8192x5, .f32⟩ : BufTy).Contents (Elt F)),
    binary main_v268 main_v269 main_v270 (addf : (⟨S8192x5, .f32⟩ : BufTy).Contents (Elt F) → (⟨S8192x5, .f32⟩ : BufTy).Contents (Elt F) → (⟨S8192x5, .f32⟩ : BufTy).Contents (Elt F)),
    binary main_v270 main_arg15 main_v271 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg16 main_v272 (broadcastInDim S1x5 ![1] bcast_S5_S1x5_1 : (⟨S5, .f32⟩ : BufTy).Contents (Elt F) → (⟨S1x5, .f32⟩ : BufTy).Contents (Elt F)),
    unary main_v272 main_v273 (broadcastInDim S8192x5 ![0, 1] bcast_S1x5_S8192x5_0_1 : (⟨S1x5, .f32⟩ : BufTy).Contents (Elt F) → (⟨S8192x5, .f32⟩ : BufTy).Contents (Elt F)),
    binary main_v271 main_v273 main_v274 (addf : (⟨S8192x5, .f32⟩ : BufTy).Contents (Elt F) → (⟨S8192x5, .f32⟩ : BufTy).Contents (Elt F) → (⟨S8192x5, .f32⟩ : BufTy).Contents (Elt F)),
    binary main_v270 main_arg17 main_v275 ((fun l r => Host.dotGeneral dot_S8192x5_S5x5_S8192x5_1_0_0_1_n_n none l r) : (⟨S8192x5, .f32⟩ : BufTy).Contents (Elt F) → (⟨S5x5, .f32⟩ : BufTy).Contents (Elt F) → (⟨S8192x5, .f32⟩ : BufTy).Contents (Elt F)),
    unary main_arg18 main_v276 (broadcastInDim S1x5 ![1] bcast_S5_S1x5_1 : (⟨S5, .f32⟩ : BufTy).Contents (Elt F) → (⟨S1x5, .f32⟩ : BufTy).Contents (Elt F)),
    unary main_v276 main_v277 (broadcastInDim S8192x5 ![0, 1] bcast_S1x5_S8192x5_0_1 : (⟨S1x5, .f32⟩ : BufTy).Contents (Elt F) → (⟨S8192x5, .f32⟩ : BufTy).Contents (Elt F)),
    binary main_v275 main_v277 main_v278 (addf : (⟨S8192x5, .f32⟩ : BufTy).Contents (Elt F) → (⟨S8192x5, .f32⟩ : BufTy).Contents (Elt F) → (⟨S8192x5, .f32⟩ : BufTy).Contents (Elt F)),
    nullary main_cst_32 (constant S_ .f32 0x3F000000#32),
    unary main_cst_32 main_v279 (broadcastInDim S8192x5 ![] bcast_S_S8192x5 : (⟨S_, .f32⟩ : BufTy).Contents (Elt F) → (⟨S8192x5, .f32⟩ : BufTy).Contents (Elt F)),
    binary main_v279 main_v278 main_v280 (mulf : (⟨S8192x5, .f32⟩ : BufTy).Contents (Elt F) → (⟨S8192x5, .f32⟩ : BufTy).Contents (Elt F) → (⟨S8192x5, .f32⟩ : BufTy).Contents (Elt F)),
    unary main_v280 main_v281 (Host.exp : (⟨S8192x5, .f32⟩ : BufTy).Contents (Elt F) → (⟨S8192x5, .f32⟩ : BufTy).Contents (Elt F)),
    binary main_arg2 main_v281 main_v282 (mulf : (⟨S8192x5, .f32⟩ : BufTy).Contents (Elt F) → (⟨S8192x5, .f32⟩ : BufTy).Contents (Elt F) → (⟨S8192x5, .f32⟩ : BufTy).Contents (Elt F)),
    binary main_v274 main_v282 main_v283 (addf : (⟨S8192x5, .f32⟩ : BufTy).Contents (Elt F) → (⟨S8192x5, .f32⟩ : BufTy).Contents (Elt F) → (⟨S8192x5, .f32⟩ : BufTy).Contents (Elt F)),
    unary main_v283 main_v284 ((transpose S5x8192 [1, 0] · transposes_S8192x5_S5x8192_1_0) : (⟨S8192x5, .f32⟩ : BufTy).Contents (Elt F) → (⟨S5x8192, .f32⟩ : BufTy).Contents (Elt F)),
    binary main_v283 main_v284 main_v285 ((fun l r => Host.dotGeneral dot_S8192x5_S5x8192_S8192x8192_1_0_0_1_n_n none l r) : (⟨S8192x5, .f32⟩ : BufTy).Contents (Elt F) → (⟨S5x8192, .f32⟩ : BufTy).Contents (Elt F) → (⟨S8192x8192, .f32⟩ : BufTy).Contents (Elt F)),
    unary main_v285 main_v286 (Host.negf : (⟨S8192x8192, .f32⟩ : BufTy).Contents (Elt F) → (⟨S8192x8192, .f32⟩ : BufTy).Contents (Elt F)),
    unary main_v286 main_v287 (Host.exp : (⟨S8192x8192, .f32⟩ : BufTy).Contents (Elt F) → (⟨S8192x8192, .f32⟩ : BufTy).Contents (Elt F)),
    nullary main_cst_33 (constant S_ .f32 0x3F800000#32),
    unary main_cst_33 main_v288 (broadcastInDim S8192x8192 ![] bcast_S_S8192x8192 : (⟨S_, .f32⟩ : BufTy).Contents (Elt F) → (⟨S8192x8192, .f32⟩ : BufTy).Contents (Elt F)),
    binary main_v288 main_v287 main_v289 (addf : (⟨S8192x8192, .f32⟩ : BufTy).Contents (Elt F) → (⟨S8192x8192, .f32⟩ : BufTy).Contents (Elt F) → (⟨S8192x8192, .f32⟩ : BufTy).Contents (Elt F)),
    nullary main_cst_34 (constant S_ .f32 0x3F800000#32),
    unary main_cst_34 main_v290 (broadcastInDim S8192x8192 ![] bcast_S_S8192x8192 : (⟨S_, .f32⟩ : BufTy).Contents (Elt F) → (⟨S8192x8192, .f32⟩ : BufTy).Contents (Elt F)),
    binary main_v290 main_v289 main_v291 (Host.divf : (⟨S8192x8192, .f32⟩ : BufTy).Contents (Elt F) → (⟨S8192x8192, .f32⟩ : BufTy).Contents (Elt F) → (⟨S8192x8192, .f32⟩ : BufTy).Contents (Elt F)) ]
set_option maxRecDepth 8192 in
set_option maxHeartbeats 4000000 in
theorem part5_eq (c : Dev nD) : main_part5 (F := F) c = seq P5 := rfl

set_option maxRecDepth 8192 in
/-- The parts' operations, one after the other, are the line's. -/
theorem parts_eq : (ops : List (HloOp τ sig (Elt F))) = P0 ++ (P1 ++ (P2 ++ (P3 ++ (P4 ++ P5)))) := rfl

theorem main_eq (c : Dev nD) : main (F := F) c = seq ops := by
  rw [parts_eq, seq_append, seq_append, seq_append, seq_append, seq_append]
  show (main_part0 (F := F) c >>= fun _ => main_part1 (F := F) c >>= fun _ => main_part2 (F := F) c >>= fun _ => main_part3 (F := F) c >>= fun _ => main_part4 (F := F) c >>= fun _ => main_part5 (F := F) c) = _
  rw [part0_eq, part1_eq, part2_eq, part3_eq, part4_eq, part5_eq]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
/-
  The reference program's run, read back: every weakly fair execution of its @main terminates, and every final state
  has each buffer at the fold of the operations' results over the launch contents.  No operation writes an argument
  array, so the arguments end as launched.
-/
import proofs.«112254_j79388175499762_1_alg».proof.Proof.RefMain
import proofs.«112254_j79388175499762_1_alg».proof.Proof.RefWrites

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of @main terminates, and every final state has each buffer at the fold of the
    operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-- The frame: @main terminates and its argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_arg0).trans (kept _ main_arg0 (by decide) (by decide) (by decide) (by decide) (by decide) (by decide) (by decide) (by decide) (by decide) (by decide) (by decide) (by decide)),
      (h c main_arg1).trans (kept _ main_arg1 (by decide) (by decide) (by decide) (by decide) (by decide) (by decide) (by decide) (by decide) (by decide) (by decide) (by decide) (by decide)),
      (h c main_arg2).trans (kept _ main_arg2 (by decide) (by decide) (by decide) (by decide) (by decide) (by decide) (by decide) (by decide) (by decide) (by decide) (by decide) (by decide)),
      (h c main_arg3).trans (kept _ main_arg3 (by decide) (by decide) (by decide) (by decide) (by decide) (by decide) (by decide) (by decide) (by decide) (by decide) (by decide) (by decide)),
      (h c main_arg4).trans (kept _ main_arg4 (by decide) (by decide) (by decide) (by decide) (by decide) (by decide) (by decide) (by decide) (by decide) (by decide) (by decide) (by decide)),
      (h c main_arg5).trans (kept _ main_arg5 (by decide) (by decide) (by decide) (by decide) (by decide) (by decide) (by decide) (by decide) (by decide) (by decide) (by decide) (by decide)),
      (h c main_arg6).trans (kept _ main_arg6 (by decide) (by decide) (by decide) (by decide) (by decide) (by decide) (by decide) (by decide) (by decide) (by decide) (by decide) (by decide)),
      (h c main_arg7).trans (kept _ main_arg7 (by decide) (by decide) (by decide) (by decide) (by decide) (by decide) (by decide) (by decide) (by decide) (by decide) (by decide) (by decide)),
      (h c main_arg8).trans (kept _ main_arg8 (by decide) (by decide) (by decide) (by decide) (by decide) (by decide) (by decide) (by decide) (by decide) (by decide) (by decide) (by decide)),
      (h c main_arg9).trans (kept _ main_arg9 (by decide) (by decide) (by decide) (by decide) (by decide) (by decide) (by decide) (by decide) (by decide) (by decide) (by decide) (by decide)),
      (h c main_arg10).trans (kept _ main_arg10 (by decide) (by decide) (by decide) (by decide) (by decide) (by decide) (by decide) (by decide) (by decide) (by decide) (by decide) (by decide)),
      (h c main_arg11).trans (kept _ main_arg11 (by decide) (by decide) (by decide) (by decide) (by decide) (by decide) (by decide) (by decide) (by decide) (by decide) (by decide) (by decide)),
      (h c main_arg12).trans (kept _ main_arg12 (by decide) (by decide) (by decide) (by decide) (by decide) (by decide) (by decide) (by decide) (by decide) (by decide) (by decide) (by decide)),
      (h c main_arg13).trans (kept _ main_arg13 (by decide) (by decide) (by decide) (by decide) (by decide) (by decide) (by decide) (by decide) (by decide) (by decide) (by decide) (by decide)),
      (h c main_arg14).trans (kept _ main_arg14 (by decide) (by decide) (by decide) (by decide) (by decide) (by decide) (by decide) (by decide) (by decide) (by decide) (by decide) (by decide)),
      (h c main_arg15).trans (kept _ main_arg15 (by decide) (by decide) (by decide) (by decide) (by decide) (by decide) (by decide) (by decide) (by decide) (by decide) (by decide) (by decide)),
      (h c main_arg16).trans (kept _ main_arg16 (by decide) (by decide) (by decide) (by decide) (by decide) (by decide) (by decide) (by decide) (by decide) (by decide) (by decide) (by decide)),
      (h c main_arg17).trans (kept _ main_arg17 (by decide) (by decide) (by decide) (by decide) (by decide) (by decide) (by decide) (by decide) (by decide) (by decide) (by decide) (by decide)),
      (h c main_arg18).trans (kept _ main_arg18 (by decide) (by decide) (by decide) (by decide) (by decide) (by decide) (by decide) (by decide) (by decide) (by decide) (by decide) (by decide))⟩) (run m ρ)

end Cert.ReferenceIdeal.Hand

end
-- ==== Proof.LibConcatCongr.lean ====
/-
  A concatenation of two pieces, read as a function of the pieces' contents.  The side condition of `concatenate` speaks
  of the pieces' shapes alone, yet its type mentions the list of pieces, which keeps a structural rewriter from
  entering the pieces.  Stated as a congruence — equal contents, equal concatenations — it lets one `simp` pass go on
  through a two-piece concatenate (a graph network's `[state, aggregate]`), for any shapes and element type.
-/
import Idealize.ShloMosaic.PureOps.ShapeOps

namespace Cert.LibConcatCongr

open Idealize.ShloMosaic

/-- A concatenation of two pieces depends on the pieces' contents only: equal contents, equal concatenations (the
    side condition speaks of the pieces' shapes alone). -/
@[congr] theorem concat2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.BridgeDefs.lean ====
/-
  The kernel's @main before its region and the reference's @main before its decoder are one line of host operations,
  printed twice over two buffer tables.  This file says what it means for the two programs' buffers to agree at each
  cut of the line (at the module-local function calls): on the argument arrays, and on every value a later stretch or
  a result reads.
-/
import proofs.«112254_j79388175499762_1_alg».proof.Proof.KernelIdealMain
import proofs.«112254_j79388175499762_1_alg».proof.Proof.RefWrites
import proofs.«112254_j79388175499762_1_alg».proof.Proof.LibConcatCongr

set_option maxRecDepth 16384

noncomputable section

namespace Cert.Bridge

open Idealize.ShloMosaic Idealize.ShloMosaic.TcCoe Idealize.SL.Sem Idealize.ShloMosaic.StableHlo

variable {F : FTy → Type} [FloatOps F]

/-- The kernel program's buffer contents, and the reference program's. -/
abbrev KVal (F : FTy → Type) := Valuation Cert.KernelIdeal.τ Cert.KernelIdeal.sig (Elt F)
abbrev RVal (F : FTy → Type) := Valuation Cert.ReferenceIdeal.τ Cert.ReferenceIdeal.sig (Elt F)

/-- The two programs' buffers agree on the argument arrays. -/
structure AgreeArgs (WK : KVal F) (WR : RVal F) : Prop where
  a0 : WK (Proc.devRef .tc Cert.KernelIdeal.main_arg0) = WR (Proc.devRef .tc Cert.ReferenceIdeal.main_arg0)
  a1 : WK (Proc.devRef .tc Cert.KernelIdeal.main_arg1) = WR (Proc.devRef .tc Cert.ReferenceIdeal.main_arg1)
  a2 : WK (Proc.devRef .tc Cert.KernelIdeal.main_arg2) = WR (Proc.devRef .tc Cert.ReferenceIdeal.main_arg2)
  a3 : WK (Proc.devRef .tc Cert.KernelIdeal.main_arg3) = WR (Proc.devRef .tc Cert.ReferenceIdeal.main_arg3)
  a4 : WK (Proc.devRef .tc Cert.KernelIdeal.main_arg4) = WR (Proc.devRef .tc Cert.ReferenceIdeal.main_arg4)
  a5 : WK (Proc.devRef .tc Cert.KernelIdeal.main_arg5) = WR (Proc.devRef .tc Cert.ReferenceIdeal.main_arg5)
  a6 : WK (Proc.devRef .tc Cert.KernelIdeal.main_arg6) = WR (Proc.devRef .tc Cert.ReferenceIdeal.main_arg6)
  a7 : WK (Proc.devRef .tc Cert.KernelIdeal.main_arg7) = WR (Proc.devRef .tc Cert.ReferenceIdeal.main_arg7)
  a8 : WK (Proc.devRef .tc Cert.KernelIdeal.main_arg8) = WR (Proc.devRef .tc Cert.ReferenceIdeal.main_arg8)
  a9 : WK (Proc.devRef .tc Cert.KernelIdeal.main_arg9) = WR (Proc.devRef .tc Cert.ReferenceIdeal.main_arg9)
  a10 : WK (Proc.devRef .tc Cert.KernelIdeal.main_arg10) = WR (Proc.devRef .tc Cert.ReferenceIdeal.main_arg10)
  a11 : WK (Proc.devRef .tc Cert.KernelIdeal.main_arg11) = WR (Proc.devRef .tc Cert.ReferenceIdeal.main_arg11)
  a12 : WK (Proc.devRef .tc Cert.KernelIdeal.main_arg12) = WR (Proc.devRef .tc Cert.ReferenceIdeal.main_arg12)
  a13 : WK (Proc.devRef .tc Cert.KernelIdeal.main_arg13) = WR (Proc.devRef .tc Cert.ReferenceIdeal.main_arg13)
  a14 : WK (Proc.devRef .tc Cert.KernelIdeal.main_arg14) = WR (Proc.devRef .tc Cert.ReferenceIdeal.main_arg14)
  a15 : WK (Proc.devRef .tc Cert.KernelIdeal.main_arg15) = WR (Proc.devRef .tc Cert.ReferenceIdeal.main_arg15)
  a16 : WK (Proc.devRef .tc Cert.KernelIdeal.main_arg16) = WR (Proc.devRef .tc Cert.ReferenceIdeal.main_arg16)
  a17 : WK (Proc.devRef .tc Cert.KernelIdeal.main_arg17) = WR (Proc.devRef .tc Cert.ReferenceIdeal.main_arg17)
  a18 : WK (Proc.devRef .tc Cert.KernelIdeal.main_arg18) = WR (Proc.devRef .tc Cert.ReferenceIdeal.main_arg18)

/-- What the two programs' buffers agree on before stretch 0. -/
def Agree0 (WK : KVal F) (WR : RVal F) : Prop :=
  AgreeArgs WK WR

/-- What the two programs' buffers agree on before stretch 1. -/
def Agree1 (WK : KVal F) (WR : RVal F) : Prop :=
  AgreeArgs WK WR
  ∧ WK (Proc.devRef .tc Cert.KernelIdeal.main_v13) = WR (Proc.devRef .tc Cert.ReferenceIdeal.main_v13)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)

/-- What the two programs' buffers agree on before stretch 2. -/
def Agree2 (WK : KVal F) (WR : RVal F) : Prop :=
  AgreeArgs WK WR
  ∧ WK (Proc.devRef .tc Cert.KernelIdeal.main_v14) = WR (Proc.devRef .tc Cert.ReferenceIdeal.main_v14)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)

/-- What the two programs' buffers agree on before stretch 3. -/
def Agree3 (WK : KVal F) (WR : RVal F) : Prop :=
  AgreeArgs WK WR
  ∧ WK (Proc.devRef .tc Cert.KernelIdeal.main_v22) = WR (Proc.devRef .tc Cert.ReferenceIdeal.main_v22)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)
  ∧ WK (Proc.devRef .tc Cert.KernelIdeal.main_v14) = WR (Proc.devRef .tc Cert.ReferenceIdeal.main_v14)

/-- What the two programs' buffers agree on before stretch 4. -/
def Agree4 (WK : KVal F) (WR : RVal F) : Prop :=
  AgreeArgs WK WR
  ∧ WK (Proc.devRef .tc Cert.KernelIdeal.main_v1) = WR (Proc.devRef .tc Cert.ReferenceIdeal.main_v1)
  ∧ WK (Proc.devRef .tc Cert.KernelIdeal.main_v23) = WR (Proc.devRef .tc Cert.ReferenceIdeal.main_v23)
  ∧ WK (Proc.devRef .tc Cert.KernelIdeal.main_v3) = WR (Proc.devRef .tc Cert.ReferenceIdeal.main_v3)
  ∧ WK (Proc.devRef .tc Cert.KernelIdeal.main_v14) = WR (Proc.devRef .tc Cert.ReferenceIdeal.main_v14)

/-- What the two programs' buffers agree on before stretch 5. -/
def Agree5 (WK : KVal F) (WR : RVal F) : Prop :=
  AgreeArgs WK WR
  ∧ WK (Proc.devRef .tc Cert.KernelIdeal.main_v86) = WR (Proc.devRef .tc Cert.ReferenceIdeal.main_v86)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)
  ∧ WK (Proc.devRef .tc Cert.KernelIdeal.main_v78) = WR (Proc.devRef .tc Cert.ReferenceIdeal.main_v78)

/-- What the two programs' buffers agree on before stretch 6. -/
def Agree6 (WK : KVal F) (WR : RVal F) : Prop :=
  AgreeArgs WK WR
  ∧ WK (Proc.devRef .tc Cert.KernelIdeal.main_v1) = WR (Proc.devRef .tc Cert.ReferenceIdeal.main_v1)
  ∧ WK (Proc.devRef .tc Cert.KernelIdeal.main_v87) = WR (Proc.devRef .tc Cert.ReferenceIdeal.main_v87)
  ∧ WK (Proc.devRef .tc Cert.KernelIdeal.main_v3) = WR (Proc.devRef .tc Cert.ReferenceIdeal.main_v3)
  ∧ WK (Proc.devRef .tc Cert.KernelIdeal.main_v78) = WR (Proc.devRef .tc Cert.ReferenceIdeal.main_v78)

/-- What the two programs' buffers agree on before stretch 7. -/
def Agree7 (WK : KVal F) (WR : RVal F) : Prop :=
  AgreeArgs WK WR
  ∧ WK (Proc.devRef .tc Cert.KernelIdeal.main_v150) = WR (Proc.devRef .tc Cert.ReferenceIdeal.main_v150)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)
  ∧ WK (Proc.devRef .tc Cert.KernelIdeal.main_v142) = WR (Proc.devRef .tc Cert.ReferenceIdeal.main_v142)

/-- What the two programs' buffers agree on before stretch 8. -/
def Agree8 (WK : KVal F) (WR : RVal F) : Prop :=
  AgreeArgs WK WR
  ∧ WK (Proc.devRef .tc Cert.KernelIdeal.main_v1) = WR (Proc.devRef .tc Cert.ReferenceIdeal.main_v1)
  ∧ WK (Proc.devRef .tc Cert.KernelIdeal.main_v151) = WR (Proc.devRef .tc Cert.ReferenceIdeal.main_v151)
  ∧ WK (Proc.devRef .tc Cert.KernelIdeal.main_v3) = WR (Proc.devRef .tc Cert.ReferenceIdeal.main_v3)
  ∧ WK (Proc.devRef .tc Cert.KernelIdeal.main_v142) = WR (Proc.devRef .tc Cert.ReferenceIdeal.main_v142)

/-- What the two programs' buffers agree on before stretch 9. -/
def Agree9 (WK : KVal F) (WR : RVal F) : Prop :=
  AgreeArgs WK WR
  ∧ WK (Proc.devRef .tc Cert.KernelIdeal.main_v214) = WR (Proc.devRef .tc Cert.ReferenceIdeal.main_v214)
  ∧ WK (Proc.devRef .tc Cert.KernelIdeal.main_v1) = WR (Proc.devRef .tc Cert.ReferenceIdeal.main_v1)
  ∧ WK (Proc.devRef .tc Cert.KernelIdeal.main_v3) = WR (Proc.devRef .tc Cert.ReferenceIdeal.main_v3)
  ∧ WK (Proc.devRef .tc Cert.KernelIdeal.main_v206) = WR (Proc.devRef .tc Cert.ReferenceIdeal.main_v206)

/-- What the two programs' buffers agree on before stretch 10. -/
def Agree10 (WK : KVal F) (WR : RVal F) : Prop :=
  AgreeArgs WK WR
  ∧ WK (Proc.devRef .tc Cert.KernelIdeal.main_v1) = WR (Proc.devRef .tc Cert.ReferenceIdeal.main_v1)
  ∧ WK (Proc.devRef .tc Cert.KernelIdeal.main_v215) = WR (Proc.devRef .tc Cert.ReferenceIdeal.main_v215)
  ∧ WK (Proc.devRef .tc Cert.KernelIdeal.main_v3) = WR (Proc.devRef .tc Cert.ReferenceIdeal.main_v3)
  ∧ WK (Proc.devRef .tc Cert.KernelIdeal.main_v206) = WR (Proc.devRef .tc Cert.ReferenceIdeal.main_v206)

/-- What the two programs' buffers agree on before stretch 11 (after the whole line). -/
def Agree11 (WK : KVal F) (WR : RVal F) : Prop :=
  AgreeArgs WK WR
  ∧ WK (Proc.devRef .tc Cert.KernelIdeal.main_v283) = WR (Proc.devRef .tc Cert.ReferenceIdeal.main_v283)
  ∧ WK (Proc.devRef .tc Cert.KernelIdeal.main_v274) = WR (Proc.devRef .tc Cert.ReferenceIdeal.main_v274)
  ∧ WK (Proc.devRef .tc Cert.KernelIdeal.main_v278) = WR (Proc.devRef .tc Cert.ReferenceIdeal.main_v278)

end Cert.Bridge

end
-- ==== Proof.BridgeA.lean ====
/-
  Stretches 0, 1, 2, 3 of the common host line: each value written is the same operations applied to values that agree, each
  other value is carried, so the two programs' buffers agree after the stretch on what is read later.
-/
import proofs.«112254_j79388175499762_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

theorem argsStep0 (WK : KVal F) (WR : RVal F) (ha : AgreeArgs WK WR) :
    AgreeArgs (after (Cert.KernelIdeal.Gen.hostOps0 (F := F)) WK) (after (Cert.ReferenceIdeal.Hand.L0 (F := F)) WR) :=
  ⟨(after_of_forall_not_mem _ _ (Cert.KernelIdeal.Hand.not_written (r := Cert.KernelIdeal.main_arg0) _ Cert.KernelIdeal.Hand.writes0 (by decide))).trans (ha.a0.trans (after_of_forall_not_mem _ _ (Cert.ReferenceIdeal.Hand.not_written (r := Cert.ReferenceIdeal.main_arg0) _ Cert.ReferenceIdeal.Hand.writes0 (by decide))).symm),
   (after_of_forall_not_mem _ _ (Cert.KernelIdeal.Hand.not_written (r := Cert.KernelIdeal.main_arg1) _ Cert.KernelIdeal.Hand.writes0 (by decide))).trans (ha.a1.trans (after_of_forall_not_mem _ _ (Cert.ReferenceIdeal.Hand.not_written (r := Cert.ReferenceIdeal.main_arg1) _ Cert.ReferenceIdeal.Hand.writes0 (by decide))).symm),
   (after_of_forall_not_mem _ _ (Cert.KernelIdeal.Hand.not_written (r := Cert.KernelIdeal.main_arg2) _ Cert.KernelIdeal.Hand.writes0 (by decide))).trans (ha.a2.trans (after_of_forall_not_mem _ _ (Cert.ReferenceIdeal.Hand.not_written (r := Cert.ReferenceIdeal.main_arg2) _ Cert.ReferenceIdeal.Hand.writes0 (by decide))).symm),
   (after_of_forall_not_mem _ _ (Cert.KernelIdeal.Hand.not_written (r := Cert.KernelIdeal.main_arg3) _ Cert.KernelIdeal.Hand.writes0 (by decide))).trans (ha.a3.trans (after_of_forall_not_mem _ _ (Cert.ReferenceIdeal.Hand.not_written (r := Cert.ReferenceIdeal.main_arg3) _ Cert.ReferenceIdeal.Hand.writes0 (by decide))).symm),
   (after_of_forall_not_mem _ _ (Cert.KernelIdeal.Hand.not_written (r := Cert.KernelIdeal.main_arg4) _ Cert.KernelIdeal.Hand.writes0 (by decide))).trans (ha.a4.trans (after_of_forall_not_mem _ _ (Cert.ReferenceIdeal.Hand.not_written (r := Cert.ReferenceIdeal.main_arg4) _ Cert.ReferenceIdeal.Hand.writes0 (by decide))).symm),
   (after_of_forall_not_mem _ _ (Cert.KernelIdeal.Hand.not_written (r := Cert.KernelIdeal.main_arg5) _ Cert.KernelIdeal.Hand.writes0 (by decide))).trans (ha.a5.trans (after_of_forall_not_mem _ _ (Cert.ReferenceIdeal.Hand.not_written (r := Cert.ReferenceIdeal.main_arg5) _ Cert.ReferenceIdeal.Hand.writes0 (by decide))).symm),
   (after_of_forall_not_mem _ _ (Cert.KernelIdeal.Hand.not_written (r := Cert.KernelIdeal.main_arg6) _ Cert.KernelIdeal.Hand.writes0 (by decide))).trans (ha.a6.trans (after_of_forall_not_mem _ _ (Cert.ReferenceIdeal.Hand.not_written (r := Cert.ReferenceIdeal.main_arg6) _ Cert.ReferenceIdeal.Hand.writes0 (by decide))).symm),
   (after_of_forall_not_mem _ _ (Cert.KernelIdeal.Hand.not_written (r := Cert.KernelIdeal.main_arg7) _ Cert.KernelIdeal.Hand.writes0 (by decide))).trans (ha.a7.trans (after_of_forall_not_mem _ _ (Cert.ReferenceIdeal.Hand.not_written (r := Cert.ReferenceIdeal.main_arg7) _ Cert.ReferenceIdeal.Hand.writes0 (by decide))).symm),
   (after_of_forall_not_mem _ _ (Cert.KernelIdeal.Hand.not_written (r := Cert.KernelIdeal.main_arg8) _ Cert.KernelIdeal.Hand.writes0 (by decide))).trans (ha.a8.trans (after_of_forall_not_mem _ _ (Cert.ReferenceIdeal.Hand.not_written (r := Cert.ReferenceIdeal.main_arg8) _ Cert.ReferenceIdeal.Hand.writes0 (by decide))).symm),
   (after_of_forall_not_mem _ _ (Cert.KernelIdeal.Hand.not_written (r := Cert.KernelIdeal.main_arg9) _ Cert.KernelIdeal.Hand.writes0 (by decide))).trans (ha.a9.trans (after_of_forall_not_mem _ _ (Cert.ReferenceIdeal.Hand.not_written (r := Cert.ReferenceIdeal.main_arg9) _ Cert.ReferenceIdeal.Hand.writes0 (by decide))).symm),
   (after_of_forall_not_mem _ _ (Cert.KernelIdeal.Hand.not_written (r := Cert.KernelIdeal.main_arg10) _ Cert.KernelIdeal.Hand.writes0 (by decide))).trans (ha.a10.trans (after_of_forall_not_mem _ _ (Cert.ReferenceIdeal.Hand.not_written (r := Cert.ReferenceIdeal.main_arg10) _ Cert.ReferenceIdeal.Hand.writes0 (by decide))).symm),
   (after_of_forall_not_mem _ _ (Cert.KernelIdeal.Hand.not_written (r := Cert.KernelIdeal.main_arg11) _ Cert.KernelIdeal.Hand.writes0 (by decide))).trans (ha.a11.trans (after_of_forall_not_mem _ _ (Cert.ReferenceIdeal.Hand.not_written (r := Cert.ReferenceIdeal.main_arg11) _ Cert.ReferenceIdeal.Hand.writes0 (by decide))).symm),
   (after_of_forall_not_mem _ _ (Cert.KernelIdeal.Hand.not_written (r := Cert.KernelIdeal.main_arg12) _ Cert.KernelIdeal.Hand.writes0 (by decide))).trans (ha.a12.trans (after_of_forall_not_mem _ _ (Cert.ReferenceIdeal.Hand.not_written (r := Cert.ReferenceIdeal.main_arg12) _ Cert.ReferenceIdeal.Hand.writes0 (by decide))).symm),
   (after_of_forall_not_mem _ _ (Cert.KernelIdeal.Hand.not_written (r := Cert.KernelIdeal.main_arg13) _ Cert.KernelIdeal.Hand.writes0 (by decide))).trans (ha.a13.trans (after_of_forall_not_mem _ _ (Cert.ReferenceIdeal.Hand.not_written (r := Cert.ReferenceIdeal.main_arg13) _ Cert.ReferenceIdeal.Hand.writes0 (by decide))).symm),
   (after_of_forall_not_mem _ _ (Cert.KernelIdeal.Hand.not_written (r := Cert.KernelIdeal.main_arg14) _ Cert.KernelIdeal.Hand.writes0 (by decide))).trans (ha.a14.trans (after_of_forall_not_mem _ _ (Cert.ReferenceIdeal.Hand.not_written (r := Cert.ReferenceIdeal.main_arg14) _ Cert.ReferenceIdeal.Hand.writes0 (by decide))).symm),
   (after_of_forall_not_mem _ _ (Cert.KernelIdeal.Hand.not_written (r := Cert.KernelIdeal.main_arg15) _ Cert.KernelIdeal.Hand.writes0 (by decide))).trans (ha.a15.trans (after_of_forall_not_mem _ _ (Cert.ReferenceIdeal.Hand.not_written (r := Cert.ReferenceIdeal.main_arg15) _ Cert.ReferenceIdeal.Hand.writes0 (by decide))).symm),
   (after_of_forall_not_mem _ _ (Cert.KernelIdeal.Hand.not_written (r := Cert.KernelIdeal.main_arg16) _ Cert.KernelIdeal.Hand.writes0 (by decide))).trans (ha.a16.trans (after_of_forall_not_mem _ _ (Cert.ReferenceIdeal.Hand.not_written (r := Cert.ReferenceIdeal.main_arg16) _ Cert.ReferenceIdeal.Hand.writes0 (by decide))).symm),
   (after_of_forall_not_mem _ _ (Cert.KernelIdeal.Hand.not_written (r := Cert.KernelIdeal.main_arg17) _ Cert.KernelIdeal.Hand.writes0 (by decide))).trans (ha.a17.trans (after_of_forall_not_mem _ _ (Cert.ReferenceIdeal.Hand.not_written (r := Cert.ReferenceIdeal.main_arg17) _ Cert.ReferenceIdeal.Hand.writes0 (by decide))).symm),
   (after_of_forall_not_mem _ _ (Cert.KernelIdeal.Hand.not_written (r := Cert.KernelIdeal.main_arg18) _ Cert.KernelIdeal.Hand.writes0 (by decide))).trans (ha.a18.trans (after_of_forall_not_mem _ _ (Cert.ReferenceIdeal.Hand.not_written (r := Cert.ReferenceIdeal.main_arg18) _ Cert.ReferenceIdeal.Hand.writes0 (by decide))).symm)⟩

set_option maxHeartbeats 4000000 in
theorem stage0 (WK : KVal F) (WR : RVal F) (h : Agree0 WK WR) :
    Agree1 (after (Cert.KernelIdeal.Gen.hostOps0 (F := F)) WK) (after (Cert.ReferenceIdeal.Hand.L0 (F := F)) WR) := by
  have ha : AgreeArgs WK WR := h
  refine ⟨argsStep0 WK WR ha, ?_, ?_, ?_⟩
  · show after (Cert.KernelIdeal.Gen.hostOps0 (F := F)) WK (Proc.devRef .tc Cert.KernelIdeal.main_v13) = after (Cert.ReferenceIdeal.Hand.L0 (F := F)) WR (Proc.devRef .tc Cert.ReferenceIdeal.main_v13)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18]
    try rfl
  · show after (Cert.KernelIdeal.Gen.hostOps0 (F := F)) WK (Proc.devRef .tc Cert.KernelIdeal.main_v1) = after (Cert.ReferenceIdeal.Hand.L0 (F := F)) WR (Proc.devRef .tc Cert.ReferenceIdeal.main_v1)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18]
    try rfl
  · show after (Cert.KernelIdeal.Gen.hostOps0 (F := F)) WK (Proc.devRef .tc Cert.KernelIdeal.main_v3) = after (Cert.ReferenceIdeal.Hand.L0 (F := F)) WR (Proc.devRef .tc Cert.ReferenceIdeal.main_v3)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18]
    try rfl

theorem argsStep1 (WK : KVal F) (WR : RVal F) (ha : AgreeArgs WK WR) :
    AgreeArgs (after (Cert.KernelIdeal.Gen.hostOps0_1 (F := F)) WK) (after (Cert.ReferenceIdeal.Hand.L1 (F := F)) WR) :=
  ⟨(after_of_forall_not_mem _ _ (Cert.KernelIdeal.Hand.not_written (r := Cert.KernelIdeal.main_arg0) _ Cert.KernelIdeal.Hand.writes1 (by decide))).trans (ha.a0.trans (after_of_forall_not_mem _ _ (Cert.ReferenceIdeal.Hand.not_written (r := Cert.ReferenceIdeal.main_arg0) _ Cert.ReferenceIdeal.Hand.writes1 (by decide))).symm),
   (after_of_forall_not_mem _ _ (Cert.KernelIdeal.Hand.not_written (r := Cert.KernelIdeal.main_arg1) _ Cert.KernelIdeal.Hand.writes1 (by decide))).trans (ha.a1.trans (after_of_forall_not_mem _ _ (Cert.ReferenceIdeal.Hand.not_written (r := Cert.ReferenceIdeal.main_arg1) _ Cert.ReferenceIdeal.Hand.writes1 (by decide))).symm),
   (after_of_forall_not_mem _ _ (Cert.KernelIdeal.Hand.not_written (r := Cert.KernelIdeal.main_arg2) _ Cert.KernelIdeal.Hand.writes1 (by decide))).trans (ha.a2.trans (after_of_forall_not_mem _ _ (Cert.ReferenceIdeal.Hand.not_written (r := Cert.ReferenceIdeal.main_arg2) _ Cert.ReferenceIdeal.Hand.writes1 (by decide))).symm),
   (after_of_forall_not_mem _ _ (Cert.KernelIdeal.Hand.not_written (r := Cert.KernelIdeal.main_arg3) _ Cert.KernelIdeal.Hand.writes1 (by decide))).trans (ha.a3.trans (after_of_forall_not_mem _ _ (Cert.ReferenceIdeal.Hand.not_written (r := Cert.ReferenceIdeal.main_arg3) _ Cert.ReferenceIdeal.Hand.writes1 (by decide))).symm),
   (after_of_forall_not_mem _ _ (Cert.KernelIdeal.Hand.not_written (r := Cert.KernelIdeal.main_arg4) _ Cert.KernelIdeal.Hand.writes1 (by decide))).trans (ha.a4.trans (after_of_forall_not_mem _ _ (Cert.ReferenceIdeal.Hand.not_written (r := Cert.ReferenceIdeal.main_arg4) _ Cert.ReferenceIdeal.Hand.writes1 (by decide))).symm),
   (after_of_forall_not_mem _ _ (Cert.KernelIdeal.Hand.not_written (r := Cert.KernelIdeal.main_arg5) _ Cert.KernelIdeal.Hand.writes1 (by decide))).trans (ha.a5.trans (after_of_forall_not_mem _ _ (Cert.ReferenceIdeal.Hand.not_written (r := Cert.ReferenceIdeal.main_arg5) _ Cert.ReferenceIdeal.Hand.writes1 (by decide))).symm),
   (after_of_forall_not_mem _ _ (Cert.KernelIdeal.Hand.not_written (r := Cert.KernelIdeal.main_arg6) _ Cert.KernelIdeal.Hand.writes1 (by decide))).trans (ha.a6.trans (after_of_forall_not_mem _ _ (Cert.ReferenceIdeal.Hand.not_written (r := Cert.ReferenceIdeal.main_arg6) _ Cert.ReferenceIdeal.Hand.writes1 (by decide))).symm),
   (after_of_forall_not_mem _ _ (Cert.KernelIdeal.Hand.not_written (r := Cert.KernelIdeal.main_arg7) _ Cert.KernelIdeal.Hand.writes1 (by decide))).trans (ha.a7.trans (after_of_forall_not_mem _ _ (Cert.ReferenceIdeal.Hand.not_written (r := Cert.ReferenceIdeal.main_arg7) _ Cert.ReferenceIdeal.Hand.writes1 (by decide))).symm),
   (after_of_forall_not_mem _ _ (Cert.KernelIdeal.Hand.not_written (r := Cert.KernelIdeal.main_arg8) _ Cert.KernelIdeal.Hand.writes1 (by decide))).trans (ha.a8.trans (after_of_forall_not_mem _ _ (Cert.ReferenceIdeal.Hand.not_written (r := Cert.ReferenceIdeal.main_arg8) _ Cert.ReferenceIdeal.Hand.writes1 (by decide))).symm),
   (after_of_forall_not_mem _ _ (Cert.KernelIdeal.Hand.not_written (r := Cert.KernelIdeal.main_arg9) _ Cert.KernelIdeal.Hand.writes1 (by decide))).trans (ha.a9.trans (after_of_forall_not_mem _ _ (Cert.ReferenceIdeal.Hand.not_written (r := Cert.ReferenceIdeal.main_arg9) _ Cert.ReferenceIdeal.Hand.writes1 (by decide))).symm),
   (after_of_forall_not_mem _ _ (Cert.KernelIdeal.Hand.not_written (r := Cert.KernelIdeal.main_arg10) _ Cert.KernelIdeal.Hand.writes1 (by decide))).trans (ha.a10.trans (after_of_forall_not_mem _ _ (Cert.ReferenceIdeal.Hand.not_written (r := Cert.ReferenceIdeal.main_arg10) _ Cert.ReferenceIdeal.Hand.writes1 (by decide))).symm),
   (after_of_forall_not_mem _ _ (Cert.KernelIdeal.Hand.not_written (r := Cert.KernelIdeal.main_arg11) _ Cert.KernelIdeal.Hand.writes1 (by decide))).trans (ha.a11.trans (after_of_forall_not_mem _ _ (Cert.ReferenceIdeal.Hand.not_written (r := Cert.ReferenceIdeal.main_arg11) _ Cert.ReferenceIdeal.Hand.writes1 (by decide))).symm),
   (after_of_forall_not_mem _ _ (Cert.KernelIdeal.Hand.not_written (r := Cert.KernelIdeal.main_arg12) _ Cert.KernelIdeal.Hand.writes1 (by decide))).trans (ha.a12.trans (after_of_forall_not_mem _ _ (Cert.ReferenceIdeal.Hand.not_written (r := Cert.ReferenceIdeal.main_arg12) _ Cert.ReferenceIdeal.Hand.writes1 (by decide))).symm),
   (after_of_forall_not_mem _ _ (Cert.KernelIdeal.Hand.not_written (r := Cert.KernelIdeal.main_arg13) _ Cert.KernelIdeal.Hand.writes1 (by decide))).trans (ha.a13.trans (after_of_forall_not_mem _ _ (Cert.ReferenceIdeal.Hand.not_written (r := Cert.ReferenceIdeal.main_arg13) _ Cert.ReferenceIdeal.Hand.writes1 (by decide))).symm),
   (after_of_forall_not_mem _ _ (Cert.KernelIdeal.Hand.not_written (r := Cert.KernelIdeal.main_arg14) _ Cert.KernelIdeal.Hand.writes1 (by decide))).trans (ha.a14.trans (after_of_forall_not_mem _ _ (Cert.ReferenceIdeal.Hand.not_written (r := Cert.ReferenceIdeal.main_arg14) _ Cert.ReferenceIdeal.Hand.writes1 (by decide))).symm),
   (after_of_forall_not_mem _ _ (Cert.KernelIdeal.Hand.not_written (r := Cert.KernelIdeal.main_arg15) _ Cert.KernelIdeal.Hand.writes1 (by decide))).trans (ha.a15.trans (after_of_forall_not_mem _ _ (Cert.ReferenceIdeal.Hand.not_written (r := Cert.ReferenceIdeal.main_arg15) _ Cert.ReferenceIdeal.Hand.writes1 (by decide))).symm),
   (after_of_forall_not_mem _ _ (Cert.KernelIdeal.Hand.not_written (r := Cert.KernelIdeal.main_arg16) _ Cert.KernelIdeal.Hand.writes1 (by decide))).trans (ha.a16.trans (after_of_forall_not_mem _ _ (Cert.ReferenceIdeal.Hand.not_written (r := Cert.ReferenceIdeal.main_arg16) _ Cert.ReferenceIdeal.Hand.writes1 (by decide))).symm),
   (after_of_forall_not_mem _ _ (Cert.KernelIdeal.Hand.not_written (r := Cert.KernelIdeal.main_arg17) _ Cert.KernelIdeal.Hand.writes1 (by decide))).trans (ha.a17.trans (after_of_forall_not_mem _ _ (Cert.ReferenceIdeal.Hand.not_written (r := Cert.ReferenceIdeal.main_arg17) _ Cert.ReferenceIdeal.Hand.writes1 (by decide))).symm),
   (after_of_forall_not_mem _ _ (Cert.KernelIdeal.Hand.not_written (r := Cert.KernelIdeal.main_arg18) _ Cert.KernelIdeal.Hand.writes1 (by decide))).trans (ha.a18.trans (after_of_forall_not_mem _ _ (Cert.ReferenceIdeal.Hand.not_written (r := Cert.ReferenceIdeal.main_arg18) _ Cert.ReferenceIdeal.Hand.writes1 (by decide))).symm)⟩

set_option maxHeartbeats 4000000 in
theorem stage1 (WK : KVal F) (WR : RVal F) (h : Agree1 WK WR) :
    Agree2 (after (Cert.KernelIdeal.Gen.hostOps0_1 (F := F)) WK) (after (Cert.ReferenceIdeal.Hand.L1 (F := F)) WR) := by
  obtain ⟨ha, h_v13, h_v1, h_v3⟩ := h
  refine ⟨argsStep1 WK WR ha, ?_, ?_, ?_⟩
  · show after (Cert.KernelIdeal.Gen.hostOps0_1 (F := F)) WK (Proc.devRef .tc Cert.KernelIdeal.main_v14) = after (Cert.ReferenceIdeal.Hand.L1 (F := F)) WR (Proc.devRef .tc Cert.ReferenceIdeal.main_v14)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v13, h_v1, h_v3]
    try rfl
  · exact (after_of_forall_not_mem _ _ (Cert.KernelIdeal.Hand.not_written (r := Cert.KernelIdeal.main_v1) _ Cert.KernelIdeal.Hand.writes1 (by decide))).trans (h_v1.trans (after_of_forall_not_mem _ _ (Cert.ReferenceIdeal.Hand.not_written (r := Cert.ReferenceIdeal.main_v1) _ Cert.ReferenceIdeal.Hand.writes1 (by decide))).symm)
  · exact (after_of_forall_not_mem _ _ (Cert.KernelIdeal.Hand.not_written (r := Cert.KernelIdeal.main_v3) _ Cert.KernelIdeal.Hand.writes1 (by decide))).trans (h_v3.trans (after_of_forall_not_mem _ _ (Cert.ReferenceIdeal.Hand.not_written (r := Cert.ReferenceIdeal.main_v3) _ Cert.ReferenceIdeal.Hand.writes1 (by decide))).symm)

theorem argsStep2 (WK : KVal F) (WR : RVal F) (ha : AgreeArgs WK WR) :
    AgreeArgs (after (Cert.KernelIdeal.Gen.hostOps0_2 (F := F)) WK) (after (Cert.ReferenceIdeal.Hand.L2 (F := F)) WR) :=
  ⟨(after_of_forall_not_mem _ _ (Cert.KernelIdeal.Hand.not_written (r := Cert.KernelIdeal.main_arg0) _ Cert.KernelIdeal.Hand.writes2 (by decide))).trans (ha.a0.trans (after_of_forall_not_mem _ _ (Cert.ReferenceIdeal.Hand.not_written (r := Cert.ReferenceIdeal.main_arg0) _ Cert.ReferenceIdeal.Hand.writes2 (by decide))).symm),
   (after_of_forall_not_mem _ _ (Cert.KernelIdeal.Hand.not_written (r := Cert.KernelIdeal.main_arg1) _ Cert.KernelIdeal.Hand.writes2 (by decide))).trans (ha.a1.trans (after_of_forall_not_mem _ _ (Cert.ReferenceIdeal.Hand.not_written (r := Cert.ReferenceIdeal.main_arg1) _ Cert.ReferenceIdeal.Hand.writes2 (by decide))).symm),
   (after_of_forall_not_mem _ _ (Cert.KernelIdeal.Hand.not_written (r := Cert.KernelIdeal.main_arg2) _ Cert.KernelIdeal.Hand.writes2 (by decide))).trans (ha.a2.trans (after_of_forall_not_mem _ _ (Cert.ReferenceIdeal.Hand.not_written (r := Cert.ReferenceIdeal.main_arg2) _ Cert.ReferenceIdeal.Hand.writes2 (by decide))).symm),
   (after_of_forall_not_mem _ _ (Cert.KernelIdeal.Hand.not_written (r := Cert.KernelIdeal.main_arg3) _ Cert.KernelIdeal.Hand.writes2 (by decide))).trans (ha.a3.trans (after_of_forall_not_mem _ _ (Cert.ReferenceIdeal.Hand.not_written (r := Cert.ReferenceIdeal.main_arg3) _ Cert.ReferenceIdeal.Hand.writes2 (by decide))).symm),
   (after_of_forall_not_mem _ _ (Cert.KernelIdeal.Hand.not_written (r := Cert.KernelIdeal.main_arg4) _ Cert.KernelIdeal.Hand.writes2 (by decide))).trans (ha.a4.trans (after_of_forall_not_mem _ _ (Cert.ReferenceIdeal.Hand.not_written (r := Cert.ReferenceIdeal.main_arg4) _ Cert.ReferenceIdeal.Hand.writes2 (by decide))).symm),
   (after_of_forall_not_mem _ _ (Cert.KernelIdeal.Hand.not_written (r := Cert.KernelIdeal.main_arg5) _ Cert.KernelIdeal.Hand.writes2 (by decide))).trans (ha.a5.trans (after_of_forall_not_mem _ _ (Cert.ReferenceIdeal.Hand.not_written (r := Cert.ReferenceIdeal.main_arg5) _ Cert.ReferenceIdeal.Hand.writes2 (by decide))).symm),
   (after_of_forall_not_mem _ _ (Cert.KernelIdeal.Hand.not_written (r := Cert.KernelIdeal.main_arg6) _ Cert.KernelIdeal.Hand.writes2 (by decide))).trans (ha.a6.trans (after_of_forall_not_mem _ _ (Cert.ReferenceIdeal.Hand.not_written (r := Cert.ReferenceIdeal.main_arg6) _ Cert.ReferenceIdeal.Hand.writes2 (by decide))).symm),
   (after_of_forall_not_mem _ _ (Cert.KernelIdeal.Hand.not_written (r := Cert.KernelIdeal.main_arg7) _ Cert.KernelIdeal.Hand.writes2 (by decide))).trans (ha.a7.trans (after_of_forall_not_mem _ _ (Cert.ReferenceIdeal.Hand.not_written (r := Cert.ReferenceIdeal.main_arg7) _ Cert.ReferenceIdeal.Hand.writes2 (by decide))).symm),
   (after_of_forall_not_mem _ _ (Cert.KernelIdeal.Hand.not_written (r := Cert.KernelIdeal.main_arg8) _ Cert.KernelIdeal.Hand.writes2 (by decide))).trans (ha.a8.trans (after_of_forall_not_mem _ _ (Cert.ReferenceIdeal.Hand.not_written (r := Cert.ReferenceIdeal.main_arg8) _ Cert.ReferenceIdeal.Hand.writes2 (by decide))).symm),
   (after_of_forall_not_mem _ _ (Cert.KernelIdeal.Hand.not_written (r := Cert.KernelIdeal.main_arg9) _ Cert.KernelIdeal.Hand.writes2 (by decide))).trans (ha.a9.trans (after_of_forall_not_mem _ _ (Cert.ReferenceIdeal.Hand.not_written (r := Cert.ReferenceIdeal.main_arg9) _ Cert.ReferenceIdeal.Hand.writes2 (by decide))).symm),
   (after_of_forall_not_mem _ _ (Cert.KernelIdeal.Hand.not_written (r := Cert.KernelIdeal.main_arg10) _ Cert.KernelIdeal.Hand.writes2 (by decide))).trans (ha.a10.trans (after_of_forall_not_mem _ _ (Cert.ReferenceIdeal.Hand.not_written (r := Cert.ReferenceIdeal.main_arg10) _ Cert.ReferenceIdeal.Hand.writes2 (by decide))).symm),
   (after_of_forall_not_mem _ _ (Cert.KernelIdeal.Hand.not_written (r := Cert.KernelIdeal.main_arg11) _ Cert.KernelIdeal.Hand.writes2 (by decide))).trans (ha.a11.trans (after_of_forall_not_mem _ _ (Cert.ReferenceIdeal.Hand.not_written (r := Cert.ReferenceIdeal.main_arg11) _ Cert.ReferenceIdeal.Hand.writes2 (by decide))).symm),
   (after_of_forall_not_mem _ _ (Cert.KernelIdeal.Hand.not_written (r := Cert.KernelIdeal.main_arg12) _ Cert.KernelIdeal.Hand.writes2 (by decide))).trans (ha.a12.trans (after_of_forall_not_mem _ _ (Cert.ReferenceIdeal.Hand.not_written (r := Cert.ReferenceIdeal.main_arg12) _ Cert.ReferenceIdeal.Hand.writes2 (by decide))).symm),
   (after_of_forall_not_mem _ _ (Cert.KernelIdeal.Hand.not_written (r := Cert.KernelIdeal.main_arg13) _ Cert.KernelIdeal.Hand.writes2 (by decide))).trans (ha.a13.trans (after_of_forall_not_mem _ _ (Cert.ReferenceIdeal.Hand.not_written (r := Cert.ReferenceIdeal.main_arg13) _ Cert.ReferenceIdeal.Hand.writes2 (by decide))).symm),
   (after_of_forall_not_mem _ _ (Cert.KernelIdeal.Hand.not_written (r := Cert.KernelIdeal.main_arg14) _ Cert.KernelIdeal.Hand.writes2 (by decide))).trans (ha.a14.trans (after_of_forall_not_mem _ _ (Cert.ReferenceIdeal.Hand.not_written (r := Cert.ReferenceIdeal.main_arg14) _ Cert.ReferenceIdeal.Hand.writes2 (by decide))).symm),
   (after_of_forall_not_mem _ _ (Cert.KernelIdeal.Hand.not_written (r := Cert.KernelIdeal.main_arg15) _ Cert.KernelIdeal.Hand.writes2 (by decide))).trans (ha.a15.trans (after_of_forall_not_mem _ _ (Cert.ReferenceIdeal.Hand.not_written (r := Cert.ReferenceIdeal.main_arg15) _ Cert.ReferenceIdeal.Hand.writes2 (by decide))).symm),
   (after_of_forall_not_mem _ _ (Cert.KernelIdeal.Hand.not_written (r := Cert.KernelIdeal.main_arg16) _ Cert.KernelIdeal.Hand.writes2 (by decide))).trans (ha.a16.trans (after_of_forall_not_mem _ _ (Cert.ReferenceIdeal.Hand.not_written (r := Cert.ReferenceIdeal.main_arg16) _ Cert.ReferenceIdeal.Hand.writes2 (by decide))).symm),
   (after_of_forall_not_mem _ _ (Cert.KernelIdeal.Hand.not_written (r := Cert.KernelIdeal.main_arg17) _ Cert.KernelIdeal.Hand.writes2 (by decide))).trans (ha.a17.trans (after_of_forall_not_mem _ _ (Cert.ReferenceIdeal.Hand.not_written (r := Cert.ReferenceIdeal.main_arg17) _ Cert.ReferenceIdeal.Hand.writes2 (by decide))).symm),
   (after_of_forall_not_mem _ _ (Cert.KernelIdeal.Hand.not_written (r := Cert.KernelIdeal.main_arg18) _ Cert.KernelIdeal.Hand.writes2 (by decide))).trans (ha.a18.trans (after_of_forall_not_mem _ _ (Cert.ReferenceIdeal.Hand.not_written (r := Cert.ReferenceIdeal.main_arg18) _ Cert.ReferenceIdeal.Hand.writes2 (by decide))).symm)⟩

set_option maxHeartbeats 4000000 in
theorem stage2 (WK : KVal F) (WR : RVal F) (h : Agree2 WK WR) :
    Agree3 (after (Cert.KernelIdeal.Gen.hostOps0_2 (F := F)) WK) (after (Cert.ReferenceIdeal.Hand.L2 (F := F)) WR) := by
  obtain ⟨ha, h_v14, h_v1, h_v3⟩ := h
  refine ⟨argsStep2 WK WR ha, ?_, ?_, ?_, ?_⟩
  · show after (Cert.KernelIdeal.Gen.hostOps0_2 (F := F)) WK (Proc.devRef .tc Cert.KernelIdeal.main_v22) = after (Cert.ReferenceIdeal.Hand.L2 (F := F)) WR (Proc.devRef .tc Cert.ReferenceIdeal.main_v22)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v14, h_v1, h_v3]
    try rfl
  · exact (after_of_forall_not_mem _ _ (Cert.KernelIdeal.Hand.not_written (r := Cert.KernelIdeal.main_v1) _ Cert.KernelIdeal.Hand.writes2 (by decide))).trans (h_v1.trans (after_of_forall_not_mem _ _ (Cert.ReferenceIdeal.Hand.not_written (r := Cert.ReferenceIdeal.main_v1) _ Cert.ReferenceIdeal.Hand.writes2 (by decide))).symm)
  · exact (after_of_forall_not_mem _ _ (Cert.KernelIdeal.Hand.not_written (r := Cert.KernelIdeal.main_v3) _ Cert.KernelIdeal.Hand.writes2 (by decide))).trans (h_v3.trans (after_of_forall_not_mem _ _ (Cert.ReferenceIdeal.Hand.not_written (r := Cert.ReferenceIdeal.main_v3) _ Cert.ReferenceIdeal.Hand.writes2 (by decide))).symm)
  · exact (after_of_forall_not_mem _ _ (Cert.KernelIdeal.Hand.not_written (r := Cert.KernelIdeal.main_v14) _ Cert.KernelIdeal.Hand.writes2 (by decide))).trans (h_v14.trans (after_of_forall_not_mem _ _ (Cert.ReferenceIdeal.Hand.not_written (r := Cert.ReferenceIdeal.main_v14) _ Cert.ReferenceIdeal.Hand.writes2 (by decide))).symm)

theorem argsStep3 (WK : KVal F) (WR : RVal F) (ha : AgreeArgs WK WR) :
    AgreeArgs (after (Cert.KernelIdeal.Gen.hostOps0_3 (F := F)) WK) (after (Cert.ReferenceIdeal.Hand.L3 (F := F)) WR) :=
  ⟨(after_of_forall_not_mem _ _ (Cert.KernelIdeal.Hand.not_written (r := Cert.KernelIdeal.main_arg0) _ Cert.KernelIdeal.Hand.writes3 (by decide))).trans (ha.a0.trans (after_of_forall_not_mem _ _ (Cert.ReferenceIdeal.Hand.not_written (r := Cert.ReferenceIdeal.main_arg0) _ Cert.ReferenceIdeal.Hand.writes3 (by decide))).symm),
   (after_of_forall_not_mem _ _ (Cert.KernelIdeal.Hand.not_written (r := Cert.KernelIdeal.main_arg1) _ Cert.KernelIdeal.Hand.writes3 (by decide))).trans (ha.a1.trans (after_of_forall_not_mem _ _ (Cert.ReferenceIdeal.Hand.not_written (r := Cert.ReferenceIdeal.main_arg1) _ Cert.ReferenceIdeal.Hand.writes3 (by decide))).symm),
   (after_of_forall_not_mem _ _ (Cert.KernelIdeal.Hand.not_written (r := Cert.KernelIdeal.main_arg2) _ Cert.KernelIdeal.Hand.writes3 (by decide))).trans (ha.a2.trans (after_of_forall_not_mem _ _ (Cert.ReferenceIdeal.Hand.not_written (r := Cert.ReferenceIdeal.main_arg2) _ Cert.ReferenceIdeal.Hand.writes3 (by decide))).symm),
   (after_of_forall_not_mem _ _ (Cert.KernelIdeal.Hand.not_written (r := Cert.KernelIdeal.main_arg3) _ Cert.KernelIdeal.Hand.writes3 (by decide))).trans (ha.a3.trans (after_of_forall_not_mem _ _ (Cert.ReferenceIdeal.Hand.not_written (r := Cert.ReferenceIdeal.main_arg3) _ Cert.ReferenceIdeal.Hand.writes3 (by decide))).symm),
   (after_of_forall_not_mem _ _ (Cert.KernelIdeal.Hand.not_written (r := Cert.KernelIdeal.main_arg4) _ Cert.KernelIdeal.Hand.writes3 (by decide))).trans (ha.a4.trans (after_of_forall_not_mem _ _ (Cert.ReferenceIdeal.Hand.not_written (r := Cert.ReferenceIdeal.main_arg4) _ Cert.ReferenceIdeal.Hand.writes3 (by decide))).symm),
   (after_of_forall_not_mem _ _ (Cert.KernelIdeal.Hand.not_written (r := Cert.KernelIdeal.main_arg5) _ Cert.KernelIdeal.Hand.writes3 (by decide))).trans (ha.a5.trans (after_of_forall_not_mem _ _ (Cert.ReferenceIdeal.Hand.not_written (r := Cert.ReferenceIdeal.main_arg5) _ Cert.ReferenceIdeal.Hand.writes3 (by decide))).symm),
   (after_of_forall_not_mem _ _ (Cert.KernelIdeal.Hand.not_written (r := Cert.KernelIdeal.main_arg6) _ Cert.KernelIdeal.Hand.writes3 (by decide))).trans (ha.a6.trans (after_of_forall_not_mem _ _ (Cert.ReferenceIdeal.Hand.not_written (r := Cert.ReferenceIdeal.main_arg6) _ Cert.ReferenceIdeal.Hand.writes3 (by decide))).symm),
   (after_of_forall_not_mem _ _ (Cert.KernelIdeal.Hand.not_written (r := Cert.KernelIdeal.main_arg7) _ Cert.KernelIdeal.Hand.writes3 (by decide))).trans (ha.a7.trans (after_of_forall_not_mem _ _ (Cert.ReferenceIdeal.Hand.not_written (r := Cert.ReferenceIdeal.main_arg7) _ Cert.ReferenceIdeal.Hand.writes3 (by decide))).symm),
   (after_of_forall_not_mem _ _ (Cert.KernelIdeal.Hand.not_written (r := Cert.KernelIdeal.main_arg8) _ Cert.KernelIdeal.Hand.writes3 (by decide))).trans (ha.a8.trans (after_of_forall_not_mem _ _ (Cert.ReferenceIdeal.Hand.not_written (r := Cert.ReferenceIdeal.main_arg8) _ Cert.ReferenceIdeal.Hand.writes3 (by decide))).symm),
   (after_of_forall_not_mem _ _ (Cert.KernelIdeal.Hand.not_written (r := Cert.KernelIdeal.main_arg9) _ Cert.KernelIdeal.Hand.writes3 (by decide))).trans (ha.a9.trans (after_of_forall_not_mem _ _ (Cert.ReferenceIdeal.Hand.not_written (r := Cert.ReferenceIdeal.main_arg9) _ Cert.ReferenceIdeal.Hand.writes3 (by decide))).symm),
   (after_of_forall_not_mem _ _ (Cert.KernelIdeal.Hand.not_written (r := Cert.KernelIdeal.main_arg10) _ Cert.KernelIdeal.Hand.writes3 (by decide))).trans (ha.a10.trans (after_of_forall_not_mem _ _ (Cert.ReferenceIdeal.Hand.not_written (r := Cert.ReferenceIdeal.main_arg10) _ Cert.ReferenceIdeal.Hand.writes3 (by decide))).symm),
   (after_of_forall_not_mem _ _ (Cert.KernelIdeal.Hand.not_written (r := Cert.KernelIdeal.main_arg11) _ Cert.KernelIdeal.Hand.writes3 (by decide))).trans (ha.a11.trans (after_of_forall_not_mem _ _ (Cert.ReferenceIdeal.Hand.not_written (r := Cert.ReferenceIdeal.main_arg11) _ Cert.ReferenceIdeal.Hand.writes3 (by decide))).symm),
   (after_of_forall_not_mem _ _ (Cert.KernelIdeal.Hand.not_written (r := Cert.KernelIdeal.main_arg12) _ Cert.KernelIdeal.Hand.writes3 (by decide))).trans (ha.a12.trans (after_of_forall_not_mem _ _ (Cert.ReferenceIdeal.Hand.not_written (r := Cert.ReferenceIdeal.main_arg12) _ Cert.ReferenceIdeal.Hand.writes3 (by decide))).symm),
   (after_of_forall_not_mem _ _ (Cert.KernelIdeal.Hand.not_written (r := Cert.KernelIdeal.main_arg13) _ Cert.KernelIdeal.Hand.writes3 (by decide))).trans (ha.a13.trans (after_of_forall_not_mem _ _ (Cert.ReferenceIdeal.Hand.not_written (r := Cert.ReferenceIdeal.main_arg13) _ Cert.ReferenceIdeal.Hand.writes3 (by decide))).symm),
   (after_of_forall_not_mem _ _ (Cert.KernelIdeal.Hand.not_written (r := Cert.KernelIdeal.main_arg14) _ Cert.KernelIdeal.Hand.writes3 (by decide))).trans (ha.a14.trans (after_of_forall_not_mem _ _ (Cert.ReferenceIdeal.Hand.not_written (r := Cert.ReferenceIdeal.main_arg14) _ Cert.ReferenceIdeal.Hand.writes3 (by decide))).symm),
   (after_of_forall_not_mem _ _ (Cert.KernelIdeal.Hand.not_written (r := Cert.KernelIdeal.main_arg15) _ Cert.KernelIdeal.Hand.writes3 (by decide))).trans (ha.a15.trans (after_of_forall_not_mem _ _ (Cert.ReferenceIdeal.Hand.not_written (r := Cert.ReferenceIdeal.main_arg15) _ Cert.ReferenceIdeal.Hand.writes3 (by decide))).symm),
   (after_of_forall_not_mem _ _ (Cert.KernelIdeal.Hand.not_written (r := Cert.KernelIdeal.main_arg16) _ Cert.KernelIdeal.Hand.writes3 (by decide))).trans (ha.a16.trans (after_of_forall_not_mem _ _ (Cert.ReferenceIdeal.Hand.not_written (r := Cert.ReferenceIdeal.main_arg16) _ Cert.ReferenceIdeal.Hand.writes3 (by decide))).symm),
   (after_of_forall_not_mem _ _ (Cert.KernelIdeal.Hand.not_written (r := Cert.KernelIdeal.main_arg17) _ Cert.KernelIdeal.Hand.writes3 (by decide))).trans (ha.a17.trans (after_of_forall_not_mem _ _ (Cert.ReferenceIdeal.Hand.not_written (r := Cert.ReferenceIdeal.main_arg17) _ Cert.ReferenceIdeal.Hand.writes3 (by decide))).symm),
   (after_of_forall_not_mem _ _ (Cert.KernelIdeal.Hand.not_written (r := Cert.KernelIdeal.main_arg18) _ Cert.KernelIdeal.Hand.writes3 (by decide))).trans (ha.a18.trans (after_of_forall_not_mem _ _ (Cert.ReferenceIdeal.Hand.not_written (r := Cert.ReferenceIdeal.main_arg18) _ Cert.ReferenceIdeal.Hand.writes3 (by decide))).symm)⟩

set_option maxHeartbeats 4000000 in
theorem stage3 (WK : KVal F) (WR : RVal F) (h : Agree3 WK WR) :
    Agree4 (after (Cert.KernelIdeal.Gen.hostOps0_3 (F := F)) WK) (after (Cert.ReferenceIdeal.Hand.L3 (F := F)) WR) := by
  obtain ⟨ha, h_v22, h_v1, h_v3, h_v14⟩ := h
  refine ⟨argsStep3 WK WR ha, ?_, ?_, ?_, ?_⟩
  · exact (after_of_forall_not_mem _ _ (Cert.KernelIdeal.Hand.not_written (r := Cert.KernelIdeal.main_v1) _ Cert.KernelIdeal.Hand.writes3 (by decide))).trans (h_v1.trans (after_of_forall_not_mem _ _ (Cert.ReferenceIdeal.Hand.not_written (r := Cert.ReferenceIdeal.main_v1) _ Cert.ReferenceIdeal.Hand.writes3 (by decide))).symm)
  · show after (Cert.KernelIdeal.Gen.hostOps0_3 (F := F)) WK (Proc.devRef .tc Cert.KernelIdeal.main_v23) = after (Cert.ReferenceIdeal.Hand.L3 (F := F)) WR (Proc.devRef .tc Cert.ReferenceIdeal.main_v23)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v22, h_v1, h_v3, h_v14]
    try rfl
  · exact (after_of_forall_not_mem _ _ (Cert.KernelIdeal.Hand.not_written (r := Cert.KernelIdeal.main_v3) _ Cert.KernelIdeal.Hand.writes3 (by decide))).trans (h_v3.trans (after_of_forall_not_mem _ _ (Cert.ReferenceIdeal.Hand.not_written (r := Cert.ReferenceIdeal.main_v3) _ Cert.ReferenceIdeal.Hand.writes3 (by decide))).symm)
  · exact (after_of_forall_not_mem _ _ (Cert.KernelIdeal.Hand.not_written (r := Cert.KernelIdeal.main_v14) _ Cert.KernelIdeal.Hand.writes3 (by decide))).trans (h_v14.trans (after_of_forall_not_mem _ _ (Cert.ReferenceIdeal.Hand.not_written (r := Cert.ReferenceIdeal.main_v14) _ Cert.ReferenceIdeal.Hand.writes3 (by decide))).symm)

end Cert.Bridge

end
-- ==== Proof.Bridge4.lean ====
/-
  Stretch 4 of the common host line: each value written is the same operations applied to values that agree, each
  other value is carried, so the two programs' buffers agree after the stretch on what is read later.
-/
import proofs.«112254_j79388175499762_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

theorem argsStep4 (WK : KVal F) (WR : RVal F) (ha : AgreeArgs WK WR) :
    AgreeArgs (after (Cert.KernelIdeal.Gen.hostOps0_4 (F := F)) WK) (after (Cert.ReferenceIdeal.Hand.L4 (F := F)) WR) :=
  ⟨(after_of_forall_not_mem _ _ (Cert.KernelIdeal.Hand.not_written (r := Cert.KernelIdeal.main_arg0) _ Cert.KernelIdeal.Hand.writes4 (by decide))).trans (ha.a0.trans (after_of_forall_not_mem _ _ (Cert.ReferenceIdeal.Hand.not_written (r := Cert.ReferenceIdeal.main_arg0) _ Cert.ReferenceIdeal.Hand.writes4 (by decide))).symm),
   (after_of_forall_not_mem _ _ (Cert.KernelIdeal.Hand.not_written (r := Cert.KernelIdeal.main_arg1) _ Cert.KernelIdeal.Hand.writes4 (by decide))).trans (ha.a1.trans (after_of_forall_not_mem _ _ (Cert.ReferenceIdeal.Hand.not_written (r := Cert.ReferenceIdeal.main_arg1) _ Cert.ReferenceIdeal.Hand.writes4 (by decide))).symm),
   (after_of_forall_not_mem _ _ (Cert.KernelIdeal.Hand.not_written (r := Cert.KernelIdeal.main_arg2) _ Cert.KernelIdeal.Hand.writes4 (by decide))).trans (ha.a2.trans (after_of_forall_not_mem _ _ (Cert.ReferenceIdeal.Hand.not_written (r := Cert.ReferenceIdeal.main_arg2) _ Cert.ReferenceIdeal.Hand.writes4 (by decide))).symm),
   (after_of_forall_not_mem _ _ (Cert.KernelIdeal.Hand.not_written (r := Cert.KernelIdeal.main_arg3) _ Cert.KernelIdeal.Hand.writes4 (by decide))).trans (ha.a3.trans (after_of_forall_not_mem _ _ (Cert.ReferenceIdeal.Hand.not_written (r := Cert.ReferenceIdeal.main_arg3) _ Cert.ReferenceIdeal.Hand.writes4 (by decide))).symm),
   (after_of_forall_not_mem _ _ (Cert.KernelIdeal.Hand.not_written (r := Cert.KernelIdeal.main_arg4) _ Cert.KernelIdeal.Hand.writes4 (by decide))).trans (ha.a4.trans (after_of_forall_not_mem _ _ (Cert.ReferenceIdeal.Hand.not_written (r := Cert.ReferenceIdeal.main_arg4) _ Cert.ReferenceIdeal.Hand.writes4 (by decide))).symm),
   (after_of_forall_not_mem _ _ (Cert.KernelIdeal.Hand.not_written (r := Cert.KernelIdeal.main_arg5) _ Cert.KernelIdeal.Hand.writes4 (by decide))).trans (ha.a5.trans (after_of_forall_not_mem _ _ (Cert.ReferenceIdeal.Hand.not_written (r := Cert.ReferenceIdeal.main_arg5) _ Cert.ReferenceIdeal.Hand.writes4 (by decide))).symm),
   (after_of_forall_not_mem _ _ (Cert.KernelIdeal.Hand.not_written (r := Cert.KernelIdeal.main_arg6) _ Cert.KernelIdeal.Hand.writes4 (by decide))).trans (ha.a6.trans (after_of_forall_not_mem _ _ (Cert.ReferenceIdeal.Hand.not_written (r := Cert.ReferenceIdeal.main_arg6) _ Cert.ReferenceIdeal.Hand.writes4 (by decide))).symm),
   (after_of_forall_not_mem _ _ (Cert.KernelIdeal.Hand.not_written (r := Cert.KernelIdeal.main_arg7) _ Cert.KernelIdeal.Hand.writes4 (by decide))).trans (ha.a7.trans (after_of_forall_not_mem _ _ (Cert.ReferenceIdeal.Hand.not_written (r := Cert.ReferenceIdeal.main_arg7) _ Cert.ReferenceIdeal.Hand.writes4 (by decide))).symm),
   (after_of_forall_not_mem _ _ (Cert.KernelIdeal.Hand.not_written (r := Cert.KernelIdeal.main_arg8) _ Cert.KernelIdeal.Hand.writes4 (by decide))).trans (ha.a8.trans (after_of_forall_not_mem _ _ (Cert.ReferenceIdeal.Hand.not_written (r := Cert.ReferenceIdeal.main_arg8) _ Cert.ReferenceIdeal.Hand.writes4 (by decide))).symm),
   (after_of_forall_not_mem _ _ (Cert.KernelIdeal.Hand.not_written (r := Cert.KernelIdeal.main_arg9) _ Cert.KernelIdeal.Hand.writes4 (by decide))).trans (ha.a9.trans (after_of_forall_not_mem _ _ (Cert.ReferenceIdeal.Hand.not_written (r := Cert.ReferenceIdeal.main_arg9) _ Cert.ReferenceIdeal.Hand.writes4 (by decide))).symm),
   (after_of_forall_not_mem _ _ (Cert.KernelIdeal.Hand.not_written (r := Cert.KernelIdeal.main_arg10) _ Cert.KernelIdeal.Hand.writes4 (by decide))).trans (ha.a10.trans (after_of_forall_not_mem _ _ (Cert.ReferenceIdeal.Hand.not_written (r := Cert.ReferenceIdeal.main_arg10) _ Cert.ReferenceIdeal.Hand.writes4 (by decide))).symm),
   (after_of_forall_not_mem _ _ (Cert.KernelIdeal.Hand.not_written (r := Cert.KernelIdeal.main_arg11) _ Cert.KernelIdeal.Hand.writes4 (by decide))).trans (ha.a11.trans (after_of_forall_not_mem _ _ (Cert.ReferenceIdeal.Hand.not_written (r := Cert.ReferenceIdeal.main_arg11) _ Cert.ReferenceIdeal.Hand.writes4 (by decide))).symm),
   (after_of_forall_not_mem _ _ (Cert.KernelIdeal.Hand.not_written (r := Cert.KernelIdeal.main_arg12) _ Cert.KernelIdeal.Hand.writes4 (by decide))).trans (ha.a12.trans (after_of_forall_not_mem _ _ (Cert.ReferenceIdeal.Hand.not_written (r := Cert.ReferenceIdeal.main_arg12) _ Cert.ReferenceIdeal.Hand.writes4 (by decide))).symm),
   (after_of_forall_not_mem _ _ (Cert.KernelIdeal.Hand.not_written (r := Cert.KernelIdeal.main_arg13) _ Cert.KernelIdeal.Hand.writes4 (by decide))).trans (ha.a13.trans (after_of_forall_not_mem _ _ (Cert.ReferenceIdeal.Hand.not_written (r := Cert.ReferenceIdeal.main_arg13) _ Cert.ReferenceIdeal.Hand.writes4 (by decide))).symm),
   (after_of_forall_not_mem _ _ (Cert.KernelIdeal.Hand.not_written (r := Cert.KernelIdeal.main_arg14) _ Cert.KernelIdeal.Hand.writes4 (by decide))).trans (ha.a14.trans (after_of_forall_not_mem _ _ (Cert.ReferenceIdeal.Hand.not_written (r := Cert.ReferenceIdeal.main_arg14) _ Cert.ReferenceIdeal.Hand.writes4 (by decide))).symm),
   (after_of_forall_not_mem _ _ (Cert.KernelIdeal.Hand.not_written (r := Cert.KernelIdeal.main_arg15) _ Cert.KernelIdeal.Hand.writes4 (by decide))).trans (ha.a15.trans (after_of_forall_not_mem _ _ (Cert.ReferenceIdeal.Hand.not_written (r := Cert.ReferenceIdeal.main_arg15) _ Cert.ReferenceIdeal.Hand.writes4 (by decide))).symm),
   (after_of_forall_not_mem _ _ (Cert.KernelIdeal.Hand.not_written (r := Cert.KernelIdeal.main_arg16) _ Cert.KernelIdeal.Hand.writes4 (by decide))).trans (ha.a16.trans (after_of_forall_not_mem _ _ (Cert.ReferenceIdeal.Hand.not_written (r := Cert.ReferenceIdeal.main_arg16) _ Cert.ReferenceIdeal.Hand.writes4 (by decide))).symm),
   (after_of_forall_not_mem _ _ (Cert.KernelIdeal.Hand.not_written (r := Cert.KernelIdeal.main_arg17) _ Cert.KernelIdeal.Hand.writes4 (by decide))).trans (ha.a17.trans (after_of_forall_not_mem _ _ (Cert.ReferenceIdeal.Hand.not_written (r := Cert.ReferenceIdeal.main_arg17) _ Cert.ReferenceIdeal.Hand.writes4 (by decide))).symm),
   (after_of_forall_not_mem _ _ (Cert.KernelIdeal.Hand.not_written (r := Cert.KernelIdeal.main_arg18) _ Cert.KernelIdeal.Hand.writes4 (by decide))).trans (ha.a18.trans (after_of_forall_not_mem _ _ (Cert.ReferenceIdeal.Hand.not_written (r := Cert.ReferenceIdeal.main_arg18) _ Cert.ReferenceIdeal.Hand.writes4 (by decide))).symm)⟩

set_option maxHeartbeats 4000000 in
theorem stage4 (WK : KVal F) (WR : RVal F) (h : Agree4 WK WR) :
    Agree5 (after (Cert.KernelIdeal.Gen.hostOps0_4 (F := F)) WK) (after (Cert.ReferenceIdeal.Hand.L4 (F := F)) WR) := by
  obtain ⟨ha, h_v1, h_v23, h_v3, h_v14⟩ := h
  refine ⟨argsStep4 WK WR ha, ?_, ?_, ?_, ?_⟩
  · show after (Cert.KernelIdeal.Gen.hostOps0_4 (F := F)) WK (Proc.devRef .tc Cert.KernelIdeal.main_v86) = after (Cert.ReferenceIdeal.Hand.L4 (F := F)) WR (Proc.devRef .tc Cert.ReferenceIdeal.main_v86)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v23, h_v3, h_v14]
    try rfl
  · exact (after_of_forall_not_mem _ _ (Cert.KernelIdeal.Hand.not_written (r := Cert.KernelIdeal.main_v1) _ Cert.KernelIdeal.Hand.writes4 (by decide))).trans (h_v1.trans (after_of_forall_not_mem _ _ (Cert.ReferenceIdeal.Hand.not_written (r := Cert.ReferenceIdeal.main_v1) _ Cert.ReferenceIdeal.Hand.writes4 (by decide))).symm)
  · exact (after_of_forall_not_mem _ _ (Cert.KernelIdeal.Hand.not_written (r := Cert.KernelIdeal.main_v3) _ Cert.KernelIdeal.Hand.writes4 (by decide))).trans (h_v3.trans (after_of_forall_not_mem _ _ (Cert.ReferenceIdeal.Hand.not_written (r := Cert.ReferenceIdeal.main_v3) _ Cert.ReferenceIdeal.Hand.writes4 (by decide))).symm)
  · show after (Cert.KernelIdeal.Gen.hostOps0_4 (F := F)) WK (Proc.devRef .tc Cert.KernelIdeal.main_v78) = after (Cert.ReferenceIdeal.Hand.L4 (F := F)) WR (Proc.devRef .tc Cert.ReferenceIdeal.main_v78)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v23, h_v3, h_v14]
    try rfl

end Cert.Bridge

end
-- ==== Proof.Bridge6.lean ====
/-
  Stretch 6 of the common host line: each value written is the same operations applied to values that agree, each
  other value is carried, so the two programs' buffers agree after the stretch on what is read later.
-/
import proofs.«112254_j79388175499762_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

theorem argsStep6 (WK : KVal F) (WR : RVal F) (ha : AgreeArgs WK WR) :
    AgreeArgs (after (Cert.KernelIdeal.Gen.hostOps0_6 (F := F)) WK) (after (Cert.ReferenceIdeal.Hand.L6 (F := F)) WR) :=
  ⟨(after_of_forall_not_mem _ _ (Cert.KernelIdeal.Hand.not_written (r := Cert.KernelIdeal.main_arg0) _ Cert.KernelIdeal.Hand.writes6 (by decide))).trans (ha.a0.trans (after_of_forall_not_mem _ _ (Cert.ReferenceIdeal.Hand.not_written (r := Cert.ReferenceIdeal.main_arg0) _ Cert.ReferenceIdeal.Hand.writes6 (by decide))).symm),
   (after_of_forall_not_mem _ _ (Cert.KernelIdeal.Hand.not_written (r := Cert.KernelIdeal.main_arg1) _ Cert.KernelIdeal.Hand.writes6 (by decide))).trans (ha.a1.trans (after_of_forall_not_mem _ _ (Cert.ReferenceIdeal.Hand.not_written (r := Cert.ReferenceIdeal.main_arg1) _ Cert.ReferenceIdeal.Hand.writes6 (by decide))).symm),
   (after_of_forall_not_mem _ _ (Cert.KernelIdeal.Hand.not_written (r := Cert.KernelIdeal.main_arg2) _ Cert.KernelIdeal.Hand.writes6 (by decide))).trans (ha.a2.trans (after_of_forall_not_mem _ _ (Cert.ReferenceIdeal.Hand.not_written (r := Cert.ReferenceIdeal.main_arg2) _ Cert.ReferenceIdeal.Hand.writes6 (by decide))).symm),
   (after_of_forall_not_mem _ _ (Cert.KernelIdeal.Hand.not_written (r := Cert.KernelIdeal.main_arg3) _ Cert.KernelIdeal.Hand.writes6 (by decide))).trans (ha.a3.trans (after_of_forall_not_mem _ _ (Cert.ReferenceIdeal.Hand.not_written (r := Cert.ReferenceIdeal.main_arg3) _ Cert.ReferenceIdeal.Hand.writes6 (by decide))).symm),
   (after_of_forall_not_mem _ _ (Cert.KernelIdeal.Hand.not_written (r := Cert.KernelIdeal.main_arg4) _ Cert.KernelIdeal.Hand.writes6 (by decide))).trans (ha.a4.trans (after_of_forall_not_mem _ _ (Cert.ReferenceIdeal.Hand.not_written (r := Cert.ReferenceIdeal.main_arg4) _ Cert.ReferenceIdeal.Hand.writes6 (by decide))).symm),
   (after_of_forall_not_mem _ _ (Cert.KernelIdeal.Hand.not_written (r := Cert.KernelIdeal.main_arg5) _ Cert.KernelIdeal.Hand.writes6 (by decide))).trans (ha.a5.trans (after_of_forall_not_mem _ _ (Cert.ReferenceIdeal.Hand.not_written (r := Cert.ReferenceIdeal.main_arg5) _ Cert.ReferenceIdeal.Hand.writes6 (by decide))).symm),
   (after_of_forall_not_mem _ _ (Cert.KernelIdeal.Hand.not_written (r := Cert.KernelIdeal.main_arg6) _ Cert.KernelIdeal.Hand.writes6 (by decide))).trans (ha.a6.trans (after_of_forall_not_mem _ _ (Cert.ReferenceIdeal.Hand.not_written (r := Cert.ReferenceIdeal.main_arg6) _ Cert.ReferenceIdeal.Hand.writes6 (by decide))).symm),
   (after_of_forall_not_mem _ _ (Cert.KernelIdeal.Hand.not_written (r := Cert.KernelIdeal.main_arg7) _ Cert.KernelIdeal.Hand.writes6 (by decide))).trans (ha.a7.trans (after_of_forall_not_mem _ _ (Cert.ReferenceIdeal.Hand.not_written (r := Cert.ReferenceIdeal.main_arg7) _ Cert.ReferenceIdeal.Hand.writes6 (by decide))).symm),
   (after_of_forall_not_mem _ _ (Cert.KernelIdeal.Hand.not_written (r := Cert.KernelIdeal.main_arg8) _ Cert.KernelIdeal.Hand.writes6 (by decide))).trans (ha.a8.trans (after_of_forall_not_mem _ _ (Cert.ReferenceIdeal.Hand.not_written (r := Cert.ReferenceIdeal.main_arg8) _ Cert.ReferenceIdeal.Hand.writes6 (by decide))).symm),
   (after_of_forall_not_mem _ _ (Cert.KernelIdeal.Hand.not_written (r := Cert.KernelIdeal.main_arg9) _ Cert.KernelIdeal.Hand.writes6 (by decide))).trans (ha.a9.trans (after_of_forall_not_mem _ _ (Cert.ReferenceIdeal.Hand.not_written (r := Cert.ReferenceIdeal.main_arg9) _ Cert.ReferenceIdeal.Hand.writes6 (by decide))).symm),
   (after_of_forall_not_mem _ _ (Cert.KernelIdeal.Hand.not_written (r := Cert.KernelIdeal.main_arg10) _ Cert.KernelIdeal.Hand.writes6 (by decide))).trans (ha.a10.trans (after_of_forall_not_mem _ _ (Cert.ReferenceIdeal.Hand.not_written (r := Cert.ReferenceIdeal.main_arg10) _ Cert.ReferenceIdeal.Hand.writes6 (by decide))).symm),
   (after_of_forall_not_mem _ _ (Cert.KernelIdeal.Hand.not_written (r := Cert.KernelIdeal.main_arg11) _ Cert.KernelIdeal.Hand.writes6 (by decide))).trans (ha.a11.trans (after_of_forall_not_mem _ _ (Cert.ReferenceIdeal.Hand.not_written (r := Cert.ReferenceIdeal.main_arg11) _ Cert.ReferenceIdeal.Hand.writes6 (by decide))).symm),
   (after_of_forall_not_mem _ _ (Cert.KernelIdeal.Hand.not_written (r := Cert.KernelIdeal.main_arg12) _ Cert.KernelIdeal.Hand.writes6 (by decide))).trans (ha.a12.trans (after_of_forall_not_mem _ _ (Cert.ReferenceIdeal.Hand.not_written (r := Cert.ReferenceIdeal.main_arg12) _ Cert.ReferenceIdeal.Hand.writes6 (by decide))).symm),
   (after_of_forall_not_mem _ _ (Cert.KernelIdeal.Hand.not_written (r := Cert.KernelIdeal.main_arg13) _ Cert.KernelIdeal.Hand.writes6 (by decide))).trans (ha.a13.trans (after_of_forall_not_mem _ _ (Cert.ReferenceIdeal.Hand.not_written (r := Cert.ReferenceIdeal.main_arg13) _ Cert.ReferenceIdeal.Hand.writes6 (by decide))).symm),
   (after_of_forall_not_mem _ _ (Cert.KernelIdeal.Hand.not_written (r := Cert.KernelIdeal.main_arg14) _ Cert.KernelIdeal.Hand.writes6 (by decide))).trans (ha.a14.trans (after_of_forall_not_mem _ _ (Cert.ReferenceIdeal.Hand.not_written (r := Cert.ReferenceIdeal.main_arg14) _ Cert.ReferenceIdeal.Hand.writes6 (by decide))).symm),
   (after_of_forall_not_mem _ _ (Cert.KernelIdeal.Hand.not_written (r := Cert.KernelIdeal.main_arg15) _ Cert.KernelIdeal.Hand.writes6 (by decide))).trans (ha.a15.trans (after_of_forall_not_mem _ _ (Cert.ReferenceIdeal.Hand.not_written (r := Cert.ReferenceIdeal.main_arg15) _ Cert.ReferenceIdeal.Hand.writes6 (by decide))).symm),
   (after_of_forall_not_mem _ _ (Cert.KernelIdeal.Hand.not_written (r := Cert.KernelIdeal.main_arg16) _ Cert.KernelIdeal.Hand.writes6 (by decide))).trans (ha.a16.trans (after_of_forall_not_mem _ _ (Cert.ReferenceIdeal.Hand.not_written (r := Cert.ReferenceIdeal.main_arg16) _ Cert.ReferenceIdeal.Hand.writes6 (by decide))).symm),
   (after_of_forall_not_mem _ _ (Cert.KernelIdeal.Hand.not_written (r := Cert.KernelIdeal.main_arg17) _ Cert.KernelIdeal.Hand.writes6 (by decide))).trans (ha.a17.trans (after_of_forall_not_mem _ _ (Cert.ReferenceIdeal.Hand.not_written (r := Cert.ReferenceIdeal.main_arg17) _ Cert.ReferenceIdeal.Hand.writes6 (by decide))).symm),
   (after_of_forall_not_mem _ _ (Cert.KernelIdeal.Hand.not_written (r := Cert.KernelIdeal.main_arg18) _ Cert.KernelIdeal.Hand.writes6 (by decide))).trans (ha.a18.trans (after_of_forall_not_mem _ _ (Cert.ReferenceIdeal.Hand.not_written (r := Cert.ReferenceIdeal.main_arg18) _ Cert.ReferenceIdeal.Hand.writes6 (by decide))).symm)⟩

set_option maxHeartbeats 4000000 in
theorem stage6 (WK : KVal F) (WR : RVal F) (h : Agree6 WK WR) :
    Agree7 (after (Cert.KernelIdeal.Gen.hostOps0_6 (F := F)) WK) (after (Cert.ReferenceIdeal.Hand.L6 (F := F)) WR) := by
  obtain ⟨ha, h_v1, h_v87, h_v3, h_v78⟩ := h
  refine ⟨argsStep6 WK WR ha, ?_, ?_, ?_, ?_⟩
  · show after (Cert.KernelIdeal.Gen.hostOps0_6 (F := F)) WK (Proc.devRef .tc Cert.KernelIdeal.main_v150) = after (Cert.ReferenceIdeal.Hand.L6 (F := F)) WR (Proc.devRef .tc Cert.ReferenceIdeal.main_v150)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v87, h_v3, h_v78]
    try rfl
  · exact (after_of_forall_not_mem _ _ (Cert.KernelIdeal.Hand.not_written (r := Cert.KernelIdeal.main_v1) _ Cert.KernelIdeal.Hand.writes6 (by decide))).trans (h_v1.trans (after_of_forall_not_mem _ _ (Cert.ReferenceIdeal.Hand.not_written (r := Cert.ReferenceIdeal.main_v1) _ Cert.ReferenceIdeal.Hand.writes6 (by decide))).symm)
  · exact (after_of_forall_not_mem _ _ (Cert.KernelIdeal.Hand.not_written (r := Cert.KernelIdeal.main_v3) _ Cert.KernelIdeal.Hand.writes6 (by decide))).trans (h_v3.trans (after_of_forall_not_mem _ _ (Cert.ReferenceIdeal.Hand.not_written (r := Cert.ReferenceIdeal.main_v3) _ Cert.ReferenceIdeal.Hand.writes6 (by decide))).symm)
  · show after (Cert.KernelIdeal.Gen.hostOps0_6 (F := F)) WK (Proc.devRef .tc Cert.KernelIdeal.main_v142) = after (Cert.ReferenceIdeal.Hand.L6 (F := F)) WR (Proc.devRef .tc Cert.ReferenceIdeal.main_v142)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v87, h_v3, h_v78]
    try rfl

end Cert.Bridge

end
-- ==== Proof.Bridge8.lean ====
/-
  Stretch 8 of the common host line: each value written is the same operations applied to values that agree, each
  other value is carried, so the two programs' buffers agree after the stretch on what is read later.
-/
import proofs.«112254_j79388175499762_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

theorem argsStep8 (WK : KVal F) (WR : RVal F) (ha : AgreeArgs WK WR) :
    AgreeArgs (after (Cert.KernelIdeal.Gen.hostOps0_8 (F := F)) WK) (after (Cert.ReferenceIdeal.Hand.L8 (F := F)) WR) :=
  ⟨(after_of_forall_not_mem _ _ (Cert.KernelIdeal.Hand.not_written (r := Cert.KernelIdeal.main_arg0) _ Cert.KernelIdeal.Hand.writes8 (by decide))).trans (ha.a0.trans (after_of_forall_not_mem _ _ (Cert.ReferenceIdeal.Hand.not_written (r := Cert.ReferenceIdeal.main_arg0) _ Cert.ReferenceIdeal.Hand.writes8 (by decide))).symm),
   (after_of_forall_not_mem _ _ (Cert.KernelIdeal.Hand.not_written (r := Cert.KernelIdeal.main_arg1) _ Cert.KernelIdeal.Hand.writes8 (by decide))).trans (ha.a1.trans (after_of_forall_not_mem _ _ (Cert.ReferenceIdeal.Hand.not_written (r := Cert.ReferenceIdeal.main_arg1) _ Cert.ReferenceIdeal.Hand.writes8 (by decide))).symm),
   (after_of_forall_not_mem _ _ (Cert.KernelIdeal.Hand.not_written (r := Cert.KernelIdeal.main_arg2) _ Cert.KernelIdeal.Hand.writes8 (by decide))).trans (ha.a2.trans (after_of_forall_not_mem _ _ (Cert.ReferenceIdeal.Hand.not_written (r := Cert.ReferenceIdeal.main_arg2) _ Cert.ReferenceIdeal.Hand.writes8 (by decide))).symm),
   (after_of_forall_not_mem _ _ (Cert.KernelIdeal.Hand.not_written (r := Cert.KernelIdeal.main_arg3) _ Cert.KernelIdeal.Hand.writes8 (by decide))).trans (ha.a3.trans (after_of_forall_not_mem _ _ (Cert.ReferenceIdeal.Hand.not_written (r := Cert.ReferenceIdeal.main_arg3) _ Cert.ReferenceIdeal.Hand.writes8 (by decide))).symm),
   (after_of_forall_not_mem _ _ (Cert.KernelIdeal.Hand.not_written (r := Cert.KernelIdeal.main_arg4) _ Cert.KernelIdeal.Hand.writes8 (by decide))).trans (ha.a4.trans (after_of_forall_not_mem _ _ (Cert.ReferenceIdeal.Hand.not_written (r := Cert.ReferenceIdeal.main_arg4) _ Cert.ReferenceIdeal.Hand.writes8 (by decide))).symm),
   (after_of_forall_not_mem _ _ (Cert.KernelIdeal.Hand.not_written (r := Cert.KernelIdeal.main_arg5) _ Cert.KernelIdeal.Hand.writes8 (by decide))).trans (ha.a5.trans (after_of_forall_not_mem _ _ (Cert.ReferenceIdeal.Hand.not_written (r := Cert.ReferenceIdeal.main_arg5) _ Cert.ReferenceIdeal.Hand.writes8 (by decide))).symm),
   (after_of_forall_not_mem _ _ (Cert.KernelIdeal.Hand.not_written (r := Cert.KernelIdeal.main_arg6) _ Cert.KernelIdeal.Hand.writes8 (by decide))).trans (ha.a6.trans (after_of_forall_not_mem _ _ (Cert.ReferenceIdeal.Hand.not_written (r := Cert.ReferenceIdeal.main_arg6) _ Cert.ReferenceIdeal.Hand.writes8 (by decide))).symm),
   (after_of_forall_not_mem _ _ (Cert.KernelIdeal.Hand.not_written (r := Cert.KernelIdeal.main_arg7) _ Cert.KernelIdeal.Hand.writes8 (by decide))).trans (ha.a7.trans (after_of_forall_not_mem _ _ (Cert.ReferenceIdeal.Hand.not_written (r := Cert.ReferenceIdeal.main_arg7) _ Cert.ReferenceIdeal.Hand.writes8 (by decide))).symm),
   (after_of_forall_not_mem _ _ (Cert.KernelIdeal.Hand.not_written (r := Cert.KernelIdeal.main_arg8) _ Cert.KernelIdeal.Hand.writes8 (by decide))).trans (ha.a8.trans (after_of_forall_not_mem _ _ (Cert.ReferenceIdeal.Hand.not_written (r := Cert.ReferenceIdeal.main_arg8) _ Cert.ReferenceIdeal.Hand.writes8 (by decide))).symm),
   (after_of_forall_not_mem _ _ (Cert.KernelIdeal.Hand.not_written (r := Cert.KernelIdeal.main_arg9) _ Cert.KernelIdeal.Hand.writes8 (by decide))).trans (ha.a9.trans (after_of_forall_not_mem _ _ (Cert.ReferenceIdeal.Hand.not_written (r := Cert.ReferenceIdeal.main_arg9) _ Cert.ReferenceIdeal.Hand.writes8 (by decide))).symm),
   (after_of_forall_not_mem _ _ (Cert.KernelIdeal.Hand.not_written (r := Cert.KernelIdeal.main_arg10) _ Cert.KernelIdeal.Hand.writes8 (by decide))).trans (ha.a10.trans (after_of_forall_not_mem _ _ (Cert.ReferenceIdeal.Hand.not_written (r := Cert.ReferenceIdeal.main_arg10) _ Cert.ReferenceIdeal.Hand.writes8 (by decide))).symm),
   (after_of_forall_not_mem _ _ (Cert.KernelIdeal.Hand.not_written (r := Cert.KernelIdeal.main_arg11) _ Cert.KernelIdeal.Hand.writes8 (by decide))).trans (ha.a11.trans (after_of_forall_not_mem _ _ (Cert.ReferenceIdeal.Hand.not_written (r := Cert.ReferenceIdeal.main_arg11) _ Cert.ReferenceIdeal.Hand.writes8 (by decide))).symm),
   (after_of_forall_not_mem _ _ (Cert.KernelIdeal.Hand.not_written (r := Cert.KernelIdeal.main_arg12) _ Cert.KernelIdeal.Hand.writes8 (by decide))).trans (ha.a12.trans (after_of_forall_not_mem _ _ (Cert.ReferenceIdeal.Hand.not_written (r := Cert.ReferenceIdeal.main_arg12) _ Cert.ReferenceIdeal.Hand.writes8 (by decide))).symm),
   (after_of_forall_not_mem _ _ (Cert.KernelIdeal.Hand.not_written (r := Cert.KernelIdeal.main_arg13) _ Cert.KernelIdeal.Hand.writes8 (by decide))).trans (ha.a13.trans (after_of_forall_not_mem _ _ (Cert.ReferenceIdeal.Hand.not_written (r := Cert.ReferenceIdeal.main_arg13) _ Cert.ReferenceIdeal.Hand.writes8 (by decide))).symm),
   (after_of_forall_not_mem _ _ (Cert.KernelIdeal.Hand.not_written (r := Cert.KernelIdeal.main_arg14) _ Cert.KernelIdeal.Hand.writes8 (by decide))).trans (ha.a14.trans (after_of_forall_not_mem _ _ (Cert.ReferenceIdeal.Hand.not_written (r := Cert.ReferenceIdeal.main_arg14) _ Cert.ReferenceIdeal.Hand.writes8 (by decide))).symm),
   (after_of_forall_not_mem _ _ (Cert.KernelIdeal.Hand.not_written (r := Cert.KernelIdeal.main_arg15) _ Cert.KernelIdeal.Hand.writes8 (by decide))).trans (ha.a15.trans (after_of_forall_not_mem _ _ (Cert.ReferenceIdeal.Hand.not_written (r := Cert.ReferenceIdeal.main_arg15) _ Cert.ReferenceIdeal.Hand.writes8 (by decide))).symm),
   (after_of_forall_not_mem _ _ (Cert.KernelIdeal.Hand.not_written (r := Cert.KernelIdeal.main_arg16) _ Cert.KernelIdeal.Hand.writes8 (by decide))).trans (ha.a16.trans (after_of_forall_not_mem _ _ (Cert.ReferenceIdeal.Hand.not_written (r := Cert.ReferenceIdeal.main_arg16) _ Cert.ReferenceIdeal.Hand.writes8 (by decide))).symm),
   (after_of_forall_not_mem _ _ (Cert.KernelIdeal.Hand.not_written (r := Cert.KernelIdeal.main_arg17) _ Cert.KernelIdeal.Hand.writes8 (by decide))).trans (ha.a17.trans (after_of_forall_not_mem _ _ (Cert.ReferenceIdeal.Hand.not_written (r := Cert.ReferenceIdeal.main_arg17) _ Cert.ReferenceIdeal.Hand.writes8 (by decide))).symm),
   (after_of_forall_not_mem _ _ (Cert.KernelIdeal.Hand.not_written (r := Cert.KernelIdeal.main_arg18) _ Cert.KernelIdeal.Hand.writes8 (by decide))).trans (ha.a18.trans (after_of_forall_not_mem _ _ (Cert.ReferenceIdeal.Hand.not_written (r := Cert.ReferenceIdeal.main_arg18) _ Cert.ReferenceIdeal.Hand.writes8 (by decide))).symm)⟩

set_option maxHeartbeats 4000000 in
theorem stage8 (WK : KVal F) (WR : RVal F) (h : Agree8 WK WR) :
    Agree9 (after (Cert.KernelIdeal.Gen.hostOps0_8 (F := F)) WK) (after (Cert.ReferenceIdeal.Hand.L8 (F := F)) WR) := by
  obtain ⟨ha, h_v1, h_v151, h_v3, h_v142⟩ := h
  refine ⟨argsStep8 WK WR ha, ?_, ?_, ?_, ?_⟩
  · show after (Cert.KernelIdeal.Gen.hostOps0_8 (F := F)) WK (Proc.devRef .tc Cert.KernelIdeal.main_v214) = after (Cert.ReferenceIdeal.Hand.L8 (F := F)) WR (Proc.devRef .tc Cert.ReferenceIdeal.main_v214)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v151, h_v3, h_v142]
    try rfl
  · exact (after_of_forall_not_mem _ _ (Cert.KernelIdeal.Hand.not_written (r := Cert.KernelIdeal.main_v1) _ Cert.KernelIdeal.Hand.writes8 (by decide))).trans (h_v1.trans (after_of_forall_not_mem _ _ (Cert.ReferenceIdeal.Hand.not_written (r := Cert.ReferenceIdeal.main_v1) _ Cert.ReferenceIdeal.Hand.writes8 (by decide))).symm)
  · exact (after_of_forall_not_mem _ _ (Cert.KernelIdeal.Hand.not_written (r := Cert.KernelIdeal.main_v3) _ Cert.KernelIdeal.Hand.writes8 (by decide))).trans (h_v3.trans (after_of_forall_not_mem _ _ (Cert.ReferenceIdeal.Hand.not_written (r := Cert.ReferenceIdeal.main_v3) _ Cert.ReferenceIdeal.Hand.writes8 (by decide))).symm)
  · show after (Cert.KernelIdeal.Gen.hostOps0_8 (F := F)) WK (Proc.devRef .tc Cert.KernelIdeal.main_v206) = after (Cert.ReferenceIdeal.Hand.L8 (F := F)) WR (Proc.devRef .tc Cert.ReferenceIdeal.main_v206)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v151, h_v3, h_v142]
    try rfl

end Cert.Bridge

end
-- ==== Proof.Bridge10.lean ====
/-
  Stretch 10 of the common host line: each value written is the same operations applied to values that agree, each
  other value is carried, so the two programs' buffers agree after the stretch on what is read later.
-/
import proofs.«112254_j79388175499762_1_alg».proof.Proof.BridgeDefs

set_option maxRecDepth 16384

noncomputable section

namespace Cert.Bridge

open Idealize.ShloMosaic Idealize.ShloMosaic.TcCoe Idealize.SL.Sem Idealize.ShloMosaic.StableHlo

variable {F : FTy → Type} [FloatOps F]

theorem argsStep10 (WK : KVal F) (WR : RVal F) (ha : AgreeArgs WK WR) :
    AgreeArgs (after (Cert.KernelIdeal.Gen.hostOps0_10 (F := F)) WK) (after (Cert.ReferenceIdeal.Hand.L10 (F := F)) WR) :=
  ⟨(after_of_forall_not_mem _ _ (Cert.KernelIdeal.Hand.not_written (r := Cert.KernelIdeal.main_arg0) _ Cert.KernelIdeal.Hand.writes10 (by decide))).trans (ha.a0.trans (after_of_forall_not_mem _ _ (Cert.ReferenceIdeal.Hand.not_written (r := Cert.ReferenceIdeal.main_arg0) _ Cert.ReferenceIdeal.Hand.writes10 (by decide))).symm),
   (after_of_forall_not_mem _ _ (Cert.KernelIdeal.Hand.not_written (r := Cert.KernelIdeal.main_arg1) _ Cert.KernelIdeal.Hand.writes10 (by decide))).trans (ha.a1.trans (after_of_forall_not_mem _ _ (Cert.ReferenceIdeal.Hand.not_written (r := Cert.ReferenceIdeal.main_arg1) _ Cert.ReferenceIdeal.Hand.writes10 (by decide))).symm),
   (after_of_forall_not_mem _ _ (Cert.KernelIdeal.Hand.not_written (r := Cert.KernelIdeal.main_arg2) _ Cert.KernelIdeal.Hand.writes10 (by decide))).trans (ha.a2.trans (after_of_forall_not_mem _ _ (Cert.ReferenceIdeal.Hand.not_written (r := Cert.ReferenceIdeal.main_arg2) _ Cert.ReferenceIdeal.Hand.writes10 (by decide))).symm),
   (after_of_forall_not_mem _ _ (Cert.KernelIdeal.Hand.not_written (r := Cert.KernelIdeal.main_arg3) _ Cert.KernelIdeal.Hand.writes10 (by decide))).trans (ha.a3.trans (after_of_forall_not_mem _ _ (Cert.ReferenceIdeal.Hand.not_written (r := Cert.ReferenceIdeal.main_arg3) _ Cert.ReferenceIdeal.Hand.writes10 (by decide))).symm),
   (after_of_forall_not_mem _ _ (Cert.KernelIdeal.Hand.not_written (r := Cert.KernelIdeal.main_arg4) _ Cert.KernelIdeal.Hand.writes10 (by decide))).trans (ha.a4.trans (after_of_forall_not_mem _ _ (Cert.ReferenceIdeal.Hand.not_written (r := Cert.ReferenceIdeal.main_arg4) _ Cert.ReferenceIdeal.Hand.writes10 (by decide))).symm),
   (after_of_forall_not_mem _ _ (Cert.KernelIdeal.Hand.not_written (r := Cert.KernelIdeal.main_arg5) _ Cert.KernelIdeal.Hand.writes10 (by decide))).trans (ha.a5.trans (after_of_forall_not_mem _ _ (Cert.ReferenceIdeal.Hand.not_written (r := Cert.ReferenceIdeal.main_arg5) _ Cert.ReferenceIdeal.Hand.writes10 (by decide))).symm),
   (after_of_forall_not_mem _ _ (Cert.KernelIdeal.Hand.not_written (r := Cert.KernelIdeal.main_arg6) _ Cert.KernelIdeal.Hand.writes10 (by decide))).trans (ha.a6.trans (after_of_forall_not_mem _ _ (Cert.ReferenceIdeal.Hand.not_written (r := Cert.ReferenceIdeal.main_arg6) _ Cert.ReferenceIdeal.Hand.writes10 (by decide))).symm),
   (after_of_forall_not_mem _ _ (Cert.KernelIdeal.Hand.not_written (r := Cert.KernelIdeal.main_arg7) _ Cert.KernelIdeal.Hand.writes10 (by decide))).trans (ha.a7.trans (after_of_forall_not_mem _ _ (Cert.ReferenceIdeal.Hand.not_written (r := Cert.ReferenceIdeal.main_arg7) _ Cert.ReferenceIdeal.Hand.writes10 (by decide))).symm),
   (after_of_forall_not_mem _ _ (Cert.KernelIdeal.Hand.not_written (r := Cert.KernelIdeal.main_arg8) _ Cert.KernelIdeal.Hand.writes10 (by decide))).trans (ha.a8.trans (after_of_forall_not_mem _ _ (Cert.ReferenceIdeal.Hand.not_written (r := Cert.ReferenceIdeal.main_arg8) _ Cert.ReferenceIdeal.Hand.writes10 (by decide))).symm),
   (after_of_forall_not_mem _ _ (Cert.KernelIdeal.Hand.not_written (r := Cert.KernelIdeal.main_arg9) _ Cert.KernelIdeal.Hand.writes10 (by decide))).trans (ha.a9.trans (after_of_forall_not_mem _ _ (Cert.ReferenceIdeal.Hand.not_written (r := Cert.ReferenceIdeal.main_arg9) _ Cert.ReferenceIdeal.Hand.writes10 (by decide))).symm),
   (after_of_forall_not_mem _ _ (Cert.KernelIdeal.Hand.not_written (r := Cert.KernelIdeal.main_arg10) _ Cert.KernelIdeal.Hand.writes10 (by decide))).trans (ha.a10.trans (after_of_forall_not_mem _ _ (Cert.ReferenceIdeal.Hand.not_written (r := Cert.ReferenceIdeal.main_arg10) _ Cert.ReferenceIdeal.Hand.writes10 (by decide))).symm),
   (after_of_forall_not_mem _ _ (Cert.KernelIdeal.Hand.not_written (r := Cert.KernelIdeal.main_arg11) _ Cert.KernelIdeal.Hand.writes10 (by decide))).trans (ha.a11.trans (after_of_forall_not_mem _ _ (Cert.ReferenceIdeal.Hand.not_written (r := Cert.ReferenceIdeal.main_arg11) _ Cert.ReferenceIdeal.Hand.writes10 (by decide))).symm),
   (after_of_forall_not_mem _ _ (Cert.KernelIdeal.Hand.not_written (r := Cert.KernelIdeal.main_arg12) _ Cert.KernelIdeal.Hand.writes10 (by decide))).trans (ha.a12.trans (after_of_forall_not_mem _ _ (Cert.ReferenceIdeal.Hand.not_written (r := Cert.ReferenceIdeal.main_arg12) _ Cert.ReferenceIdeal.Hand.writes10 (by decide))).symm),
   (after_of_forall_not_mem _ _ (Cert.KernelIdeal.Hand.not_written (r := Cert.KernelIdeal.main_arg13) _ Cert.KernelIdeal.Hand.writes10 (by decide))).trans (ha.a13.trans (after_of_forall_not_mem _ _ (Cert.ReferenceIdeal.Hand.not_written (r := Cert.ReferenceIdeal.main_arg13) _ Cert.ReferenceIdeal.Hand.writes10 (by decide))).symm),
   (after_of_forall_not_mem _ _ (Cert.KernelIdeal.Hand.not_written (r := Cert.KernelIdeal.main_arg14) _ Cert.KernelIdeal.Hand.writes10 (by decide))).trans (ha.a14.trans (after_of_forall_not_mem _ _ (Cert.ReferenceIdeal.Hand.not_written (r := Cert.ReferenceIdeal.main_arg14) _ Cert.ReferenceIdeal.Hand.writes10 (by decide))).symm),
   (after_of_forall_not_mem _ _ (Cert.KernelIdeal.Hand.not_written (r := Cert.KernelIdeal.main_arg15) _ Cert.KernelIdeal.Hand.writes10 (by decide))).trans (ha.a15.trans (after_of_forall_not_mem _ _ (Cert.ReferenceIdeal.Hand.not_written (r := Cert.ReferenceIdeal.main_arg15) _ Cert.ReferenceIdeal.Hand.writes10 (by decide))).symm),
   (after_of_forall_not_mem _ _ (Cert.KernelIdeal.Hand.not_written (r := Cert.KernelIdeal.main_arg16) _ Cert.KernelIdeal.Hand.writes10 (by decide))).trans (ha.a16.trans (after_of_forall_not_mem _ _ (Cert.ReferenceIdeal.Hand.not_written (r := Cert.ReferenceIdeal.main_arg16) _ Cert.ReferenceIdeal.Hand.writes10 (by decide))).symm),
   (after_of_forall_not_mem _ _ (Cert.KernelIdeal.Hand.not_written (r := Cert.KernelIdeal.main_arg17) _ Cert.KernelIdeal.Hand.writes10 (by decide))).trans (ha.a17.trans (after_of_forall_not_mem _ _ (Cert.ReferenceIdeal.Hand.not_written (r := Cert.ReferenceIdeal.main_arg17) _ Cert.ReferenceIdeal.Hand.writes10 (by decide))).symm),
   (after_of_forall_not_mem _ _ (Cert.KernelIdeal.Hand.not_written (r := Cert.KernelIdeal.main_arg18) _ Cert.KernelIdeal.Hand.writes10 (by decide))).trans (ha.a18.trans (after_of_forall_not_mem _ _ (Cert.ReferenceIdeal.Hand.not_written (r := Cert.ReferenceIdeal.main_arg18) _ Cert.ReferenceIdeal.Hand.writes10 (by decide))).symm)⟩

set_option maxHeartbeats 4000000 in
theorem stage10 (WK : KVal F) (WR : RVal F) (h : Agree10 WK WR) :
    Agree11 (after (Cert.KernelIdeal.Gen.hostOps0_10 (F := F)) WK) (after (Cert.ReferenceIdeal.Hand.L10 (F := F)) WR) := by
  obtain ⟨ha, h_v1, h_v215, h_v3, h_v206⟩ := h
  refine ⟨argsStep10 WK WR ha, ?_, ?_, ?_⟩
  · show after (Cert.KernelIdeal.Gen.hostOps0_10 (F := F)) WK (Proc.devRef .tc Cert.KernelIdeal.main_v283) = after (Cert.ReferenceIdeal.Hand.L10 (F := F)) WR (Proc.devRef .tc Cert.ReferenceIdeal.main_v283)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v215, h_v3, h_v206]
    try rfl
  · show after (Cert.KernelIdeal.Gen.hostOps0_10 (F := F)) WK (Proc.devRef .tc Cert.KernelIdeal.main_v274) = after (Cert.ReferenceIdeal.Hand.L10 (F := F)) WR (Proc.devRef .tc Cert.ReferenceIdeal.main_v274)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v215, h_v3, h_v206]
    try rfl
  · show after (Cert.KernelIdeal.Gen.hostOps0_10 (F := F)) WK (Proc.devRef .tc Cert.KernelIdeal.main_v278) = after (Cert.ReferenceIdeal.Hand.L10 (F := F)) WR (Proc.devRef .tc Cert.ReferenceIdeal.main_v278)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v1, h_v215, h_v3, h_v206]
    try rfl

end Cert.Bridge

end
-- ==== Proof.Bridge.lean ====
/-
  The kernel's @main before its region and the reference's @main before its decoder are one line of host operations,
  printed twice over two buffer tables.  Composed over the eleven stretches: from agreement on the argument arrays to
  agreement on the embeddings z and the two heads (mean, log-variance).
-/
import proofs.«112254_j79388175499762_1_alg».proof.Proof.BridgeA
import proofs.«112254_j79388175499762_1_alg».proof.Proof.Bridge4
import proofs.«112254_j79388175499762_1_alg».proof.Proof.Bridge6
import proofs.«112254_j79388175499762_1_alg».proof.Proof.Bridge8
import proofs.«112254_j79388175499762_1_alg».proof.Proof.Bridge10

set_option maxRecDepth 16384

noncomputable section

namespace Cert.Bridge

open Idealize.ShloMosaic Idealize.ShloMosaic.TcCoe Idealize.SL.Sem Idealize.ShloMosaic.StableHlo

variable {F : FTy → Type} [FloatOps F]

theorem argsStep5 (WK : KVal F) (WR : RVal F) (ha : AgreeArgs WK WR) :
    AgreeArgs (after (Cert.KernelIdeal.Gen.hostOps0_5 (F := F)) WK) (after (Cert.ReferenceIdeal.Hand.L5 (F := F)) WR) :=
  ⟨(after_of_forall_not_mem _ _ (Cert.KernelIdeal.Hand.not_written (r := Cert.KernelIdeal.main_arg0) _ Cert.KernelIdeal.Hand.writes5 (by decide))).trans (ha.a0.trans (after_of_forall_not_mem _ _ (Cert.ReferenceIdeal.Hand.not_written (r := Cert.ReferenceIdeal.main_arg0) _ Cert.ReferenceIdeal.Hand.writes5 (by decide))).symm),
   (after_of_forall_not_mem _ _ (Cert.KernelIdeal.Hand.not_written (r := Cert.KernelIdeal.main_arg1) _ Cert.KernelIdeal.Hand.writes5 (by decide))).trans (ha.a1.trans (after_of_forall_not_mem _ _ (Cert.ReferenceIdeal.Hand.not_written (r := Cert.ReferenceIdeal.main_arg1) _ Cert.ReferenceIdeal.Hand.writes5 (by decide))).symm),
   (after_of_forall_not_mem _ _ (Cert.KernelIdeal.Hand.not_written (r := Cert.KernelIdeal.main_arg2) _ Cert.KernelIdeal.Hand.writes5 (by decide))).trans (ha.a2.trans (after_of_forall_not_mem _ _ (Cert.ReferenceIdeal.Hand.not_written (r := Cert.ReferenceIdeal.main_arg2) _ Cert.ReferenceIdeal.Hand.writes5 (by decide))).symm),
   (after_of_forall_not_mem _ _ (Cert.KernelIdeal.Hand.not_written (r := Cert.KernelIdeal.main_arg3) _ Cert.KernelIdeal.Hand.writes5 (by decide))).trans (ha.a3.trans (after_of_forall_not_mem _ _ (Cert.ReferenceIdeal.Hand.not_written (r := Cert.ReferenceIdeal.main_arg3) _ Cert.ReferenceIdeal.Hand.writes5 (by decide))).symm),
   (after_of_forall_not_mem _ _ (Cert.KernelIdeal.Hand.not_written (r := Cert.KernelIdeal.main_arg4) _ Cert.KernelIdeal.Hand.writes5 (by decide))).trans (ha.a4.trans (after_of_forall_not_mem _ _ (Cert.ReferenceIdeal.Hand.not_written (r := Cert.ReferenceIdeal.main_arg4) _ Cert.ReferenceIdeal.Hand.writes5 (by decide))).symm),
   (after_of_forall_not_mem _ _ (Cert.KernelIdeal.Hand.not_written (r := Cert.KernelIdeal.main_arg5) _ Cert.KernelIdeal.Hand.writes5 (by decide))).trans (ha.a5.trans (after_of_forall_not_mem _ _ (Cert.ReferenceIdeal.Hand.not_written (r := Cert.ReferenceIdeal.main_arg5) _ Cert.ReferenceIdeal.Hand.writes5 (by decide))).symm),
   (after_of_forall_not_mem _ _ (Cert.KernelIdeal.Hand.not_written (r := Cert.KernelIdeal.main_arg6) _ Cert.KernelIdeal.Hand.writes5 (by decide))).trans (ha.a6.trans (after_of_forall_not_mem _ _ (Cert.ReferenceIdeal.Hand.not_written (r := Cert.ReferenceIdeal.main_arg6) _ Cert.ReferenceIdeal.Hand.writes5 (by decide))).symm),
   (after_of_forall_not_mem _ _ (Cert.KernelIdeal.Hand.not_written (r := Cert.KernelIdeal.main_arg7) _ Cert.KernelIdeal.Hand.writes5 (by decide))).trans (ha.a7.trans (after_of_forall_not_mem _ _ (Cert.ReferenceIdeal.Hand.not_written (r := Cert.ReferenceIdeal.main_arg7) _ Cert.ReferenceIdeal.Hand.writes5 (by decide))).symm),
   (after_of_forall_not_mem _ _ (Cert.KernelIdeal.Hand.not_written (r := Cert.KernelIdeal.main_arg8) _ Cert.KernelIdeal.Hand.writes5 (by decide))).trans (ha.a8.trans (after_of_forall_not_mem _ _ (Cert.ReferenceIdeal.Hand.not_written (r := Cert.ReferenceIdeal.main_arg8) _ Cert.ReferenceIdeal.Hand.writes5 (by decide))).symm),
   (after_of_forall_not_mem _ _ (Cert.KernelIdeal.Hand.not_written (r := Cert.KernelIdeal.main_arg9) _ Cert.KernelIdeal.Hand.writes5 (by decide))).trans (ha.a9.trans (after_of_forall_not_mem _ _ (Cert.ReferenceIdeal.Hand.not_written (r := Cert.ReferenceIdeal.main_arg9) _ Cert.ReferenceIdeal.Hand.writes5 (by decide))).symm),
   (after_of_forall_not_mem _ _ (Cert.KernelIdeal.Hand.not_written (r := Cert.KernelIdeal.main_arg10) _ Cert.KernelIdeal.Hand.writes5 (by decide))).trans (ha.a10.trans (after_of_forall_not_mem _ _ (Cert.ReferenceIdeal.Hand.not_written (r := Cert.ReferenceIdeal.main_arg10) _ Cert.ReferenceIdeal.Hand.writes5 (by decide))).symm),
   (after_of_forall_not_mem _ _ (Cert.KernelIdeal.Hand.not_written (r := Cert.KernelIdeal.main_arg11) _ Cert.KernelIdeal.Hand.writes5 (by decide))).trans (ha.a11.trans (after_of_forall_not_mem _ _ (Cert.ReferenceIdeal.Hand.not_written (r := Cert.ReferenceIdeal.main_arg11) _ Cert.ReferenceIdeal.Hand.writes5 (by decide))).symm),
   (after_of_forall_not_mem _ _ (Cert.KernelIdeal.Hand.not_written (r := Cert.KernelIdeal.main_arg12) _ Cert.KernelIdeal.Hand.writes5 (by decide))).trans (ha.a12.trans (after_of_forall_not_mem _ _ (Cert.ReferenceIdeal.Hand.not_written (r := Cert.ReferenceIdeal.main_arg12) _ Cert.ReferenceIdeal.Hand.writes5 (by decide))).symm),
   (after_of_forall_not_mem _ _ (Cert.KernelIdeal.Hand.not_written (r := Cert.KernelIdeal.main_arg13) _ Cert.KernelIdeal.Hand.writes5 (by decide))).trans (ha.a13.trans (after_of_forall_not_mem _ _ (Cert.ReferenceIdeal.Hand.not_written (r := Cert.ReferenceIdeal.main_arg13) _ Cert.ReferenceIdeal.Hand.writes5 (by decide))).symm),
   (after_of_forall_not_mem _ _ (Cert.KernelIdeal.Hand.not_written (r := Cert.KernelIdeal.main_arg14) _ Cert.KernelIdeal.Hand.writes5 (by decide))).trans (ha.a14.trans (after_of_forall_not_mem _ _ (Cert.ReferenceIdeal.Hand.not_written (r := Cert.ReferenceIdeal.main_arg14) _ Cert.ReferenceIdeal.Hand.writes5 (by decide))).symm),
   (after_of_forall_not_mem _ _ (Cert.KernelIdeal.Hand.not_written (r := Cert.KernelIdeal.main_arg15) _ Cert.KernelIdeal.Hand.writes5 (by decide))).trans (ha.a15.trans (after_of_forall_not_mem _ _ (Cert.ReferenceIdeal.Hand.not_written (r := Cert.ReferenceIdeal.main_arg15) _ Cert.ReferenceIdeal.Hand.writes5 (by decide))).symm),
   (after_of_forall_not_mem _ _ (Cert.KernelIdeal.Hand.not_written (r := Cert.KernelIdeal.main_arg16) _ Cert.KernelIdeal.Hand.writes5 (by decide))).trans (ha.a16.trans (after_of_forall_not_mem _ _ (Cert.ReferenceIdeal.Hand.not_written (r := Cert.ReferenceIdeal.main_arg16) _ Cert.ReferenceIdeal.Hand.writes5 (by decide))).symm),
   (after_of_forall_not_mem _ _ (Cert.KernelIdeal.Hand.not_written (r := Cert.KernelIdeal.main_arg17) _ Cert.KernelIdeal.Hand.writes5 (by decide))).trans (ha.a17.trans (after_of_forall_not_mem _ _ (Cert.ReferenceIdeal.Hand.not_written (r := Cert.ReferenceIdeal.main_arg17) _ Cert.ReferenceIdeal.Hand.writes5 (by decide))).symm),
   (after_of_forall_not_mem _ _ (Cert.KernelIdeal.Hand.not_written (r := Cert.KernelIdeal.main_arg18) _ Cert.KernelIdeal.Hand.writes5 (by decide))).trans (ha.a18.trans (after_of_forall_not_mem _ _ (Cert.ReferenceIdeal.Hand.not_written (r := Cert.ReferenceIdeal.main_arg18) _ Cert.ReferenceIdeal.Hand.writes5 (by decide))).symm)⟩

set_option maxHeartbeats 4000000 in
theorem stage5 (WK : KVal F) (WR : RVal F) (h : Agree5 WK WR) :
    Agree6 (after (Cert.KernelIdeal.Gen.hostOps0_5 (F := F)) WK) (after (Cert.ReferenceIdeal.Hand.L5 (F := F)) WR) := by
  obtain ⟨ha, h_v86, h_v1, h_v3, h_v78⟩ := h
  refine ⟨argsStep5 WK WR ha, ?_, ?_, ?_, ?_⟩
  · exact (after_of_forall_not_mem _ _ (Cert.KernelIdeal.Hand.not_written (r := Cert.KernelIdeal.main_v1) _ Cert.KernelIdeal.Hand.writes5 (by decide))).trans (h_v1.trans (after_of_forall_not_mem _ _ (Cert.ReferenceIdeal.Hand.not_written (r := Cert.ReferenceIdeal.main_v1) _ Cert.ReferenceIdeal.Hand.writes5 (by decide))).symm)
  · show after (Cert.KernelIdeal.Gen.hostOps0_5 (F := F)) WK (Proc.devRef .tc Cert.KernelIdeal.main_v87) = after (Cert.ReferenceIdeal.Hand.L5 (F := F)) WR (Proc.devRef .tc Cert.ReferenceIdeal.main_v87)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v86, h_v1, h_v3, h_v78]
    try rfl
  · exact (after_of_forall_not_mem _ _ (Cert.KernelIdeal.Hand.not_written (r := Cert.KernelIdeal.main_v3) _ Cert.KernelIdeal.Hand.writes5 (by decide))).trans (h_v3.trans (after_of_forall_not_mem _ _ (Cert.ReferenceIdeal.Hand.not_written (r := Cert.ReferenceIdeal.main_v3) _ Cert.ReferenceIdeal.Hand.writes5 (by decide))).symm)
  · exact (after_of_forall_not_mem _ _ (Cert.KernelIdeal.Hand.not_written (r := Cert.KernelIdeal.main_v78) _ Cert.KernelIdeal.Hand.writes5 (by decide))).trans (h_v78.trans (after_of_forall_not_mem _ _ (Cert.ReferenceIdeal.Hand.not_written (r := Cert.ReferenceIdeal.main_v78) _ Cert.ReferenceIdeal.Hand.writes5 (by decide))).symm)

theorem argsStep7 (WK : KVal F) (WR : RVal F) (ha : AgreeArgs WK WR) :
    AgreeArgs (after (Cert.KernelIdeal.Gen.hostOps0_7 (F := F)) WK) (after (Cert.ReferenceIdeal.Hand.L7 (F := F)) WR) :=
  ⟨(after_of_forall_not_mem _ _ (Cert.KernelIdeal.Hand.not_written (r := Cert.KernelIdeal.main_arg0) _ Cert.KernelIdeal.Hand.writes7 (by decide))).trans (ha.a0.trans (after_of_forall_not_mem _ _ (Cert.ReferenceIdeal.Hand.not_written (r := Cert.ReferenceIdeal.main_arg0) _ Cert.ReferenceIdeal.Hand.writes7 (by decide))).symm),
   (after_of_forall_not_mem _ _ (Cert.KernelIdeal.Hand.not_written (r := Cert.KernelIdeal.main_arg1) _ Cert.KernelIdeal.Hand.writes7 (by decide))).trans (ha.a1.trans (after_of_forall_not_mem _ _ (Cert.ReferenceIdeal.Hand.not_written (r := Cert.ReferenceIdeal.main_arg1) _ Cert.ReferenceIdeal.Hand.writes7 (by decide))).symm),
   (after_of_forall_not_mem _ _ (Cert.KernelIdeal.Hand.not_written (r := Cert.KernelIdeal.main_arg2) _ Cert.KernelIdeal.Hand.writes7 (by decide))).trans (ha.a2.trans (after_of_forall_not_mem _ _ (Cert.ReferenceIdeal.Hand.not_written (r := Cert.ReferenceIdeal.main_arg2) _ Cert.ReferenceIdeal.Hand.writes7 (by decide))).symm),
   (after_of_forall_not_mem _ _ (Cert.KernelIdeal.Hand.not_written (r := Cert.KernelIdeal.main_arg3) _ Cert.KernelIdeal.Hand.writes7 (by decide))).trans (ha.a3.trans (after_of_forall_not_mem _ _ (Cert.ReferenceIdeal.Hand.not_written (r := Cert.ReferenceIdeal.main_arg3) _ Cert.ReferenceIdeal.Hand.writes7 (by decide))).symm),
   (after_of_forall_not_mem _ _ (Cert.KernelIdeal.Hand.not_written (r := Cert.KernelIdeal.main_arg4) _ Cert.KernelIdeal.Hand.writes7 (by decide))).trans (ha.a4.trans (after_of_forall_not_mem _ _ (Cert.ReferenceIdeal.Hand.not_written (r := Cert.ReferenceIdeal.main_arg4) _ Cert.ReferenceIdeal.Hand.writes7 (by decide))).symm),
   (after_of_forall_not_mem _ _ (Cert.KernelIdeal.Hand.not_written (r := Cert.KernelIdeal.main_arg5) _ Cert.KernelIdeal.Hand.writes7 (by decide))).trans (ha.a5.trans (after_of_forall_not_mem _ _ (Cert.ReferenceIdeal.Hand.not_written (r := Cert.ReferenceIdeal.main_arg5) _ Cert.ReferenceIdeal.Hand.writes7 (by decide))).symm),
   (after_of_forall_not_mem _ _ (Cert.KernelIdeal.Hand.not_written (r := Cert.KernelIdeal.main_arg6) _ Cert.KernelIdeal.Hand.writes7 (by decide))).trans (ha.a6.trans (after_of_forall_not_mem _ _ (Cert.ReferenceIdeal.Hand.not_written (r := Cert.ReferenceIdeal.main_arg6) _ Cert.ReferenceIdeal.Hand.writes7 (by decide))).symm),
   (after_of_forall_not_mem _ _ (Cert.KernelIdeal.Hand.not_written (r := Cert.KernelIdeal.main_arg7) _ Cert.KernelIdeal.Hand.writes7 (by decide))).trans (ha.a7.trans (after_of_forall_not_mem _ _ (Cert.ReferenceIdeal.Hand.not_written (r := Cert.ReferenceIdeal.main_arg7) _ Cert.ReferenceIdeal.Hand.writes7 (by decide))).symm),
   (after_of_forall_not_mem _ _ (Cert.KernelIdeal.Hand.not_written (r := Cert.KernelIdeal.main_arg8) _ Cert.KernelIdeal.Hand.writes7 (by decide))).trans (ha.a8.trans (after_of_forall_not_mem _ _ (Cert.ReferenceIdeal.Hand.not_written (r := Cert.ReferenceIdeal.main_arg8) _ Cert.ReferenceIdeal.Hand.writes7 (by decide))).symm),
   (after_of_forall_not_mem _ _ (Cert.KernelIdeal.Hand.not_written (r := Cert.KernelIdeal.main_arg9) _ Cert.KernelIdeal.Hand.writes7 (by decide))).trans (ha.a9.trans (after_of_forall_not_mem _ _ (Cert.ReferenceIdeal.Hand.not_written (r := Cert.ReferenceIdeal.main_arg9) _ Cert.ReferenceIdeal.Hand.writes7 (by decide))).symm),
   (after_of_forall_not_mem _ _ (Cert.KernelIdeal.Hand.not_written (r := Cert.KernelIdeal.main_arg10) _ Cert.KernelIdeal.Hand.writes7 (by decide))).trans (ha.a10.trans (after_of_forall_not_mem _ _ (Cert.ReferenceIdeal.Hand.not_written (r := Cert.ReferenceIdeal.main_arg10) _ Cert.ReferenceIdeal.Hand.writes7 (by decide))).symm),
   (after_of_forall_not_mem _ _ (Cert.KernelIdeal.Hand.not_written (r := Cert.KernelIdeal.main_arg11) _ Cert.KernelIdeal.Hand.writes7 (by decide))).trans (ha.a11.trans (after_of_forall_not_mem _ _ (Cert.ReferenceIdeal.Hand.not_written (r := Cert.ReferenceIdeal.main_arg11) _ Cert.ReferenceIdeal.Hand.writes7 (by decide))).symm),
   (after_of_forall_not_mem _ _ (Cert.KernelIdeal.Hand.not_written (r := Cert.KernelIdeal.main_arg12) _ Cert.KernelIdeal.Hand.writes7 (by decide))).trans (ha.a12.trans (after_of_forall_not_mem _ _ (Cert.ReferenceIdeal.Hand.not_written (r := Cert.ReferenceIdeal.main_arg12) _ Cert.ReferenceIdeal.Hand.writes7 (by decide))).symm),
   (after_of_forall_not_mem _ _ (Cert.KernelIdeal.Hand.not_written (r := Cert.KernelIdeal.main_arg13) _ Cert.KernelIdeal.Hand.writes7 (by decide))).trans (ha.a13.trans (after_of_forall_not_mem _ _ (Cert.ReferenceIdeal.Hand.not_written (r := Cert.ReferenceIdeal.main_arg13) _ Cert.ReferenceIdeal.Hand.writes7 (by decide))).symm),
   (after_of_forall_not_mem _ _ (Cert.KernelIdeal.Hand.not_written (r := Cert.KernelIdeal.main_arg14) _ Cert.KernelIdeal.Hand.writes7 (by decide))).trans (ha.a14.trans (after_of_forall_not_mem _ _ (Cert.ReferenceIdeal.Hand.not_written (r := Cert.ReferenceIdeal.main_arg14) _ Cert.ReferenceIdeal.Hand.writes7 (by decide))).symm),
   (after_of_forall_not_mem _ _ (Cert.KernelIdeal.Hand.not_written (r := Cert.KernelIdeal.main_arg15) _ Cert.KernelIdeal.Hand.writes7 (by decide))).trans (ha.a15.trans (after_of_forall_not_mem _ _ (Cert.ReferenceIdeal.Hand.not_written (r := Cert.ReferenceIdeal.main_arg15) _ Cert.ReferenceIdeal.Hand.writes7 (by decide))).symm),
   (after_of_forall_not_mem _ _ (Cert.KernelIdeal.Hand.not_written (r := Cert.KernelIdeal.main_arg16) _ Cert.KernelIdeal.Hand.writes7 (by decide))).trans (ha.a16.trans (after_of_forall_not_mem _ _ (Cert.ReferenceIdeal.Hand.not_written (r := Cert.ReferenceIdeal.main_arg16) _ Cert.ReferenceIdeal.Hand.writes7 (by decide))).symm),
   (after_of_forall_not_mem _ _ (Cert.KernelIdeal.Hand.not_written (r := Cert.KernelIdeal.main_arg17) _ Cert.KernelIdeal.Hand.writes7 (by decide))).trans (ha.a17.trans (after_of_forall_not_mem _ _ (Cert.ReferenceIdeal.Hand.not_written (r := Cert.ReferenceIdeal.main_arg17) _ Cert.ReferenceIdeal.Hand.writes7 (by decide))).symm),
   (after_of_forall_not_mem _ _ (Cert.KernelIdeal.Hand.not_written (r := Cert.KernelIdeal.main_arg18) _ Cert.KernelIdeal.Hand.writes7 (by decide))).trans (ha.a18.trans (after_of_forall_not_mem _ _ (Cert.ReferenceIdeal.Hand.not_written (r := Cert.ReferenceIdeal.main_arg18) _ Cert.ReferenceIdeal.Hand.writes7 (by decide))).symm)⟩

set_option maxHeartbeats 4000000 in
theorem stage7 (WK : KVal F) (WR : RVal F) (h : Agree7 WK WR) :
    Agree8 (after (Cert.KernelIdeal.Gen.hostOps0_7 (F := F)) WK) (after (Cert.ReferenceIdeal.Hand.L7 (F := F)) WR) := by
  obtain ⟨ha, h_v150, h_v1, h_v3, h_v142⟩ := h
  refine ⟨argsStep7 WK WR ha, ?_, ?_, ?_, ?_⟩
  · exact (after_of_forall_not_mem _ _ (Cert.KernelIdeal.Hand.not_written (r := Cert.KernelIdeal.main_v1) _ Cert.KernelIdeal.Hand.writes7 (by decide))).trans (h_v1.trans (after_of_forall_not_mem _ _ (Cert.ReferenceIdeal.Hand.not_written (r := Cert.ReferenceIdeal.main_v1) _ Cert.ReferenceIdeal.Hand.writes7 (by decide))).symm)
  · show after (Cert.KernelIdeal.Gen.hostOps0_7 (F := F)) WK (Proc.devRef .tc Cert.KernelIdeal.main_v151) = after (Cert.ReferenceIdeal.Hand.L7 (F := F)) WR (Proc.devRef .tc Cert.ReferenceIdeal.main_v151)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v150, h_v1, h_v3, h_v142]
    try rfl
  · exact (after_of_forall_not_mem _ _ (Cert.KernelIdeal.Hand.not_written (r := Cert.KernelIdeal.main_v3) _ Cert.KernelIdeal.Hand.writes7 (by decide))).trans (h_v3.trans (after_of_forall_not_mem _ _ (Cert.ReferenceIdeal.Hand.not_written (r := Cert.ReferenceIdeal.main_v3) _ Cert.ReferenceIdeal.Hand.writes7 (by decide))).symm)
  · exact (after_of_forall_not_mem _ _ (Cert.KernelIdeal.Hand.not_written (r := Cert.KernelIdeal.main_v142) _ Cert.KernelIdeal.Hand.writes7 (by decide))).trans (h_v142.trans (after_of_forall_not_mem _ _ (Cert.ReferenceIdeal.Hand.not_written (r := Cert.ReferenceIdeal.main_v142) _ Cert.ReferenceIdeal.Hand.writes7 (by decide))).symm)

theorem argsStep9 (WK : KVal F) (WR : RVal F) (ha : AgreeArgs WK WR) :
    AgreeArgs (after (Cert.KernelIdeal.Gen.hostOps0_9 (F := F)) WK) (after (Cert.ReferenceIdeal.Hand.L9 (F := F)) WR) :=
  ⟨(after_of_forall_not_mem _ _ (Cert.KernelIdeal.Hand.not_written (r := Cert.KernelIdeal.main_arg0) _ Cert.KernelIdeal.Hand.writes9 (by decide))).trans (ha.a0.trans (after_of_forall_not_mem _ _ (Cert.ReferenceIdeal.Hand.not_written (r := Cert.ReferenceIdeal.main_arg0) _ Cert.ReferenceIdeal.Hand.writes9 (by decide))).symm),
   (after_of_forall_not_mem _ _ (Cert.KernelIdeal.Hand.not_written (r := Cert.KernelIdeal.main_arg1) _ Cert.KernelIdeal.Hand.writes9 (by decide))).trans (ha.a1.trans (after_of_forall_not_mem _ _ (Cert.ReferenceIdeal.Hand.not_written (r := Cert.ReferenceIdeal.main_arg1) _ Cert.ReferenceIdeal.Hand.writes9 (by decide))).symm),
   (after_of_forall_not_mem _ _ (Cert.KernelIdeal.Hand.not_written (r := Cert.KernelIdeal.main_arg2) _ Cert.KernelIdeal.Hand.writes9 (by decide))).trans (ha.a2.trans (after_of_forall_not_mem _ _ (Cert.ReferenceIdeal.Hand.not_written (r := Cert.ReferenceIdeal.main_arg2) _ Cert.ReferenceIdeal.Hand.writes9 (by decide))).symm),
   (after_of_forall_not_mem _ _ (Cert.KernelIdeal.Hand.not_written (r := Cert.KernelIdeal.main_arg3) _ Cert.KernelIdeal.Hand.writes9 (by decide))).trans (ha.a3.trans (after_of_forall_not_mem _ _ (Cert.ReferenceIdeal.Hand.not_written (r := Cert.ReferenceIdeal.main_arg3) _ Cert.ReferenceIdeal.Hand.writes9 (by decide))).symm),
   (after_of_forall_not_mem _ _ (Cert.KernelIdeal.Hand.not_written (r := Cert.KernelIdeal.main_arg4) _ Cert.KernelIdeal.Hand.writes9 (by decide))).trans (ha.a4.trans (after_of_forall_not_mem _ _ (Cert.ReferenceIdeal.Hand.not_written (r := Cert.ReferenceIdeal.main_arg4) _ Cert.ReferenceIdeal.Hand.writes9 (by decide))).symm),
   (after_of_forall_not_mem _ _ (Cert.KernelIdeal.Hand.not_written (r := Cert.KernelIdeal.main_arg5) _ Cert.KernelIdeal.Hand.writes9 (by decide))).trans (ha.a5.trans (after_of_forall_not_mem _ _ (Cert.ReferenceIdeal.Hand.not_written (r := Cert.ReferenceIdeal.main_arg5) _ Cert.ReferenceIdeal.Hand.writes9 (by decide))).symm),
   (after_of_forall_not_mem _ _ (Cert.KernelIdeal.Hand.not_written (r := Cert.KernelIdeal.main_arg6) _ Cert.KernelIdeal.Hand.writes9 (by decide))).trans (ha.a6.trans (after_of_forall_not_mem _ _ (Cert.ReferenceIdeal.Hand.not_written (r := Cert.ReferenceIdeal.main_arg6) _ Cert.ReferenceIdeal.Hand.writes9 (by decide))).symm),
   (after_of_forall_not_mem _ _ (Cert.KernelIdeal.Hand.not_written (r := Cert.KernelIdeal.main_arg7) _ Cert.KernelIdeal.Hand.writes9 (by decide))).trans (ha.a7.trans (after_of_forall_not_mem _ _ (Cert.ReferenceIdeal.Hand.not_written (r := Cert.ReferenceIdeal.main_arg7) _ Cert.ReferenceIdeal.Hand.writes9 (by decide))).symm),
   (after_of_forall_not_mem _ _ (Cert.KernelIdeal.Hand.not_written (r := Cert.KernelIdeal.main_arg8) _ Cert.KernelIdeal.Hand.writes9 (by decide))).trans (ha.a8.trans (after_of_forall_not_mem _ _ (Cert.ReferenceIdeal.Hand.not_written (r := Cert.ReferenceIdeal.main_arg8) _ Cert.ReferenceIdeal.Hand.writes9 (by decide))).symm),
   (after_of_forall_not_mem _ _ (Cert.KernelIdeal.Hand.not_written (r := Cert.KernelIdeal.main_arg9) _ Cert.KernelIdeal.Hand.writes9 (by decide))).trans (ha.a9.trans (after_of_forall_not_mem _ _ (Cert.ReferenceIdeal.Hand.not_written (r := Cert.ReferenceIdeal.main_arg9) _ Cert.ReferenceIdeal.Hand.writes9 (by decide))).symm),
   (after_of_forall_not_mem _ _ (Cert.KernelIdeal.Hand.not_written (r := Cert.KernelIdeal.main_arg10) _ Cert.KernelIdeal.Hand.writes9 (by decide))).trans (ha.a10.trans (after_of_forall_not_mem _ _ (Cert.ReferenceIdeal.Hand.not_written (r := Cert.ReferenceIdeal.main_arg10) _ Cert.ReferenceIdeal.Hand.writes9 (by decide))).symm),
   (after_of_forall_not_mem _ _ (Cert.KernelIdeal.Hand.not_written (r := Cert.KernelIdeal.main_arg11) _ Cert.KernelIdeal.Hand.writes9 (by decide))).trans (ha.a11.trans (after_of_forall_not_mem _ _ (Cert.ReferenceIdeal.Hand.not_written (r := Cert.ReferenceIdeal.main_arg11) _ Cert.ReferenceIdeal.Hand.writes9 (by decide))).symm),
   (after_of_forall_not_mem _ _ (Cert.KernelIdeal.Hand.not_written (r := Cert.KernelIdeal.main_arg12) _ Cert.KernelIdeal.Hand.writes9 (by decide))).trans (ha.a12.trans (after_of_forall_not_mem _ _ (Cert.ReferenceIdeal.Hand.not_written (r := Cert.ReferenceIdeal.main_arg12) _ Cert.ReferenceIdeal.Hand.writes9 (by decide))).symm),
   (after_of_forall_not_mem _ _ (Cert.KernelIdeal.Hand.not_written (r := Cert.KernelIdeal.main_arg13) _ Cert.KernelIdeal.Hand.writes9 (by decide))).trans (ha.a13.trans (after_of_forall_not_mem _ _ (Cert.ReferenceIdeal.Hand.not_written (r := Cert.ReferenceIdeal.main_arg13) _ Cert.ReferenceIdeal.Hand.writes9 (by decide))).symm),
   (after_of_forall_not_mem _ _ (Cert.KernelIdeal.Hand.not_written (r := Cert.KernelIdeal.main_arg14) _ Cert.KernelIdeal.Hand.writes9 (by decide))).trans (ha.a14.trans (after_of_forall_not_mem _ _ (Cert.ReferenceIdeal.Hand.not_written (r := Cert.ReferenceIdeal.main_arg14) _ Cert.ReferenceIdeal.Hand.writes9 (by decide))).symm),
   (after_of_forall_not_mem _ _ (Cert.KernelIdeal.Hand.not_written (r := Cert.KernelIdeal.main_arg15) _ Cert.KernelIdeal.Hand.writes9 (by decide))).trans (ha.a15.trans (after_of_forall_not_mem _ _ (Cert.ReferenceIdeal.Hand.not_written (r := Cert.ReferenceIdeal.main_arg15) _ Cert.ReferenceIdeal.Hand.writes9 (by decide))).symm),
   (after_of_forall_not_mem _ _ (Cert.KernelIdeal.Hand.not_written (r := Cert.KernelIdeal.main_arg16) _ Cert.KernelIdeal.Hand.writes9 (by decide))).trans (ha.a16.trans (after_of_forall_not_mem _ _ (Cert.ReferenceIdeal.Hand.not_written (r := Cert.ReferenceIdeal.main_arg16) _ Cert.ReferenceIdeal.Hand.writes9 (by decide))).symm),
   (after_of_forall_not_mem _ _ (Cert.KernelIdeal.Hand.not_written (r := Cert.KernelIdeal.main_arg17) _ Cert.KernelIdeal.Hand.writes9 (by decide))).trans (ha.a17.trans (after_of_forall_not_mem _ _ (Cert.ReferenceIdeal.Hand.not_written (r := Cert.ReferenceIdeal.main_arg17) _ Cert.ReferenceIdeal.Hand.writes9 (by decide))).symm),
   (after_of_forall_not_mem _ _ (Cert.KernelIdeal.Hand.not_written (r := Cert.KernelIdeal.main_arg18) _ Cert.KernelIdeal.Hand.writes9 (by decide))).trans (ha.a18.trans (after_of_forall_not_mem _ _ (Cert.ReferenceIdeal.Hand.not_written (r := Cert.ReferenceIdeal.main_arg18) _ Cert.ReferenceIdeal.Hand.writes9 (by decide))).symm)⟩

set_option maxHeartbeats 4000000 in
theorem stage9 (WK : KVal F) (WR : RVal F) (h : Agree9 WK WR) :
    Agree10 (after (Cert.KernelIdeal.Gen.hostOps0_9 (F := F)) WK) (after (Cert.ReferenceIdeal.Hand.L9 (F := F)) WR) := by
  obtain ⟨ha, h_v214, h_v1, h_v3, h_v206⟩ := h
  refine ⟨argsStep9 WK WR ha, ?_, ?_, ?_, ?_⟩
  · exact (after_of_forall_not_mem _ _ (Cert.KernelIdeal.Hand.not_written (r := Cert.KernelIdeal.main_v1) _ Cert.KernelIdeal.Hand.writes9 (by decide))).trans (h_v1.trans (after_of_forall_not_mem _ _ (Cert.ReferenceIdeal.Hand.not_written (r := Cert.ReferenceIdeal.main_v1) _ Cert.ReferenceIdeal.Hand.writes9 (by decide))).symm)
  · show after (Cert.KernelIdeal.Gen.hostOps0_9 (F := F)) WK (Proc.devRef .tc Cert.KernelIdeal.main_v215) = after (Cert.ReferenceIdeal.Hand.L9 (F := F)) WR (Proc.devRef .tc Cert.ReferenceIdeal.main_v215)
    after_results_simp
    simp only [ha.a0, ha.a1, ha.a2, ha.a3, ha.a4, ha.a5, ha.a6, ha.a7, ha.a8, ha.a9, ha.a10, ha.a11, ha.a12, ha.a13, ha.a14, ha.a15, ha.a16, ha.a17, ha.a18, h_v214, h_v1, h_v3, h_v206]
    try rfl
  · exact (after_of_forall_not_mem _ _ (Cert.KernelIdeal.Hand.not_written (r := Cert.KernelIdeal.main_v3) _ Cert.KernelIdeal.Hand.writes9 (by decide))).trans (h_v3.trans (after_of_forall_not_mem _ _ (Cert.ReferenceIdeal.Hand.not_written (r := Cert.ReferenceIdeal.main_v3) _ Cert.ReferenceIdeal.Hand.writes9 (by decide))).symm)
  · exact (after_of_forall_not_mem _ _ (Cert.KernelIdeal.Hand.not_written (r := Cert.KernelIdeal.main_v206) _ Cert.KernelIdeal.Hand.writes9 (by decide))).trans (h_v206.trans (after_of_forall_not_mem _ _ (Cert.ReferenceIdeal.Hand.not_written (r := Cert.ReferenceIdeal.main_v206) _ Cert.ReferenceIdeal.Hand.writes9 (by decide))).symm)

/-- Over the whole line: from agreement on the arguments to agreement on the embeddings and the two heads. -/
theorem line (WK : KVal F) (WR : RVal F) (h : AgreeArgs WK WR) :
    Agree11 (after (List.flatten (Cert.KernelIdeal.Hand.hostLine (F := F))) WK) (after (List.flatten (Cert.ReferenceIdeal.Hand.hostLine (F := F))) WR) := by
  simp only [Cert.KernelIdeal.Hand.hostLine, Cert.ReferenceIdeal.Hand.hostLine, List.flatten_cons, List.flatten_nil, List.append_nil, Cert.ReferenceIdeal.Hand.after_app]
  exact stage10 _ _ (stage9 _ _ (stage8 _ _ (stage7 _ _ (stage6 _ _ (stage5 _ _ (stage4 _ _ (stage3 _ _ (stage2 _ _ (stage1 _ _ (stage0 _ _ (h)))))))))))

end Cert.Bridge

end
-- ==== Proof.lean ====
/-
  The certificate of the dense graph decoder.  Both programs first run one and the same line of host operations — a
  dropout mask, an input layer, four rounds of message passing with gated updates, and two linear heads — ending in the
  node embeddings z (8192 × 5), the mean and the log-variance.  The kernel program then forms sigmoid (z zᵀ) in a
  pipelined region, sixteen 2048 × 2048 tiles, each the logistic function of a row tile of z times the transpose of
  another; the reference forms z zᵀ whole on the host and spells the logistic function as 1 / (1 + exp (−x)).

  * The three frames: each program terminates and writes no argument array.  For the kernel programs the region's two
    input windows read one array, whose buffer is dealt between them as two half shares.
  * The idealization rewrote nothing, so it preserves the program trivially.
  * On the extended reals the two programs' results are equal: the host lines agree stretch by stretch, being the
    same operations of values that agree; the decoder's array is, entry (r, s), the logistic function of the inner
    product of rows r and s of z on both sides — on the kernel's side because the sixteen tiles cover the array and
    tile (i, j) reads rows 2048 i + p and 2048 j + q, on the reference's because `tpu.logistic` and the expansion
    negate / exponential / add one / reciprocal are one function of an extended real.
-/
import proofs.«112254_j79388175499762_1_alg».proof.Defs
import proofs.«112254_j79388175499762_1_alg».proof.Proof.Gen.Kernel
import proofs.«112254_j79388175499762_1_alg».proof.Proof.Gen.KernelIdeal
import proofs.«112254_j79388175499762_1_alg».proof.Proof.Gen.ReferenceIdeal
import proofs.«112254_j79388175499762_1_alg».proof.Proof.Gen.Pre_finite_inputs
import proofs.«112254_j79388175499762_1_alg».proof.Proof.KernelRun
import proofs.«112254_j79388175499762_1_alg».proof.Proof.KernelValue
import proofs.«112254_j79388175499762_1_alg».proof.Proof.RefValue
import proofs.«112254_j79388175499762_1_alg».proof.Proof.RefRun
import proofs.«112254_j79388175499762_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel :=
  fun m ρ _ => Cert.Kernel.Hand.frame m ρ

theorem frame_ki : Cert.frame_KernelIdeal :=
  fun m ρ _ => Cert.KernelIdeal.Hand.frame m ρ

theorem frame_ri : Cert.frame_ReferenceIdeal :=
  fun m ρ _ => Cert.ReferenceIdeal.Hand.frame m ρ

/-- Both programs end with equal results: the embeddings and the two heads as the common host line leaves them, the
    decoder's array the decoder of the embeddings. -/
theorem algebraic [Cert.KernelIdeal.Facts] :
    Cert.algebraic_KernelIdeal_ReferenceIdeal := by
  intro m ρ m' ρ' _ hagree
  refine ⟨fun c => Cert.KernelIdeal.Hand.V m c Cert.KernelIdeal.main_v283,
    fun c => Cert.Decoder.G (N := 8192) (K := 5) (Cert.KernelIdeal.Hand.V m c Cert.KernelIdeal.main_v283),
    fun c => Cert.KernelIdeal.Hand.V m c Cert.KernelIdeal.main_v274,
    fun c => Cert.KernelIdeal.Hand.V m c Cert.KernelIdeal.main_v278,
    Cert.KernelIdeal.Hand.run m ρ, ?_⟩
  refine (θ_run Cert.ReferenceIdeal.defs _ _).mono (fun r h c => ?_) (Cert.ReferenceIdeal.Hand.run (F := Ideal) m' ρ')
  obtain ⟨g0, g1, g2, g3, g4, g5, g6, g7, g8, g9, g10, g11, g12, g13, g14, g15, g16, g17, g18⟩ := hagree c
  have hargs : Cert.Bridge.AgreeArgs (F := Ideal) (fun b => m (c, b)) (launchContents m' c) :=
    ⟨g0.symm, g1.symm, g2.symm, g3.symm, g4.symm, g5.symm, g6.symm, g7.symm, g8.symm, g9.symm, g10.symm, g11.symm, g12.symm, g13.symm, g14.symm, g15.symm, g16.symm, g17.symm, g18.symm⟩
  obtain ⟨-, e283, e274, e278⟩ := Cert.Bridge.line (F := Ideal) _ _ hargs
  exact ⟨(h c Cert.ReferenceIdeal.main_v283).trans ((Cert.ReferenceIdeal.Hand.head_eq _ _ (by decide)).trans e283.symm),
    (h c Cert.ReferenceIdeal.main_v291).trans ((Cert.ReferenceIdeal.Hand.decoder_eq _).trans (congrArg (Cert.Decoder.G (N := 8192) (K := 5)) e283.symm)),
    (h c Cert.ReferenceIdeal.main_v274).trans ((Cert.ReferenceIdeal.Hand.head_eq _ _ (by decide)).trans e274.symm),
    (h c Cert.ReferenceIdeal.main_v278).trans ((Cert.ReferenceIdeal.Hand.head_eq _ _ (by decide)).trans e278.symm),
    (h c Cert.ReferenceIdeal.main_arg0).trans (Cert.ReferenceIdeal.Hand.kept _ Cert.ReferenceIdeal.main_arg0 (by decide) (by decide) (by decide) (by decide) (by decide) (by decide) (by decide) (by decide) (by decide) (by decide) (by decide) (by decide)),
    (h c Cert.ReferenceIdeal.main_arg1).trans (Cert.ReferenceIdeal.Hand.kept _ Cert.ReferenceIdeal.main_arg1 (by decide) (by decide) (by decide) (by decide) (by decide) (by decide) (by decide) (by decide) (by decide) (by decide) (by decide) (by decide)),
    (h c Cert.ReferenceIdeal.main_arg2).trans (Cert.ReferenceIdeal.Hand.kept _ Cert.ReferenceIdeal.main_arg2 (by decide) (by decide) (by decide) (by decide) (by decide) (by decide) (by decide) (by decide) (by decide) (by decide) (by decide) (by decide)),
    (h c Cert.ReferenceIdeal.main_arg3).trans (Cert.ReferenceIdeal.Hand.kept _ Cert.ReferenceIdeal.main_arg3 (by decide) (by decide) (by decide) (by decide) (by decide) (by decide) (by decide) (by decide) (by decide) (by decide) (by decide) (by decide)),
    (h c Cert.ReferenceIdeal.main_arg4).trans (Cert.ReferenceIdeal.Hand.kept _ Cert.ReferenceIdeal.main_arg4 (by decide) (by decide) (by decide) (by decide) (by decide) (by decide) (by decide) (by decide) (by decide) (by decide) (by decide) (by decide)),
    (h c Cert.ReferenceIdeal.main_arg5).trans (Cert.ReferenceIdeal.Hand.kept _ Cert.ReferenceIdeal.main_arg5 (by decide) (by decide) (by decide) (by decide) (by decide) (by decide) (by decide) (by decide) (by decide) (by decide) (by decide) (by decide)),
    (h c Cert.ReferenceIdeal.main_arg6).trans (Cert.ReferenceIdeal.Hand.kept _ Cert.ReferenceIdeal.main_arg6 (by decide) (by decide) (by decide) (by decide) (by decide) (by decide) (by decide) (by decide) (by decide) (by decide) (by decide) (by decide)),
    (h c Cert.ReferenceIdeal.main_arg7).trans (Cert.ReferenceIdeal.Hand.kept _ Cert.ReferenceIdeal.main_arg7 (by decide) (by decide) (by decide) (by decide) (by decide) (by decide) (by decide) (by decide) (by decide) (by decide) (by decide) (by decide)),
    (h c Cert.ReferenceIdeal.main_arg8).trans (Cert.ReferenceIdeal.Hand.kept _ Cert.ReferenceIdeal.main_arg8 (by decide) (by decide) (by decide) (by decide) (by decide) (by decide) (by decide) (by decide) (by decide) (by decide) (by decide) (by decide)),
    (h c Cert.ReferenceIdeal.main_arg9).trans (Cert.ReferenceIdeal.Hand.kept _ Cert.ReferenceIdeal.main_arg9 (by decide) (by decide) (by decide) (by decide) (by decide) (by decide) (by decide) (by decide) (by decide) (by decide) (by decide) (by decide)),
    (h c Cert.ReferenceIdeal.main_arg10).trans (Cert.ReferenceIdeal.Hand.kept _ Cert.ReferenceIdeal.main_arg10 (by decide) (by decide) (by decide) (by decide) (by decide) (by decide) (by decide) (by decide) (by decide) (by decide) (by decide) (by decide)),
    (h c Cert.ReferenceIdeal.main_arg11).trans (Cert.ReferenceIdeal.Hand.kept _ Cert.ReferenceIdeal.main_arg11 (by decide) (by decide) (by decide) (by decide) (by decide) (by decide) (by decide) (by decide) (by decide) (by decide) (by decide) (by decide)),
    (h c Cert.ReferenceIdeal.main_arg12).trans (Cert.ReferenceIdeal.Hand.kept _ Cert.ReferenceIdeal.main_arg12 (by decide) (by decide) (by decide) (by decide) (by decide) (by decide) (by decide) (by decide) (by decide) (by decide) (by decide) (by decide)),
    (h c Cert.ReferenceIdeal.main_arg13).trans (Cert.ReferenceIdeal.Hand.kept _ Cert.ReferenceIdeal.main_arg13 (by decide) (by decide) (by decide) (by decide) (by decide) (by decide) (by decide) (by decide) (by decide) (by decide) (by decide) (by decide)),
    (h c Cert.ReferenceIdeal.main_arg14).trans (Cert.ReferenceIdeal.Hand.kept _ Cert.ReferenceIdeal.main_arg14 (by decide) (by decide) (by decide) (by decide) (by decide) (by decide) (by decide) (by decide) (by decide) (by decide) (by decide) (by decide)),
    (h c Cert.ReferenceIdeal.main_arg15).trans (Cert.ReferenceIdeal.Hand.kept _ Cert.ReferenceIdeal.main_arg15 (by decide) (by decide) (by decide) (by decide) (by decide) (by decide) (by decide) (by decide) (by decide) (by decide) (by decide) (by decide)),
    (h c Cert.ReferenceIdeal.main_arg16).trans (Cert.ReferenceIdeal.Hand.kept _ Cert.ReferenceIdeal.main_arg16 (by decide) (by decide) (by decide) (by decide) (by decide) (by decide) (by decide) (by decide) (by decide) (by decide) (by decide) (by decide)),
    (h c Cert.ReferenceIdeal.main_arg17).trans (Cert.ReferenceIdeal.Hand.kept _ Cert.ReferenceIdeal.main_arg17 (by decide) (by decide) (by decide) (by decide) (by decide) (by decide) (by decide) (by decide) (by decide) (by decide) (by decide) (by decide)),
    (h c Cert.ReferenceIdeal.main_arg18).trans (Cert.ReferenceIdeal.Hand.kept _ Cert.ReferenceIdeal.main_arg18 (by decide) (by decide) (by decide) (by decide) (by decide) (by decide) (by decide) (by decide) (by decide) (by decide) (by decide) (by decide))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
